-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S64x1024 : Shape := ⟨2, ![64, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S64x1024 : S_.BroadcastsInDim S64x1024 (![] : Fin 0 → Fin S64x1024.rank)
  reducesTo_S64x1024_S_d0_1 : S64x1024.ReducesTo [0, 1] S_

variable [Facts]

def fn_part1 {F : FTy → Type} [FloatOps F] (main_v13 : IVec S_ 1) (main_v16 : IVec S64x1024 1) : IVec S_ 1 :=
  let main_c_5 : IVec S_ 1 := constantI S_ 1 1#1
  let main_v17 : IVec S_ 1 := (fun x v => Host.reduce IntOp.andi x v reducesTo_S64x1024_S_d0_1 h_S_) main_v16 main_c_5
  let main_v18 : IVec S_ 1 := andi main_v13 main_v17
  main_v18

def fn {F : FTy → Type} [FloatOps F] (main_arg0 : FVec F S4x4096x1024 .f32) (main_arg1 : FVec F S64x1024 .f32) (main_arg2 : FVec F S64x1024 .f32) (main_arg3 : FVec F S64x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S64x1024 .f32 := Host.absf main_arg2
  let main_cst_2 : FVec F S_ .f32 := constant S_ .f32 0x7F800000#32
  let main_v10 : FVec F S64x1024 .f32 := broadcastInDim S64x1024 ![] bcast_S_S64x1024 main_cst_2
  let main_v11 : IVec S64x1024 1 := cmpf .olt main_v9 main_v10
  let main_c_3 : IVec S_ 1 := constantI S_ 1 1#1
  let main_v12 : IVec S_ 1 := (fun x v => Host.reduce IntOp.andi x v reducesTo_S64x1024_S_d0_1 h_S_) main_v11 main_c_3
  let main_v13 : IVec S_ 1 := andi main_v8 main_v12
  let main_v14 : FVec F S64x1024 .f32 := Host.absf main_arg3
  let main_cst_4 : FVec F S_ .f32 := constant S_ .f32 0x7F800000#32
  let main_v15 : FVec F S64x1024 .f32 := broadcastInDim S64x1024 ![] bcast_S_S64x1024 main_cst_4
  let main_v16 : IVec S64x1024 1 := cmpf .olt main_v14 main_v15
  fn_part1 (F := F) main_v13 main_v16
-- ==== Kernel.lean ====
abbrev S4x4096x1024 : Shape := ⟨3, ![4, 4096, 1024]⟩
abbrev S64x1024 : Shape := ⟨2, ![64, 1024]⟩
abbrev S_ : Shape := ⟨0, ![]⟩
abbrev S4x4096x64 : Shape := ⟨3, ![4, 4096, 64]⟩
abbrev S1x1024x1024 : Shape := ⟨3, ![1, 1024, 1024]⟩
abbrev S1x1024x64 : Shape := ⟨3, ![1, 1024, 64]⟩
abbrev S1024x1024 : Shape := ⟨2, ![1024, 1024]⟩
abbrev S1024x64 : Shape := ⟨2, ![1024, 64]⟩
abbrev S1x1024x1 : Shape := ⟨3, ![1, 1024, 1]⟩
abbrev S1x1024 : Shape := ⟨2, ![1, 1024]⟩

abbrev nBuf : Space → Nat
  | .hbm => 11
  | .vmem => 22
  | .smem => 0
  | _ => 0

abbrev bufTy : (tb : Table) → Fin (tcTables nBuf tb) → BufTy
  | .hbm, ⟨0, _⟩ => ⟨S4x4096x1024, .f32⟩
  | .hbm, ⟨1, _⟩ => ⟨S64x1024, .f32⟩
  | .hbm, ⟨2, _⟩ => ⟨S64x1024, .f32⟩
  | .hbm, ⟨3, _⟩ => ⟨S64x1024, .f32⟩
  | .hbm, ⟨4, _⟩ => ⟨S_, .f32⟩
  | .hbm, ⟨5, _⟩ => ⟨S64x1024, .f32⟩
  | .hbm, ⟨6, _⟩ => ⟨S64x1024, .f32⟩
  | .hbm, ⟨7, _⟩ => ⟨S4x4096x64, .bf16⟩
  | .hbm, ⟨8, _⟩ => ⟨S4x4096x64, .bf16⟩
  | .hbm, ⟨9, _⟩ => ⟨S4x4096x64, .bf16⟩
  | .hbm, ⟨10, _⟩ => ⟨S4x4096x64, .f32⟩
  | .local _ .vmem, ⟨0, _⟩ => ⟨S1x1024x1024, .f32⟩
  | .local _ .vmem, ⟨1, _⟩ => ⟨S1x1024x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S1x1024x64, .bf16⟩
  | .local _ .vmem, ⟨6, _⟩ => ⟨S1x1024x64, .bf16⟩
  | .local _ .vmem, ⟨7, _⟩ => ⟨S1x1024x64, .bf16⟩
  | .local _ .vmem, ⟨8, _⟩ => ⟨S1x1024x64, .bf16⟩
  | .local _ .vmem, ⟨9, _⟩ => ⟨S1x1024x64, .bf16⟩
  | .local _ .vmem, ⟨10, _⟩ => ⟨S1x1024x64, .bf16⟩
  | .local _ .vmem, ⟨11, _⟩ => ⟨S1x1024x64, .bf16⟩
  | .local _ .vmem, ⟨12, _⟩ => ⟨S1x1024x64, .bf16⟩
  | .local _ .vmem, ⟨13, _⟩ => ⟨S1x1024x64, .bf16⟩
  | .local _ .vmem, ⟨14, _⟩ => ⟨S1x1024x64, .bf16⟩
  | .local _ .vmem, ⟨15, _⟩ => ⟨S1x1024x64, .bf16⟩
  | .local _ .vmem, ⟨16, _⟩ => ⟨S1x1024x64, .bf16⟩
  | .local _ .vmem, ⟨17, _⟩ => ⟨S1x1024x64, .f32⟩
  | .local _ .vmem, ⟨18, _⟩ => ⟨S1x1024x64, .f32⟩
  | .local _ .vmem, ⟨19, _⟩ => ⟨S1x1024x1, .f32⟩
  | .local _ .vmem, ⟨20, _⟩ => ⟨S1x1024x1, .f32⟩
  | .local _ .vmem, ⟨21, _⟩ => ⟨S1x1024x64, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨3, ![4, 4, 4], ![false, false, false]⟩

def k1_cond4 (i : grid1.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_3 : BitVec 32 := 0#32
  let v11 : BitVec 1 := Scalar.cmpi .ne v10 c0_i32_3
  v11

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x1024x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  bcast_S_S64x1024 : S_.BroadcastsInDim S64x1024 (![] : Fin 0 → Fin S64x1024.rank)
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  packedbf16_S1x1024x64_S1x1024x64_0_0_0 : (Rect.unit (s := S1x1024x64) ![0, 0, 0] S1x1024x64.size inb_S1x1024x64_S1x1024x64_0_0_0).PackedRows (EltTy.packing .bf16)
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1x1024x1 : S1x1024x1.ShapeCasts S1x1024x1
  shapeCasts_S1x1024x64_S1x1024x64 : S1x1024x64.ShapeCasts S1x1024x64
  reduces_S1x1024x1024_S1x1024 : S1x1024x1024.Reduces [2] S1x1024
  shapeCasts_S1x1024_S1x1024x1 : S1x1024.ShapeCasts S1x1024x1
  broadcasts_S1x1024x1_S1x1024x1024 : S1x1024x1.Broadcasts S1x1024x1024
  broadcasts_S1x1024x1_S1x1024x64 : S1x1024x1.Broadcasts S1x1024x64
  iota_S1x1024x1024_d1_w32 : S1x1024x1024.Iotas .tc 32 [1]
  iota_S1x1024x1024_d2_w32 : S1x1024x1024.Iotas .tc 32 [2]
  dot_S1024x1024_S64x1024_S1024x64_1_1_0_0_n_n_wf : DotDims.WF S1024x1024 S64x1024 S1024x64 [1] [1] [0] [0] [] []
  dot_S1x1024x64_S1x1024x64_S1x1024x1024_2_2_1_1_0_0_wf : DotDims.WF S1x1024x64 S1x1024x64 S1x1024x1024 [2] [2] [1] [1] [0] [0]
  dot_S1x1024x1024_S1x1024x64_S1x1024x64_2_1_1_2_0_0_wf : DotDims.WF S1x1024x1024 S1x1024x64 S1x1024x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S4x4096x1024.size a
  hwx0_0 : ∀ i : grid0.Coords, EltTy.bits .f32 = 32 ∨ (Rect.block (s := S4x4096x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1024.size a ≤ S64x1024.size a
  hwx0_1 : ∀ i : grid0.Coords, EltTy.bits .f32 = 32 ∨ (Rect.block (s := S64x1024) S64x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1024.size a ≤ S64x1024.size a
  hwx0_2 : ∀ i : grid0.Coords, EltTy.bits .f32 = 32 ∨ (Rect.block (s := S64x1024) S64x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1024.size a ≤ S64x1024.size a
  hwx0_3 : ∀ i : grid0.Coords, EltTy.bits .f32 = 32 ∨ (Rect.block (s := S64x1024) S64x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x64.size a ≤ S4x4096x64.size a
  hwx0_4 : ∀ i : grid0.Coords, EltTy.bits .bf16 = 32 ∨ (Rect.block (s := S4x4096x64) S1x1024x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x64.size a ≤ S4x4096x64.size a
  hwx0_5 : ∀ i : grid0.Coords, EltTy.bits .bf16 = 32 ∨ (Rect.block (s := S4x4096x64) S1x1024x64.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x64.size a ≤ S4x4096x64.size a
  hwx0_6 : ∀ i : grid0.Coords, EltTy.bits .bf16 = 32 ∨ (Rect.block (s := S4x4096x64) S1x1024x64.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x64.size a ≤ S4x4096x64.size a
  hwx1_0 : ∀ i : grid1.Coords, EltTy.bits .bf16 = 32 ∨ (Rect.block (s := S4x4096x64) S1x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x64.size a ≤ S4x4096x64.size a
  hwx1_1 : ∀ i : grid1.Coords, EltTy.bits .bf16 = 32 ∨ (Rect.block (s := S4x4096x64) S1x1024x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x64.size a ≤ S4x4096x64.size a
  hwx1_2 : ∀ i : grid1.Coords, EltTy.bits .bf16 = 32 ∨ (Rect.block (s := S4x4096x64) S1x1024x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x64.size a ≤ S4x4096x64.size a
  hwx1_3 : ∀ i : grid1.Coords, EltTy.bits .f32 = 32 ∨ (Rect.block (s := S4x4096x64) S1x1024x64.size (cc1_transform_3 i) (hinb1_3 i)).WholeWords (EltTy.packing .f32)

variable [Facts₀]

def dot_S1024x1024_S64x1024_S1024x64_1_1_0_0_n_n : DotDims S1024x1024 S64x1024 S1024x64 where
  lhsContracting := [1]
  rhsContracting := [1]
  lhsNonContracting := [0]
  rhsNonContracting := [0]
  lhsBatch := []
  rhsBatch := []
  wf := dot_S1024x1024_S64x1024_S1024x64_1_1_0_0_n_n_wf
def dot_S1x1024x64_S1x1024x64_S1x1024x1024_2_2_1_1_0_0 : DotDims S1x1024x64 S1x1024x64 S1x1024x1024 where
  lhsContracting := [2]
  rhsContracting := [2]
  lhsNonContracting := [1]
  rhsNonContracting := [1]
  lhsBatch := [0]
  rhsBatch := [0]
  wf := dot_S1x1024x64_S1x1024x64_S1x1024x1024_2_2_1_1_0_0_wf
def dot_S1x1024x1024_S1x1024x64_S1x1024x64_2_1_1_2_0_0 : DotDims S1x1024x1024 S1x1024x64 S1x1024x64 where
  lhsContracting := [2]
  rhsContracting := [1]
  lhsNonContracting := [1]
  rhsNonContracting := [2]
  lhsBatch := [0]
  rhsBatch := [0]
  wf := dot_S1x1024x1024_S1x1024x64_S1x1024x64_2_1_1_2_0_0_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1x1024x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1x1024x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_2) S1x1024x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v2_0) S1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_1) S1x1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2_2) S1x1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond4 i == 1#1) | ⟨_ + 4, h⟩ => absurd h (Nat.not_lt.2 (Nat.le_add_left _ _))

class Facts : Prop extends Facts₀ where

variable [Facts]
-- ==== ReferenceIdeal.lean ====
abbrev S4x4096x1024 : Shape := ⟨3, ![4, 4096, 1024]⟩
abbrev S64x1024 : Shape := ⟨2, ![64, 1024]⟩
abbrev S4x4096x64 : Shape := ⟨3, ![4, 4096, 64]⟩
abbrev S4x4096x4096 : Shape := ⟨3, ![4, 4096, 4096]⟩
abbrev S_ : Shape := ⟨0, ![]⟩
abbrev S4096x4096 : Shape := ⟨2, ![4096, 4096]⟩
abbrev S4x4096 : Shape := ⟨2, ![4, 4096]⟩
abbrev S4x4096x1 : Shape := ⟨3, ![4, 4096, 1]⟩

abbrev nBuf : Space → Nat
  | .hbm => 43
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S64x1024, .f32⟩
  | .hbm, ⟨2, _⟩ => ⟨S64x1024, .f32⟩
  | .hbm, ⟨3, _⟩ => ⟨S64x1024, .f32⟩
  | .hbm, ⟨4, _⟩ => ⟨S4x4096x64, .f32⟩
  | .hbm, ⟨5, _⟩ => ⟨S4x4096x64, .f32⟩
  | .hbm, ⟨6, _⟩ => ⟨S4x4096x64, .f32⟩
  | .hbm, ⟨7, _⟩ => ⟨S4x4096x4096, .f32⟩
  | .hbm, ⟨8, _⟩ => ⟨S_, .f32⟩
  | .hbm, ⟨9, _⟩ => ⟨S_, .f32⟩
  | .hbm, ⟨10, _⟩ => ⟨S4x4096x4096, .f32⟩
  | .hbm, ⟨11, _⟩ => ⟨S4x4096x4096, .f32⟩
  | .hbm, ⟨12, _⟩ => ⟨S_, .i1⟩
  | .hbm, ⟨13, _⟩ => ⟨S4096x4096, .i1⟩
  | .hbm, ⟨14, _⟩ => ⟨S4096x4096, .i32⟩
  | .hbm, ⟨15, _⟩ => ⟨S_, .i32⟩
  | .hbm, ⟨16, _⟩ => ⟨S4096x4096, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S_, .i1⟩
  | .hbm, ⟨21, _⟩ => ⟨S4096x4096, .i1⟩
  | .hbm, ⟨22, _⟩ => ⟨S4096x4096, .i1⟩
  | .hbm, ⟨23, _⟩ => ⟨S_, .f32⟩
  | .hbm, ⟨24, _⟩ => ⟨S_, .f32⟩
  | .hbm, ⟨25, _⟩ => ⟨S4x4096x4096, .i1⟩
  | .hbm, ⟨26, _⟩ => ⟨S4x4096x4096, .f32⟩
  | .hbm, ⟨27, _⟩ => ⟨S4x4096x4096, .f32⟩
  | .hbm, ⟨28, _⟩ => ⟨S_, .f32⟩
  | .hbm, ⟨29, _⟩ => ⟨S4x4096, .f32⟩
  | .hbm, ⟨30, _⟩ => ⟨S_, .f32⟩
  | .hbm, ⟨31, _⟩ => ⟨S4x4096, .f32⟩
  | .hbm, ⟨32, _⟩ => ⟨S4x4096, .f32⟩
  | .hbm, ⟨33, _⟩ => ⟨S4x4096x1, .f32⟩
  | .hbm, ⟨34, _⟩ => ⟨S4x4096x4096, .f32⟩
  | .hbm, ⟨35, _⟩ => ⟨S4x4096x4096, .f32⟩
  | .hbm, ⟨36, _⟩ => ⟨S4x4096x4096, .f32⟩
  | .hbm, ⟨37, _⟩ => ⟨S_, .f32⟩
  | .hbm, ⟨38, _⟩ => ⟨S4x4096, .f32⟩
  | .hbm, ⟨39, _⟩ => ⟨S4x4096x1, .f32⟩
  | .hbm, ⟨40, _⟩ => ⟨S4x4096x4096, .f32⟩
  | .hbm, ⟨41, _⟩ => ⟨S4x4096x4096, .f32⟩
  | .hbm, ⟨42, _⟩ => ⟨S4x4096x64, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_c_0 : Ref sig .tc := ⟨.hbm, 20, rfl⟩
abbrev main_call0_v5 : Ref sig .tc := ⟨.hbm, 21, rfl⟩
abbrev main_v8 : Ref sig .tc := ⟨.hbm, 22, rfl⟩
abbrev main_cst_0 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  bcast_S_S4096x4096 : S_.BroadcastsInDim S4096x4096 (![] : Fin 0 → Fin S4096x4096.rank)
  bcast_S4096x4096_S4x4096x4096_1_2 : S4096x4096.BroadcastsInDim S4x4096x4096 (![1, 2] : Fin 2 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x1024_S64x1024_S4x4096x64_2_1_01_0_n_n_wf : DotDims.WF S4x4096x1024 S64x1024 S4x4096x64 [2] [1] [0, 1] [0] [] []
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]

variable [Facts₀]

def dot_S4x4096x1024_S64x1024_S4x4096x64_2_1_01_0_n_n : DotDims S4x4096x1024 S64x1024 S4x4096x64 where
  lhsContracting := [2]
  rhsContracting := [1]
  lhsNonContracting := [0, 1]
  rhsNonContracting := [0]
  lhsBatch := []
  rhsBatch := []
  wf := dot_S4x4096x1024_S64x1024_S4x4096x64_2_1_01_0_n_n_wf
def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf

class Facts : Prop extends Facts₀ where

variable [Facts]
-- ==== Proof.K.R0.lean ====
import proofs.«116450_j75076028334813_2_alg».proof.Proof.Gen.Kernel.Launch
import proofs.«116450_j75076028334813_2_alg».proof.Proof.Gen.Kernel.Skeleton
import proofs.«116450_j75076028334813_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0 of @main (the projection kernel), at the contents the region is entered with

The projection kernel runs on a 4 x 4 grid. At each point it reads the block of the activations
(window 0) and the three weight matrices (windows 1, 2, 3, whose index never moves), casts them to
bf16, multiplies, and stores the three products, cast to bf16, over the whole of the three output
blocks (windows 4, 5, 6). Nothing is carried from point to point: what the body leaves in an output
buffer is a closed function of the input blocks at that point. This file states that function
(`out0_4`, `out0_5`, `out0_6`), proves the body's triple against it, and packs the result as
the pipeline's proof data and body obligation, generically in the float instance. -/

-- membership in a rectangle of full-size extents: the elaborator's structural look recurses once per
-- coordinate of the long axes
set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not
    (it is fetched at every point), for any proof data whose array is `V`'s (`hA`) and whose body
    leaves the block in place (`hafter`): unfetched, the block index has not moved; the window is uncut
    and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not
    (it is fetched at the first point only, its index constant), for any proof data whose array is `V`'s (`hA`) and whose body
    leaves the block in place (`hafter`): unfetched, the block index has not moved; the window is uncut
    and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not
    (it is fetched at the first point only, its index constant), for any proof data whose array is `V`'s (`hA`) and whose body
    leaves the block in place (`hafter`): unfetched, the block index has not moved; the window is uncut
    and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not
    (it is fetched at the first point only, its index constant), for any proof data whose array is `V`'s (`hA`) and whose body
    leaves the block in place (`hafter`): unfetched, the block index has not moved; the window is uncut
    and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole activation block. -/
abbrev r0_x : Rect S1x1024x1024 := Rect.unit (s := S1x1024x1024) ![0, 0, 0] S1x1024x1024.size inb_S1x1024x1024_S1x1024x1024_0_0_0
/-- A whole weight matrix. -/
abbrev r0_w : Rect S64x1024 := Rect.unit (s := S64x1024) ![0, 0] S64x1024.size inb_S64x1024_S64x1024_0_0
/-- A whole output block. -/
abbrev r0_out : Rect S1x1024x64 := Rect.unit (s := S1x1024x64) ![0, 0, 0] S1x1024x64.size inb_S1x1024x64_S1x1024x64_0_0_0

/-! ## What the body leaves in each output window's buffer -/

/-- Window 4's staging buffer after the body, from the blocks of the activations and of the first weight
    matrix: its one store, of the bf16 product, as a piece. -/
def out0_4 (x0 : Vec F S1x1024x1024 .f32) (x1 : Vec F S64x1024 .f32) : Vec F S1x1024x64 .bf16 :=
  View.canon [⟨r0_out, k0_pay2 (View.ld x0 r0_x) (View.ld x1 r0_w)⟩]
/-- Window 5's, from the activations and the second weight matrix. -/
def out0_5 (x0 : Vec F S1x1024x1024 .f32) (x2 : Vec F S64x1024 .f32) : Vec F S1x1024x64 .bf16 :=
  View.canon [⟨r0_out, k0_pay3 (View.ld x0 r0_x) (View.ld x2 r0_w)⟩]
/-- Window 6's, from the activations and the third weight matrix. -/
def out0_6 (x0 : Vec F S1x1024x1024 .f32) (x3 : Vec F S64x1024 .f32) : Vec F S1x1024x64 .bf16 :=
  View.canon [⟨r0_out, k0_pay4 (View.ld x0 r0_x) (View.ld x3 r0_w)⟩]

/-- The one store is of the whole block, so it covers it (the same for the three outputs, whose shape
    and rectangle are the same). -/
theorem cover0_out (p0 : Vec F S1x1024x64 .bf16) (y : S1x1024x64.Idx) :
    ∃ pc ∈ ([⟨r0_out, p0⟩] : List (View.Piece (Elt F) S1x1024x64 .bf16)), y ∈ pc.1.set :=
  View.cover_of_tiled [⟨r0_out, p0⟩] S1x1024x64.size (by rfl) y

/-! ## The body's triple -/

set_option maxHeartbeats 4000000 in
/-- The kernel body on whole staging memrefs, the four inputs' at read contents `x0 … x3` and the three
    outputs' at anything, runs to the continuation holding the inputs' as they were and each output's at
    `out0_W` of the inputs'. The body also loads each output buffer before it stores over the whole of
    it: the value read is dropped, and the store's result does not depend on it. -/
theorem sound_kernel0 (c : Dev nD) (E : Set ℕ) (i : grid0.Coords)
    (arg0 : Memref sig .tc .vmem S1x1024x1024 .f32) (harg0 : arg0.IsWhole) (arg1 : Memref sig .tc .vmem S64x1024 .f32) (harg1 : arg1.IsWhole)
    (arg2 : Memref sig .tc .vmem S64x1024 .f32) (harg2 : arg2.IsWhole) (arg3 : Memref sig .tc .vmem S64x1024 .f32) (harg3 : arg3.IsWhole)
    (arg4 : Memref sig .tc .vmem S1x1024x64 .bf16) (harg4 : arg4.IsWhole) (arg5 : Memref sig .tc .vmem S1x1024x64 .bf16) (harg5 : arg5.IsWhole)
    (arg6 : Memref sig .tc .vmem S1x1024x64 .bf16) (harg6 : arg6.IsWhole)
    (x0 : Vec F S1x1024x1024 .f32) (x1 : Vec F S64x1024 .f32) (x2 : Vec F S64x1024 .f32) (x3 : Vec F S64x1024 .f32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ (∃ d, owns (c : Thread nD τ) arg4 fullShare d) ∗ (∃ d, owns (c : Thread nD τ) arg5 fullShare d)
        ∗ (∃ d, owns (c : Thread nD τ) arg6 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare (out0_4 x0 x1) ∗ owns (c : Thread nD τ) arg5 fullShare (out0_5 x0 x2)
            ∗ owns (c : Thread nD τ) arg6 fullShare (out0_6 x0 x3)) -∗ K ⟨⟩))
      ⊢ wp frame (wpE (defs₀ (F := F)) Variants.none c none) E (cc0__proj_kernel i arg0 harg0 arg1 harg1 arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_out _)
  isplitl [H5]
  · iexists _; isplitr
    swap; · iexact H5
    ipureintro
    exact View.read_writes_eq_canon _ _ _ (cover0_out _)
  iexists _; isplitr
  swap; · iexact H6
  ipureintro
  exact View.read_writes_eq_canon _ _ _ (cover0_out _)

/-! ## The pipeline's proof data -/

/-- The proof data of pipeline 0 on core `c`: the arrays as the region finds them (`V`); after the body at
    point `t` each input's buffer at its block and each output's at `out0_W` of the input blocks; the
    invariant is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`: the invariant, what the core owes, and the seven windows'
    current staging buffers one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (`before0_W`), so `sound_kernel0`
    applies; the invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.H

end
-- ==== Proof.K.RunW.lean ====
import proofs.«116450_j75076028334813_2_alg».proof.Proof.K.R0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: @main's segments from the launch to the return

## The buffer contents at each segment boundary: a fold through @main -/

/-- Core `c`'s buffers at launch. -/
abbrev W0 : Dev nD → Valuation τ sig (Elt F) := fun c b => (s₀ m ρ).mem ((c : Dev nD), b)
/-- After `hostOps0` (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents, which region 1 is entered from: no host
    operation stands between the two regions). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

end Cert.Kernel.H

end
-- ==== Proof.K.R1Runs.lean ====
import proofs.«116450_j75076028334813_2_alg».proof.Proof.Gen.Kernel.Launch
import proofs.«116450_j75076028334813_2_alg».proof.Proof.Gen.Kernel.Skeleton
import proofs.«116450_j75076028334813_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of production extents: the elaborator's structural look recurses once per
-- coordinate of the long axes
set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1 (the attention kernel, pipeline 1), at the entry contents `V`: what its runs share -/

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is the entry contents' and whose body leaves the block in place: an unfetched window's index
    has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is the entry contents' and whose body leaves the block in place: an unfetched window's index
    has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is the entry contents' and whose body leaves the block in place: an unfetched window's index
    has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions, from the grid coordinates (key tile `i 2`, query tile `i 1`) -/

/-- The key tile is the first: the running maximum, sum and accumulator are initialised. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The key tile is strictly below the diagonal: an unmasked update. -/
abbrev cond1_1 (i : grid1.Coords) : Prop := (Scalar.cmpi .ne (Scalar.extui (Scalar.cmpi .slt (BitVec.ofNat 32 (i 2).val) (BitVec.ofNat 32 (i 1).val))) 0#32) = 1#1
theorem hcond1_1 : ∀ t : Fin cfg1.N, cond1_1 (grid1.coords t) ↔ t.val % 4 < (t.val / 4) % 4 :=
  (by decide +kernel : ∀ t : Fin grid1.N, cond1_1 (grid1.coords t) ↔ t.val % 4 < (t.val / 4) % 4)

/-- The key tile is the diagonal one: a masked update. -/
abbrev cond1_2 (i : grid1.Coords) : Prop := (Scalar.cmpi .ne (Scalar.extui (Scalar.cmpi .eq (BitVec.ofNat 32 (i 2).val) (BitVec.ofNat 32 (i 1).val))) 0#32) = 1#1
theorem hcond1_2 : ∀ t : Fin cfg1.N, cond1_2 (grid1.coords t) ↔ t.val % 4 = (t.val / 4) % 4 :=
  (by decide +kernel : ∀ t : Fin grid1.N, cond1_2 (grid1.coords t) ↔ t.val % 4 = (t.val / 4) % 4)

/-- The key tile is the last: the normalised accumulator is stored to the output block. -/
abbrev cond1_3 (i : grid1.Coords) : Prop := k1_cond4 i = 1#1
theorem hcond1_3 : ∀ t : Fin cfg1.N, cond1_3 (grid1.coords t) ↔ t.val % 4 = 3 :=
  (by decide +kernel : ∀ t : Fin grid1.N, cond1_3 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the last key tile the output window is idle: nothing is stored into it, -/
theorem idleAt1_3 : ∀ t : Fin cfg1.N, ¬cond1_3 (grid1.coords t) → cfg1.idle 3 (grid1.coords t) = true := by decide +kernel
/-- and its block is not written back there. -/
theorem noFlush1_3 : ∀ t : Fin cfg1.N, ¬cond1_3 (grid1.coords t) → (cfg1.win 3).flush t = false := by decide +kernel
/-- At the last key tile the output window is live. -/
theorem liveAt1_3 : ∀ t : Fin cfg1.N, cond1_3 (grid1.coords t) → cfg1.idle 3 (grid1.coords t) = false := by decide +kernel

/-! ## The staging and scratch memrefs -/

/-- One staging buffer of the output window, through which its contents are stated (the choice does not matter). -/
abbrev VO1_3 : View sig .tc .vmem S1x1024x64 .f32 := (Memref.whole cc1_stg3_0 : Memref sig .tc .vmem S1x1024x64 .f32).view
/-- Each window's current staging memref at point `t`, spelled as the pipeline passes it, and its wholeness. -/
abbrev ms1_0 (t : Fin cfg1.N) : Memref sig .tc .vmem S1x1024x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x64 .f32 := win1_3.stage (cfg1.slots t 3)
abbrev hs1_3 (t : Fin cfg1.N) : (ms1_3 t).IsWhole := hstage1_3 ((cfg1.slots t 3).cast nbuf1_3)
/-- The scratch operands: the running maximum, the running sum, the accumulator. -/
abbrev scM1_0 : Memref sig .tc .vmem S1x1024x1 .f32 := Memref.whole cc1_scratch0
abbrev scM1_1 : Memref sig .tc .vmem S1x1024x1 .f32 := Memref.whole cc1_scratch1
abbrev scM1_2 : Memref sig .tc .vmem S1x1024x64 .f32 := Memref.whole cc1_scratch2
abbrev VS1_0 : View sig .tc .vmem S1x1024x1 .f32 := scM1_0.view
abbrev VS1_1 : View sig .tc .vmem S1x1024x1 .f32 := scM1_1.view
abbrev VS1_2 : View sig .tc .vmem S1x1024x64 .f32 := scM1_2.view

/-- The region's invariant with the scratch operands as memrefs owned at some contents: what the body obligation
    hands the run and takes back. The other scoped buffers (region 0's staging) ride along untouched. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.Kernel.H

end
-- ==== Proof.K.R1RunA.lean ====
import proofs.«116450_j75076028334813_2_alg».proof.Proof.K.R1Runs

-- membership in a rectangle of production extents: the elaborator's structural look recurses once per
-- coordinate of the long axes
set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

-- (the run's proof term is large: the definition's epilogue walks it past the default budget)
set_option maxHeartbeats 4000000 in
/-- The body at the first key tile on the diagonal (query tile 0): on whole staging memrefs — the three inputs' at their
    contents, the output's at contents handed back untouched (nothing is stored into it), the three scratch operands at anything (all three are overwritten first) —
    it runs to the continuation holding the inputs' as they were, each scratch operand with its pieces written.
    The piece lists (last first) are what the run finds. -/
noncomputable def kernelRun1_A (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : cond1_0 i) (hc1 : ¬cond1_1 i) (hc2 : cond1_2 i) (hc3 : ¬cond1_3 i)
    (x0 : Vec F S1x1024x64 .bf16) (x1 : Vec F S1x1024x64 .bf16) (x2 : Vec F S1x1024x64 .bf16) :
    Σ' (L3 : List (View.Piece (Elt F) S1x1024x64 .f32)) (LS0 : List (View.Piece (Elt F) S1x1024x1 .f32)) (LS1 : List (View.Piece (Elt F) S1x1024x1 .f32)), { LS2 : List (View.Piece (Elt F) S1x1024x64 .f32) //
      ∀ (xi3 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], ?_, ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.H

end
-- ==== Proof.K.R1RunB.lean ====
import proofs.«116450_j75076028334813_2_alg».proof.Proof.K.R1RunA

-- membership in a rectangle of production extents: the elaborator's structural look recurses once per
-- coordinate of the long axes
set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

-- (the run's proof term is large: the definition's epilogue walks it past the default budget)
set_option maxHeartbeats 4000000 in
/-- The body at a key tile above the diagonal, not the last: on whole staging memrefs — the three inputs' at their
    contents, the output's at contents handed back untouched (nothing is stored into it), the three scratch operands at what the point before left —
    it runs to the continuation holding the inputs' as they were, the scratch operands as they were.
    The piece lists (last first) are what the run finds. -/
noncomputable def kernelRun1_B (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : ¬cond1_1 i) (hc2 : ¬cond1_2 i) (hc3 : ¬cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) :
    Σ' (L3 : List (View.Piece (Elt F) S1x1024x64 .f32)) (LS0 : List (View.Piece (Elt F) S1x1024x1 .f32)) (LS1 : List (View.Piece (Elt F) S1x1024x1 .f32)), { LS2 : List (View.Piece (Elt F) S1x1024x64 .f32) //
      ∀ (xi3 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], [], [], [], fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]
    · iexists _; isplitr; · ipureintro; exact harg7.read_unread _
      iexact HS0
    isplitl [HS1]
    · iexists _; isplitr; · ipureintro; exact harg8.read_unread _
      iexact HS1
    · iexists _; isplitr; · ipureintro; exact harg9.read_unread _
      iexact HS2

end Cert.Kernel.H

end
-- ==== Proof.K.R1RunC.lean ====
import proofs.«116450_j75076028334813_2_alg».proof.Proof.K.R1RunB

-- membership in a rectangle of production extents: the elaborator's structural look recurses once per
-- coordinate of the long axes
set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

-- (the run's proof term is large: the definition's epilogue walks it past the default budget)
set_option maxHeartbeats 4000000 in
/-- The body at the last key tile, above the diagonal: on whole staging memrefs — the three inputs' at their
    contents, the output's at anything, the three scratch operands at what the point before left —
    it runs to the continuation holding the inputs' as they were, the output's with its pieces written, the scratch operands as they were.
    The piece lists (last first) are what the run finds. -/
noncomputable def kernelRun1_C (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : ¬cond1_1 i) (hc2 : ¬cond1_2 i) (hc3 : cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) :
    Σ' (L3 : List (View.Piece (Elt F) S1x1024x64 .f32)) (LS0 : List (View.Piece (Elt F) S1x1024x1 .f32)) (LS1 : List (View.Piece (Elt F) S1x1024x1 .f32)), { LS2 : List (View.Piece (Elt F) S1x1024x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, [], [], [], fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _; isplitr; · ipureintro; exact harg7.read_unread _
      iexact HS0
    isplitl [HS1]
    · iexists _; isplitr; · ipureintro; exact harg8.read_unread _
      iexact HS1
    · iexists _; isplitr; · ipureintro; exact harg9.read_unread _
      iexact HS2

end Cert.Kernel.H

end
-- ==== Proof.K.R1RunD.lean ====
import proofs.«116450_j75076028334813_2_alg».proof.Proof.K.R1RunC

-- membership in a rectangle of production extents: the elaborator's structural look recurses once per
-- coordinate of the long axes
set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

-- (the run's proof term is large: the definition's epilogue walks it past the default budget)
set_option maxHeartbeats 4000000 in
/-- The body at the first key tile, below the diagonal: on whole staging memrefs — the three inputs' at their
    contents, the output's at contents handed back untouched (nothing is stored into it), the three scratch operands at anything (all three are overwritten first) —
    it runs to the continuation holding the inputs' as they were, each scratch operand with its pieces written.
    The piece lists (last first) are what the run finds. -/
noncomputable def kernelRun1_D (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : cond1_0 i) (hc1 : cond1_1 i) (hc2 : ¬cond1_2 i) (hc3 : ¬cond1_3 i)
    (x0 : Vec F S1x1024x64 .bf16) (x1 : Vec F S1x1024x64 .bf16) (x2 : Vec F S1x1024x64 .bf16) :
    Σ' (L3 : List (View.Piece (Elt F) S1x1024x64 .f32)) (LS0 : List (View.Piece (Elt F) S1x1024x1 .f32)) (LS1 : List (View.Piece (Elt F) S1x1024x1 .f32)), { LS2 : List (View.Piece (Elt F) S1x1024x64 .f32) //
      ∀ (xi3 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], ?_, ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.H

end
-- ==== Proof.K.R1RunE.lean ====
import proofs.«116450_j75076028334813_2_alg».proof.Proof.K.R1RunD

-- membership in a rectangle of production extents: the elaborator's structural look recurses once per
-- coordinate of the long axes
set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

-- (the run's proof term is large: the definition's epilogue walks it past the default budget)
set_option maxHeartbeats 4000000 in
/-- The body at the diagonal key tile, neither first nor last: on whole staging memrefs — the three inputs' at their
    contents, the output's at contents handed back untouched (nothing is stored into it), the three scratch operands at what the point before left —
    it runs to the continuation holding the inputs' as they were, each scratch operand with its pieces written.
    The piece lists (last first) are what the run finds. -/
noncomputable def kernelRun1_E (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : ¬cond1_1 i) (hc2 : cond1_2 i) (hc3 : ¬cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) :
    Σ' (L3 : List (View.Piece (Elt F) S1x1024x64 .f32)) (LS0 : List (View.Piece (Elt F) S1x1024x1 .f32)) (LS1 : List (View.Piece (Elt F) S1x1024x1 .f32)), { LS2 : List (View.Piece (Elt F) S1x1024x64 .f32) //
      ∀ (xi3 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], ?_, ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.H

end
-- ==== Proof.K.R1RunF.lean ====
import proofs.«116450_j75076028334813_2_alg».proof.Proof.K.R1RunE

-- membership in a rectangle of production extents: the elaborator's structural look recurses once per
-- coordinate of the long axes
set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

-- (the run's proof term is large: the definition's epilogue walks it past the default budget)
set_option maxHeartbeats 4000000 in
/-- The body at a key tile below the diagonal, not the first: on whole staging memrefs — the three inputs' at their
    contents, the output's at contents handed back untouched (nothing is stored into it), the three scratch operands at what the point before left —
    it runs to the continuation holding the inputs' as they were, each scratch operand with its pieces written.
    The piece lists (last first) are what the run finds. -/
noncomputable def kernelRun1_F (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : cond1_1 i) (hc2 : ¬cond1_2 i) (hc3 : ¬cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) :
    Σ' (L3 : List (View.Piece (Elt F) S1x1024x64 .f32)) (LS0 : List (View.Piece (Elt F) S1x1024x1 .f32)) (LS1 : List (View.Piece (Elt F) S1x1024x1 .f32)), { LS2 : List (View.Piece (Elt F) S1x1024x64 .f32) //
      ∀ (xi3 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], ?_, ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.H

end
-- ==== Proof.K.R1RunG.lean ====
import proofs.«116450_j75076028334813_2_alg».proof.Proof.K.R1RunF

-- membership in a rectangle of production extents: the elaborator's structural look recurses once per
-- coordinate of the long axes
set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

-- (the run's proof term is large: the definition's epilogue walks it past the default budget)
set_option maxHeartbeats 4000000 in
/-- The body at the last key tile on the diagonal (query tile 3): on whole staging memrefs — the three inputs' at their
    contents, the output's at anything, the three scratch operands at what the point before left —
    it runs to the continuation holding the inputs' as they were, the output's with its pieces written, each scratch operand with its pieces written.
    The piece lists (last first) are what the run finds. -/
noncomputable def kernelRun1_G (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : ¬cond1_1 i) (hc2 : cond1_2 i) (hc3 : cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) :
    Σ' (L3 : List (View.Piece (Elt F) S1x1024x64 .f32)) (LS0 : List (View.Piece (Elt F) S1x1024x1 .f32)) (LS1 : List (View.Piece (Elt F) S1x1024x1 .f32)), { LS2 : List (View.Piece (Elt F) S1x1024x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.H

end
-- ==== Proof.K.R1.lean ====
import proofs.«116450_j75076028334813_2_alg».proof.Proof.K.R1RunG

-- membership in a rectangle of production extents: the elaborator's structural look recurses once per
-- coordinate of the long axes
set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1 (the attention kernel): what its buffers hold point by point, its proof data and body obligation -/

/-! ## Per case: what the body's stores leave -/

/-! ### Case A: the first key tile on the diagonal (query tile 0) -/

/-- The pieces this case stores into the running maximum tile it, so they cover it. -/
theorem scover1_A_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : cond1_0 i) (hc1 : ¬cond1_1 i) (hc2 : cond1_2 i) (hc3 : ¬cond1_3 i)
    (x0 : Vec F S1x1024x64 .bf16) (x1 : Vec F S1x1024x64 .bf16) (x2 : Vec F S1x1024x64 .bf16) (y : S1x1024x1.Idx) :
    ∃ pc ∈ (kernelRun1_A c i arg3 harg3 arg4 harg4 arg5 harg5 arg6 harg6 arg7 harg7 arg8 harg8 arg9 harg9 hc0 hc1 hc2 hc3 x0 x1 x2).2.1, y ∈ pc.1.set :=
  View.cover_of_tiledL (kernelRun1_A c i arg3 harg3 arg4 harg4 arg5 harg5 arg6 harg6 arg7 harg7 arg8 harg8 arg9 harg9 hc0 hc1 hc2 hc3 x0 x1 x2).2.1 S1x1024x1.size (by sl_kernel_rfl) y

/-- What this case leaves in the running maximum: its pieces read back. -/
def sout1_A_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : cond1_0 i) (hc1 : ¬cond1_1 i) (hc2 : cond1_2 i) (hc3 : ¬cond1_3 i)
    (x0 : Vec F S1x1024x64 .bf16) (x1 : Vec F S1x1024x64 .bf16) (x2 : Vec F S1x1024x64 .bf16) : Vec F S1x1024x1 .f32 :=
  VS1_0.read (Elt F) (VS1_0.writes (Elt F) VS1_0.junk (kernelRun1_A c i arg3 harg3 arg4 harg4 arg5 harg5 arg6 harg6 arg7 harg7 arg8 harg8 arg9 harg9 hc0 hc1 hc2 hc3 x0 x1 x2).2.1)

/-- The pieces this case stores into the running sum tile it, so they cover it. -/
theorem scover1_A_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : cond1_0 i) (hc1 : ¬cond1_1 i) (hc2 : cond1_2 i) (hc3 : ¬cond1_3 i)
    (x0 : Vec F S1x1024x64 .bf16) (x1 : Vec F S1x1024x64 .bf16) (x2 : Vec F S1x1024x64 .bf16) (y : S1x1024x1.Idx) :
    ∃ pc ∈ (kernelRun1_A c i arg3 harg3 arg4 harg4 arg5 harg5 arg6 harg6 arg7 harg7 arg8 harg8 arg9 harg9 hc0 hc1 hc2 hc3 x0 x1 x2).2.2.1, y ∈ pc.1.set :=
  View.cover_of_tiledL (kernelRun1_A c i arg3 harg3 arg4 harg4 arg5 harg5 arg6 harg6 arg7 harg7 arg8 harg8 arg9 harg9 hc0 hc1 hc2 hc3 x0 x1 x2).2.2.1 S1x1024x1.size (by sl_kernel_rfl) y

/-- What this case leaves in the running sum: its pieces read back. -/
def sout1_A_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : cond1_0 i) (hc1 : ¬cond1_1 i) (hc2 : cond1_2 i) (hc3 : ¬cond1_3 i)
    (x0 : Vec F S1x1024x64 .bf16) (x1 : Vec F S1x1024x64 .bf16) (x2 : Vec F S1x1024x64 .bf16) : Vec F S1x1024x1 .f32 :=
  VS1_1.read (Elt F) (VS1_1.writes (Elt F) VS1_1.junk (kernelRun1_A c i arg3 harg3 arg4 harg4 arg5 harg5 arg6 harg6 arg7 harg7 arg8 harg8 arg9 harg9 hc0 hc1 hc2 hc3 x0 x1 x2).2.2.1)

/-- The pieces this case stores into the accumulator tile it, so they cover it. -/
theorem scover1_A_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : cond1_0 i) (hc1 : ¬cond1_1 i) (hc2 : cond1_2 i) (hc3 : ¬cond1_3 i)
    (x0 : Vec F S1x1024x64 .bf16) (x1 : Vec F S1x1024x64 .bf16) (x2 : Vec F S1x1024x64 .bf16) (y : S1x1024x64.Idx) :
    ∃ pc ∈ (kernelRun1_A c i arg3 harg3 arg4 harg4 arg5 harg5 arg6 harg6 arg7 harg7 arg8 harg8 arg9 harg9 hc0 hc1 hc2 hc3 x0 x1 x2).2.2.2.1, y ∈ pc.1.set :=
  View.cover_of_tiledL (kernelRun1_A c i arg3 harg3 arg4 harg4 arg5 harg5 arg6 harg6 arg7 harg7 arg8 harg8 arg9 harg9 hc0 hc1 hc2 hc3 x0 x1 x2).2.2.2.1 S1x1024x64.size (by sl_kernel_rfl) y

/-- What this case leaves in the accumulator: its pieces read back. -/
def sout1_A_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : cond1_0 i) (hc1 : ¬cond1_1 i) (hc2 : cond1_2 i) (hc3 : ¬cond1_3 i)
    (x0 : Vec F S1x1024x64 .bf16) (x1 : Vec F S1x1024x64 .bf16) (x2 : Vec F S1x1024x64 .bf16) : Vec F S1x1024x64 .f32 :=
  VS1_2.read (Elt F) (VS1_2.writes (Elt F) VS1_2.junk (kernelRun1_A c i arg3 harg3 arg4 harg4 arg5 harg5 arg6 harg6 arg7 harg7 arg8 harg8 arg9 harg9 hc0 hc1 hc2 hc3 x0 x1 x2).2.2.2.1)

/-! ### Case B: a key tile above the diagonal, not the last -/

/-! ### Case C: the last key tile, above the diagonal -/

/-- The pieces this case stores into the output block tile it, so they cover it. -/
theorem cover1_C_3 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : ¬cond1_1 i) (hc2 : ¬cond1_2 i) (hc3 : cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) (y : S1x1024x64.Idx) :
    ∃ pc ∈ (kernelRun1_C c i arg3 harg3 arg4 harg4 arg5 harg5 arg6 harg6 arg7 harg7 arg8 harg8 arg9 harg9 hc0 hc1 hc2 hc3 x0 x1 x2 xs0 xs1 xs2).1, y ∈ pc.1.set :=
  View.cover_of_tiledL (kernelRun1_C c i arg3 harg3 arg4 harg4 arg5 harg5 arg6 harg6 arg7 harg7 arg8 harg8 arg9 harg9 hc0 hc1 hc2 hc3 x0 x1 x2 xs0 xs1 xs2).1 S1x1024x64.size (by sl_kernel_rfl) y

/-- What this case leaves in the output block: its pieces read back. -/
def out1_C_3 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : ¬cond1_1 i) (hc2 : ¬cond1_2 i) (hc3 : cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) : Vec F S1x1024x64 .f32 :=
  VO1_3.read (Elt F) (VO1_3.writes (Elt F) VO1_3.junk (kernelRun1_C c i arg3 harg3 arg4 harg4 arg5 harg5 arg6 harg6 arg7 harg7 arg8 harg8 arg9 harg9 hc0 hc1 hc2 hc3 x0 x1 x2 xs0 xs1 xs2).1)

/-! ### Case D: the first key tile, below the diagonal -/

/-- The pieces this case stores into the running maximum tile it, so they cover it. -/
theorem scover1_D_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : cond1_0 i) (hc1 : cond1_1 i) (hc2 : ¬cond1_2 i) (hc3 : ¬cond1_3 i)
    (x0 : Vec F S1x1024x64 .bf16) (x1 : Vec F S1x1024x64 .bf16) (x2 : Vec F S1x1024x64 .bf16) (y : S1x1024x1.Idx) :
    ∃ pc ∈ (kernelRun1_D c i arg3 harg3 arg4 harg4 arg5 harg5 arg6 harg6 arg7 harg7 arg8 harg8 arg9 harg9 hc0 hc1 hc2 hc3 x0 x1 x2).2.1, y ∈ pc.1.set :=
  View.cover_of_tiledL (kernelRun1_D c i arg3 harg3 arg4 harg4 arg5 harg5 arg6 harg6 arg7 harg7 arg8 harg8 arg9 harg9 hc0 hc1 hc2 hc3 x0 x1 x2).2.1 S1x1024x1.size (by sl_kernel_rfl) y

/-- What this case leaves in the running maximum: its pieces read back. -/
def sout1_D_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : cond1_0 i) (hc1 : cond1_1 i) (hc2 : ¬cond1_2 i) (hc3 : ¬cond1_3 i)
    (x0 : Vec F S1x1024x64 .bf16) (x1 : Vec F S1x1024x64 .bf16) (x2 : Vec F S1x1024x64 .bf16) : Vec F S1x1024x1 .f32 :=
  VS1_0.read (Elt F) (VS1_0.writes (Elt F) VS1_0.junk (kernelRun1_D c i arg3 harg3 arg4 harg4 arg5 harg5 arg6 harg6 arg7 harg7 arg8 harg8 arg9 harg9 hc0 hc1 hc2 hc3 x0 x1 x2).2.1)

/-- The pieces this case stores into the running sum tile it, so they cover it. -/
theorem scover1_D_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : cond1_0 i) (hc1 : cond1_1 i) (hc2 : ¬cond1_2 i) (hc3 : ¬cond1_3 i)
    (x0 : Vec F S1x1024x64 .bf16) (x1 : Vec F S1x1024x64 .bf16) (x2 : Vec F S1x1024x64 .bf16) (y : S1x1024x1.Idx) :
    ∃ pc ∈ (kernelRun1_D c i arg3 harg3 arg4 harg4 arg5 harg5 arg6 harg6 arg7 harg7 arg8 harg8 arg9 harg9 hc0 hc1 hc2 hc3 x0 x1 x2).2.2.1, y ∈ pc.1.set :=
  View.cover_of_tiledL (kernelRun1_D c i arg3 harg3 arg4 harg4 arg5 harg5 arg6 harg6 arg7 harg7 arg8 harg8 arg9 harg9 hc0 hc1 hc2 hc3 x0 x1 x2).2.2.1 S1x1024x1.size (by sl_kernel_rfl) y

/-- What this case leaves in the running sum: its pieces read back. -/
def sout1_D_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : cond1_0 i) (hc1 : cond1_1 i) (hc2 : ¬cond1_2 i) (hc3 : ¬cond1_3 i)
    (x0 : Vec F S1x1024x64 .bf16) (x1 : Vec F S1x1024x64 .bf16) (x2 : Vec F S1x1024x64 .bf16) : Vec F S1x1024x1 .f32 :=
  VS1_1.read (Elt F) (VS1_1.writes (Elt F) VS1_1.junk (kernelRun1_D c i arg3 harg3 arg4 harg4 arg5 harg5 arg6 harg6 arg7 harg7 arg8 harg8 arg9 harg9 hc0 hc1 hc2 hc3 x0 x1 x2).2.2.1)

/-- The pieces this case stores into the accumulator tile it, so they cover it. -/
theorem scover1_D_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : cond1_0 i) (hc1 : cond1_1 i) (hc2 : ¬cond1_2 i) (hc3 : ¬cond1_3 i)
    (x0 : Vec F S1x1024x64 .bf16) (x1 : Vec F S1x1024x64 .bf16) (x2 : Vec F S1x1024x64 .bf16) (y : S1x1024x64.Idx) :
    ∃ pc ∈ (kernelRun1_D c i arg3 harg3 arg4 harg4 arg5 harg5 arg6 harg6 arg7 harg7 arg8 harg8 arg9 harg9 hc0 hc1 hc2 hc3 x0 x1 x2).2.2.2.1, y ∈ pc.1.set :=
  View.cover_of_tiledL (kernelRun1_D c i arg3 harg3 arg4 harg4 arg5 harg5 arg6 harg6 arg7 harg7 arg8 harg8 arg9 harg9 hc0 hc1 hc2 hc3 x0 x1 x2).2.2.2.1 S1x1024x64.size (by sl_kernel_rfl) y

/-- What this case leaves in the accumulator: its pieces read back. -/
def sout1_D_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : cond1_0 i) (hc1 : cond1_1 i) (hc2 : ¬cond1_2 i) (hc3 : ¬cond1_3 i)
    (x0 : Vec F S1x1024x64 .bf16) (x1 : Vec F S1x1024x64 .bf16) (x2 : Vec F S1x1024x64 .bf16) : Vec F S1x1024x64 .f32 :=
  VS1_2.read (Elt F) (VS1_2.writes (Elt F) VS1_2.junk (kernelRun1_D c i arg3 harg3 arg4 harg4 arg5 harg5 arg6 harg6 arg7 harg7 arg8 harg8 arg9 harg9 hc0 hc1 hc2 hc3 x0 x1 x2).2.2.2.1)

/-! ### Case E: the diagonal key tile, neither first nor last -/

/-- The pieces this case stores into the running maximum tile it, so they cover it. -/
theorem scover1_E_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : ¬cond1_1 i) (hc2 : cond1_2 i) (hc3 : ¬cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) (y : S1x1024x1.Idx) :
    ∃ pc ∈ (kernelRun1_E c i arg3 harg3 arg4 harg4 arg5 harg5 arg6 harg6 arg7 harg7 arg8 harg8 arg9 harg9 hc0 hc1 hc2 hc3 x0 x1 x2 xs0 xs1 xs2).2.1, y ∈ pc.1.set :=
  View.cover_of_tiledL (kernelRun1_E c i arg3 harg3 arg4 harg4 arg5 harg5 arg6 harg6 arg7 harg7 arg8 harg8 arg9 harg9 hc0 hc1 hc2 hc3 x0 x1 x2 xs0 xs1 xs2).2.1 S1x1024x1.size (by sl_kernel_rfl) y

/-- What this case leaves in the running maximum: its pieces read back. -/
def sout1_E_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : ¬cond1_1 i) (hc2 : cond1_2 i) (hc3 : ¬cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) : Vec F S1x1024x1 .f32 :=
  VS1_0.read (Elt F) (VS1_0.writes (Elt F) VS1_0.junk (kernelRun1_E c i arg3 harg3 arg4 harg4 arg5 harg5 arg6 harg6 arg7 harg7 arg8 harg8 arg9 harg9 hc0 hc1 hc2 hc3 x0 x1 x2 xs0 xs1 xs2).2.1)

/-- The pieces this case stores into the running sum tile it, so they cover it. -/
theorem scover1_E_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : ¬cond1_1 i) (hc2 : cond1_2 i) (hc3 : ¬cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) (y : S1x1024x1.Idx) :
    ∃ pc ∈ (kernelRun1_E c i arg3 harg3 arg4 harg4 arg5 harg5 arg6 harg6 arg7 harg7 arg8 harg8 arg9 harg9 hc0 hc1 hc2 hc3 x0 x1 x2 xs0 xs1 xs2).2.2.1, y ∈ pc.1.set :=
  View.cover_of_tiledL (kernelRun1_E c i arg3 harg3 arg4 harg4 arg5 harg5 arg6 harg6 arg7 harg7 arg8 harg8 arg9 harg9 hc0 hc1 hc2 hc3 x0 x1 x2 xs0 xs1 xs2).2.2.1 S1x1024x1.size (by sl_kernel_rfl) y

/-- What this case leaves in the running sum: its pieces read back. -/
def sout1_E_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : ¬cond1_1 i) (hc2 : cond1_2 i) (hc3 : ¬cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) : Vec F S1x1024x1 .f32 :=
  VS1_1.read (Elt F) (VS1_1.writes (Elt F) VS1_1.junk (kernelRun1_E c i arg3 harg3 arg4 harg4 arg5 harg5 arg6 harg6 arg7 harg7 arg8 harg8 arg9 harg9 hc0 hc1 hc2 hc3 x0 x1 x2 xs0 xs1 xs2).2.2.1)

/-- The pieces this case stores into the accumulator tile it, so they cover it. -/
theorem scover1_E_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : ¬cond1_1 i) (hc2 : cond1_2 i) (hc3 : ¬cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) (y : S1x1024x64.Idx) :
    ∃ pc ∈ (kernelRun1_E c i arg3 harg3 arg4 harg4 arg5 harg5 arg6 harg6 arg7 harg7 arg8 harg8 arg9 harg9 hc0 hc1 hc2 hc3 x0 x1 x2 xs0 xs1 xs2).2.2.2.1, y ∈ pc.1.set :=
  View.cover_of_tiledL (kernelRun1_E c i arg3 harg3 arg4 harg4 arg5 harg5 arg6 harg6 arg7 harg7 arg8 harg8 arg9 harg9 hc0 hc1 hc2 hc3 x0 x1 x2 xs0 xs1 xs2).2.2.2.1 S1x1024x64.size (by sl_kernel_rfl) y

/-- What this case leaves in the accumulator: its pieces read back. -/
def sout1_E_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : ¬cond1_1 i) (hc2 : cond1_2 i) (hc3 : ¬cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) : Vec F S1x1024x64 .f32 :=
  VS1_2.read (Elt F) (VS1_2.writes (Elt F) VS1_2.junk (kernelRun1_E c i arg3 harg3 arg4 harg4 arg5 harg5 arg6 harg6 arg7 harg7 arg8 harg8 arg9 harg9 hc0 hc1 hc2 hc3 x0 x1 x2 xs0 xs1 xs2).2.2.2.1)

/-! ### Case F: a key tile below the diagonal, not the first -/

/-- The pieces this case stores into the running maximum tile it, so they cover it. -/
theorem scover1_F_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : cond1_1 i) (hc2 : ¬cond1_2 i) (hc3 : ¬cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) (y : S1x1024x1.Idx) :
    ∃ pc ∈ (kernelRun1_F c i arg3 harg3 arg4 harg4 arg5 harg5 arg6 harg6 arg7 harg7 arg8 harg8 arg9 harg9 hc0 hc1 hc2 hc3 x0 x1 x2 xs0 xs1 xs2).2.1, y ∈ pc.1.set :=
  View.cover_of_tiledL (kernelRun1_F c i arg3 harg3 arg4 harg4 arg5 harg5 arg6 harg6 arg7 harg7 arg8 harg8 arg9 harg9 hc0 hc1 hc2 hc3 x0 x1 x2 xs0 xs1 xs2).2.1 S1x1024x1.size (by sl_kernel_rfl) y

/-- What this case leaves in the running maximum: its pieces read back. -/
def sout1_F_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : cond1_1 i) (hc2 : ¬cond1_2 i) (hc3 : ¬cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) : Vec F S1x1024x1 .f32 :=
  VS1_0.read (Elt F) (VS1_0.writes (Elt F) VS1_0.junk (kernelRun1_F c i arg3 harg3 arg4 harg4 arg5 harg5 arg6 harg6 arg7 harg7 arg8 harg8 arg9 harg9 hc0 hc1 hc2 hc3 x0 x1 x2 xs0 xs1 xs2).2.1)

/-- The pieces this case stores into the running sum tile it, so they cover it. -/
theorem scover1_F_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : cond1_1 i) (hc2 : ¬cond1_2 i) (hc3 : ¬cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) (y : S1x1024x1.Idx) :
    ∃ pc ∈ (kernelRun1_F c i arg3 harg3 arg4 harg4 arg5 harg5 arg6 harg6 arg7 harg7 arg8 harg8 arg9 harg9 hc0 hc1 hc2 hc3 x0 x1 x2 xs0 xs1 xs2).2.2.1, y ∈ pc.1.set :=
  View.cover_of_tiledL (kernelRun1_F c i arg3 harg3 arg4 harg4 arg5 harg5 arg6 harg6 arg7 harg7 arg8 harg8 arg9 harg9 hc0 hc1 hc2 hc3 x0 x1 x2 xs0 xs1 xs2).2.2.1 S1x1024x1.size (by sl_kernel_rfl) y

/-- What this case leaves in the running sum: its pieces read back. -/
def sout1_F_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : cond1_1 i) (hc2 : ¬cond1_2 i) (hc3 : ¬cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) : Vec F S1x1024x1 .f32 :=
  VS1_1.read (Elt F) (VS1_1.writes (Elt F) VS1_1.junk (kernelRun1_F c i arg3 harg3 arg4 harg4 arg5 harg5 arg6 harg6 arg7 harg7 arg8 harg8 arg9 harg9 hc0 hc1 hc2 hc3 x0 x1 x2 xs0 xs1 xs2).2.2.1)

/-- The pieces this case stores into the accumulator tile it, so they cover it. -/
theorem scover1_F_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : cond1_1 i) (hc2 : ¬cond1_2 i) (hc3 : ¬cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) (y : S1x1024x64.Idx) :
    ∃ pc ∈ (kernelRun1_F c i arg3 harg3 arg4 harg4 arg5 harg5 arg6 harg6 arg7 harg7 arg8 harg8 arg9 harg9 hc0 hc1 hc2 hc3 x0 x1 x2 xs0 xs1 xs2).2.2.2.1, y ∈ pc.1.set :=
  View.cover_of_tiledL (kernelRun1_F c i arg3 harg3 arg4 harg4 arg5 harg5 arg6 harg6 arg7 harg7 arg8 harg8 arg9 harg9 hc0 hc1 hc2 hc3 x0 x1 x2 xs0 xs1 xs2).2.2.2.1 S1x1024x64.size (by sl_kernel_rfl) y

/-- What this case leaves in the accumulator: its pieces read back. -/
def sout1_F_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : cond1_1 i) (hc2 : ¬cond1_2 i) (hc3 : ¬cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) : Vec F S1x1024x64 .f32 :=
  VS1_2.read (Elt F) (VS1_2.writes (Elt F) VS1_2.junk (kernelRun1_F c i arg3 harg3 arg4 harg4 arg5 harg5 arg6 harg6 arg7 harg7 arg8 harg8 arg9 harg9 hc0 hc1 hc2 hc3 x0 x1 x2 xs0 xs1 xs2).2.2.2.1)

/-! ### Case G: the last key tile on the diagonal (query tile 3) -/

/-- The pieces this case stores into the output block tile it, so they cover it. -/
theorem cover1_G_3 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : ¬cond1_1 i) (hc2 : cond1_2 i) (hc3 : cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) (y : S1x1024x64.Idx) :
    ∃ pc ∈ (kernelRun1_G c i arg3 harg3 arg4 harg4 arg5 harg5 arg6 harg6 arg7 harg7 arg8 harg8 arg9 harg9 hc0 hc1 hc2 hc3 x0 x1 x2 xs0 xs1 xs2).1, y ∈ pc.1.set :=
  View.cover_of_tiledL (kernelRun1_G c i arg3 harg3 arg4 harg4 arg5 harg5 arg6 harg6 arg7 harg7 arg8 harg8 arg9 harg9 hc0 hc1 hc2 hc3 x0 x1 x2 xs0 xs1 xs2).1 S1x1024x64.size (by sl_kernel_rfl) y

/-- What this case leaves in the output block: its pieces read back. -/
def out1_G_3 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : ¬cond1_1 i) (hc2 : cond1_2 i) (hc3 : cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) : Vec F S1x1024x64 .f32 :=
  VO1_3.read (Elt F) (VO1_3.writes (Elt F) VO1_3.junk (kernelRun1_G c i arg3 harg3 arg4 harg4 arg5 harg5 arg6 harg6 arg7 harg7 arg8 harg8 arg9 harg9 hc0 hc1 hc2 hc3 x0 x1 x2 xs0 xs1 xs2).1)

/-- The pieces this case stores into the running maximum tile it, so they cover it. -/
theorem scover1_G_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : ¬cond1_1 i) (hc2 : cond1_2 i) (hc3 : cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) (y : S1x1024x1.Idx) :
    ∃ pc ∈ (kernelRun1_G c i arg3 harg3 arg4 harg4 arg5 harg5 arg6 harg6 arg7 harg7 arg8 harg8 arg9 harg9 hc0 hc1 hc2 hc3 x0 x1 x2 xs0 xs1 xs2).2.1, y ∈ pc.1.set :=
  View.cover_of_tiledL (kernelRun1_G c i arg3 harg3 arg4 harg4 arg5 harg5 arg6 harg6 arg7 harg7 arg8 harg8 arg9 harg9 hc0 hc1 hc2 hc3 x0 x1 x2 xs0 xs1 xs2).2.1 S1x1024x1.size (by sl_kernel_rfl) y

/-- What this case leaves in the running maximum: its pieces read back. -/
def sout1_G_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : ¬cond1_1 i) (hc2 : cond1_2 i) (hc3 : cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) : Vec F S1x1024x1 .f32 :=
  VS1_0.read (Elt F) (VS1_0.writes (Elt F) VS1_0.junk (kernelRun1_G c i arg3 harg3 arg4 harg4 arg5 harg5 arg6 harg6 arg7 harg7 arg8 harg8 arg9 harg9 hc0 hc1 hc2 hc3 x0 x1 x2 xs0 xs1 xs2).2.1)

/-- The pieces this case stores into the running sum tile it, so they cover it. -/
theorem scover1_G_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : ¬cond1_1 i) (hc2 : cond1_2 i) (hc3 : cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) (y : S1x1024x1.Idx) :
    ∃ pc ∈ (kernelRun1_G c i arg3 harg3 arg4 harg4 arg5 harg5 arg6 harg6 arg7 harg7 arg8 harg8 arg9 harg9 hc0 hc1 hc2 hc3 x0 x1 x2 xs0 xs1 xs2).2.2.1, y ∈ pc.1.set :=
  View.cover_of_tiledL (kernelRun1_G c i arg3 harg3 arg4 harg4 arg5 harg5 arg6 harg6 arg7 harg7 arg8 harg8 arg9 harg9 hc0 hc1 hc2 hc3 x0 x1 x2 xs0 xs1 xs2).2.2.1 S1x1024x1.size (by sl_kernel_rfl) y

/-- What this case leaves in the running sum: its pieces read back. -/
def sout1_G_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : ¬cond1_1 i) (hc2 : cond1_2 i) (hc3 : cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) : Vec F S1x1024x1 .f32 :=
  VS1_1.read (Elt F) (VS1_1.writes (Elt F) VS1_1.junk (kernelRun1_G c i arg3 harg3 arg4 harg4 arg5 harg5 arg6 harg6 arg7 harg7 arg8 harg8 arg9 harg9 hc0 hc1 hc2 hc3 x0 x1 x2 xs0 xs1 xs2).2.2.1)

/-- The pieces this case stores into the accumulator tile it, so they cover it. -/
theorem scover1_G_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : ¬cond1_1 i) (hc2 : cond1_2 i) (hc3 : cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) (y : S1x1024x64.Idx) :
    ∃ pc ∈ (kernelRun1_G c i arg3 harg3 arg4 harg4 arg5 harg5 arg6 harg6 arg7 harg7 arg8 harg8 arg9 harg9 hc0 hc1 hc2 hc3 x0 x1 x2 xs0 xs1 xs2).2.2.2.1, y ∈ pc.1.set :=
  View.cover_of_tiledL (kernelRun1_G c i arg3 harg3 arg4 harg4 arg5 harg5 arg6 harg6 arg7 harg7 arg8 harg8 arg9 harg9 hc0 hc1 hc2 hc3 x0 x1 x2 xs0 xs1 xs2).2.2.2.1 S1x1024x64.size (by sl_kernel_rfl) y

/-- What this case leaves in the accumulator: its pieces read back. -/
def sout1_G_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : ¬cond1_1 i) (hc2 : cond1_2 i) (hc3 : cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) : Vec F S1x1024x64 .f32 :=
  VS1_2.read (Elt F) (VS1_2.writes (Elt F) VS1_2.junk (kernelRun1_G c i arg3 harg3 arg4 harg4 arg5 harg5 arg6 harg6 arg7 harg7 arg8 harg8 arg9 harg9 hc0 hc1 hc2 hc3 x0 x1 x2 xs0 xs1 xs2).2.2.2.1)

/-! ## The cases in closed form -/

theorem hcs1_A (t : Fin cfg1.N) (h0 : t.val % 4 = 0) (h1 : ¬t.val % 4 < (t.val / 4) % 4) :
    cond1_0 (grid1.coords t) ∧ ¬cond1_1 (grid1.coords t) ∧ cond1_2 (grid1.coords t) ∧ ¬cond1_3 (grid1.coords t) :=
  ⟨(hcond1_0 t).mpr (by have := t.isLt; have hN : cfg1.N = 64 := N_1; omega),
   fun h => by have := (hcond1_1 t).mp h; have := t.isLt; have hN : cfg1.N = 64 := N_1; omega,
   (hcond1_2 t).mpr (by have := t.isLt; have hN : cfg1.N = 64 := N_1; omega),
   fun h => by have := (hcond1_3 t).mp h; have := t.isLt; have hN : cfg1.N = 64 := N_1; omega⟩

theorem hcs1_B (t : Fin cfg1.N) (h0 : ¬t.val % 4 = 0) (h3 : ¬t.val % 4 = 3) (h1 : ¬t.val % 4 < (t.val / 4) % 4) (h2 : ¬t.val % 4 = (t.val / 4) % 4) :
    ¬cond1_0 (grid1.coords t) ∧ ¬cond1_1 (grid1.coords t) ∧ ¬cond1_2 (grid1.coords t) ∧ ¬cond1_3 (grid1.coords t) :=
  ⟨fun h => by have := (hcond1_0 t).mp h; have := t.isLt; have hN : cfg1.N = 64 := N_1; omega,
   fun h => by have := (hcond1_1 t).mp h; have := t.isLt; have hN : cfg1.N = 64 := N_1; omega,
   fun h => by have := (hcond1_2 t).mp h; have := t.isLt; have hN : cfg1.N = 64 := N_1; omega,
   fun h => by have := (hcond1_3 t).mp h; have := t.isLt; have hN : cfg1.N = 64 := N_1; omega⟩

theorem hcs1_C (t : Fin cfg1.N) (h0 : ¬t.val % 4 = 0) (h3 : t.val % 4 = 3) (h2 : ¬t.val % 4 = (t.val / 4) % 4) :
    ¬cond1_0 (grid1.coords t) ∧ ¬cond1_1 (grid1.coords t) ∧ ¬cond1_2 (grid1.coords t) ∧ cond1_3 (grid1.coords t) :=
  ⟨fun h => by have := (hcond1_0 t).mp h; have := t.isLt; have hN : cfg1.N = 64 := N_1; omega,
   fun h => by have := (hcond1_1 t).mp h; have := t.isLt; have hN : cfg1.N = 64 := N_1; omega,
   fun h => by have := (hcond1_2 t).mp h; have := t.isLt; have hN : cfg1.N = 64 := N_1; omega,
   (hcond1_3 t).mpr (by have := t.isLt; have hN : cfg1.N = 64 := N_1; omega)⟩

theorem hcs1_D (t : Fin cfg1.N) (h0 : t.val % 4 = 0) (h1 : t.val % 4 < (t.val / 4) % 4) :
    cond1_0 (grid1.coords t) ∧ cond1_1 (grid1.coords t) ∧ ¬cond1_2 (grid1.coords t) ∧ ¬cond1_3 (grid1.coords t) :=
  ⟨(hcond1_0 t).mpr (by have := t.isLt; have hN : cfg1.N = 64 := N_1; omega),
   (hcond1_1 t).mpr (by have := t.isLt; have hN : cfg1.N = 64 := N_1; omega),
   fun h => by have := (hcond1_2 t).mp h; have := t.isLt; have hN : cfg1.N = 64 := N_1; omega,
   fun h => by have := (hcond1_3 t).mp h; have := t.isLt; have hN : cfg1.N = 64 := N_1; omega⟩

theorem hcs1_E (t : Fin cfg1.N) (h0 : ¬t.val % 4 = 0) (h3 : ¬t.val % 4 = 3) (h1 : ¬t.val % 4 < (t.val / 4) % 4) (h2 : t.val % 4 = (t.val / 4) % 4) :
    ¬cond1_0 (grid1.coords t) ∧ ¬cond1_1 (grid1.coords t) ∧ cond1_2 (grid1.coords t) ∧ ¬cond1_3 (grid1.coords t) :=
  ⟨fun h => by have := (hcond1_0 t).mp h; have := t.isLt; have hN : cfg1.N = 64 := N_1; omega,
   fun h => by have := (hcond1_1 t).mp h; have := t.isLt; have hN : cfg1.N = 64 := N_1; omega,
   (hcond1_2 t).mpr (by have := t.isLt; have hN : cfg1.N = 64 := N_1; omega),
   fun h => by have := (hcond1_3 t).mp h; have := t.isLt; have hN : cfg1.N = 64 := N_1; omega⟩

theorem hcs1_F (t : Fin cfg1.N) (h0 : ¬t.val % 4 = 0) (h3 : ¬t.val % 4 = 3) (h1 : t.val % 4 < (t.val / 4) % 4) :
    ¬cond1_0 (grid1.coords t) ∧ cond1_1 (grid1.coords t) ∧ ¬cond1_2 (grid1.coords t) ∧ ¬cond1_3 (grid1.coords t) :=
  ⟨fun h => by have := (hcond1_0 t).mp h; have := t.isLt; have hN : cfg1.N = 64 := N_1; omega,
   (hcond1_1 t).mpr (by have := t.isLt; have hN : cfg1.N = 64 := N_1; omega),
   fun h => by have := (hcond1_2 t).mp h; have := t.isLt; have hN : cfg1.N = 64 := N_1; omega,
   fun h => by have := (hcond1_3 t).mp h; have := t.isLt; have hN : cfg1.N = 64 := N_1; omega⟩

theorem hcs1_G (t : Fin cfg1.N) (h0 : ¬t.val % 4 = 0) (h3 : t.val % 4 = 3) (h2 : t.val % 4 = (t.val / 4) % 4) :
    ¬cond1_0 (grid1.coords t) ∧ ¬cond1_1 (grid1.coords t) ∧ cond1_2 (grid1.coords t) ∧ cond1_3 (grid1.coords t) :=
  ⟨fun h => by have := (hcond1_0 t).mp h; have := t.isLt; have hN : cfg1.N = 64 := N_1; omega,
   fun h => by have := (hcond1_1 t).mp h; have := t.isLt; have hN : cfg1.N = 64 := N_1; omega,
   (hcond1_2 t).mpr (by have := t.isLt; have hN : cfg1.N = 64 := N_1; omega),
   (hcond1_3 t).mpr (by have := t.isLt; have hN : cfg1.N = 64 := N_1; omega)⟩

/-! ## What the output's buffer and the scratch operands hold after each point -/

/-- The placeholder before the first point: nothing reads it (the first point overwrites all three scratch operands). -/
def junk1 : Vec F S1x1024x64 .f32 × Vec F S1x1024x1 .f32 × Vec F S1x1024x1 .f32 × Vec F S1x1024x64 .f32 :=
  (VO1_3.read (Elt F) VO1_3.junk, VS1_0.read (Elt F) VS1_0.junk, VS1_1.read (Elt F) VS1_1.junk, VS1_2.read (Elt F) VS1_2.junk)

/-- One point of the accumulation: what the output's staging buffer and the three scratch operands hold after the
    body at point `t`, from what the point before left in the scratch operands (`p`'s components 2, 3, 4): the case
    the closed forms select at `t`, run at the point's memrefs and input blocks. A case that stores nothing into a
    scratch operand leaves it as it was; where the output window is idle its component is a placeholder that
    nothing consults. -/
def step1 (c : Dev nD) (t : Fin cfg1.N) (p : Vec F S1x1024x64 .f32 × Vec F S1x1024x1 .f32 × Vec F S1x1024x1 .f32 × Vec F S1x1024x64 .f32) : Vec F S1x1024x64 .f32 × Vec F S1x1024x1 .f32 × Vec F S1x1024x1 .f32 × Vec F S1x1024x64 .f32 :=
  if h0 : t.val % 4 = 0 then
    if h1 : t.val % 4 < (t.val / 4) % 4 then
      (VO1_3.read (Elt F) VO1_3.junk,
          sout1_D_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_D t h0 h1).1 (hcs1_D t h0 h1).2.1 (hcs1_D t h0 h1).2.2.1 (hcs1_D t h0 h1).2.2.2 (iblk1 V c 0 t) (iblk1 V c 1 t) (iblk1 V c 2 t),
          sout1_D_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_D t h0 h1).1 (hcs1_D t h0 h1).2.1 (hcs1_D t h0 h1).2.2.1 (hcs1_D t h0 h1).2.2.2 (iblk1 V c 0 t) (iblk1 V c 1 t) (iblk1 V c 2 t),
          sout1_D_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_D t h0 h1).1 (hcs1_D t h0 h1).2.1 (hcs1_D t h0 h1).2.2.1 (hcs1_D t h0 h1).2.2.2 (iblk1 V c 0 t) (iblk1 V c 1 t) (iblk1 V c 2 t))
    else
      (VO1_3.read (Elt F) VO1_3.junk,
          sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_A t h0 h1).1 (hcs1_A t h0 h1).2.1 (hcs1_A t h0 h1).2.2.1 (hcs1_A t h0 h1).2.2.2 (iblk1 V c 0 t) (iblk1 V c 1 t) (iblk1 V c 2 t),
          sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_A t h0 h1).1 (hcs1_A t h0 h1).2.1 (hcs1_A t h0 h1).2.2.1 (hcs1_A t h0 h1).2.2.2 (iblk1 V c 0 t) (iblk1 V c 1 t) (iblk1 V c 2 t),
          sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_A t h0 h1).1 (hcs1_A t h0 h1).2.1 (hcs1_A t h0 h1).2.2.1 (hcs1_A t h0 h1).2.2.2 (iblk1 V c 0 t) (iblk1 V c 1 t) (iblk1 V c 2 t))
  else
    if h3 : t.val % 4 = 3 then
      if h2 : t.val % 4 = (t.val / 4) % 4 then
        (out1_G_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_G t h0 h3 h2).1 (hcs1_G t h0 h3 h2).2.1 (hcs1_G t h0 h3 h2).2.2.1 (hcs1_G t h0 h3 h2).2.2.2 (iblk1 V c 0 t) (iblk1 V c 1 t) (iblk1 V c 2 t) p.2.1 p.2.2.1 p.2.2.2,
          sout1_G_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_G t h0 h3 h2).1 (hcs1_G t h0 h3 h2).2.1 (hcs1_G t h0 h3 h2).2.2.1 (hcs1_G t h0 h3 h2).2.2.2 (iblk1 V c 0 t) (iblk1 V c 1 t) (iblk1 V c 2 t) p.2.1 p.2.2.1 p.2.2.2,
          sout1_G_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_G t h0 h3 h2).1 (hcs1_G t h0 h3 h2).2.1 (hcs1_G t h0 h3 h2).2.2.1 (hcs1_G t h0 h3 h2).2.2.2 (iblk1 V c 0 t) (iblk1 V c 1 t) (iblk1 V c 2 t) p.2.1 p.2.2.1 p.2.2.2,
          sout1_G_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_G t h0 h3 h2).1 (hcs1_G t h0 h3 h2).2.1 (hcs1_G t h0 h3 h2).2.2.1 (hcs1_G t h0 h3 h2).2.2.2 (iblk1 V c 0 t) (iblk1 V c 1 t) (iblk1 V c 2 t) p.2.1 p.2.2.1 p.2.2.2)
      else
        (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_C t h0 h3 h2).1 (hcs1_C t h0 h3 h2).2.1 (hcs1_C t h0 h3 h2).2.2.1 (hcs1_C t h0 h3 h2).2.2.2 (iblk1 V c 0 t) (iblk1 V c 1 t) (iblk1 V c 2 t) p.2.1 p.2.2.1 p.2.2.2,
          p.2.1,
          p.2.2.1,
          p.2.2.2)
    else
      if h1 : t.val % 4 < (t.val / 4) % 4 then
        (VO1_3.read (Elt F) VO1_3.junk,
          sout1_F_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_F t h0 h3 h1).1 (hcs1_F t h0 h3 h1).2.1 (hcs1_F t h0 h3 h1).2.2.1 (hcs1_F t h0 h3 h1).2.2.2 (iblk1 V c 0 t) (iblk1 V c 1 t) (iblk1 V c 2 t) p.2.1 p.2.2.1 p.2.2.2,
          sout1_F_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_F t h0 h3 h1).1 (hcs1_F t h0 h3 h1).2.1 (hcs1_F t h0 h3 h1).2.2.1 (hcs1_F t h0 h3 h1).2.2.2 (iblk1 V c 0 t) (iblk1 V c 1 t) (iblk1 V c 2 t) p.2.1 p.2.2.1 p.2.2.2,
          sout1_F_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_F t h0 h3 h1).1 (hcs1_F t h0 h3 h1).2.1 (hcs1_F t h0 h3 h1).2.2.1 (hcs1_F t h0 h3 h1).2.2.2 (iblk1 V c 0 t) (iblk1 V c 1 t) (iblk1 V c 2 t) p.2.1 p.2.2.1 p.2.2.2)
      else
        if h2 : t.val % 4 = (t.val / 4) % 4 then
          (VO1_3.read (Elt F) VO1_3.junk,
          sout1_E_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_E t h0 h3 h1 h2).1 (hcs1_E t h0 h3 h1 h2).2.1 (hcs1_E t h0 h3 h1 h2).2.2.1 (hcs1_E t h0 h3 h1 h2).2.2.2 (iblk1 V c 0 t) (iblk1 V c 1 t) (iblk1 V c 2 t) p.2.1 p.2.2.1 p.2.2.2,
          sout1_E_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_E t h0 h3 h1 h2).1 (hcs1_E t h0 h3 h1 h2).2.1 (hcs1_E t h0 h3 h1 h2).2.2.1 (hcs1_E t h0 h3 h1 h2).2.2.2 (iblk1 V c 0 t) (iblk1 V c 1 t) (iblk1 V c 2 t) p.2.1 p.2.2.1 p.2.2.2,
          sout1_E_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_E t h0 h3 h1 h2).1 (hcs1_E t h0 h3 h1 h2).2.1 (hcs1_E t h0 h3 h1 h2).2.2.1 (hcs1_E t h0 h3 h1 h2).2.2.2 (iblk1 V c 0 t) (iblk1 V c 1 t) (iblk1 V c 2 t) p.2.1 p.2.2.1 p.2.2.2)
        else
          (VO1_3.read (Elt F) VO1_3.junk,
          p.2.1,
          p.2.2.1,
          p.2.2.2)

/-- THE ACCUMULATION. What the output's staging buffer, the running maximum, the running sum and the accumulator hold
    after the body at position `n`: the point's step over what position `n - 1` left. -/
def outsAt1 (c : Dev nD) : (n : ℕ) → n < cfg1.N → Vec F S1x1024x64 .f32 × Vec F S1x1024x1 .f32 × Vec F S1x1024x1 .f32 × Vec F S1x1024x64 .f32
  | 0, hn => step1 V c ⟨0, hn⟩ junk1
  | n + 1, hn => step1 V c ⟨n + 1, hn⟩ (outsAt1 c n (Nat.lt_of_succ_lt hn))

/-- After a point that is not the first: the point's step over what the point before left. -/
theorem outsAt1_pos (c : Dev nD) (t : Fin cfg1.N) (hz : t.val ≠ 0) :
    outsAt1 V c t.val t.isLt = step1 V c t (outsAt1 V c (t.val - 1) (Nat.lt_of_le_of_lt (Nat.sub_le _ _) t.isLt)) := by
  obtain ⟨n, hn⟩ := t
  cases n with
  | zero => exact absurd rfl hz
  | succ n => rfl

theorem step1_A (c : Dev nD) (t : Fin cfg1.N) (p : Vec F S1x1024x64 .f32 × Vec F S1x1024x1 .f32 × Vec F S1x1024x1 .f32 × Vec F S1x1024x64 .f32) (h0 : t.val % 4 = 0) (h1 : ¬t.val % 4 < (t.val / 4) % 4) :
    step1 V c t p = (VO1_3.read (Elt F) VO1_3.junk,
          sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_A t h0 h1).1 (hcs1_A t h0 h1).2.1 (hcs1_A t h0 h1).2.2.1 (hcs1_A t h0 h1).2.2.2 (iblk1 V c 0 t) (iblk1 V c 1 t) (iblk1 V c 2 t),
          sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_A t h0 h1).1 (hcs1_A t h0 h1).2.1 (hcs1_A t h0 h1).2.2.1 (hcs1_A t h0 h1).2.2.2 (iblk1 V c 0 t) (iblk1 V c 1 t) (iblk1 V c 2 t),
          sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_A t h0 h1).1 (hcs1_A t h0 h1).2.1 (hcs1_A t h0 h1).2.2.1 (hcs1_A t h0 h1).2.2.2 (iblk1 V c 0 t) (iblk1 V c 1 t) (iblk1 V c 2 t)) := by
  unfold step1; exact (dif_pos h0).trans ((dif_neg h1).trans (rfl))

theorem step1_B (c : Dev nD) (t : Fin cfg1.N) (p : Vec F S1x1024x64 .f32 × Vec F S1x1024x1 .f32 × Vec F S1x1024x1 .f32 × Vec F S1x1024x64 .f32) (h0 : ¬t.val % 4 = 0) (h3 : ¬t.val % 4 = 3) (h1 : ¬t.val % 4 < (t.val / 4) % 4) (h2 : ¬t.val % 4 = (t.val / 4) % 4) :
    step1 V c t p = (VO1_3.read (Elt F) VO1_3.junk,
          p.2.1,
          p.2.2.1,
          p.2.2.2) := by
  unfold step1; exact (dif_neg h0).trans ((dif_neg h3).trans ((dif_neg h1).trans ((dif_neg h2).trans (rfl))))

theorem step1_C (c : Dev nD) (t : Fin cfg1.N) (p : Vec F S1x1024x64 .f32 × Vec F S1x1024x1 .f32 × Vec F S1x1024x1 .f32 × Vec F S1x1024x64 .f32) (h0 : ¬t.val % 4 = 0) (h3 : t.val % 4 = 3) (h2 : ¬t.val % 4 = (t.val / 4) % 4) :
    step1 V c t p = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_C t h0 h3 h2).1 (hcs1_C t h0 h3 h2).2.1 (hcs1_C t h0 h3 h2).2.2.1 (hcs1_C t h0 h3 h2).2.2.2 (iblk1 V c 0 t) (iblk1 V c 1 t) (iblk1 V c 2 t) p.2.1 p.2.2.1 p.2.2.2,
          p.2.1,
          p.2.2.1,
          p.2.2.2) := by
  unfold step1; exact (dif_neg h0).trans ((dif_pos h3).trans ((dif_neg h2).trans (rfl)))

theorem step1_D (c : Dev nD) (t : Fin cfg1.N) (p : Vec F S1x1024x64 .f32 × Vec F S1x1024x1 .f32 × Vec F S1x1024x1 .f32 × Vec F S1x1024x64 .f32) (h0 : t.val % 4 = 0) (h1 : t.val % 4 < (t.val / 4) % 4) :
    step1 V c t p = (VO1_3.read (Elt F) VO1_3.junk,
          sout1_D_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_D t h0 h1).1 (hcs1_D t h0 h1).2.1 (hcs1_D t h0 h1).2.2.1 (hcs1_D t h0 h1).2.2.2 (iblk1 V c 0 t) (iblk1 V c 1 t) (iblk1 V c 2 t),
          sout1_D_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_D t h0 h1).1 (hcs1_D t h0 h1).2.1 (hcs1_D t h0 h1).2.2.1 (hcs1_D t h0 h1).2.2.2 (iblk1 V c 0 t) (iblk1 V c 1 t) (iblk1 V c 2 t),
          sout1_D_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_D t h0 h1).1 (hcs1_D t h0 h1).2.1 (hcs1_D t h0 h1).2.2.1 (hcs1_D t h0 h1).2.2.2 (iblk1 V c 0 t) (iblk1 V c 1 t) (iblk1 V c 2 t)) := by
  unfold step1; exact (dif_pos h0).trans ((dif_pos h1).trans (rfl))

theorem step1_E (c : Dev nD) (t : Fin cfg1.N) (p : Vec F S1x1024x64 .f32 × Vec F S1x1024x1 .f32 × Vec F S1x1024x1 .f32 × Vec F S1x1024x64 .f32) (h0 : ¬t.val % 4 = 0) (h3 : ¬t.val % 4 = 3) (h1 : ¬t.val % 4 < (t.val / 4) % 4) (h2 : t.val % 4 = (t.val / 4) % 4) :
    step1 V c t p = (VO1_3.read (Elt F) VO1_3.junk,
          sout1_E_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_E t h0 h3 h1 h2).1 (hcs1_E t h0 h3 h1 h2).2.1 (hcs1_E t h0 h3 h1 h2).2.2.1 (hcs1_E t h0 h3 h1 h2).2.2.2 (iblk1 V c 0 t) (iblk1 V c 1 t) (iblk1 V c 2 t) p.2.1 p.2.2.1 p.2.2.2,
          sout1_E_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_E t h0 h3 h1 h2).1 (hcs1_E t h0 h3 h1 h2).2.1 (hcs1_E t h0 h3 h1 h2).2.2.1 (hcs1_E t h0 h3 h1 h2).2.2.2 (iblk1 V c 0 t) (iblk1 V c 1 t) (iblk1 V c 2 t) p.2.1 p.2.2.1 p.2.2.2,
          sout1_E_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_E t h0 h3 h1 h2).1 (hcs1_E t h0 h3 h1 h2).2.1 (hcs1_E t h0 h3 h1 h2).2.2.1 (hcs1_E t h0 h3 h1 h2).2.2.2 (iblk1 V c 0 t) (iblk1 V c 1 t) (iblk1 V c 2 t) p.2.1 p.2.2.1 p.2.2.2) := by
  unfold step1; exact (dif_neg h0).trans ((dif_neg h3).trans ((dif_neg h1).trans ((dif_pos h2).trans (rfl))))

theorem step1_F (c : Dev nD) (t : Fin cfg1.N) (p : Vec F S1x1024x64 .f32 × Vec F S1x1024x1 .f32 × Vec F S1x1024x1 .f32 × Vec F S1x1024x64 .f32) (h0 : ¬t.val % 4 = 0) (h3 : ¬t.val % 4 = 3) (h1 : t.val % 4 < (t.val / 4) % 4) :
    step1 V c t p = (VO1_3.read (Elt F) VO1_3.junk,
          sout1_F_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_F t h0 h3 h1).1 (hcs1_F t h0 h3 h1).2.1 (hcs1_F t h0 h3 h1).2.2.1 (hcs1_F t h0 h3 h1).2.2.2 (iblk1 V c 0 t) (iblk1 V c 1 t) (iblk1 V c 2 t) p.2.1 p.2.2.1 p.2.2.2,
          sout1_F_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_F t h0 h3 h1).1 (hcs1_F t h0 h3 h1).2.1 (hcs1_F t h0 h3 h1).2.2.1 (hcs1_F t h0 h3 h1).2.2.2 (iblk1 V c 0 t) (iblk1 V c 1 t) (iblk1 V c 2 t) p.2.1 p.2.2.1 p.2.2.2,
          sout1_F_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_F t h0 h3 h1).1 (hcs1_F t h0 h3 h1).2.1 (hcs1_F t h0 h3 h1).2.2.1 (hcs1_F t h0 h3 h1).2.2.2 (iblk1 V c 0 t) (iblk1 V c 1 t) (iblk1 V c 2 t) p.2.1 p.2.2.1 p.2.2.2) := by
  unfold step1; exact (dif_neg h0).trans ((dif_neg h3).trans ((dif_pos h1).trans (rfl)))

theorem step1_G (c : Dev nD) (t : Fin cfg1.N) (p : Vec F S1x1024x64 .f32 × Vec F S1x1024x1 .f32 × Vec F S1x1024x1 .f32 × Vec F S1x1024x64 .f32) (h0 : ¬t.val % 4 = 0) (h3 : t.val % 4 = 3) (h2 : t.val % 4 = (t.val / 4) % 4) :
    step1 V c t p = (out1_G_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_G t h0 h3 h2).1 (hcs1_G t h0 h3 h2).2.1 (hcs1_G t h0 h3 h2).2.2.1 (hcs1_G t h0 h3 h2).2.2.2 (iblk1 V c 0 t) (iblk1 V c 1 t) (iblk1 V c 2 t) p.2.1 p.2.2.1 p.2.2.2,
          sout1_G_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_G t h0 h3 h2).1 (hcs1_G t h0 h3 h2).2.1 (hcs1_G t h0 h3 h2).2.2.1 (hcs1_G t h0 h3 h2).2.2.2 (iblk1 V c 0 t) (iblk1 V c 1 t) (iblk1 V c 2 t) p.2.1 p.2.2.1 p.2.2.2,
          sout1_G_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_G t h0 h3 h2).1 (hcs1_G t h0 h3 h2).2.1 (hcs1_G t h0 h3 h2).2.2.1 (hcs1_G t h0 h3 h2).2.2.2 (iblk1 V c 0 t) (iblk1 V c 1 t) (iblk1 V c 2 t) p.2.1 p.2.2.1 p.2.2.2,
          sout1_G_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_G t h0 h3 h2).1 (hcs1_G t h0 h3 h2).2.1 (hcs1_G t h0 h3 h2).2.2.1 (hcs1_G t h0 h3 h2).2.2.2 (iblk1 V c 0 t) (iblk1 V c 1 t) (iblk1 V c 2 t) p.2.1 p.2.2.1 p.2.2.2) := by
  unfold step1; exact (dif_neg h0).trans ((dif_pos h3).trans ((dif_pos h2).trans (rfl)))

/-- `outsAt1` at a point of case A: that case's contents (all three scratch operands are overwritten first). -/
theorem outsAt1_A (c : Dev nD) (t : Fin cfg1.N) (h0 : t.val % 4 = 0) (h1 : ¬t.val % 4 < (t.val / 4) % 4) :
    outsAt1 V c t.val t.isLt = (VO1_3.read (Elt F) VO1_3.junk,
          sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_A t h0 h1).1 (hcs1_A t h0 h1).2.1 (hcs1_A t h0 h1).2.2.1 (hcs1_A t h0 h1).2.2.2 (iblk1 V c 0 t) (iblk1 V c 1 t) (iblk1 V c 2 t),
          sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_A t h0 h1).1 (hcs1_A t h0 h1).2.1 (hcs1_A t h0 h1).2.2.1 (hcs1_A t h0 h1).2.2.2 (iblk1 V c 0 t) (iblk1 V c 1 t) (iblk1 V c 2 t),
          sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_A t h0 h1).1 (hcs1_A t h0 h1).2.1 (hcs1_A t h0 h1).2.2.1 (hcs1_A t h0 h1).2.2.2 (iblk1 V c 0 t) (iblk1 V c 1 t) (iblk1 V c 2 t)) := by
  obtain ⟨n, hn⟩ := t
  cases n with
  | zero => exact step1_A V c _ _ h0 h1
  | succ n => exact (step1_A V c _ _ h0 h1).trans rfl

/-- `outsAt1` at a point of case B: that case's contents, over what the point before left. -/
theorem outsAt1_B (c : Dev nD) (t : Fin cfg1.N) (h0 : ¬t.val % 4 = 0) (h3 : ¬t.val % 4 = 3) (h1 : ¬t.val % 4 < (t.val / 4) % 4) (h2 : ¬t.val % 4 = (t.val / 4) % 4) :
    outsAt1 V c t.val t.isLt = (VO1_3.read (Elt F) VO1_3.junk,
          (outsAt1 V c (t.val - 1) (Nat.lt_of_le_of_lt (Nat.sub_le _ _) t.isLt)).2.1,
          (outsAt1 V c (t.val - 1) (Nat.lt_of_le_of_lt (Nat.sub_le _ _) t.isLt)).2.2.1,
          (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact step1_B V c _ _ h0 h3 h1 h2

/-- `outsAt1` at a point of case C: that case's contents, over what the point before left. -/
theorem outsAt1_C (c : Dev nD) (t : Fin cfg1.N) (h0 : ¬t.val % 4 = 0) (h3 : t.val % 4 = 3) (h2 : ¬t.val % 4 = (t.val / 4) % 4) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_C t h0 h3 h2).1 (hcs1_C t h0 h3 h2).2.1 (hcs1_C t h0 h3 h2).2.2.1 (hcs1_C t h0 h3 h2).2.2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
          (outsAt1 V c (t.val - 1) (Nat.lt_of_le_of_lt (Nat.sub_le _ _) t.isLt)).2.1,
          (outsAt1 V c (t.val - 1) (Nat.lt_of_le_of_lt (Nat.sub_le _ _) t.isLt)).2.2.1,
          (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact step1_C V c _ _ h0 h3 h2

/-- `outsAt1` at a point of case D: that case's contents (all three scratch operands are overwritten first). -/
theorem outsAt1_D (c : Dev nD) (t : Fin cfg1.N) (h0 : t.val % 4 = 0) (h1 : t.val % 4 < (t.val / 4) % 4) :
    outsAt1 V c t.val t.isLt = (VO1_3.read (Elt F) VO1_3.junk,
          sout1_D_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_D t h0 h1).1 (hcs1_D t h0 h1).2.1 (hcs1_D t h0 h1).2.2.1 (hcs1_D t h0 h1).2.2.2 (iblk1 V c 0 t) (iblk1 V c 1 t) (iblk1 V c 2 t),
          sout1_D_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_D t h0 h1).1 (hcs1_D t h0 h1).2.1 (hcs1_D t h0 h1).2.2.1 (hcs1_D t h0 h1).2.2.2 (iblk1 V c 0 t) (iblk1 V c 1 t) (iblk1 V c 2 t),
          sout1_D_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_D t h0 h1).1 (hcs1_D t h0 h1).2.1 (hcs1_D t h0 h1).2.2.1 (hcs1_D t h0 h1).2.2.2 (iblk1 V c 0 t) (iblk1 V c 1 t) (iblk1 V c 2 t)) := by
  obtain ⟨n, hn⟩ := t
  cases n with
  | zero => exact step1_D V c _ _ h0 h1
  | succ n => exact (step1_D V c _ _ h0 h1).trans rfl

/-- `outsAt1` at a point of case E: that case's contents, over what the point before left. -/
theorem outsAt1_E (c : Dev nD) (t : Fin cfg1.N) (h0 : ¬t.val % 4 = 0) (h3 : ¬t.val % 4 = 3) (h1 : ¬t.val % 4 < (t.val / 4) % 4) (h2 : t.val % 4 = (t.val / 4) % 4) :
    outsAt1 V c t.val t.isLt = (VO1_3.read (Elt F) VO1_3.junk,
          sout1_E_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_E t h0 h3 h1 h2).1 (hcs1_E t h0 h3 h1 h2).2.1 (hcs1_E t h0 h3 h1 h2).2.2.1 (hcs1_E t h0 h3 h1 h2).2.2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
          sout1_E_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_E t h0 h3 h1 h2).1 (hcs1_E t h0 h3 h1 h2).2.1 (hcs1_E t h0 h3 h1 h2).2.2.1 (hcs1_E t h0 h3 h1 h2).2.2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
          sout1_E_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_E t h0 h3 h1 h2).1 (hcs1_E t h0 h3 h1 h2).2.1 (hcs1_E t h0 h3 h1 h2).2.2.1 (hcs1_E t h0 h3 h1 h2).2.2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact step1_E V c _ _ h0 h3 h1 h2

/-- `outsAt1` at a point of case F: that case's contents, over what the point before left. -/
theorem outsAt1_F (c : Dev nD) (t : Fin cfg1.N) (h0 : ¬t.val % 4 = 0) (h3 : ¬t.val % 4 = 3) (h1 : t.val % 4 < (t.val / 4) % 4) :
    outsAt1 V c t.val t.isLt = (VO1_3.read (Elt F) VO1_3.junk,
          sout1_F_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_F t h0 h3 h1).1 (hcs1_F t h0 h3 h1).2.1 (hcs1_F t h0 h3 h1).2.2.1 (hcs1_F t h0 h3 h1).2.2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
          sout1_F_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_F t h0 h3 h1).1 (hcs1_F t h0 h3 h1).2.1 (hcs1_F t h0 h3 h1).2.2.1 (hcs1_F t h0 h3 h1).2.2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
          sout1_F_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_F t h0 h3 h1).1 (hcs1_F t h0 h3 h1).2.1 (hcs1_F t h0 h3 h1).2.2.1 (hcs1_F t h0 h3 h1).2.2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact step1_F V c _ _ h0 h3 h1

/-- `outsAt1` at a point of case G: that case's contents, over what the point before left. -/
theorem outsAt1_G (c : Dev nD) (t : Fin cfg1.N) (h0 : ¬t.val % 4 = 0) (h3 : t.val % 4 = 3) (h2 : t.val % 4 = (t.val / 4) % 4) :
    outsAt1 V c t.val t.isLt = (out1_G_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_G t h0 h3 h2).1 (hcs1_G t h0 h3 h2).2.1 (hcs1_G t h0 h3 h2).2.2.1 (hcs1_G t h0 h3 h2).2.2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
          sout1_G_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_G t h0 h3 h2).1 (hcs1_G t h0 h3 h2).2.1 (hcs1_G t h0 h3 h2).2.2.1 (hcs1_G t h0 h3 h2).2.2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
          sout1_G_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_G t h0 h3 h2).1 (hcs1_G t h0 h3 h2).2.1 (hcs1_G t h0 h3 h2).2.2.1 (hcs1_G t h0 h3 h2).2.2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
          sout1_G_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_G t h0 h3 h2).1 (hcs1_G t h0 h3 h2).2.1 (hcs1_G t h0 h3 h2).2.2.1 (hcs1_G t h0 h3 h2).2.2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact step1_G V c _ _ h0 h3 h2

/-! ## The region's invariant -/

/-- The invariant before position `n`: before the first point the region's own (every scratch operand at anything);
    afterwards the same with the three scratch operands at what the point before left in them. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2) ∗ (∃ r, prngReg c r)) := by
  cases n with
  | zero => exact absurd rfl hz
  | succ n => rfl

/-! ## The pipeline's proof data -/

/-- The proof data of pipeline 1 on core `c`: the arrays as the region finds them; after the body at point `t` each
    input's buffer at its block and the output's at `outsAt1`'s first component; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 16000000 in
/-- The body at any point: the inputs' memrefs hold their blocks; the closed forms say which case the point is in; the
    invariant hands the body the three scratch operands at what the point before left (at anything at the first
    point) and takes them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 4 = 0
  · by_cases h1 : t.val % 4 < (t.val / 4) % 4
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (hcs1_D t h0 h1).2.2.2) (noFlush1_3 t (hcs1_D t h0 h1).2.2.2)]
      rw [outsAt1_D V c t h0 h1]
      unfold sout1_D_0 sout1_D_1 sout1_D_2; (try dsimp only)
      have hz : t.val ≠ 0 := by omega
      rw [PhiS1_castSucc V c t, PhiS1_pos V c _ _ hz]
      iintro ⟨⟨⟨R0, R1, R2, R3, R4, R5, R6, R7, R8, R9, R10, HS0, HS1, HS2⟩, Hg⟩, Ho, ⟨%d0, H0⟩, ⟨%d1, H1⟩, ⟨%d2, H2⟩, ⟨%d3, H3⟩⟩
      iapply ((kernelRun1_D c (grid1.coords t) _ _ _ _ _ _ _ _ _ _ _ _ _ _ (hcs1_D t h0 h1).1 (hcs1_D t h0 h1).2.1 (hcs1_D t h0 h1).2.2.1 (hcs1_D t h0 h1).2.2.2 (iblk1 V c 0 t) (iblk1 V c 1 t) (iblk1 V c 2 t)).2.2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [R0 R1 R2 R3 R4 R5 R6 R7 R8 R9 R10 HS0 HS1 HS2 Hg]
      · isplitl [R0 R1 R2 R3 R4 R5 R6 R7 R8 R9 R10 HS0 HS1 HS2]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [HS0]
          · unfold owns; iexists _; isplitr
            swap; · iexact HS0
            ipureintro; exact View.read_writes_of_cover _ _ _ _ _ (scover1_D_0 _ _ _ _ _ _ _ _ _ _ _ _ _ _ _ _ _ _ _ _ _ _ _)
          isplitl [HS1]
          · unfold owns; iexists _; isplitr
            swap; · iexact HS1
            ipureintro; exact View.read_writes_of_cover _ _ _ _ _ (scover1_D_1 _ _ _ _ _ _ _ _ _ _ _ _ _ _ _ _ _ _ _ _ _ _ _)
          · unfold owns; iexists _; isplitr
            swap; · iexact HS2
            ipureintro; exact View.read_writes_of_cover _ _ _ _ _ (scover1_D_2 _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (hcs1_A t h0 h1).2.2.2) (noFlush1_3 t (hcs1_A t h0 h1).2.2.2)]
      rw [outsAt1_A V c t h0 h1]
      unfold sout1_A_0 sout1_A_1 sout1_A_2; (try dsimp only)
      by_cases hz : t.val = 0
      ·
        rw [PhiS1_castSucc V c t, PhiS1_zero V c _ _ hz, PhiA1_eq]
        iintro ⟨⟨⟨R0, R1, R2, R3, R4, R5, R6, R7, R8, R9, R10, HS0, HS1, HS2⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ (hcs1_A t h0 h1).1 (hcs1_A t h0 h1).2.1 (hcs1_A t h0 h1).2.2.1 (hcs1_A t h0 h1).2.2.2 (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [R0 R1 R2 R3 R4 R5 R6 R7 R8 R9 R10 HS0 HS1 HS2 Hg]
        · isplitl [R0 R1 R2 R3 R4 R5 R6 R7 R8 R9 R10 HS0 HS1 HS2]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [HS0]
            · unfold owns; iexists _; isplitr
              swap; · iexact HS0
              ipureintro; exact View.read_writes_of_cover _ _ _ _ _ (scover1_A_0 _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 _ _ _ _ _ _ _ _ _ _ _ _ _ _ _ _ _ _ _ _ _ _ _)
            · unfold owns; iexists _; isplitr
              swap; · iexact HS2
              ipureintro; exact View.read_writes_of_cover _ _ _ _ _ (scover1_A_2 _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      ·
        rw [PhiS1_castSucc V c t, PhiS1_pos V c _ _ hz]
        iintro ⟨⟨⟨R0, R1, R2, R3, R4, R5, R6, R7, R8, R9, R10, HS0, HS1, HS2⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ (hcs1_A t h0 h1).1 (hcs1_A t h0 h1).2.1 (hcs1_A t h0 h1).2.2.1 (hcs1_A t h0 h1).2.2.2 (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [R0 R1 R2 R3 R4 R5 R6 R7 R8 R9 R10 HS0 HS1 HS2 Hg]
        · isplitl [R0 R1 R2 R3 R4 R5 R6 R7 R8 R9 R10 HS0 HS1 HS2]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [HS0]
            · unfold owns; iexists _; isplitr
              swap; · iexact HS0
              ipureintro; exact View.read_writes_of_cover _ _ _ _ _ (scover1_A_0 _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 _ _ _ _ _ _ _ _ _ _ _ _ _ _ _ _ _ _ _ _ _ _ _)
            · unfold owns; iexists _; isplitr
              swap; · iexact HS2
              ipureintro; exact View.read_writes_of_cover _ _ _ _ _ (scover1_A_2 _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h3 : t.val % 4 = 3
    · by_cases h2 : t.val % 4 = (t.val / 4) % 4
      ·
        rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [show (dat1 V c).leavesExact 3 t = owns (c : Thread nD τ) (ms1_3 t) fullShare ((dat1 V c).after 3 t) from by
          unfold Dat.leavesExact; rw [liveAt1_3 t (hcs1_G t h0 h3 h2).2.2.2], after1_3]
        rw [outsAt1_G V c t h0 h3 h2]
        unfold out1_G_3 sout1_G_0 sout1_G_1 sout1_G_2; (try dsimp only)
        have hz : t.val ≠ 0 := by omega
        rw [PhiS1_castSucc V c t, PhiS1_pos V c _ _ hz]
        iintro ⟨⟨⟨R0, R1, R2, R3, R4, R5, R6, R7, R8, R9, R10, HS0, HS1, HS2⟩, Hg⟩, Ho, ⟨%d0, H0⟩, ⟨%d1, H1⟩, ⟨%d2, H2⟩, ⟨%d3, H3⟩⟩
        iapply ((kernelRun1_G c (grid1.coords t) _ _ _ _ _ _ _ _ _ _ _ _ _ _ (hcs1_G t h0 h3 h2).1 (hcs1_G t h0 h3 h2).2.1 (hcs1_G t h0 h3 h2).2.2.1 (hcs1_G t h0 h3 h2).2.2.2 (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [R0 R1 R2 R3 R4 R5 R6 R7 R8 R9 R10 HS0 HS1 HS2 Hg]
        · isplitl [R0 R1 R2 R3 R4 R5 R6 R7 R8 R9 R10 HS0 HS1 HS2]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [HS0]
            · unfold owns; iexists _; isplitr
              swap; · iexact HS0
              ipureintro; exact View.read_writes_of_cover _ _ _ _ _ (scover1_G_0 _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_G_1 _ _ _ _ _ _ _ _ _ _ _ _ _ _ _ _ _ _ _ _ _ _ _ _ _ _)
            · unfold owns; iexists _; isplitr
              swap; · iexact HS2
              ipureintro; exact View.read_writes_of_cover _ _ _ _ _ (scover1_G_2 _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_G_3 _ _ _ _ _ _ _ _ _ _ _ _ _ _ _ _ _ _ _ _ _ _ _ _ _ _)
      ·
        rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [show (dat1 V c).leavesExact 3 t = owns (c : Thread nD τ) (ms1_3 t) fullShare ((dat1 V c).after 3 t) from by
          unfold Dat.leavesExact; rw [liveAt1_3 t (hcs1_C t h0 h3 h2).2.2.2], after1_3]
        rw [outsAt1_C V c t h0 h3 h2]
        unfold out1_C_3; (try dsimp only)
        have hz : t.val ≠ 0 := by omega
        rw [PhiS1_castSucc V c t, PhiS1_pos V c _ _ hz]
        iintro ⟨⟨⟨R0, R1, R2, R3, R4, R5, R6, R7, R8, R9, R10, HS0, HS1, HS2⟩, Hg⟩, Ho, ⟨%d0, H0⟩, ⟨%d1, H1⟩, ⟨%d2, H2⟩, ⟨%d3, H3⟩⟩
        iapply ((kernelRun1_C c (grid1.coords t) _ _ _ _ _ _ _ _ _ _ _ _ _ _ (hcs1_C t h0 h3 h2).1 (hcs1_C t h0 h3 h2).2.1 (hcs1_C t h0 h3 h2).2.2.1 (hcs1_C t h0 h3 h2).2.2.2 (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, HS0, HS1, HS2⟩
        isplitl [R0 R1 R2 R3 R4 R5 R6 R7 R8 R9 R10 HS0 HS1 HS2 Hg]
        · isplitl [R0 R1 R2 R3 R4 R5 R6 R7 R8 R9 R10 HS0 HS1 HS2]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [HS0]; · iexact HS0
            isplitl [HS1]; · iexact HS1
            iexact HS2
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 _ _ _ _ _ _ _ _ _ _ _ _ _ _ _ _ _ _ _ _ _ _ _ _ _ _)
    · by_cases h1 : t.val % 4 < (t.val / 4) % 4
      ·
        rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [Dat.leavesExact_idle (dat1 V c) 3 t (idleAt1_3 t (hcs1_F t h0 h3 h1).2.2.2) (noFlush1_3 t (hcs1_F t h0 h3 h1).2.2.2)]
        rw [outsAt1_F V c t h0 h3 h1]
        unfold sout1_F_0 sout1_F_1 sout1_F_2; (try dsimp only)
        have hz : t.val ≠ 0 := by omega
        rw [PhiS1_castSucc V c t, PhiS1_pos V c _ _ hz]
        iintro ⟨⟨⟨R0, R1, R2, R3, R4, R5, R6, R7, R8, R9, R10, HS0, HS1, HS2⟩, Hg⟩, Ho, ⟨%d0, H0⟩, ⟨%d1, H1⟩, ⟨%d2, H2⟩, ⟨%d3, H3⟩⟩
        iapply ((kernelRun1_F c (grid1.coords t) _ _ _ _ _ _ _ _ _ _ _ _ _ _ (hcs1_F t h0 h3 h1).1 (hcs1_F t h0 h3 h1).2.1 (hcs1_F t h0 h3 h1).2.2.1 (hcs1_F t h0 h3 h1).2.2.2 (iblk1 V c 0 t) (iblk1 V c 1 t) (iblk1 V c 2 t) _ _ _).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [R0 R1 R2 R3 R4 R5 R6 R7 R8 R9 R10 HS0 HS1 HS2 Hg]
        · isplitl [R0 R1 R2 R3 R4 R5 R6 R7 R8 R9 R10 HS0 HS1 HS2]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [HS0]
            · unfold owns; iexists _; isplitr
              swap; · iexact HS0
              ipureintro; exact View.read_writes_of_cover _ _ _ _ _ (scover1_F_0 _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_F_1 _ _ _ _ _ _ _ _ _ _ _ _ _ _ _ _ _ _ _ _ _ _ _ _ _ _)
            · unfold owns; iexists _; isplitr
              swap; · iexact HS2
              ipureintro; exact View.read_writes_of_cover _ _ _ _ _ (scover1_F_2 _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · by_cases h2 : t.val % 4 = (t.val / 4) % 4
        ·
          rw [show (dat1 V c).leavesExact 0 t = owns (c : Thread nD τ) (ms1_0 t) fullShare ((dat1 V c).after 0 t) from by
            unfold Dat.leavesExact; rw [liveAt1_0 t], after1_0]
          rw [show (dat1 V c).leavesExact 1 t = owns (c : Thread nD τ) (ms1_1 t) fullShare ((dat1 V c).after 1 t) from by
            unfold Dat.leavesExact; rw [liveAt1_1 t], after1_1]
          rw [show (dat1 V c).leavesExact 2 t = owns (c : Thread nD τ) (ms1_2 t) fullShare ((dat1 V c).after 2 t) from by
            unfold Dat.leavesExact; rw [liveAt1_2 t], after1_2]
          rw [Dat.leavesExact_idle (dat1 V c) 3 t (idleAt1_3 t (hcs1_E t h0 h3 h1 h2).2.2.2) (noFlush1_3 t (hcs1_E t h0 h3 h1 h2).2.2.2)]
          rw [outsAt1_E V c t h0 h3 h1 h2]
          unfold sout1_E_0 sout1_E_1 sout1_E_2; (try dsimp only)
          have hz : t.val ≠ 0 := by omega
          rw [PhiS1_castSucc V c t, PhiS1_pos V c _ _ hz]
          iintro ⟨⟨⟨R0, R1, R2, R3, R4, R5, R6, R7, R8, R9, R10, HS0, HS1, HS2⟩, Hg⟩, Ho, ⟨%d0, H0⟩, ⟨%d1, H1⟩, ⟨%d2, H2⟩, ⟨%d3, H3⟩⟩
          iapply ((kernelRun1_E c (grid1.coords t) _ _ _ _ _ _ _ _ _ _ _ _ _ _ (hcs1_E t h0 h3 h1 h2).1 (hcs1_E t h0 h3 h1 h2).2.1 (hcs1_E t h0 h3 h1 h2).2.2.1 (hcs1_E t h0 h3 h1 h2).2.2.2 (iblk1 V c 0 t) (iblk1 V c 1 t) (iblk1 V c 2 t) _ _ _).2.2.2.2 _ Set.univ _)
          isplitl [H0]; · iexact H0
          isplitl [H1]; · iexact H1
          isplitl [H2]; · iexact H2
          isplitl [H3]; · iexact H3
          isplitl [HS0]; · iexact HS0
          isplitl [HS1]; · iexact HS1
          isplitl [HS2]; · iexact HS2
          iintro ⟨H0, H1, H2, H3, ⟨%es0, HS0⟩, ⟨%es1, HS1⟩, ⟨%es2, HS2⟩⟩
          isplitl [R0 R1 R2 R3 R4 R5 R6 R7 R8 R9 R10 HS0 HS1 HS2 Hg]
          · isplitl [R0 R1 R2 R3 R4 R5 R6 R7 R8 R9 R10 HS0 HS1 HS2]
            · isplitl [R0]; · iexact R0
              isplitl [R1]; · iexact R1
              isplitl [R2]; · iexact R2
              isplitl [R3]; · iexact R3
              isplitl [R4]; · iexact R4
              isplitl [R5]; · iexact R5
              isplitl [R6]; · iexact R6
              isplitl [R7]; · iexact R7
              isplitl [R8]; · iexact R8
              isplitl [R9]; · iexact R9
              isplitl [R10]; · iexact R10
              isplitl [HS0]
              · unfold owns; iexists _; isplitr
                swap; · iexact HS0
                ipureintro; exact View.read_writes_of_cover _ _ _ _ _ (scover1_E_0 _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover1_E_1 _ _ _ _ _ _ _ _ _ _ _ _ _ _ _ _ _ _ _ _ _ _ _ _ _ _)
              · unfold owns; iexists _; isplitr
                swap; · iexact HS2
                ipureintro; exact View.read_writes_of_cover _ _ _ _ _ (scover1_E_2 _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          iexists _; iexact H3
        ·
          rw [show (dat1 V c).leavesExact 0 t = owns (c : Thread nD τ) (ms1_0 t) fullShare ((dat1 V c).after 0 t) from by
            unfold Dat.leavesExact; rw [liveAt1_0 t], after1_0]
          rw [show (dat1 V c).leavesExact 1 t = owns (c : Thread nD τ) (ms1_1 t) fullShare ((dat1 V c).after 1 t) from by
            unfold Dat.leavesExact; rw [liveAt1_1 t], after1_1]
          rw [show (dat1 V c).leavesExact 2 t = owns (c : Thread nD τ) (ms1_2 t) fullShare ((dat1 V c).after 2 t) from by
            unfold Dat.leavesExact; rw [liveAt1_2 t], after1_2]
          rw [Dat.leavesExact_idle (dat1 V c) 3 t (idleAt1_3 t (hcs1_B t h0 h3 h1 h2).2.2.2) (noFlush1_3 t (hcs1_B t h0 h3 h1 h2).2.2.2)]
          rw [outsAt1_B V c t h0 h3 h1 h2]
          (try dsimp only)
          have hz : t.val ≠ 0 := by omega
          rw [PhiS1_castSucc V c t, PhiS1_pos V c _ _ hz]
          iintro ⟨⟨⟨R0, R1, R2, R3, R4, R5, R6, R7, R8, R9, R10, HS0, HS1, HS2⟩, Hg⟩, Ho, ⟨%d0, H0⟩, ⟨%d1, H1⟩, ⟨%d2, H2⟩, ⟨%d3, H3⟩⟩
          iapply ((kernelRun1_B c (grid1.coords t) _ _ _ _ _ _ _ _ _ _ _ _ _ _ (hcs1_B t h0 h3 h1 h2).1 (hcs1_B t h0 h3 h1 h2).2.1 (hcs1_B t h0 h3 h1 h2).2.2.1 (hcs1_B t h0 h3 h1 h2).2.2.2 (iblk1 V c 0 t) (iblk1 V c 1 t) (iblk1 V c 2 t) _ _ _).2.2.2.2 _ Set.univ _)
          isplitl [H0]; · iexact H0
          isplitl [H1]; · iexact H1
          isplitl [H2]; · iexact H2
          isplitl [H3]; · iexact H3
          isplitl [HS0]; · iexact HS0
          isplitl [HS1]; · iexact HS1
          isplitl [HS2]; · iexact HS2
          iintro ⟨H0, H1, H2, H3, HS0, HS1, HS2⟩
          isplitl [R0 R1 R2 R3 R4 R5 R6 R7 R8 R9 R10 HS0 HS1 HS2 Hg]
          · isplitl [R0 R1 R2 R3 R4 R5 R6 R7 R8 R9 R10 HS0 HS1 HS2]
            · isplitl [R0]; · iexact R0
              isplitl [R1]; · iexact R1
              isplitl [R2]; · iexact R2
              isplitl [R3]; · iexact R3
              isplitl [R4]; · iexact R4
              isplitl [R5]; · iexact R5
              isplitl [R6]; · iexact R6
              isplitl [R7]; · iexact R7
              isplitl [R8]; · iexact R8
              isplitl [R9]; · iexact R9
              isplitl [R10]; · iexact R10
              isplitl [HS0]; · iexact HS0
              isplitl [HS1]; · iexact HS1
              iexact HS2
            iexact Hg
          isplitl [Ho]; · iexact Ho
          isplitl [H0]; · iexact H0
          isplitl [H1]; · iexact H1
          isplitl [H2]; · iexact H2
          iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the region's own back: the scratch operands' named contents are
    forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨R0, R1, R2, R3, R4, R5, R6, R7, R8, R9, R10, HS0, HS1, HS2⟩, Hg⟩
  isplitl [R0 R1 R2 R3 R4 R5 R6 R7 R8 R9 R10 HS0 HS1 HS2]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [HS0]; · iexists _; iexact HS0
    isplitl [HS1]; · iexists _; iexact HS1
    iexists _; iexact HS2
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Cert.Kernel.H

end
-- ==== Proof.K.Run.lean ====
import proofs.«116450_j75076028334813_2_alg».proof.Proof.K.RunW
import proofs.«116450_j75076028334813_2_alg».proof.Proof.K.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run, continued: region 1's exit contents, the arguments read back, the segments and the launch

(the boundary contents up to region 0's exit are the imported fold `W0`, `W1`, `W2`) -/

/-- At region 1's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`). -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched: no host operation and no region writes one (region 0 reads `main_arg0`,
    `main_arg2`, `main_arg3` through input windows, which the pipeline leaves as entered; `main_arg1` is no
    window's array of either region; region 1 has no argument among its arrays), so the fold at an argument's buffer
    walks back to the launch memory -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := (W2_arr m ρ c 3).trans (((dat0 (V1 m ρ) c).arrAt_in 3 rfl _).trans (A_eq0 (V1 m ρ) c 3))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (each region's
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along (its `post`
    is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of `hostOps0` allocates a buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the chain ends at it beside the core owing nothing): every unscoped
    buffer at the last boundary's contents `W3`, the generator register at some state. -/
abbrev Tₙ (c : Dev nD) : sProp 𝕄 := iprop(StableHlo.held (c : Thread nD τ) (Pipeline.ucRefs τ sig) (W3 m ρ c) ∗ ∃ r, prngReg c r)

/-! ## The regions as segments -/

-- unifying a library lemma stated over the pinned configuration with the printed one takes unfolding plain
-- definitions in a metavariable's type
set_option backward.isDefEq.respectTransparency.types false in
/-- REGION 0 (custom_call 0) over the thread state: entered from every unscoped buffer at `W1`, left at the
    next boundary's contents. Its arrays are split out of the unscoped buffers and put back at the exit contents; the
    generator register goes into the invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one takes unfolding plain
-- definitions in a metavariable's type
set_option backward.isDefEq.respectTransparency.types false in
/-- REGION 1 (custom_call 1) over the thread state: entered from every unscoped buffer at `W2`, left at the
    next boundary's contents. Its arrays are split out of the unscoped buffers and put back at the exit contents; the
    generator register goes into the invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m ρ 1 c).Φ 0 from hin1 (V2 m ρ) c)
    unfold Pipeline.ΦA
    iintro ⟨Hp, -, Hr⟩
    isplitl [Hr]; · iexact Hr
    iexact Hp
  hout c := by
    rw [Pipeline.ownSems0_none]
    refine BIBase.Entails.trans (show (pdats m ρ 1 c).Φ (Fin.last _) ⊢ Pipeline.ΦA spec1 c from hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 3 segments in order: the host stretch from the launch contents, then the two regions back to back. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- @main is the run of the segments: @main as the chain of its items, then the segments' run against that chain by
    definitional unfolding. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and every final state has every unscoped buffer of every core at the last
    boundary's contents `W3`: the launch over the segments, the last thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: every weakly fair execution of @main terminates, nothing faulting, and every final state has each of
    the four argument arrays as launched: each is an unscoped buffer, which the run leaves at `W3`, and `W3` at an
    argument is the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (run_all m ρ).mono fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩

end Cert.Kernel.H

end
-- ==== Proof.KI.R0.lean ====
import proofs.«116450_j75076028334813_2_alg».proof.Proof.Gen.KernelIdeal.Launch
import proofs.«116450_j75076028334813_2_alg».proof.Proof.Gen.KernelIdeal.Skeleton
import proofs.«116450_j75076028334813_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0 of @main (the projection kernel), at the contents the region is entered with

The projection kernel runs on a 4 x 4 grid. At each point it reads the block of the activations
(window 0) and the three weight matrices (windows 1, 2, 3, whose index never moves), casts them to
bf16, multiplies, and stores the three products, cast to bf16, over the whole of the three output
blocks (windows 4, 5, 6). Nothing is carried from point to point: what the body leaves in an output
buffer is a closed function of the input blocks at that point. This file states that function
(`out0_4`, `out0_5`, `out0_6`), proves the body's triple against it, and packs the result as
the pipeline's proof data and body obligation, generically in the float instance. -/

-- membership in a rectangle of full-size extents: the elaborator's structural look recurses once per
-- coordinate of the long axes
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered: every statement below is at this parameter
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not
    (it is fetched at every point), for any proof data whose array is `V`'s (`hA`) and whose body
    leaves the block in place (`hafter`): unfetched, the block index has not moved; the window is uncut
    and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not
    (it is fetched at the first point only, its index constant), for any proof data whose array is `V`'s (`hA`) and whose body
    leaves the block in place (`hafter`): unfetched, the block index has not moved; the window is uncut
    and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not
    (it is fetched at the first point only, its index constant), for any proof data whose array is `V`'s (`hA`) and whose body
    leaves the block in place (`hafter`): unfetched, the block index has not moved; the window is uncut
    and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not
    (it is fetched at the first point only, its index constant), for any proof data whose array is `V`'s (`hA`) and whose body
    leaves the block in place (`hafter`): unfetched, the block index has not moved; the window is uncut
    and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole activation block. -/
abbrev r0_x : Rect S1x1024x1024 := Rect.unit (s := S1x1024x1024) ![0, 0, 0] S1x1024x1024.size inb_S1x1024x1024_S1x1024x1024_0_0_0
/-- A whole weight matrix. -/
abbrev r0_w : Rect S64x1024 := Rect.unit (s := S64x1024) ![0, 0] S64x1024.size inb_S64x1024_S64x1024_0_0
/-- A whole output block. -/
abbrev r0_out : Rect S1x1024x64 := Rect.unit (s := S1x1024x64) ![0, 0, 0] S1x1024x64.size inb_S1x1024x64_S1x1024x64_0_0_0

/-! ## What the body leaves in each output window's buffer -/

/-- Window 4's staging buffer after the body, from the blocks of the activations and of the first weight
    matrix: its one store, of the bf16 product, as a piece. -/
def out0_4 (x0 : Vec F S1x1024x1024 .f32) (x1 : Vec F S64x1024 .f32) : Vec F S1x1024x64 .bf16 :=
  View.canon [⟨r0_out, k0_pay2 (View.ld x0 r0_x) (View.ld x1 r0_w)⟩]
/-- Window 5's, from the activations and the second weight matrix. -/
def out0_5 (x0 : Vec F S1x1024x1024 .f32) (x2 : Vec F S64x1024 .f32) : Vec F S1x1024x64 .bf16 :=
  View.canon [⟨r0_out, k0_pay3 (View.ld x0 r0_x) (View.ld x2 r0_w)⟩]
/-- Window 6's, from the activations and the third weight matrix. -/
def out0_6 (x0 : Vec F S1x1024x1024 .f32) (x3 : Vec F S64x1024 .f32) : Vec F S1x1024x64 .bf16 :=
  View.canon [⟨r0_out, k0_pay4 (View.ld x0 r0_x) (View.ld x3 r0_w)⟩]

/-- The one store is of the whole block, so it covers it (the same for the three outputs, whose shape
    and rectangle are the same). -/
theorem cover0_out (p0 : Vec F S1x1024x64 .bf16) (y : S1x1024x64.Idx) :
    ∃ pc ∈ ([⟨r0_out, p0⟩] : List (View.Piece (Elt F) S1x1024x64 .bf16)), y ∈ pc.1.set :=
  View.cover_of_tiled [⟨r0_out, p0⟩] S1x1024x64.size (by rfl) y

/-! ## The body's triple -/

set_option maxHeartbeats 4000000 in
/-- The kernel body on whole staging memrefs, the four inputs' at read contents `x0 … x3` and the three
    outputs' at anything, runs to the continuation holding the inputs' as they were and each output's at
    `out0_W` of the inputs'. The body also loads each output buffer before it stores over the whole of
    it: the value read is dropped, and the store's result does not depend on it. -/
theorem sound_kernel0 (c : Dev nD) (E : Set ℕ) (i : grid0.Coords)
    (arg0 : Memref sig .tc .vmem S1x1024x1024 .f32) (harg0 : arg0.IsWhole) (arg1 : Memref sig .tc .vmem S64x1024 .f32) (harg1 : arg1.IsWhole)
    (arg2 : Memref sig .tc .vmem S64x1024 .f32) (harg2 : arg2.IsWhole) (arg3 : Memref sig .tc .vmem S64x1024 .f32) (harg3 : arg3.IsWhole)
    (arg4 : Memref sig .tc .vmem S1x1024x64 .bf16) (harg4 : arg4.IsWhole) (arg5 : Memref sig .tc .vmem S1x1024x64 .bf16) (harg5 : arg5.IsWhole)
    (arg6 : Memref sig .tc .vmem S1x1024x64 .bf16) (harg6 : arg6.IsWhole)
    (x0 : Vec F S1x1024x1024 .f32) (x1 : Vec F S64x1024 .f32) (x2 : Vec F S64x1024 .f32) (x3 : Vec F S64x1024 .f32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ (∃ d, owns (c : Thread nD τ) arg4 fullShare d) ∗ (∃ d, owns (c : Thread nD τ) arg5 fullShare d)
        ∗ (∃ d, owns (c : Thread nD τ) arg6 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare (out0_4 x0 x1) ∗ owns (c : Thread nD τ) arg5 fullShare (out0_5 x0 x2)
            ∗ owns (c : Thread nD τ) arg6 fullShare (out0_6 x0 x3)) -∗ K ⟨⟩))
      ⊢ wp frame (wpE (defs₀ (F := F)) Variants.none c none) E (cc0__proj_kernel i arg0 harg0 arg1 harg1 arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_out _)
  isplitl [H5]
  · iexists _; isplitr
    swap; · iexact H5
    ipureintro
    exact View.read_writes_eq_canon _ _ _ (cover0_out _)
  iexists _; isplitr
  swap; · iexact H6
  ipureintro
  exact View.read_writes_eq_canon _ _ _ (cover0_out _)

/-! ## The pipeline's proof data -/

/-- The proof data of pipeline 0 on core `c`: the arrays as the region finds them (`V`); after the body at
    point `t` each input's buffer at its block and each output's at `out0_W` of the input blocks; the
    invariant is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`: the invariant, what the core owes, and the seven windows'
    current staging buffers one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (`before0_W`), so `sound_kernel0`
    applies; the invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.H

end
-- ==== Proof.KI.RunW.lean ====
import proofs.«116450_j75076028334813_2_alg».proof.Proof.KI.R0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! # The run: @main's segments from the launch to the return

## The buffer contents at each segment boundary: a fold through @main -/

/-- Core `c`'s buffers at launch. -/
abbrev W0 : Dev nD → Valuation τ sig (Elt F) := fun c b => (s₀ m ρ).mem ((c : Dev nD), b)
/-- After `hostOps0` (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents, which region 1 is entered from: no host
    operation stands between the two regions). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

end Cert.KernelIdeal.H

end
-- ==== Proof.KI.R1Runs.lean ====
import proofs.«116450_j75076028334813_2_alg».proof.Proof.Gen.KernelIdeal.Launch
import proofs.«116450_j75076028334813_2_alg».proof.Proof.Gen.KernelIdeal.Skeleton
import proofs.«116450_j75076028334813_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of production extents: the elaborator's structural look recurses once per
-- coordinate of the long axes
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1 (the attention kernel, pipeline 1), at the entry contents `V`: what its runs share -/

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is the entry contents' and whose body leaves the block in place: an unfetched window's index
    has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is the entry contents' and whose body leaves the block in place: an unfetched window's index
    has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is the entry contents' and whose body leaves the block in place: an unfetched window's index
    has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions, from the grid coordinates (key tile `i 2`, query tile `i 1`) -/

/-- The key tile is the first: the running maximum, sum and accumulator are initialised. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The key tile is strictly below the diagonal: an unmasked update. -/
abbrev cond1_1 (i : grid1.Coords) : Prop := (Scalar.cmpi .ne (Scalar.extui (Scalar.cmpi .slt (BitVec.ofNat 32 (i 2).val) (BitVec.ofNat 32 (i 1).val))) 0#32) = 1#1
theorem hcond1_1 : ∀ t : Fin cfg1.N, cond1_1 (grid1.coords t) ↔ t.val % 4 < (t.val / 4) % 4 :=
  (by decide +kernel : ∀ t : Fin grid1.N, cond1_1 (grid1.coords t) ↔ t.val % 4 < (t.val / 4) % 4)

/-- The key tile is the diagonal one: a masked update. -/
abbrev cond1_2 (i : grid1.Coords) : Prop := (Scalar.cmpi .ne (Scalar.extui (Scalar.cmpi .eq (BitVec.ofNat 32 (i 2).val) (BitVec.ofNat 32 (i 1).val))) 0#32) = 1#1
theorem hcond1_2 : ∀ t : Fin cfg1.N, cond1_2 (grid1.coords t) ↔ t.val % 4 = (t.val / 4) % 4 :=
  (by decide +kernel : ∀ t : Fin grid1.N, cond1_2 (grid1.coords t) ↔ t.val % 4 = (t.val / 4) % 4)

/-- The key tile is the last: the normalised accumulator is stored to the output block. -/
abbrev cond1_3 (i : grid1.Coords) : Prop := k1_cond4 i = 1#1
theorem hcond1_3 : ∀ t : Fin cfg1.N, cond1_3 (grid1.coords t) ↔ t.val % 4 = 3 :=
  (by decide +kernel : ∀ t : Fin grid1.N, cond1_3 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the last key tile the output window is idle: nothing is stored into it, -/
theorem idleAt1_3 : ∀ t : Fin cfg1.N, ¬cond1_3 (grid1.coords t) → cfg1.idle 3 (grid1.coords t) = true := by decide +kernel
/-- and its block is not written back there. -/
theorem noFlush1_3 : ∀ t : Fin cfg1.N, ¬cond1_3 (grid1.coords t) → (cfg1.win 3).flush t = false := by decide +kernel
/-- At the last key tile the output window is live. -/
theorem liveAt1_3 : ∀ t : Fin cfg1.N, cond1_3 (grid1.coords t) → cfg1.idle 3 (grid1.coords t) = false := by decide +kernel

/-! ## The staging and scratch memrefs -/

/-- One staging buffer of the output window, through which its contents are stated (the choice does not matter). -/
abbrev VO1_3 : View sig .tc .vmem S1x1024x64 .f32 := (Memref.whole cc1_stg3_0 : Memref sig .tc .vmem S1x1024x64 .f32).view
/-- Each window's current staging memref at point `t`, spelled as the pipeline passes it, and its wholeness. -/
abbrev ms1_0 (t : Fin cfg1.N) : Memref sig .tc .vmem S1x1024x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x64 .f32 := win1_3.stage (cfg1.slots t 3)
abbrev hs1_3 (t : Fin cfg1.N) : (ms1_3 t).IsWhole := hstage1_3 ((cfg1.slots t 3).cast nbuf1_3)
/-- The scratch operands: the running maximum, the running sum, the accumulator. -/
abbrev scM1_0 : Memref sig .tc .vmem S1x1024x1 .f32 := Memref.whole cc1_scratch0
abbrev scM1_1 : Memref sig .tc .vmem S1x1024x1 .f32 := Memref.whole cc1_scratch1
abbrev scM1_2 : Memref sig .tc .vmem S1x1024x64 .f32 := Memref.whole cc1_scratch2
abbrev VS1_0 : View sig .tc .vmem S1x1024x1 .f32 := scM1_0.view
abbrev VS1_1 : View sig .tc .vmem S1x1024x1 .f32 := scM1_1.view
abbrev VS1_2 : View sig .tc .vmem S1x1024x64 .f32 := scM1_2.view

/-- The region's invariant with the scratch operands as memrefs owned at some contents: what the body obligation
    hands the run and takes back. The other scoped buffers (region 0's staging) ride along untouched. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.KernelIdeal.H

end
-- ==== Proof.KI.R1RunA.lean ====
import proofs.«116450_j75076028334813_2_alg».proof.Proof.KI.R1Runs

-- membership in a rectangle of production extents: the elaborator's structural look recurses once per
-- coordinate of the long axes
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

-- (the run's proof term is large: the definition's epilogue walks it past the default budget)
set_option maxHeartbeats 4000000 in
/-- The body at the first key tile on the diagonal (query tile 0): on whole staging memrefs — the three inputs' at their
    contents, the output's at contents handed back untouched (nothing is stored into it), the three scratch operands at anything (all three are overwritten first) —
    it runs to the continuation holding the inputs' as they were, each scratch operand with its pieces written.
    The piece lists (last first) are what the run finds. -/
noncomputable def kernelRun1_A (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : cond1_0 i) (hc1 : ¬cond1_1 i) (hc2 : cond1_2 i) (hc3 : ¬cond1_3 i)
    (x0 : Vec F S1x1024x64 .bf16) (x1 : Vec F S1x1024x64 .bf16) (x2 : Vec F S1x1024x64 .bf16) :
    Σ' (L3 : List (View.Piece (Elt F) S1x1024x64 .f32)) (LS0 : List (View.Piece (Elt F) S1x1024x1 .f32)) (LS1 : List (View.Piece (Elt F) S1x1024x1 .f32)), { LS2 : List (View.Piece (Elt F) S1x1024x64 .f32) //
      ∀ (xi3 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], ?_, ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.H

end
-- ==== Proof.KI.R1RunB.lean ====
import proofs.«116450_j75076028334813_2_alg».proof.Proof.KI.R1RunA

-- membership in a rectangle of production extents: the elaborator's structural look recurses once per
-- coordinate of the long axes
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

-- (the run's proof term is large: the definition's epilogue walks it past the default budget)
set_option maxHeartbeats 4000000 in
/-- The body at a key tile above the diagonal, not the last: on whole staging memrefs — the three inputs' at their
    contents, the output's at contents handed back untouched (nothing is stored into it), the three scratch operands at what the point before left —
    it runs to the continuation holding the inputs' as they were, the scratch operands as they were.
    The piece lists (last first) are what the run finds. -/
noncomputable def kernelRun1_B (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : ¬cond1_1 i) (hc2 : ¬cond1_2 i) (hc3 : ¬cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) :
    Σ' (L3 : List (View.Piece (Elt F) S1x1024x64 .f32)) (LS0 : List (View.Piece (Elt F) S1x1024x1 .f32)) (LS1 : List (View.Piece (Elt F) S1x1024x1 .f32)), { LS2 : List (View.Piece (Elt F) S1x1024x64 .f32) //
      ∀ (xi3 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], [], [], [], fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]
    · iexists _; isplitr; · ipureintro; exact harg7.read_unread _
      iexact HS0
    isplitl [HS1]
    · iexists _; isplitr; · ipureintro; exact harg8.read_unread _
      iexact HS1
    · iexists _; isplitr; · ipureintro; exact harg9.read_unread _
      iexact HS2

end Cert.KernelIdeal.H

end
-- ==== Proof.KI.R1RunC.lean ====
import proofs.«116450_j75076028334813_2_alg».proof.Proof.KI.R1RunB

-- membership in a rectangle of production extents: the elaborator's structural look recurses once per
-- coordinate of the long axes
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

-- (the run's proof term is large: the definition's epilogue walks it past the default budget)
set_option maxHeartbeats 4000000 in
/-- The body at the last key tile, above the diagonal: on whole staging memrefs — the three inputs' at their
    contents, the output's at anything, the three scratch operands at what the point before left —
    it runs to the continuation holding the inputs' as they were, the output's with its pieces written, the scratch operands as they were.
    The piece lists (last first) are what the run finds. -/
noncomputable def kernelRun1_C (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : ¬cond1_1 i) (hc2 : ¬cond1_2 i) (hc3 : cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) :
    Σ' (L3 : List (View.Piece (Elt F) S1x1024x64 .f32)) (LS0 : List (View.Piece (Elt F) S1x1024x1 .f32)) (LS1 : List (View.Piece (Elt F) S1x1024x1 .f32)), { LS2 : List (View.Piece (Elt F) S1x1024x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, [], [], [], fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _; isplitr; · ipureintro; exact harg7.read_unread _
      iexact HS0
    isplitl [HS1]
    · iexists _; isplitr; · ipureintro; exact harg8.read_unread _
      iexact HS1
    · iexists _; isplitr; · ipureintro; exact harg9.read_unread _
      iexact HS2

end Cert.KernelIdeal.H

end
-- ==== Proof.KI.R1RunD.lean ====
import proofs.«116450_j75076028334813_2_alg».proof.Proof.KI.R1RunC

-- membership in a rectangle of production extents: the elaborator's structural look recurses once per
-- coordinate of the long axes
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

-- (the run's proof term is large: the definition's epilogue walks it past the default budget)
set_option maxHeartbeats 4000000 in
/-- The body at the first key tile, below the diagonal: on whole staging memrefs — the three inputs' at their
    contents, the output's at contents handed back untouched (nothing is stored into it), the three scratch operands at anything (all three are overwritten first) —
    it runs to the continuation holding the inputs' as they were, each scratch operand with its pieces written.
    The piece lists (last first) are what the run finds. -/
noncomputable def kernelRun1_D (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : cond1_0 i) (hc1 : cond1_1 i) (hc2 : ¬cond1_2 i) (hc3 : ¬cond1_3 i)
    (x0 : Vec F S1x1024x64 .bf16) (x1 : Vec F S1x1024x64 .bf16) (x2 : Vec F S1x1024x64 .bf16) :
    Σ' (L3 : List (View.Piece (Elt F) S1x1024x64 .f32)) (LS0 : List (View.Piece (Elt F) S1x1024x1 .f32)) (LS1 : List (View.Piece (Elt F) S1x1024x1 .f32)), { LS2 : List (View.Piece (Elt F) S1x1024x64 .f32) //
      ∀ (xi3 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], ?_, ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.H

end
-- ==== Proof.KI.R1RunE.lean ====
import proofs.«116450_j75076028334813_2_alg».proof.Proof.KI.R1RunD

-- membership in a rectangle of production extents: the elaborator's structural look recurses once per
-- coordinate of the long axes
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

-- (the run's proof term is large: the definition's epilogue walks it past the default budget)
set_option maxHeartbeats 4000000 in
/-- The body at the diagonal key tile, neither first nor last: on whole staging memrefs — the three inputs' at their
    contents, the output's at contents handed back untouched (nothing is stored into it), the three scratch operands at what the point before left —
    it runs to the continuation holding the inputs' as they were, each scratch operand with its pieces written.
    The piece lists (last first) are what the run finds. -/
noncomputable def kernelRun1_E (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : ¬cond1_1 i) (hc2 : cond1_2 i) (hc3 : ¬cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) :
    Σ' (L3 : List (View.Piece (Elt F) S1x1024x64 .f32)) (LS0 : List (View.Piece (Elt F) S1x1024x1 .f32)) (LS1 : List (View.Piece (Elt F) S1x1024x1 .f32)), { LS2 : List (View.Piece (Elt F) S1x1024x64 .f32) //
      ∀ (xi3 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], ?_, ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.H

end
-- ==== Proof.KI.R1RunF.lean ====
import proofs.«116450_j75076028334813_2_alg».proof.Proof.KI.R1RunE

-- membership in a rectangle of production extents: the elaborator's structural look recurses once per
-- coordinate of the long axes
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

-- (the run's proof term is large: the definition's epilogue walks it past the default budget)
set_option maxHeartbeats 4000000 in
/-- The body at a key tile below the diagonal, not the first: on whole staging memrefs — the three inputs' at their
    contents, the output's at contents handed back untouched (nothing is stored into it), the three scratch operands at what the point before left —
    it runs to the continuation holding the inputs' as they were, each scratch operand with its pieces written.
    The piece lists (last first) are what the run finds. -/
noncomputable def kernelRun1_F (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : cond1_1 i) (hc2 : ¬cond1_2 i) (hc3 : ¬cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) :
    Σ' (L3 : List (View.Piece (Elt F) S1x1024x64 .f32)) (LS0 : List (View.Piece (Elt F) S1x1024x1 .f32)) (LS1 : List (View.Piece (Elt F) S1x1024x1 .f32)), { LS2 : List (View.Piece (Elt F) S1x1024x64 .f32) //
      ∀ (xi3 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], ?_, ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.H

end
-- ==== Proof.KI.R1RunG.lean ====
import proofs.«116450_j75076028334813_2_alg».proof.Proof.KI.R1RunF

-- membership in a rectangle of production extents: the elaborator's structural look recurses once per
-- coordinate of the long axes
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

-- (the run's proof term is large: the definition's epilogue walks it past the default budget)
set_option maxHeartbeats 4000000 in
/-- The body at the last key tile on the diagonal (query tile 3): on whole staging memrefs — the three inputs' at their
    contents, the output's at anything, the three scratch operands at what the point before left —
    it runs to the continuation holding the inputs' as they were, the output's with its pieces written, each scratch operand with its pieces written.
    The piece lists (last first) are what the run finds. -/
noncomputable def kernelRun1_G (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : ¬cond1_1 i) (hc2 : cond1_2 i) (hc3 : cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) :
    Σ' (L3 : List (View.Piece (Elt F) S1x1024x64 .f32)) (LS0 : List (View.Piece (Elt F) S1x1024x1 .f32)) (LS1 : List (View.Piece (Elt F) S1x1024x1 .f32)), { LS2 : List (View.Piece (Elt F) S1x1024x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.H

end
-- ==== Proof.KI.R1.lean ====
import proofs.«116450_j75076028334813_2_alg».proof.Proof.KI.R1RunG

-- membership in a rectangle of production extents: the elaborator's structural look recurses once per
-- coordinate of the long axes
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1 (the attention kernel): what its buffers hold point by point, its proof data and body obligation -/

/-! ## Per case: what the body's stores leave -/

/-! ### Case A: the first key tile on the diagonal (query tile 0) -/

/-- The pieces this case stores into the running maximum tile it, so they cover it. -/
theorem scover1_A_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : cond1_0 i) (hc1 : ¬cond1_1 i) (hc2 : cond1_2 i) (hc3 : ¬cond1_3 i)
    (x0 : Vec F S1x1024x64 .bf16) (x1 : Vec F S1x1024x64 .bf16) (x2 : Vec F S1x1024x64 .bf16) (y : S1x1024x1.Idx) :
    ∃ pc ∈ (kernelRun1_A c i arg3 harg3 arg4 harg4 arg5 harg5 arg6 harg6 arg7 harg7 arg8 harg8 arg9 harg9 hc0 hc1 hc2 hc3 x0 x1 x2).2.1, y ∈ pc.1.set :=
  View.cover_of_tiledL (kernelRun1_A c i arg3 harg3 arg4 harg4 arg5 harg5 arg6 harg6 arg7 harg7 arg8 harg8 arg9 harg9 hc0 hc1 hc2 hc3 x0 x1 x2).2.1 S1x1024x1.size (by sl_kernel_rfl) y

/-- What this case leaves in the running maximum: its pieces read back. -/
def sout1_A_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : cond1_0 i) (hc1 : ¬cond1_1 i) (hc2 : cond1_2 i) (hc3 : ¬cond1_3 i)
    (x0 : Vec F S1x1024x64 .bf16) (x1 : Vec F S1x1024x64 .bf16) (x2 : Vec F S1x1024x64 .bf16) : Vec F S1x1024x1 .f32 :=
  VS1_0.read (Elt F) (VS1_0.writes (Elt F) VS1_0.junk (kernelRun1_A c i arg3 harg3 arg4 harg4 arg5 harg5 arg6 harg6 arg7 harg7 arg8 harg8 arg9 harg9 hc0 hc1 hc2 hc3 x0 x1 x2).2.1)

/-- The pieces this case stores into the running sum tile it, so they cover it. -/
theorem scover1_A_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : cond1_0 i) (hc1 : ¬cond1_1 i) (hc2 : cond1_2 i) (hc3 : ¬cond1_3 i)
    (x0 : Vec F S1x1024x64 .bf16) (x1 : Vec F S1x1024x64 .bf16) (x2 : Vec F S1x1024x64 .bf16) (y : S1x1024x1.Idx) :
    ∃ pc ∈ (kernelRun1_A c i arg3 harg3 arg4 harg4 arg5 harg5 arg6 harg6 arg7 harg7 arg8 harg8 arg9 harg9 hc0 hc1 hc2 hc3 x0 x1 x2).2.2.1, y ∈ pc.1.set :=
  View.cover_of_tiledL (kernelRun1_A c i arg3 harg3 arg4 harg4 arg5 harg5 arg6 harg6 arg7 harg7 arg8 harg8 arg9 harg9 hc0 hc1 hc2 hc3 x0 x1 x2).2.2.1 S1x1024x1.size (by sl_kernel_rfl) y

/-- What this case leaves in the running sum: its pieces read back. -/
def sout1_A_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : cond1_0 i) (hc1 : ¬cond1_1 i) (hc2 : cond1_2 i) (hc3 : ¬cond1_3 i)
    (x0 : Vec F S1x1024x64 .bf16) (x1 : Vec F S1x1024x64 .bf16) (x2 : Vec F S1x1024x64 .bf16) : Vec F S1x1024x1 .f32 :=
  VS1_1.read (Elt F) (VS1_1.writes (Elt F) VS1_1.junk (kernelRun1_A c i arg3 harg3 arg4 harg4 arg5 harg5 arg6 harg6 arg7 harg7 arg8 harg8 arg9 harg9 hc0 hc1 hc2 hc3 x0 x1 x2).2.2.1)

/-- The pieces this case stores into the accumulator tile it, so they cover it. -/
theorem scover1_A_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : cond1_0 i) (hc1 : ¬cond1_1 i) (hc2 : cond1_2 i) (hc3 : ¬cond1_3 i)
    (x0 : Vec F S1x1024x64 .bf16) (x1 : Vec F S1x1024x64 .bf16) (x2 : Vec F S1x1024x64 .bf16) (y : S1x1024x64.Idx) :
    ∃ pc ∈ (kernelRun1_A c i arg3 harg3 arg4 harg4 arg5 harg5 arg6 harg6 arg7 harg7 arg8 harg8 arg9 harg9 hc0 hc1 hc2 hc3 x0 x1 x2).2.2.2.1, y ∈ pc.1.set :=
  View.cover_of_tiledL (kernelRun1_A c i arg3 harg3 arg4 harg4 arg5 harg5 arg6 harg6 arg7 harg7 arg8 harg8 arg9 harg9 hc0 hc1 hc2 hc3 x0 x1 x2).2.2.2.1 S1x1024x64.size (by sl_kernel_rfl) y

/-- What this case leaves in the accumulator: its pieces read back. -/
def sout1_A_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : cond1_0 i) (hc1 : ¬cond1_1 i) (hc2 : cond1_2 i) (hc3 : ¬cond1_3 i)
    (x0 : Vec F S1x1024x64 .bf16) (x1 : Vec F S1x1024x64 .bf16) (x2 : Vec F S1x1024x64 .bf16) : Vec F S1x1024x64 .f32 :=
  VS1_2.read (Elt F) (VS1_2.writes (Elt F) VS1_2.junk (kernelRun1_A c i arg3 harg3 arg4 harg4 arg5 harg5 arg6 harg6 arg7 harg7 arg8 harg8 arg9 harg9 hc0 hc1 hc2 hc3 x0 x1 x2).2.2.2.1)

/-! ### Case B: a key tile above the diagonal, not the last -/

/-! ### Case C: the last key tile, above the diagonal -/

/-- The pieces this case stores into the output block tile it, so they cover it. -/
theorem cover1_C_3 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : ¬cond1_1 i) (hc2 : ¬cond1_2 i) (hc3 : cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) (y : S1x1024x64.Idx) :
    ∃ pc ∈ (kernelRun1_C c i arg3 harg3 arg4 harg4 arg5 harg5 arg6 harg6 arg7 harg7 arg8 harg8 arg9 harg9 hc0 hc1 hc2 hc3 x0 x1 x2 xs0 xs1 xs2).1, y ∈ pc.1.set :=
  View.cover_of_tiledL (kernelRun1_C c i arg3 harg3 arg4 harg4 arg5 harg5 arg6 harg6 arg7 harg7 arg8 harg8 arg9 harg9 hc0 hc1 hc2 hc3 x0 x1 x2 xs0 xs1 xs2).1 S1x1024x64.size (by sl_kernel_rfl) y

/-- What this case leaves in the output block: its pieces read back. -/
def out1_C_3 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : ¬cond1_1 i) (hc2 : ¬cond1_2 i) (hc3 : cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) : Vec F S1x1024x64 .f32 :=
  VO1_3.read (Elt F) (VO1_3.writes (Elt F) VO1_3.junk (kernelRun1_C c i arg3 harg3 arg4 harg4 arg5 harg5 arg6 harg6 arg7 harg7 arg8 harg8 arg9 harg9 hc0 hc1 hc2 hc3 x0 x1 x2 xs0 xs1 xs2).1)

/-! ### Case D: the first key tile, below the diagonal -/

/-- The pieces this case stores into the running maximum tile it, so they cover it. -/
theorem scover1_D_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : cond1_0 i) (hc1 : cond1_1 i) (hc2 : ¬cond1_2 i) (hc3 : ¬cond1_3 i)
    (x0 : Vec F S1x1024x64 .bf16) (x1 : Vec F S1x1024x64 .bf16) (x2 : Vec F S1x1024x64 .bf16) (y : S1x1024x1.Idx) :
    ∃ pc ∈ (kernelRun1_D c i arg3 harg3 arg4 harg4 arg5 harg5 arg6 harg6 arg7 harg7 arg8 harg8 arg9 harg9 hc0 hc1 hc2 hc3 x0 x1 x2).2.1, y ∈ pc.1.set :=
  View.cover_of_tiledL (kernelRun1_D c i arg3 harg3 arg4 harg4 arg5 harg5 arg6 harg6 arg7 harg7 arg8 harg8 arg9 harg9 hc0 hc1 hc2 hc3 x0 x1 x2).2.1 S1x1024x1.size (by sl_kernel_rfl) y

/-- What this case leaves in the running maximum: its pieces read back. -/
def sout1_D_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : cond1_0 i) (hc1 : cond1_1 i) (hc2 : ¬cond1_2 i) (hc3 : ¬cond1_3 i)
    (x0 : Vec F S1x1024x64 .bf16) (x1 : Vec F S1x1024x64 .bf16) (x2 : Vec F S1x1024x64 .bf16) : Vec F S1x1024x1 .f32 :=
  VS1_0.read (Elt F) (VS1_0.writes (Elt F) VS1_0.junk (kernelRun1_D c i arg3 harg3 arg4 harg4 arg5 harg5 arg6 harg6 arg7 harg7 arg8 harg8 arg9 harg9 hc0 hc1 hc2 hc3 x0 x1 x2).2.1)

/-- The pieces this case stores into the running sum tile it, so they cover it. -/
theorem scover1_D_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : cond1_0 i) (hc1 : cond1_1 i) (hc2 : ¬cond1_2 i) (hc3 : ¬cond1_3 i)
    (x0 : Vec F S1x1024x64 .bf16) (x1 : Vec F S1x1024x64 .bf16) (x2 : Vec F S1x1024x64 .bf16) (y : S1x1024x1.Idx) :
    ∃ pc ∈ (kernelRun1_D c i arg3 harg3 arg4 harg4 arg5 harg5 arg6 harg6 arg7 harg7 arg8 harg8 arg9 harg9 hc0 hc1 hc2 hc3 x0 x1 x2).2.2.1, y ∈ pc.1.set :=
  View.cover_of_tiledL (kernelRun1_D c i arg3 harg3 arg4 harg4 arg5 harg5 arg6 harg6 arg7 harg7 arg8 harg8 arg9 harg9 hc0 hc1 hc2 hc3 x0 x1 x2).2.2.1 S1x1024x1.size (by sl_kernel_rfl) y

/-- What this case leaves in the running sum: its pieces read back. -/
def sout1_D_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : cond1_0 i) (hc1 : cond1_1 i) (hc2 : ¬cond1_2 i) (hc3 : ¬cond1_3 i)
    (x0 : Vec F S1x1024x64 .bf16) (x1 : Vec F S1x1024x64 .bf16) (x2 : Vec F S1x1024x64 .bf16) : Vec F S1x1024x1 .f32 :=
  VS1_1.read (Elt F) (VS1_1.writes (Elt F) VS1_1.junk (kernelRun1_D c i arg3 harg3 arg4 harg4 arg5 harg5 arg6 harg6 arg7 harg7 arg8 harg8 arg9 harg9 hc0 hc1 hc2 hc3 x0 x1 x2).2.2.1)

/-- The pieces this case stores into the accumulator tile it, so they cover it. -/
theorem scover1_D_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : cond1_0 i) (hc1 : cond1_1 i) (hc2 : ¬cond1_2 i) (hc3 : ¬cond1_3 i)
    (x0 : Vec F S1x1024x64 .bf16) (x1 : Vec F S1x1024x64 .bf16) (x2 : Vec F S1x1024x64 .bf16) (y : S1x1024x64.Idx) :
    ∃ pc ∈ (kernelRun1_D c i arg3 harg3 arg4 harg4 arg5 harg5 arg6 harg6 arg7 harg7 arg8 harg8 arg9 harg9 hc0 hc1 hc2 hc3 x0 x1 x2).2.2.2.1, y ∈ pc.1.set :=
  View.cover_of_tiledL (kernelRun1_D c i arg3 harg3 arg4 harg4 arg5 harg5 arg6 harg6 arg7 harg7 arg8 harg8 arg9 harg9 hc0 hc1 hc2 hc3 x0 x1 x2).2.2.2.1 S1x1024x64.size (by sl_kernel_rfl) y

/-- What this case leaves in the accumulator: its pieces read back. -/
def sout1_D_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : cond1_0 i) (hc1 : cond1_1 i) (hc2 : ¬cond1_2 i) (hc3 : ¬cond1_3 i)
    (x0 : Vec F S1x1024x64 .bf16) (x1 : Vec F S1x1024x64 .bf16) (x2 : Vec F S1x1024x64 .bf16) : Vec F S1x1024x64 .f32 :=
  VS1_2.read (Elt F) (VS1_2.writes (Elt F) VS1_2.junk (kernelRun1_D c i arg3 harg3 arg4 harg4 arg5 harg5 arg6 harg6 arg7 harg7 arg8 harg8 arg9 harg9 hc0 hc1 hc2 hc3 x0 x1 x2).2.2.2.1)

/-! ### Case E: the diagonal key tile, neither first nor last -/

/-- The pieces this case stores into the running maximum tile it, so they cover it. -/
theorem scover1_E_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : ¬cond1_1 i) (hc2 : cond1_2 i) (hc3 : ¬cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) (y : S1x1024x1.Idx) :
    ∃ pc ∈ (kernelRun1_E c i arg3 harg3 arg4 harg4 arg5 harg5 arg6 harg6 arg7 harg7 arg8 harg8 arg9 harg9 hc0 hc1 hc2 hc3 x0 x1 x2 xs0 xs1 xs2).2.1, y ∈ pc.1.set :=
  View.cover_of_tiledL (kernelRun1_E c i arg3 harg3 arg4 harg4 arg5 harg5 arg6 harg6 arg7 harg7 arg8 harg8 arg9 harg9 hc0 hc1 hc2 hc3 x0 x1 x2 xs0 xs1 xs2).2.1 S1x1024x1.size (by sl_kernel_rfl) y

/-- What this case leaves in the running maximum: its pieces read back. -/
def sout1_E_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : ¬cond1_1 i) (hc2 : cond1_2 i) (hc3 : ¬cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) : Vec F S1x1024x1 .f32 :=
  VS1_0.read (Elt F) (VS1_0.writes (Elt F) VS1_0.junk (kernelRun1_E c i arg3 harg3 arg4 harg4 arg5 harg5 arg6 harg6 arg7 harg7 arg8 harg8 arg9 harg9 hc0 hc1 hc2 hc3 x0 x1 x2 xs0 xs1 xs2).2.1)

/-- The pieces this case stores into the running sum tile it, so they cover it. -/
theorem scover1_E_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : ¬cond1_1 i) (hc2 : cond1_2 i) (hc3 : ¬cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) (y : S1x1024x1.Idx) :
    ∃ pc ∈ (kernelRun1_E c i arg3 harg3 arg4 harg4 arg5 harg5 arg6 harg6 arg7 harg7 arg8 harg8 arg9 harg9 hc0 hc1 hc2 hc3 x0 x1 x2 xs0 xs1 xs2).2.2.1, y ∈ pc.1.set :=
  View.cover_of_tiledL (kernelRun1_E c i arg3 harg3 arg4 harg4 arg5 harg5 arg6 harg6 arg7 harg7 arg8 harg8 arg9 harg9 hc0 hc1 hc2 hc3 x0 x1 x2 xs0 xs1 xs2).2.2.1 S1x1024x1.size (by sl_kernel_rfl) y

/-- What this case leaves in the running sum: its pieces read back. -/
def sout1_E_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : ¬cond1_1 i) (hc2 : cond1_2 i) (hc3 : ¬cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) : Vec F S1x1024x1 .f32 :=
  VS1_1.read (Elt F) (VS1_1.writes (Elt F) VS1_1.junk (kernelRun1_E c i arg3 harg3 arg4 harg4 arg5 harg5 arg6 harg6 arg7 harg7 arg8 harg8 arg9 harg9 hc0 hc1 hc2 hc3 x0 x1 x2 xs0 xs1 xs2).2.2.1)

/-- The pieces this case stores into the accumulator tile it, so they cover it. -/
theorem scover1_E_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : ¬cond1_1 i) (hc2 : cond1_2 i) (hc3 : ¬cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) (y : S1x1024x64.Idx) :
    ∃ pc ∈ (kernelRun1_E c i arg3 harg3 arg4 harg4 arg5 harg5 arg6 harg6 arg7 harg7 arg8 harg8 arg9 harg9 hc0 hc1 hc2 hc3 x0 x1 x2 xs0 xs1 xs2).2.2.2.1, y ∈ pc.1.set :=
  View.cover_of_tiledL (kernelRun1_E c i arg3 harg3 arg4 harg4 arg5 harg5 arg6 harg6 arg7 harg7 arg8 harg8 arg9 harg9 hc0 hc1 hc2 hc3 x0 x1 x2 xs0 xs1 xs2).2.2.2.1 S1x1024x64.size (by sl_kernel_rfl) y

/-- What this case leaves in the accumulator: its pieces read back. -/
def sout1_E_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : ¬cond1_1 i) (hc2 : cond1_2 i) (hc3 : ¬cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) : Vec F S1x1024x64 .f32 :=
  VS1_2.read (Elt F) (VS1_2.writes (Elt F) VS1_2.junk (kernelRun1_E c i arg3 harg3 arg4 harg4 arg5 harg5 arg6 harg6 arg7 harg7 arg8 harg8 arg9 harg9 hc0 hc1 hc2 hc3 x0 x1 x2 xs0 xs1 xs2).2.2.2.1)

/-! ### Case F: a key tile below the diagonal, not the first -/

/-- The pieces this case stores into the running maximum tile it, so they cover it. -/
theorem scover1_F_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : cond1_1 i) (hc2 : ¬cond1_2 i) (hc3 : ¬cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) (y : S1x1024x1.Idx) :
    ∃ pc ∈ (kernelRun1_F c i arg3 harg3 arg4 harg4 arg5 harg5 arg6 harg6 arg7 harg7 arg8 harg8 arg9 harg9 hc0 hc1 hc2 hc3 x0 x1 x2 xs0 xs1 xs2).2.1, y ∈ pc.1.set :=
  View.cover_of_tiledL (kernelRun1_F c i arg3 harg3 arg4 harg4 arg5 harg5 arg6 harg6 arg7 harg7 arg8 harg8 arg9 harg9 hc0 hc1 hc2 hc3 x0 x1 x2 xs0 xs1 xs2).2.1 S1x1024x1.size (by sl_kernel_rfl) y

/-- What this case leaves in the running maximum: its pieces read back. -/
def sout1_F_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : cond1_1 i) (hc2 : ¬cond1_2 i) (hc3 : ¬cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) : Vec F S1x1024x1 .f32 :=
  VS1_0.read (Elt F) (VS1_0.writes (Elt F) VS1_0.junk (kernelRun1_F c i arg3 harg3 arg4 harg4 arg5 harg5 arg6 harg6 arg7 harg7 arg8 harg8 arg9 harg9 hc0 hc1 hc2 hc3 x0 x1 x2 xs0 xs1 xs2).2.1)

/-- The pieces this case stores into the running sum tile it, so they cover it. -/
theorem scover1_F_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : cond1_1 i) (hc2 : ¬cond1_2 i) (hc3 : ¬cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) (y : S1x1024x1.Idx) :
    ∃ pc ∈ (kernelRun1_F c i arg3 harg3 arg4 harg4 arg5 harg5 arg6 harg6 arg7 harg7 arg8 harg8 arg9 harg9 hc0 hc1 hc2 hc3 x0 x1 x2 xs0 xs1 xs2).2.2.1, y ∈ pc.1.set :=
  View.cover_of_tiledL (kernelRun1_F c i arg3 harg3 arg4 harg4 arg5 harg5 arg6 harg6 arg7 harg7 arg8 harg8 arg9 harg9 hc0 hc1 hc2 hc3 x0 x1 x2 xs0 xs1 xs2).2.2.1 S1x1024x1.size (by sl_kernel_rfl) y

/-- What this case leaves in the running sum: its pieces read back. -/
def sout1_F_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : cond1_1 i) (hc2 : ¬cond1_2 i) (hc3 : ¬cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) : Vec F S1x1024x1 .f32 :=
  VS1_1.read (Elt F) (VS1_1.writes (Elt F) VS1_1.junk (kernelRun1_F c i arg3 harg3 arg4 harg4 arg5 harg5 arg6 harg6 arg7 harg7 arg8 harg8 arg9 harg9 hc0 hc1 hc2 hc3 x0 x1 x2 xs0 xs1 xs2).2.2.1)

/-- The pieces this case stores into the accumulator tile it, so they cover it. -/
theorem scover1_F_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : cond1_1 i) (hc2 : ¬cond1_2 i) (hc3 : ¬cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) (y : S1x1024x64.Idx) :
    ∃ pc ∈ (kernelRun1_F c i arg3 harg3 arg4 harg4 arg5 harg5 arg6 harg6 arg7 harg7 arg8 harg8 arg9 harg9 hc0 hc1 hc2 hc3 x0 x1 x2 xs0 xs1 xs2).2.2.2.1, y ∈ pc.1.set :=
  View.cover_of_tiledL (kernelRun1_F c i arg3 harg3 arg4 harg4 arg5 harg5 arg6 harg6 arg7 harg7 arg8 harg8 arg9 harg9 hc0 hc1 hc2 hc3 x0 x1 x2 xs0 xs1 xs2).2.2.2.1 S1x1024x64.size (by sl_kernel_rfl) y

/-- What this case leaves in the accumulator: its pieces read back. -/
def sout1_F_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : cond1_1 i) (hc2 : ¬cond1_2 i) (hc3 : ¬cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) : Vec F S1x1024x64 .f32 :=
  VS1_2.read (Elt F) (VS1_2.writes (Elt F) VS1_2.junk (kernelRun1_F c i arg3 harg3 arg4 harg4 arg5 harg5 arg6 harg6 arg7 harg7 arg8 harg8 arg9 harg9 hc0 hc1 hc2 hc3 x0 x1 x2 xs0 xs1 xs2).2.2.2.1)

/-! ### Case G: the last key tile on the diagonal (query tile 3) -/

/-- The pieces this case stores into the output block tile it, so they cover it. -/
theorem cover1_G_3 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : ¬cond1_1 i) (hc2 : cond1_2 i) (hc3 : cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) (y : S1x1024x64.Idx) :
    ∃ pc ∈ (kernelRun1_G c i arg3 harg3 arg4 harg4 arg5 harg5 arg6 harg6 arg7 harg7 arg8 harg8 arg9 harg9 hc0 hc1 hc2 hc3 x0 x1 x2 xs0 xs1 xs2).1, y ∈ pc.1.set :=
  View.cover_of_tiledL (kernelRun1_G c i arg3 harg3 arg4 harg4 arg5 harg5 arg6 harg6 arg7 harg7 arg8 harg8 arg9 harg9 hc0 hc1 hc2 hc3 x0 x1 x2 xs0 xs1 xs2).1 S1x1024x64.size (by sl_kernel_rfl) y

/-- What this case leaves in the output block: its pieces read back. -/
def out1_G_3 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : ¬cond1_1 i) (hc2 : cond1_2 i) (hc3 : cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) : Vec F S1x1024x64 .f32 :=
  VO1_3.read (Elt F) (VO1_3.writes (Elt F) VO1_3.junk (kernelRun1_G c i arg3 harg3 arg4 harg4 arg5 harg5 arg6 harg6 arg7 harg7 arg8 harg8 arg9 harg9 hc0 hc1 hc2 hc3 x0 x1 x2 xs0 xs1 xs2).1)

/-- The pieces this case stores into the running maximum tile it, so they cover it. -/
theorem scover1_G_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : ¬cond1_1 i) (hc2 : cond1_2 i) (hc3 : cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) (y : S1x1024x1.Idx) :
    ∃ pc ∈ (kernelRun1_G c i arg3 harg3 arg4 harg4 arg5 harg5 arg6 harg6 arg7 harg7 arg8 harg8 arg9 harg9 hc0 hc1 hc2 hc3 x0 x1 x2 xs0 xs1 xs2).2.1, y ∈ pc.1.set :=
  View.cover_of_tiledL (kernelRun1_G c i arg3 harg3 arg4 harg4 arg5 harg5 arg6 harg6 arg7 harg7 arg8 harg8 arg9 harg9 hc0 hc1 hc2 hc3 x0 x1 x2 xs0 xs1 xs2).2.1 S1x1024x1.size (by sl_kernel_rfl) y

/-- What this case leaves in the running maximum: its pieces read back. -/
def sout1_G_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : ¬cond1_1 i) (hc2 : cond1_2 i) (hc3 : cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) : Vec F S1x1024x1 .f32 :=
  VS1_0.read (Elt F) (VS1_0.writes (Elt F) VS1_0.junk (kernelRun1_G c i arg3 harg3 arg4 harg4 arg5 harg5 arg6 harg6 arg7 harg7 arg8 harg8 arg9 harg9 hc0 hc1 hc2 hc3 x0 x1 x2 xs0 xs1 xs2).2.1)

/-- The pieces this case stores into the running sum tile it, so they cover it. -/
theorem scover1_G_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : ¬cond1_1 i) (hc2 : cond1_2 i) (hc3 : cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) (y : S1x1024x1.Idx) :
    ∃ pc ∈ (kernelRun1_G c i arg3 harg3 arg4 harg4 arg5 harg5 arg6 harg6 arg7 harg7 arg8 harg8 arg9 harg9 hc0 hc1 hc2 hc3 x0 x1 x2 xs0 xs1 xs2).2.2.1, y ∈ pc.1.set :=
  View.cover_of_tiledL (kernelRun1_G c i arg3 harg3 arg4 harg4 arg5 harg5 arg6 harg6 arg7 harg7 arg8 harg8 arg9 harg9 hc0 hc1 hc2 hc3 x0 x1 x2 xs0 xs1 xs2).2.2.1 S1x1024x1.size (by sl_kernel_rfl) y

/-- What this case leaves in the running sum: its pieces read back. -/
def sout1_G_1 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : ¬cond1_1 i) (hc2 : cond1_2 i) (hc3 : cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) : Vec F S1x1024x1 .f32 :=
  VS1_1.read (Elt F) (VS1_1.writes (Elt F) VS1_1.junk (kernelRun1_G c i arg3 harg3 arg4 harg4 arg5 harg5 arg6 harg6 arg7 harg7 arg8 harg8 arg9 harg9 hc0 hc1 hc2 hc3 x0 x1 x2 xs0 xs1 xs2).2.2.1)

/-- The pieces this case stores into the accumulator tile it, so they cover it. -/
theorem scover1_G_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : ¬cond1_1 i) (hc2 : cond1_2 i) (hc3 : cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) (y : S1x1024x64.Idx) :
    ∃ pc ∈ (kernelRun1_G c i arg3 harg3 arg4 harg4 arg5 harg5 arg6 harg6 arg7 harg7 arg8 harg8 arg9 harg9 hc0 hc1 hc2 hc3 x0 x1 x2 xs0 xs1 xs2).2.2.2.1, y ∈ pc.1.set :=
  View.cover_of_tiledL (kernelRun1_G c i arg3 harg3 arg4 harg4 arg5 harg5 arg6 harg6 arg7 harg7 arg8 harg8 arg9 harg9 hc0 hc1 hc2 hc3 x0 x1 x2 xs0 xs1 xs2).2.2.2.1 S1x1024x64.size (by sl_kernel_rfl) y

/-- What this case leaves in the accumulator: its pieces read back. -/
def sout1_G_2 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : ¬cond1_1 i) (hc2 : cond1_2 i) (hc3 : cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) : Vec F S1x1024x64 .f32 :=
  VS1_2.read (Elt F) (VS1_2.writes (Elt F) VS1_2.junk (kernelRun1_G c i arg3 harg3 arg4 harg4 arg5 harg5 arg6 harg6 arg7 harg7 arg8 harg8 arg9 harg9 hc0 hc1 hc2 hc3 x0 x1 x2 xs0 xs1 xs2).2.2.2.1)

/-! ## The cases in closed form -/

theorem hcs1_A (t : Fin cfg1.N) (h0 : t.val % 4 = 0) (h1 : ¬t.val % 4 < (t.val / 4) % 4) :
    cond1_0 (grid1.coords t) ∧ ¬cond1_1 (grid1.coords t) ∧ cond1_2 (grid1.coords t) ∧ ¬cond1_3 (grid1.coords t) :=
  ⟨(hcond1_0 t).mpr (by have := t.isLt; have hN : cfg1.N = 64 := N_1; omega),
   fun h => by have := (hcond1_1 t).mp h; have := t.isLt; have hN : cfg1.N = 64 := N_1; omega,
   (hcond1_2 t).mpr (by have := t.isLt; have hN : cfg1.N = 64 := N_1; omega),
   fun h => by have := (hcond1_3 t).mp h; have := t.isLt; have hN : cfg1.N = 64 := N_1; omega⟩

theorem hcs1_B (t : Fin cfg1.N) (h0 : ¬t.val % 4 = 0) (h3 : ¬t.val % 4 = 3) (h1 : ¬t.val % 4 < (t.val / 4) % 4) (h2 : ¬t.val % 4 = (t.val / 4) % 4) :
    ¬cond1_0 (grid1.coords t) ∧ ¬cond1_1 (grid1.coords t) ∧ ¬cond1_2 (grid1.coords t) ∧ ¬cond1_3 (grid1.coords t) :=
  ⟨fun h => by have := (hcond1_0 t).mp h; have := t.isLt; have hN : cfg1.N = 64 := N_1; omega,
   fun h => by have := (hcond1_1 t).mp h; have := t.isLt; have hN : cfg1.N = 64 := N_1; omega,
   fun h => by have := (hcond1_2 t).mp h; have := t.isLt; have hN : cfg1.N = 64 := N_1; omega,
   fun h => by have := (hcond1_3 t).mp h; have := t.isLt; have hN : cfg1.N = 64 := N_1; omega⟩

theorem hcs1_C (t : Fin cfg1.N) (h0 : ¬t.val % 4 = 0) (h3 : t.val % 4 = 3) (h2 : ¬t.val % 4 = (t.val / 4) % 4) :
    ¬cond1_0 (grid1.coords t) ∧ ¬cond1_1 (grid1.coords t) ∧ ¬cond1_2 (grid1.coords t) ∧ cond1_3 (grid1.coords t) :=
  ⟨fun h => by have := (hcond1_0 t).mp h; have := t.isLt; have hN : cfg1.N = 64 := N_1; omega,
   fun h => by have := (hcond1_1 t).mp h; have := t.isLt; have hN : cfg1.N = 64 := N_1; omega,
   fun h => by have := (hcond1_2 t).mp h; have := t.isLt; have hN : cfg1.N = 64 := N_1; omega,
   (hcond1_3 t).mpr (by have := t.isLt; have hN : cfg1.N = 64 := N_1; omega)⟩

theorem hcs1_D (t : Fin cfg1.N) (h0 : t.val % 4 = 0) (h1 : t.val % 4 < (t.val / 4) % 4) :
    cond1_0 (grid1.coords t) ∧ cond1_1 (grid1.coords t) ∧ ¬cond1_2 (grid1.coords t) ∧ ¬cond1_3 (grid1.coords t) :=
  ⟨(hcond1_0 t).mpr (by have := t.isLt; have hN : cfg1.N = 64 := N_1; omega),
   (hcond1_1 t).mpr (by have := t.isLt; have hN : cfg1.N = 64 := N_1; omega),
   fun h => by have := (hcond1_2 t).mp h; have := t.isLt; have hN : cfg1.N = 64 := N_1; omega,
   fun h => by have := (hcond1_3 t).mp h; have := t.isLt; have hN : cfg1.N = 64 := N_1; omega⟩

theorem hcs1_E (t : Fin cfg1.N) (h0 : ¬t.val % 4 = 0) (h3 : ¬t.val % 4 = 3) (h1 : ¬t.val % 4 < (t.val / 4) % 4) (h2 : t.val % 4 = (t.val / 4) % 4) :
    ¬cond1_0 (grid1.coords t) ∧ ¬cond1_1 (grid1.coords t) ∧ cond1_2 (grid1.coords t) ∧ ¬cond1_3 (grid1.coords t) :=
  ⟨fun h => by have := (hcond1_0 t).mp h; have := t.isLt; have hN : cfg1.N = 64 := N_1; omega,
   fun h => by have := (hcond1_1 t).mp h; have := t.isLt; have hN : cfg1.N = 64 := N_1; omega,
   (hcond1_2 t).mpr (by have := t.isLt; have hN : cfg1.N = 64 := N_1; omega),
   fun h => by have := (hcond1_3 t).mp h; have := t.isLt; have hN : cfg1.N = 64 := N_1; omega⟩

theorem hcs1_F (t : Fin cfg1.N) (h0 : ¬t.val % 4 = 0) (h3 : ¬t.val % 4 = 3) (h1 : t.val % 4 < (t.val / 4) % 4) :
    ¬cond1_0 (grid1.coords t) ∧ cond1_1 (grid1.coords t) ∧ ¬cond1_2 (grid1.coords t) ∧ ¬cond1_3 (grid1.coords t) :=
  ⟨fun h => by have := (hcond1_0 t).mp h; have := t.isLt; have hN : cfg1.N = 64 := N_1; omega,
   (hcond1_1 t).mpr (by have := t.isLt; have hN : cfg1.N = 64 := N_1; omega),
   fun h => by have := (hcond1_2 t).mp h; have := t.isLt; have hN : cfg1.N = 64 := N_1; omega,
   fun h => by have := (hcond1_3 t).mp h; have := t.isLt; have hN : cfg1.N = 64 := N_1; omega⟩

theorem hcs1_G (t : Fin cfg1.N) (h0 : ¬t.val % 4 = 0) (h3 : t.val % 4 = 3) (h2 : t.val % 4 = (t.val / 4) % 4) :
    ¬cond1_0 (grid1.coords t) ∧ ¬cond1_1 (grid1.coords t) ∧ cond1_2 (grid1.coords t) ∧ cond1_3 (grid1.coords t) :=
  ⟨fun h => by have := (hcond1_0 t).mp h; have := t.isLt; have hN : cfg1.N = 64 := N_1; omega,
   fun h => by have := (hcond1_1 t).mp h; have := t.isLt; have hN : cfg1.N = 64 := N_1; omega,
   (hcond1_2 t).mpr (by have := t.isLt; have hN : cfg1.N = 64 := N_1; omega),
   (hcond1_3 t).mpr (by have := t.isLt; have hN : cfg1.N = 64 := N_1; omega)⟩

/-! ## What the output's buffer and the scratch operands hold after each point -/

/-- The placeholder before the first point: nothing reads it (the first point overwrites all three scratch operands). -/
def junk1 : Vec F S1x1024x64 .f32 × Vec F S1x1024x1 .f32 × Vec F S1x1024x1 .f32 × Vec F S1x1024x64 .f32 :=
  (VO1_3.read (Elt F) VO1_3.junk, VS1_0.read (Elt F) VS1_0.junk, VS1_1.read (Elt F) VS1_1.junk, VS1_2.read (Elt F) VS1_2.junk)

/-- One point of the accumulation: what the output's staging buffer and the three scratch operands hold after the
    body at point `t`, from what the point before left in the scratch operands (`p`'s components 2, 3, 4): the case
    the closed forms select at `t`, run at the point's memrefs and input blocks. A case that stores nothing into a
    scratch operand leaves it as it was; where the output window is idle its component is a placeholder that
    nothing consults. -/
def step1 (c : Dev nD) (t : Fin cfg1.N) (p : Vec F S1x1024x64 .f32 × Vec F S1x1024x1 .f32 × Vec F S1x1024x1 .f32 × Vec F S1x1024x64 .f32) : Vec F S1x1024x64 .f32 × Vec F S1x1024x1 .f32 × Vec F S1x1024x1 .f32 × Vec F S1x1024x64 .f32 :=
  if h0 : t.val % 4 = 0 then
    if h1 : t.val % 4 < (t.val / 4) % 4 then
      (VO1_3.read (Elt F) VO1_3.junk,
          sout1_D_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_D t h0 h1).1 (hcs1_D t h0 h1).2.1 (hcs1_D t h0 h1).2.2.1 (hcs1_D t h0 h1).2.2.2 (iblk1 V c 0 t) (iblk1 V c 1 t) (iblk1 V c 2 t),
          sout1_D_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_D t h0 h1).1 (hcs1_D t h0 h1).2.1 (hcs1_D t h0 h1).2.2.1 (hcs1_D t h0 h1).2.2.2 (iblk1 V c 0 t) (iblk1 V c 1 t) (iblk1 V c 2 t),
          sout1_D_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_D t h0 h1).1 (hcs1_D t h0 h1).2.1 (hcs1_D t h0 h1).2.2.1 (hcs1_D t h0 h1).2.2.2 (iblk1 V c 0 t) (iblk1 V c 1 t) (iblk1 V c 2 t))
    else
      (VO1_3.read (Elt F) VO1_3.junk,
          sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_A t h0 h1).1 (hcs1_A t h0 h1).2.1 (hcs1_A t h0 h1).2.2.1 (hcs1_A t h0 h1).2.2.2 (iblk1 V c 0 t) (iblk1 V c 1 t) (iblk1 V c 2 t),
          sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_A t h0 h1).1 (hcs1_A t h0 h1).2.1 (hcs1_A t h0 h1).2.2.1 (hcs1_A t h0 h1).2.2.2 (iblk1 V c 0 t) (iblk1 V c 1 t) (iblk1 V c 2 t),
          sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_A t h0 h1).1 (hcs1_A t h0 h1).2.1 (hcs1_A t h0 h1).2.2.1 (hcs1_A t h0 h1).2.2.2 (iblk1 V c 0 t) (iblk1 V c 1 t) (iblk1 V c 2 t))
  else
    if h3 : t.val % 4 = 3 then
      if h2 : t.val % 4 = (t.val / 4) % 4 then
        (out1_G_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_G t h0 h3 h2).1 (hcs1_G t h0 h3 h2).2.1 (hcs1_G t h0 h3 h2).2.2.1 (hcs1_G t h0 h3 h2).2.2.2 (iblk1 V c 0 t) (iblk1 V c 1 t) (iblk1 V c 2 t) p.2.1 p.2.2.1 p.2.2.2,
          sout1_G_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_G t h0 h3 h2).1 (hcs1_G t h0 h3 h2).2.1 (hcs1_G t h0 h3 h2).2.2.1 (hcs1_G t h0 h3 h2).2.2.2 (iblk1 V c 0 t) (iblk1 V c 1 t) (iblk1 V c 2 t) p.2.1 p.2.2.1 p.2.2.2,
          sout1_G_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_G t h0 h3 h2).1 (hcs1_G t h0 h3 h2).2.1 (hcs1_G t h0 h3 h2).2.2.1 (hcs1_G t h0 h3 h2).2.2.2 (iblk1 V c 0 t) (iblk1 V c 1 t) (iblk1 V c 2 t) p.2.1 p.2.2.1 p.2.2.2,
          sout1_G_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_G t h0 h3 h2).1 (hcs1_G t h0 h3 h2).2.1 (hcs1_G t h0 h3 h2).2.2.1 (hcs1_G t h0 h3 h2).2.2.2 (iblk1 V c 0 t) (iblk1 V c 1 t) (iblk1 V c 2 t) p.2.1 p.2.2.1 p.2.2.2)
      else
        (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_C t h0 h3 h2).1 (hcs1_C t h0 h3 h2).2.1 (hcs1_C t h0 h3 h2).2.2.1 (hcs1_C t h0 h3 h2).2.2.2 (iblk1 V c 0 t) (iblk1 V c 1 t) (iblk1 V c 2 t) p.2.1 p.2.2.1 p.2.2.2,
          p.2.1,
          p.2.2.1,
          p.2.2.2)
    else
      if h1 : t.val % 4 < (t.val / 4) % 4 then
        (VO1_3.read (Elt F) VO1_3.junk,
          sout1_F_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_F t h0 h3 h1).1 (hcs1_F t h0 h3 h1).2.1 (hcs1_F t h0 h3 h1).2.2.1 (hcs1_F t h0 h3 h1).2.2.2 (iblk1 V c 0 t) (iblk1 V c 1 t) (iblk1 V c 2 t) p.2.1 p.2.2.1 p.2.2.2,
          sout1_F_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_F t h0 h3 h1).1 (hcs1_F t h0 h3 h1).2.1 (hcs1_F t h0 h3 h1).2.2.1 (hcs1_F t h0 h3 h1).2.2.2 (iblk1 V c 0 t) (iblk1 V c 1 t) (iblk1 V c 2 t) p.2.1 p.2.2.1 p.2.2.2,
          sout1_F_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_F t h0 h3 h1).1 (hcs1_F t h0 h3 h1).2.1 (hcs1_F t h0 h3 h1).2.2.1 (hcs1_F t h0 h3 h1).2.2.2 (iblk1 V c 0 t) (iblk1 V c 1 t) (iblk1 V c 2 t) p.2.1 p.2.2.1 p.2.2.2)
      else
        if h2 : t.val % 4 = (t.val / 4) % 4 then
          (VO1_3.read (Elt F) VO1_3.junk,
          sout1_E_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_E t h0 h3 h1 h2).1 (hcs1_E t h0 h3 h1 h2).2.1 (hcs1_E t h0 h3 h1 h2).2.2.1 (hcs1_E t h0 h3 h1 h2).2.2.2 (iblk1 V c 0 t) (iblk1 V c 1 t) (iblk1 V c 2 t) p.2.1 p.2.2.1 p.2.2.2,
          sout1_E_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_E t h0 h3 h1 h2).1 (hcs1_E t h0 h3 h1 h2).2.1 (hcs1_E t h0 h3 h1 h2).2.2.1 (hcs1_E t h0 h3 h1 h2).2.2.2 (iblk1 V c 0 t) (iblk1 V c 1 t) (iblk1 V c 2 t) p.2.1 p.2.2.1 p.2.2.2,
          sout1_E_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_E t h0 h3 h1 h2).1 (hcs1_E t h0 h3 h1 h2).2.1 (hcs1_E t h0 h3 h1 h2).2.2.1 (hcs1_E t h0 h3 h1 h2).2.2.2 (iblk1 V c 0 t) (iblk1 V c 1 t) (iblk1 V c 2 t) p.2.1 p.2.2.1 p.2.2.2)
        else
          (VO1_3.read (Elt F) VO1_3.junk,
          p.2.1,
          p.2.2.1,
          p.2.2.2)

/-- THE ACCUMULATION. What the output's staging buffer, the running maximum, the running sum and the accumulator hold
    after the body at position `n`: the point's step over what position `n - 1` left. -/
def outsAt1 (c : Dev nD) : (n : ℕ) → n < cfg1.N → Vec F S1x1024x64 .f32 × Vec F S1x1024x1 .f32 × Vec F S1x1024x1 .f32 × Vec F S1x1024x64 .f32
  | 0, hn => step1 V c ⟨0, hn⟩ junk1
  | n + 1, hn => step1 V c ⟨n + 1, hn⟩ (outsAt1 c n (Nat.lt_of_succ_lt hn))

/-- After a point that is not the first: the point's step over what the point before left. -/
theorem outsAt1_pos (c : Dev nD) (t : Fin cfg1.N) (hz : t.val ≠ 0) :
    outsAt1 V c t.val t.isLt = step1 V c t (outsAt1 V c (t.val - 1) (Nat.lt_of_le_of_lt (Nat.sub_le _ _) t.isLt)) := by
  obtain ⟨n, hn⟩ := t
  cases n with
  | zero => exact absurd rfl hz
  | succ n => rfl

theorem step1_A (c : Dev nD) (t : Fin cfg1.N) (p : Vec F S1x1024x64 .f32 × Vec F S1x1024x1 .f32 × Vec F S1x1024x1 .f32 × Vec F S1x1024x64 .f32) (h0 : t.val % 4 = 0) (h1 : ¬t.val % 4 < (t.val / 4) % 4) :
    step1 V c t p = (VO1_3.read (Elt F) VO1_3.junk,
          sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_A t h0 h1).1 (hcs1_A t h0 h1).2.1 (hcs1_A t h0 h1).2.2.1 (hcs1_A t h0 h1).2.2.2 (iblk1 V c 0 t) (iblk1 V c 1 t) (iblk1 V c 2 t),
          sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_A t h0 h1).1 (hcs1_A t h0 h1).2.1 (hcs1_A t h0 h1).2.2.1 (hcs1_A t h0 h1).2.2.2 (iblk1 V c 0 t) (iblk1 V c 1 t) (iblk1 V c 2 t),
          sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_A t h0 h1).1 (hcs1_A t h0 h1).2.1 (hcs1_A t h0 h1).2.2.1 (hcs1_A t h0 h1).2.2.2 (iblk1 V c 0 t) (iblk1 V c 1 t) (iblk1 V c 2 t)) := by
  unfold step1; exact (dif_pos h0).trans ((dif_neg h1).trans (rfl))

theorem step1_B (c : Dev nD) (t : Fin cfg1.N) (p : Vec F S1x1024x64 .f32 × Vec F S1x1024x1 .f32 × Vec F S1x1024x1 .f32 × Vec F S1x1024x64 .f32) (h0 : ¬t.val % 4 = 0) (h3 : ¬t.val % 4 = 3) (h1 : ¬t.val % 4 < (t.val / 4) % 4) (h2 : ¬t.val % 4 = (t.val / 4) % 4) :
    step1 V c t p = (VO1_3.read (Elt F) VO1_3.junk,
          p.2.1,
          p.2.2.1,
          p.2.2.2) := by
  unfold step1; exact (dif_neg h0).trans ((dif_neg h3).trans ((dif_neg h1).trans ((dif_neg h2).trans (rfl))))

theorem step1_C (c : Dev nD) (t : Fin cfg1.N) (p : Vec F S1x1024x64 .f32 × Vec F S1x1024x1 .f32 × Vec F S1x1024x1 .f32 × Vec F S1x1024x64 .f32) (h0 : ¬t.val % 4 = 0) (h3 : t.val % 4 = 3) (h2 : ¬t.val % 4 = (t.val / 4) % 4) :
    step1 V c t p = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_C t h0 h3 h2).1 (hcs1_C t h0 h3 h2).2.1 (hcs1_C t h0 h3 h2).2.2.1 (hcs1_C t h0 h3 h2).2.2.2 (iblk1 V c 0 t) (iblk1 V c 1 t) (iblk1 V c 2 t) p.2.1 p.2.2.1 p.2.2.2,
          p.2.1,
          p.2.2.1,
          p.2.2.2) := by
  unfold step1; exact (dif_neg h0).trans ((dif_pos h3).trans ((dif_neg h2).trans (rfl)))

theorem step1_D (c : Dev nD) (t : Fin cfg1.N) (p : Vec F S1x1024x64 .f32 × Vec F S1x1024x1 .f32 × Vec F S1x1024x1 .f32 × Vec F S1x1024x64 .f32) (h0 : t.val % 4 = 0) (h1 : t.val % 4 < (t.val / 4) % 4) :
    step1 V c t p = (VO1_3.read (Elt F) VO1_3.junk,
          sout1_D_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_D t h0 h1).1 (hcs1_D t h0 h1).2.1 (hcs1_D t h0 h1).2.2.1 (hcs1_D t h0 h1).2.2.2 (iblk1 V c 0 t) (iblk1 V c 1 t) (iblk1 V c 2 t),
          sout1_D_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_D t h0 h1).1 (hcs1_D t h0 h1).2.1 (hcs1_D t h0 h1).2.2.1 (hcs1_D t h0 h1).2.2.2 (iblk1 V c 0 t) (iblk1 V c 1 t) (iblk1 V c 2 t),
          sout1_D_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_D t h0 h1).1 (hcs1_D t h0 h1).2.1 (hcs1_D t h0 h1).2.2.1 (hcs1_D t h0 h1).2.2.2 (iblk1 V c 0 t) (iblk1 V c 1 t) (iblk1 V c 2 t)) := by
  unfold step1; exact (dif_pos h0).trans ((dif_pos h1).trans (rfl))

theorem step1_E (c : Dev nD) (t : Fin cfg1.N) (p : Vec F S1x1024x64 .f32 × Vec F S1x1024x1 .f32 × Vec F S1x1024x1 .f32 × Vec F S1x1024x64 .f32) (h0 : ¬t.val % 4 = 0) (h3 : ¬t.val % 4 = 3) (h1 : ¬t.val % 4 < (t.val / 4) % 4) (h2 : t.val % 4 = (t.val / 4) % 4) :
    step1 V c t p = (VO1_3.read (Elt F) VO1_3.junk,
          sout1_E_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_E t h0 h3 h1 h2).1 (hcs1_E t h0 h3 h1 h2).2.1 (hcs1_E t h0 h3 h1 h2).2.2.1 (hcs1_E t h0 h3 h1 h2).2.2.2 (iblk1 V c 0 t) (iblk1 V c 1 t) (iblk1 V c 2 t) p.2.1 p.2.2.1 p.2.2.2,
          sout1_E_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_E t h0 h3 h1 h2).1 (hcs1_E t h0 h3 h1 h2).2.1 (hcs1_E t h0 h3 h1 h2).2.2.1 (hcs1_E t h0 h3 h1 h2).2.2.2 (iblk1 V c 0 t) (iblk1 V c 1 t) (iblk1 V c 2 t) p.2.1 p.2.2.1 p.2.2.2,
          sout1_E_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_E t h0 h3 h1 h2).1 (hcs1_E t h0 h3 h1 h2).2.1 (hcs1_E t h0 h3 h1 h2).2.2.1 (hcs1_E t h0 h3 h1 h2).2.2.2 (iblk1 V c 0 t) (iblk1 V c 1 t) (iblk1 V c 2 t) p.2.1 p.2.2.1 p.2.2.2) := by
  unfold step1; exact (dif_neg h0).trans ((dif_neg h3).trans ((dif_neg h1).trans ((dif_pos h2).trans (rfl))))

theorem step1_F (c : Dev nD) (t : Fin cfg1.N) (p : Vec F S1x1024x64 .f32 × Vec F S1x1024x1 .f32 × Vec F S1x1024x1 .f32 × Vec F S1x1024x64 .f32) (h0 : ¬t.val % 4 = 0) (h3 : ¬t.val % 4 = 3) (h1 : t.val % 4 < (t.val / 4) % 4) :
    step1 V c t p = (VO1_3.read (Elt F) VO1_3.junk,
          sout1_F_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_F t h0 h3 h1).1 (hcs1_F t h0 h3 h1).2.1 (hcs1_F t h0 h3 h1).2.2.1 (hcs1_F t h0 h3 h1).2.2.2 (iblk1 V c 0 t) (iblk1 V c 1 t) (iblk1 V c 2 t) p.2.1 p.2.2.1 p.2.2.2,
          sout1_F_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_F t h0 h3 h1).1 (hcs1_F t h0 h3 h1).2.1 (hcs1_F t h0 h3 h1).2.2.1 (hcs1_F t h0 h3 h1).2.2.2 (iblk1 V c 0 t) (iblk1 V c 1 t) (iblk1 V c 2 t) p.2.1 p.2.2.1 p.2.2.2,
          sout1_F_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_F t h0 h3 h1).1 (hcs1_F t h0 h3 h1).2.1 (hcs1_F t h0 h3 h1).2.2.1 (hcs1_F t h0 h3 h1).2.2.2 (iblk1 V c 0 t) (iblk1 V c 1 t) (iblk1 V c 2 t) p.2.1 p.2.2.1 p.2.2.2) := by
  unfold step1; exact (dif_neg h0).trans ((dif_neg h3).trans ((dif_pos h1).trans (rfl)))

theorem step1_G (c : Dev nD) (t : Fin cfg1.N) (p : Vec F S1x1024x64 .f32 × Vec F S1x1024x1 .f32 × Vec F S1x1024x1 .f32 × Vec F S1x1024x64 .f32) (h0 : ¬t.val % 4 = 0) (h3 : t.val % 4 = 3) (h2 : t.val % 4 = (t.val / 4) % 4) :
    step1 V c t p = (out1_G_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_G t h0 h3 h2).1 (hcs1_G t h0 h3 h2).2.1 (hcs1_G t h0 h3 h2).2.2.1 (hcs1_G t h0 h3 h2).2.2.2 (iblk1 V c 0 t) (iblk1 V c 1 t) (iblk1 V c 2 t) p.2.1 p.2.2.1 p.2.2.2,
          sout1_G_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_G t h0 h3 h2).1 (hcs1_G t h0 h3 h2).2.1 (hcs1_G t h0 h3 h2).2.2.1 (hcs1_G t h0 h3 h2).2.2.2 (iblk1 V c 0 t) (iblk1 V c 1 t) (iblk1 V c 2 t) p.2.1 p.2.2.1 p.2.2.2,
          sout1_G_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_G t h0 h3 h2).1 (hcs1_G t h0 h3 h2).2.1 (hcs1_G t h0 h3 h2).2.2.1 (hcs1_G t h0 h3 h2).2.2.2 (iblk1 V c 0 t) (iblk1 V c 1 t) (iblk1 V c 2 t) p.2.1 p.2.2.1 p.2.2.2,
          sout1_G_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_G t h0 h3 h2).1 (hcs1_G t h0 h3 h2).2.1 (hcs1_G t h0 h3 h2).2.2.1 (hcs1_G t h0 h3 h2).2.2.2 (iblk1 V c 0 t) (iblk1 V c 1 t) (iblk1 V c 2 t) p.2.1 p.2.2.1 p.2.2.2) := by
  unfold step1; exact (dif_neg h0).trans ((dif_pos h3).trans ((dif_pos h2).trans (rfl)))

/-- `outsAt1` at a point of case A: that case's contents (all three scratch operands are overwritten first). -/
theorem outsAt1_A (c : Dev nD) (t : Fin cfg1.N) (h0 : t.val % 4 = 0) (h1 : ¬t.val % 4 < (t.val / 4) % 4) :
    outsAt1 V c t.val t.isLt = (VO1_3.read (Elt F) VO1_3.junk,
          sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_A t h0 h1).1 (hcs1_A t h0 h1).2.1 (hcs1_A t h0 h1).2.2.1 (hcs1_A t h0 h1).2.2.2 (iblk1 V c 0 t) (iblk1 V c 1 t) (iblk1 V c 2 t),
          sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_A t h0 h1).1 (hcs1_A t h0 h1).2.1 (hcs1_A t h0 h1).2.2.1 (hcs1_A t h0 h1).2.2.2 (iblk1 V c 0 t) (iblk1 V c 1 t) (iblk1 V c 2 t),
          sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_A t h0 h1).1 (hcs1_A t h0 h1).2.1 (hcs1_A t h0 h1).2.2.1 (hcs1_A t h0 h1).2.2.2 (iblk1 V c 0 t) (iblk1 V c 1 t) (iblk1 V c 2 t)) := by
  obtain ⟨n, hn⟩ := t
  cases n with
  | zero => exact step1_A V c _ _ h0 h1
  | succ n => exact (step1_A V c _ _ h0 h1).trans rfl

/-- `outsAt1` at a point of case B: that case's contents, over what the point before left. -/
theorem outsAt1_B (c : Dev nD) (t : Fin cfg1.N) (h0 : ¬t.val % 4 = 0) (h3 : ¬t.val % 4 = 3) (h1 : ¬t.val % 4 < (t.val / 4) % 4) (h2 : ¬t.val % 4 = (t.val / 4) % 4) :
    outsAt1 V c t.val t.isLt = (VO1_3.read (Elt F) VO1_3.junk,
          (outsAt1 V c (t.val - 1) (Nat.lt_of_le_of_lt (Nat.sub_le _ _) t.isLt)).2.1,
          (outsAt1 V c (t.val - 1) (Nat.lt_of_le_of_lt (Nat.sub_le _ _) t.isLt)).2.2.1,
          (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact step1_B V c _ _ h0 h3 h1 h2

/-- `outsAt1` at a point of case C: that case's contents, over what the point before left. -/
theorem outsAt1_C (c : Dev nD) (t : Fin cfg1.N) (h0 : ¬t.val % 4 = 0) (h3 : t.val % 4 = 3) (h2 : ¬t.val % 4 = (t.val / 4) % 4) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_C t h0 h3 h2).1 (hcs1_C t h0 h3 h2).2.1 (hcs1_C t h0 h3 h2).2.2.1 (hcs1_C t h0 h3 h2).2.2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
          (outsAt1 V c (t.val - 1) (Nat.lt_of_le_of_lt (Nat.sub_le _ _) t.isLt)).2.1,
          (outsAt1 V c (t.val - 1) (Nat.lt_of_le_of_lt (Nat.sub_le _ _) t.isLt)).2.2.1,
          (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact step1_C V c _ _ h0 h3 h2

/-- `outsAt1` at a point of case D: that case's contents (all three scratch operands are overwritten first). -/
theorem outsAt1_D (c : Dev nD) (t : Fin cfg1.N) (h0 : t.val % 4 = 0) (h1 : t.val % 4 < (t.val / 4) % 4) :
    outsAt1 V c t.val t.isLt = (VO1_3.read (Elt F) VO1_3.junk,
          sout1_D_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_D t h0 h1).1 (hcs1_D t h0 h1).2.1 (hcs1_D t h0 h1).2.2.1 (hcs1_D t h0 h1).2.2.2 (iblk1 V c 0 t) (iblk1 V c 1 t) (iblk1 V c 2 t),
          sout1_D_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_D t h0 h1).1 (hcs1_D t h0 h1).2.1 (hcs1_D t h0 h1).2.2.1 (hcs1_D t h0 h1).2.2.2 (iblk1 V c 0 t) (iblk1 V c 1 t) (iblk1 V c 2 t),
          sout1_D_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_D t h0 h1).1 (hcs1_D t h0 h1).2.1 (hcs1_D t h0 h1).2.2.1 (hcs1_D t h0 h1).2.2.2 (iblk1 V c 0 t) (iblk1 V c 1 t) (iblk1 V c 2 t)) := by
  obtain ⟨n, hn⟩ := t
  cases n with
  | zero => exact step1_D V c _ _ h0 h1
  | succ n => exact (step1_D V c _ _ h0 h1).trans rfl

/-- `outsAt1` at a point of case E: that case's contents, over what the point before left. -/
theorem outsAt1_E (c : Dev nD) (t : Fin cfg1.N) (h0 : ¬t.val % 4 = 0) (h3 : ¬t.val % 4 = 3) (h1 : ¬t.val % 4 < (t.val / 4) % 4) (h2 : t.val % 4 = (t.val / 4) % 4) :
    outsAt1 V c t.val t.isLt = (VO1_3.read (Elt F) VO1_3.junk,
          sout1_E_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_E t h0 h3 h1 h2).1 (hcs1_E t h0 h3 h1 h2).2.1 (hcs1_E t h0 h3 h1 h2).2.2.1 (hcs1_E t h0 h3 h1 h2).2.2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
          sout1_E_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_E t h0 h3 h1 h2).1 (hcs1_E t h0 h3 h1 h2).2.1 (hcs1_E t h0 h3 h1 h2).2.2.1 (hcs1_E t h0 h3 h1 h2).2.2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
          sout1_E_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_E t h0 h3 h1 h2).1 (hcs1_E t h0 h3 h1 h2).2.1 (hcs1_E t h0 h3 h1 h2).2.2.1 (hcs1_E t h0 h3 h1 h2).2.2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact step1_E V c _ _ h0 h3 h1 h2

/-- `outsAt1` at a point of case F: that case's contents, over what the point before left. -/
theorem outsAt1_F (c : Dev nD) (t : Fin cfg1.N) (h0 : ¬t.val % 4 = 0) (h3 : ¬t.val % 4 = 3) (h1 : t.val % 4 < (t.val / 4) % 4) :
    outsAt1 V c t.val t.isLt = (VO1_3.read (Elt F) VO1_3.junk,
          sout1_F_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_F t h0 h3 h1).1 (hcs1_F t h0 h3 h1).2.1 (hcs1_F t h0 h3 h1).2.2.1 (hcs1_F t h0 h3 h1).2.2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
          sout1_F_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_F t h0 h3 h1).1 (hcs1_F t h0 h3 h1).2.1 (hcs1_F t h0 h3 h1).2.2.1 (hcs1_F t h0 h3 h1).2.2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
          sout1_F_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_F t h0 h3 h1).1 (hcs1_F t h0 h3 h1).2.1 (hcs1_F t h0 h3 h1).2.2.1 (hcs1_F t h0 h3 h1).2.2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact step1_F V c _ _ h0 h3 h1

/-- `outsAt1` at a point of case G: that case's contents, over what the point before left. -/
theorem outsAt1_G (c : Dev nD) (t : Fin cfg1.N) (h0 : ¬t.val % 4 = 0) (h3 : t.val % 4 = 3) (h2 : t.val % 4 = (t.val / 4) % 4) :
    outsAt1 V c t.val t.isLt = (out1_G_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_G t h0 h3 h2).1 (hcs1_G t h0 h3 h2).2.1 (hcs1_G t h0 h3 h2).2.2.1 (hcs1_G t h0 h3 h2).2.2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
          sout1_G_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_G t h0 h3 h2).1 (hcs1_G t h0 h3 h2).2.1 (hcs1_G t h0 h3 h2).2.2.1 (hcs1_G t h0 h3 h2).2.2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
          sout1_G_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_G t h0 h3 h2).1 (hcs1_G t h0 h3 h2).2.1 (hcs1_G t h0 h3 h2).2.2.1 (hcs1_G t h0 h3 h2).2.2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
          sout1_G_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (hcs1_G t h0 h3 h2).1 (hcs1_G t h0 h3 h2).2.1 (hcs1_G t h0 h3 h2).2.2.1 (hcs1_G t h0 h3 h2).2.2.2 (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact step1_G V c _ _ h0 h3 h2

/-! ## The region's invariant -/

/-- The invariant before position `n`: before the first point the region's own (every scratch operand at anything);
    afterwards the same with the three scratch operands at what the point before left in them. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2) ∗ (∃ r, prngReg c r)) := by
  cases n with
  | zero => exact absurd rfl hz
  | succ n => rfl

/-! ## The pipeline's proof data -/

/-- The proof data of pipeline 1 on core `c`: the arrays as the region finds them; after the body at point `t` each
    input's buffer at its block and the output's at `outsAt1`'s first component; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 16000000 in
/-- The body at any point: the inputs' memrefs hold their blocks; the closed forms say which case the point is in; the
    invariant hands the body the three scratch operands at what the point before left (at anything at the first
    point) and takes them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 4 = 0
  · by_cases h1 : t.val % 4 < (t.val / 4) % 4
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (hcs1_D t h0 h1).2.2.2) (noFlush1_3 t (hcs1_D t h0 h1).2.2.2)]
      rw [outsAt1_D V c t h0 h1]
      unfold sout1_D_0 sout1_D_1 sout1_D_2; (try dsimp only)
      have hz : t.val ≠ 0 := by omega
      rw [PhiS1_castSucc V c t, PhiS1_pos V c _ _ hz]
      iintro ⟨⟨⟨R0, R1, R2, R3, R4, R5, R6, R7, R8, R9, R10, HS0, HS1, HS2⟩, Hg⟩, Ho, ⟨%d0, H0⟩, ⟨%d1, H1⟩, ⟨%d2, H2⟩, ⟨%d3, H3⟩⟩
      iapply ((kernelRun1_D c (grid1.coords t) _ _ _ _ _ _ _ _ _ _ _ _ _ _ (hcs1_D t h0 h1).1 (hcs1_D t h0 h1).2.1 (hcs1_D t h0 h1).2.2.1 (hcs1_D t h0 h1).2.2.2 (iblk1 V c 0 t) (iblk1 V c 1 t) (iblk1 V c 2 t)).2.2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [R0 R1 R2 R3 R4 R5 R6 R7 R8 R9 R10 HS0 HS1 HS2 Hg]
      · isplitl [R0 R1 R2 R3 R4 R5 R6 R7 R8 R9 R10 HS0 HS1 HS2]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [HS0]
          · unfold owns; iexists _; isplitr
            swap; · iexact HS0
            ipureintro; exact View.read_writes_of_cover _ _ _ _ _ (scover1_D_0 _ _ _ _ _ _ _ _ _ _ _ _ _ _ _ _ _ _ _ _ _ _ _)
          isplitl [HS1]
          · unfold owns; iexists _; isplitr
            swap; · iexact HS1
            ipureintro; exact View.read_writes_of_cover _ _ _ _ _ (scover1_D_1 _ _ _ _ _ _ _ _ _ _ _ _ _ _ _ _ _ _ _ _ _ _ _)
          · unfold owns; iexists _; isplitr
            swap; · iexact HS2
            ipureintro; exact View.read_writes_of_cover _ _ _ _ _ (scover1_D_2 _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (hcs1_A t h0 h1).2.2.2) (noFlush1_3 t (hcs1_A t h0 h1).2.2.2)]
      rw [outsAt1_A V c t h0 h1]
      unfold sout1_A_0 sout1_A_1 sout1_A_2; (try dsimp only)
      by_cases hz : t.val = 0
      ·
        rw [PhiS1_castSucc V c t, PhiS1_zero V c _ _ hz, PhiA1_eq]
        iintro ⟨⟨⟨R0, R1, R2, R3, R4, R5, R6, R7, R8, R9, R10, HS0, HS1, HS2⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ (hcs1_A t h0 h1).1 (hcs1_A t h0 h1).2.1 (hcs1_A t h0 h1).2.2.1 (hcs1_A t h0 h1).2.2.2 (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [R0 R1 R2 R3 R4 R5 R6 R7 R8 R9 R10 HS0 HS1 HS2 Hg]
        · isplitl [R0 R1 R2 R3 R4 R5 R6 R7 R8 R9 R10 HS0 HS1 HS2]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [HS0]
            · unfold owns; iexists _; isplitr
              swap; · iexact HS0
              ipureintro; exact View.read_writes_of_cover _ _ _ _ _ (scover1_A_0 _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 _ _ _ _ _ _ _ _ _ _ _ _ _ _ _ _ _ _ _ _ _ _ _)
            · unfold owns; iexists _; isplitr
              swap; · iexact HS2
              ipureintro; exact View.read_writes_of_cover _ _ _ _ _ (scover1_A_2 _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      ·
        rw [PhiS1_castSucc V c t, PhiS1_pos V c _ _ hz]
        iintro ⟨⟨⟨R0, R1, R2, R3, R4, R5, R6, R7, R8, R9, R10, HS0, HS1, HS2⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ (hcs1_A t h0 h1).1 (hcs1_A t h0 h1).2.1 (hcs1_A t h0 h1).2.2.1 (hcs1_A t h0 h1).2.2.2 (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [R0 R1 R2 R3 R4 R5 R6 R7 R8 R9 R10 HS0 HS1 HS2 Hg]
        · isplitl [R0 R1 R2 R3 R4 R5 R6 R7 R8 R9 R10 HS0 HS1 HS2]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [HS0]
            · unfold owns; iexists _; isplitr
              swap; · iexact HS0
              ipureintro; exact View.read_writes_of_cover _ _ _ _ _ (scover1_A_0 _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 _ _ _ _ _ _ _ _ _ _ _ _ _ _ _ _ _ _ _ _ _ _ _)
            · unfold owns; iexists _; isplitr
              swap; · iexact HS2
              ipureintro; exact View.read_writes_of_cover _ _ _ _ _ (scover1_A_2 _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h3 : t.val % 4 = 3
    · by_cases h2 : t.val % 4 = (t.val / 4) % 4
      ·
        rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [show (dat1 V c).leavesExact 3 t = owns (c : Thread nD τ) (ms1_3 t) fullShare ((dat1 V c).after 3 t) from by
          unfold Dat.leavesExact; rw [liveAt1_3 t (hcs1_G t h0 h3 h2).2.2.2], after1_3]
        rw [outsAt1_G V c t h0 h3 h2]
        unfold out1_G_3 sout1_G_0 sout1_G_1 sout1_G_2; (try dsimp only)
        have hz : t.val ≠ 0 := by omega
        rw [PhiS1_castSucc V c t, PhiS1_pos V c _ _ hz]
        iintro ⟨⟨⟨R0, R1, R2, R3, R4, R5, R6, R7, R8, R9, R10, HS0, HS1, HS2⟩, Hg⟩, Ho, ⟨%d0, H0⟩, ⟨%d1, H1⟩, ⟨%d2, H2⟩, ⟨%d3, H3⟩⟩
        iapply ((kernelRun1_G c (grid1.coords t) _ _ _ _ _ _ _ _ _ _ _ _ _ _ (hcs1_G t h0 h3 h2).1 (hcs1_G t h0 h3 h2).2.1 (hcs1_G t h0 h3 h2).2.2.1 (hcs1_G t h0 h3 h2).2.2.2 (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [R0 R1 R2 R3 R4 R5 R6 R7 R8 R9 R10 HS0 HS1 HS2 Hg]
        · isplitl [R0 R1 R2 R3 R4 R5 R6 R7 R8 R9 R10 HS0 HS1 HS2]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [HS0]
            · unfold owns; iexists _; isplitr
              swap; · iexact HS0
              ipureintro; exact View.read_writes_of_cover _ _ _ _ _ (scover1_G_0 _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_G_1 _ _ _ _ _ _ _ _ _ _ _ _ _ _ _ _ _ _ _ _ _ _ _ _ _ _)
            · unfold owns; iexists _; isplitr
              swap; · iexact HS2
              ipureintro; exact View.read_writes_of_cover _ _ _ _ _ (scover1_G_2 _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_G_3 _ _ _ _ _ _ _ _ _ _ _ _ _ _ _ _ _ _ _ _ _ _ _ _ _ _)
      ·
        rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [show (dat1 V c).leavesExact 3 t = owns (c : Thread nD τ) (ms1_3 t) fullShare ((dat1 V c).after 3 t) from by
          unfold Dat.leavesExact; rw [liveAt1_3 t (hcs1_C t h0 h3 h2).2.2.2], after1_3]
        rw [outsAt1_C V c t h0 h3 h2]
        unfold out1_C_3; (try dsimp only)
        have hz : t.val ≠ 0 := by omega
        rw [PhiS1_castSucc V c t, PhiS1_pos V c _ _ hz]
        iintro ⟨⟨⟨R0, R1, R2, R3, R4, R5, R6, R7, R8, R9, R10, HS0, HS1, HS2⟩, Hg⟩, Ho, ⟨%d0, H0⟩, ⟨%d1, H1⟩, ⟨%d2, H2⟩, ⟨%d3, H3⟩⟩
        iapply ((kernelRun1_C c (grid1.coords t) _ _ _ _ _ _ _ _ _ _ _ _ _ _ (hcs1_C t h0 h3 h2).1 (hcs1_C t h0 h3 h2).2.1 (hcs1_C t h0 h3 h2).2.2.1 (hcs1_C t h0 h3 h2).2.2.2 (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, HS0, HS1, HS2⟩
        isplitl [R0 R1 R2 R3 R4 R5 R6 R7 R8 R9 R10 HS0 HS1 HS2 Hg]
        · isplitl [R0 R1 R2 R3 R4 R5 R6 R7 R8 R9 R10 HS0 HS1 HS2]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [HS0]; · iexact HS0
            isplitl [HS1]; · iexact HS1
            iexact HS2
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 _ _ _ _ _ _ _ _ _ _ _ _ _ _ _ _ _ _ _ _ _ _ _ _ _ _)
    · by_cases h1 : t.val % 4 < (t.val / 4) % 4
      ·
        rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [Dat.leavesExact_idle (dat1 V c) 3 t (idleAt1_3 t (hcs1_F t h0 h3 h1).2.2.2) (noFlush1_3 t (hcs1_F t h0 h3 h1).2.2.2)]
        rw [outsAt1_F V c t h0 h3 h1]
        unfold sout1_F_0 sout1_F_1 sout1_F_2; (try dsimp only)
        have hz : t.val ≠ 0 := by omega
        rw [PhiS1_castSucc V c t, PhiS1_pos V c _ _ hz]
        iintro ⟨⟨⟨R0, R1, R2, R3, R4, R5, R6, R7, R8, R9, R10, HS0, HS1, HS2⟩, Hg⟩, Ho, ⟨%d0, H0⟩, ⟨%d1, H1⟩, ⟨%d2, H2⟩, ⟨%d3, H3⟩⟩
        iapply ((kernelRun1_F c (grid1.coords t) _ _ _ _ _ _ _ _ _ _ _ _ _ _ (hcs1_F t h0 h3 h1).1 (hcs1_F t h0 h3 h1).2.1 (hcs1_F t h0 h3 h1).2.2.1 (hcs1_F t h0 h3 h1).2.2.2 (iblk1 V c 0 t) (iblk1 V c 1 t) (iblk1 V c 2 t) _ _ _).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [R0 R1 R2 R3 R4 R5 R6 R7 R8 R9 R10 HS0 HS1 HS2 Hg]
        · isplitl [R0 R1 R2 R3 R4 R5 R6 R7 R8 R9 R10 HS0 HS1 HS2]
          · isplitl [R0]; · iexact R0
            isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [HS0]
            · unfold owns; iexists _; isplitr
              swap; · iexact HS0
              ipureintro; exact View.read_writes_of_cover _ _ _ _ _ (scover1_F_0 _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_F_1 _ _ _ _ _ _ _ _ _ _ _ _ _ _ _ _ _ _ _ _ _ _ _ _ _ _)
            · unfold owns; iexists _; isplitr
              swap; · iexact HS2
              ipureintro; exact View.read_writes_of_cover _ _ _ _ _ (scover1_F_2 _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · by_cases h2 : t.val % 4 = (t.val / 4) % 4
        ·
          rw [show (dat1 V c).leavesExact 0 t = owns (c : Thread nD τ) (ms1_0 t) fullShare ((dat1 V c).after 0 t) from by
            unfold Dat.leavesExact; rw [liveAt1_0 t], after1_0]
          rw [show (dat1 V c).leavesExact 1 t = owns (c : Thread nD τ) (ms1_1 t) fullShare ((dat1 V c).after 1 t) from by
            unfold Dat.leavesExact; rw [liveAt1_1 t], after1_1]
          rw [show (dat1 V c).leavesExact 2 t = owns (c : Thread nD τ) (ms1_2 t) fullShare ((dat1 V c).after 2 t) from by
            unfold Dat.leavesExact; rw [liveAt1_2 t], after1_2]
          rw [Dat.leavesExact_idle (dat1 V c) 3 t (idleAt1_3 t (hcs1_E t h0 h3 h1 h2).2.2.2) (noFlush1_3 t (hcs1_E t h0 h3 h1 h2).2.2.2)]
          rw [outsAt1_E V c t h0 h3 h1 h2]
          unfold sout1_E_0 sout1_E_1 sout1_E_2; (try dsimp only)
          have hz : t.val ≠ 0 := by omega
          rw [PhiS1_castSucc V c t, PhiS1_pos V c _ _ hz]
          iintro ⟨⟨⟨R0, R1, R2, R3, R4, R5, R6, R7, R8, R9, R10, HS0, HS1, HS2⟩, Hg⟩, Ho, ⟨%d0, H0⟩, ⟨%d1, H1⟩, ⟨%d2, H2⟩, ⟨%d3, H3⟩⟩
          iapply ((kernelRun1_E c (grid1.coords t) _ _ _ _ _ _ _ _ _ _ _ _ _ _ (hcs1_E t h0 h3 h1 h2).1 (hcs1_E t h0 h3 h1 h2).2.1 (hcs1_E t h0 h3 h1 h2).2.2.1 (hcs1_E t h0 h3 h1 h2).2.2.2 (iblk1 V c 0 t) (iblk1 V c 1 t) (iblk1 V c 2 t) _ _ _).2.2.2.2 _ Set.univ _)
          isplitl [H0]; · iexact H0
          isplitl [H1]; · iexact H1
          isplitl [H2]; · iexact H2
          isplitl [H3]; · iexact H3
          isplitl [HS0]; · iexact HS0
          isplitl [HS1]; · iexact HS1
          isplitl [HS2]; · iexact HS2
          iintro ⟨H0, H1, H2, H3, ⟨%es0, HS0⟩, ⟨%es1, HS1⟩, ⟨%es2, HS2⟩⟩
          isplitl [R0 R1 R2 R3 R4 R5 R6 R7 R8 R9 R10 HS0 HS1 HS2 Hg]
          · isplitl [R0 R1 R2 R3 R4 R5 R6 R7 R8 R9 R10 HS0 HS1 HS2]
            · isplitl [R0]; · iexact R0
              isplitl [R1]; · iexact R1
              isplitl [R2]; · iexact R2
              isplitl [R3]; · iexact R3
              isplitl [R4]; · iexact R4
              isplitl [R5]; · iexact R5
              isplitl [R6]; · iexact R6
              isplitl [R7]; · iexact R7
              isplitl [R8]; · iexact R8
              isplitl [R9]; · iexact R9
              isplitl [R10]; · iexact R10
              isplitl [HS0]
              · unfold owns; iexists _; isplitr
                swap; · iexact HS0
                ipureintro; exact View.read_writes_of_cover _ _ _ _ _ (scover1_E_0 _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover1_E_1 _ _ _ _ _ _ _ _ _ _ _ _ _ _ _ _ _ _ _ _ _ _ _ _ _ _)
              · unfold owns; iexists _; isplitr
                swap; · iexact HS2
                ipureintro; exact View.read_writes_of_cover _ _ _ _ _ (scover1_E_2 _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          iexists _; iexact H3
        ·
          rw [show (dat1 V c).leavesExact 0 t = owns (c : Thread nD τ) (ms1_0 t) fullShare ((dat1 V c).after 0 t) from by
            unfold Dat.leavesExact; rw [liveAt1_0 t], after1_0]
          rw [show (dat1 V c).leavesExact 1 t = owns (c : Thread nD τ) (ms1_1 t) fullShare ((dat1 V c).after 1 t) from by
            unfold Dat.leavesExact; rw [liveAt1_1 t], after1_1]
          rw [show (dat1 V c).leavesExact 2 t = owns (c : Thread nD τ) (ms1_2 t) fullShare ((dat1 V c).after 2 t) from by
            unfold Dat.leavesExact; rw [liveAt1_2 t], after1_2]
          rw [Dat.leavesExact_idle (dat1 V c) 3 t (idleAt1_3 t (hcs1_B t h0 h3 h1 h2).2.2.2) (noFlush1_3 t (hcs1_B t h0 h3 h1 h2).2.2.2)]
          rw [outsAt1_B V c t h0 h3 h1 h2]
          (try dsimp only)
          have hz : t.val ≠ 0 := by omega
          rw [PhiS1_castSucc V c t, PhiS1_pos V c _ _ hz]
          iintro ⟨⟨⟨R0, R1, R2, R3, R4, R5, R6, R7, R8, R9, R10, HS0, HS1, HS2⟩, Hg⟩, Ho, ⟨%d0, H0⟩, ⟨%d1, H1⟩, ⟨%d2, H2⟩, ⟨%d3, H3⟩⟩
          iapply ((kernelRun1_B c (grid1.coords t) _ _ _ _ _ _ _ _ _ _ _ _ _ _ (hcs1_B t h0 h3 h1 h2).1 (hcs1_B t h0 h3 h1 h2).2.1 (hcs1_B t h0 h3 h1 h2).2.2.1 (hcs1_B t h0 h3 h1 h2).2.2.2 (iblk1 V c 0 t) (iblk1 V c 1 t) (iblk1 V c 2 t) _ _ _).2.2.2.2 _ Set.univ _)
          isplitl [H0]; · iexact H0
          isplitl [H1]; · iexact H1
          isplitl [H2]; · iexact H2
          isplitl [H3]; · iexact H3
          isplitl [HS0]; · iexact HS0
          isplitl [HS1]; · iexact HS1
          isplitl [HS2]; · iexact HS2
          iintro ⟨H0, H1, H2, H3, HS0, HS1, HS2⟩
          isplitl [R0 R1 R2 R3 R4 R5 R6 R7 R8 R9 R10 HS0 HS1 HS2 Hg]
          · isplitl [R0 R1 R2 R3 R4 R5 R6 R7 R8 R9 R10 HS0 HS1 HS2]
            · isplitl [R0]; · iexact R0
              isplitl [R1]; · iexact R1
              isplitl [R2]; · iexact R2
              isplitl [R3]; · iexact R3
              isplitl [R4]; · iexact R4
              isplitl [R5]; · iexact R5
              isplitl [R6]; · iexact R6
              isplitl [R7]; · iexact R7
              isplitl [R8]; · iexact R8
              isplitl [R9]; · iexact R9
              isplitl [R10]; · iexact R10
              isplitl [HS0]; · iexact HS0
              isplitl [HS1]; · iexact HS1
              iexact HS2
            iexact Hg
          isplitl [Ho]; · iexact Ho
          isplitl [H0]; · iexact H0
          isplitl [H1]; · iexact H1
          isplitl [H2]; · iexact H2
          iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the region's own back: the scratch operands' named contents are
    forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨R0, R1, R2, R3, R4, R5, R6, R7, R8, R9, R10, HS0, HS1, HS2⟩, Hg⟩
  isplitl [R0 R1 R2 R3 R4 R5 R6 R7 R8 R9 R10 HS0 HS1 HS2]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [HS0]; · iexists _; iexact HS0
    isplitl [HS1]; · iexists _; iexact HS1
    iexists _; iexact HS2
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Cert.KernelIdeal.H

end
-- ==== Proof.KI.Run.lean ====
import proofs.«116450_j75076028334813_2_alg».proof.Proof.KI.RunW
import proofs.«116450_j75076028334813_2_alg».proof.Proof.KI.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! # The run, continued: region 1's exit contents, the arguments read back, the segments and the launch

(the boundary contents up to region 0's exit are the imported fold `W0`, `W1`, `W2`) -/

/-- At region 1's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`). -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched: no host operation and no region writes one (region 0 reads `main_arg0`,
    `main_arg2`, `main_arg3` through input windows, which the pipeline leaves as entered; `main_arg1` is no
    window's array of either region; region 1 has no argument among its arrays), so the fold at an argument's buffer
    walks back to the launch memory -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := (W2_arr m ρ c 3).trans (((dat0 (V1 m ρ) c).arrAt_in 3 rfl _).trans (A_eq0 (V1 m ρ) c 3))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (each region's
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along (its `post`
    is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of `hostOps0` allocates a buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the chain ends at it beside the core owing nothing): every unscoped
    buffer at the last boundary's contents `W3`, the generator register at some state. -/
abbrev Tₙ (c : Dev nD) : sProp 𝕄 := iprop(StableHlo.held (c : Thread nD τ) (Pipeline.ucRefs τ sig) (W3 m ρ c) ∗ ∃ r, prngReg c r)

/-! ## The regions as segments -/

-- unifying a library lemma stated over the pinned configuration with the printed one takes unfolding plain
-- definitions in a metavariable's type
set_option backward.isDefEq.respectTransparency.types false in
/-- REGION 0 (custom_call 0) over the thread state: entered from every unscoped buffer at `W1`, left at the
    next boundary's contents. Its arrays are split out of the unscoped buffers and put back at the exit contents; the
    generator register goes into the invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one takes unfolding plain
-- definitions in a metavariable's type
set_option backward.isDefEq.respectTransparency.types false in
/-- REGION 1 (custom_call 1) over the thread state: entered from every unscoped buffer at `W2`, left at the
    next boundary's contents. Its arrays are split out of the unscoped buffers and put back at the exit contents; the
    generator register goes into the invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m ρ 1 c).Φ 0 from hin1 (V2 m ρ) c)
    unfold Pipeline.ΦA
    iintro ⟨Hp, -, Hr⟩
    isplitl [Hr]; · iexact Hr
    iexact Hp
  hout c := by
    rw [Pipeline.ownSems0_none]
    refine BIBase.Entails.trans (show (pdats m ρ 1 c).Φ (Fin.last _) ⊢ Pipeline.ΦA spec1 c from hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 3 segments in order: the host stretch from the launch contents, then the two regions back to back. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- @main is the run of the segments: @main as the chain of its items, then the segments' run against that chain by
    definitional unfolding. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and every final state has every unscoped buffer of every core at the last
    boundary's contents `W3`: the launch over the segments, the last thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: every weakly fair execution of @main terminates, nothing faulting, and every final state has each of
    the four argument arrays as launched: each is an unscoped buffer, which the run leaves at `W3`, and `W3` at an
    argument is the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (run_all m ρ).mono fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩

end Cert.KernelIdeal.H

end
-- ==== Proof.KI.Blocks1.lean ====
import proofs.«116450_j75076028334813_2_alg».proof.Proof.KI.R1Runs
import Idealize.ShloMosaic.Lib.Pipeline.Value
import Idealize.ShloMosaic.Lib.ValueIdx

-- membership in a rectangle of production extents: the elaborator's structural look recurses once per
-- coordinate of the long axes
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1 (the attention kernel): where each window's block sits in its array, and the output array from its blocks

  A grid point `t < 64` is the triple (batch, query tile, key tile) = (t / 16, (t / 4) % 4, t % 4). The query window's
  block at `t` is rows `1024 * (query tile) … + 1023` of batch `t / 16` of the projected queries; the key and value
  windows' block is rows `1024 * min (key tile) (query tile) …` of the same batch (a key tile above the diagonal is
  clamped to the diagonal one, so nothing new is fetched there); the output window's block is rows
  `1024 * (query tile) …` of the result, written back at the last key tile only. -/

/-- The grid of region 1 has 64 points. -/
theorem lt64 (t : Fin cfg1.N) : t.val < 64 := Nat.lt_of_lt_of_eq (show t.val < grid1.N from t.isLt) N_1

/-! ## The printed index maps, decided once over the grid -/

/-- The query window's block index: (batch, query tile, 0). -/
theorem index1_0 : ∀ t : Fin cfg1.N, win1_0.index t (0 : Fin 3) = t.val / 16 ∧ win1_0.index t (1 : Fin 3) = (t.val / 4) % 4 ∧ win1_0.index t (2 : Fin 3) = 0 :=
  (by decide +kernel : ∀ t : Fin grid1.N, _)
/-- The key window's block index: (batch, the smaller of key tile and query tile, 0). -/
theorem index1_1 : ∀ t : Fin cfg1.N, win1_1.index t (0 : Fin 3) = t.val / 16 ∧ win1_1.index t (1 : Fin 3) = min (t.val % 4) ((t.val / 4) % 4) ∧ win1_1.index t (2 : Fin 3) = 0 :=
  (by decide +kernel : ∀ t : Fin grid1.N, _)
/-- The value window's block index: the key window's. -/
theorem index1_2 : ∀ t : Fin cfg1.N, win1_2.index t (0 : Fin 3) = t.val / 16 ∧ win1_2.index t (1 : Fin 3) = min (t.val % 4) ((t.val / 4) % 4) ∧ win1_2.index t (2 : Fin 3) = 0 :=
  (by decide +kernel : ∀ t : Fin grid1.N, _)
/-- The output window's block index: the query window's. -/
theorem index1_3 : ∀ t : Fin cfg1.N, win1_3.index t (0 : Fin 3) = t.val / 16 ∧ win1_3.index t (1 : Fin 3) = (t.val / 4) % 4 ∧ win1_3.index t (2 : Fin 3) = 0 :=
  (by decide +kernel : ∀ t : Fin grid1.N, _)

/-! ## The input blocks read at an index -/

/-- The query block at point `t`, at a block index `y`, is the projected queries at any array index `i` whose batch is
    `t / 16`, whose row is `1024 * (query tile) + ` the block row, and whose lane is the block lane. -/
theorem iblk1_0_apply (c : Dev nD) (t : Fin cfg1.N) (y : S1x1024x64.Idx) (i : S4x4096x64.Idx)
    (h0 : (i 0).val = t.val / 16) (h1 : (i 1).val = ((t.val / 4) % 4) * 1024 + (y 1).val) (h2 : (i 2).val = (y 2).val) :
    (iblk1 V c 0 t : S1x1024x64.Idx → Elt F .bf16) y = (V c main_v2_0 : S4x4096x64.Idx → Elt F .bf16) i := by
  obtain ⟨e0, e1, e2⟩ := index1_0 t
  unfold iblk1
  rw [View.read_apply]
  show V c main_v2_0 (((cfg1.win 0).blk t).view.emb y) = V c main_v2_0 i
  refine congrArg _ ?_
  funext a
  apply Fin.ext
  match a with
  | ⟨0, _⟩ => show win1_0.index t (0 : Fin 3) * 1 + 1 * (y 0).val = (i 0).val; have hy : (y 0).val < 1 := (y 0).isLt; omega
  | ⟨1, _⟩ => show win1_0.index t (1 : Fin 3) * 1024 + 1 * (y 1).val = (i 1).val; omega
  | ⟨2, _⟩ => show win1_0.index t (2 : Fin 3) * 64 + 1 * (y 2).val = (i 2).val; omega

/-- The same at explicit coordinates. -/
theorem iblk1_0_ix (c : Dev nD) (t : Fin cfg1.N) (r : Fin 1024) (h : Fin 64) :
    (iblk1 V c 0 t : S1x1024x64.Idx → Elt F .bf16) (ix3 (0 : Fin 1) r h)
      = (V c main_v2_0 : S4x4096x64.Idx → Elt F .bf16) (ix3 (⟨t.val / 16, by have := lt64 t; omega⟩ : Fin 4) (⟨((t.val / 4) % 4) * 1024 + r.val, by have := r.isLt; omega⟩ : Fin 4096) h) :=
  iblk1_0_apply V c t _ _ rfl rfl rfl

/-- The key block at point `t`, at a block index `y`, is the projected keys at any array index `i` whose batch is
    `t / 16`, whose row is `1024 * min (key tile) (query tile) + ` the block row, and whose lane is the block lane. -/
theorem iblk1_1_apply (c : Dev nD) (t : Fin cfg1.N) (y : S1x1024x64.Idx) (i : S4x4096x64.Idx)
    (h0 : (i 0).val = t.val / 16) (h1 : (i 1).val = (min (t.val % 4) ((t.val / 4) % 4)) * 1024 + (y 1).val) (h2 : (i 2).val = (y 2).val) :
    (iblk1 V c 1 t : S1x1024x64.Idx → Elt F .bf16) y = (V c main_v2_1 : S4x4096x64.Idx → Elt F .bf16) i := by
  obtain ⟨e0, e1, e2⟩ := index1_1 t
  unfold iblk1
  rw [View.read_apply]
  show V c main_v2_1 (((cfg1.win 1).blk t).view.emb y) = V c main_v2_1 i
  refine congrArg _ ?_
  funext a
  apply Fin.ext
  match a with
  | ⟨0, _⟩ => show win1_1.index t (0 : Fin 3) * 1 + 1 * (y 0).val = (i 0).val; have hy : (y 0).val < 1 := (y 0).isLt; omega
  | ⟨1, _⟩ => show win1_1.index t (1 : Fin 3) * 1024 + 1 * (y 1).val = (i 1).val; omega
  | ⟨2, _⟩ => show win1_1.index t (2 : Fin 3) * 64 + 1 * (y 2).val = (i 2).val; omega

/-- The same at explicit coordinates. -/
theorem iblk1_1_ix (c : Dev nD) (t : Fin cfg1.N) (r : Fin 1024) (h : Fin 64) :
    (iblk1 V c 1 t : S1x1024x64.Idx → Elt F .bf16) (ix3 (0 : Fin 1) r h)
      = (V c main_v2_1 : S4x4096x64.Idx → Elt F .bf16) (ix3 (⟨t.val / 16, by have := lt64 t; omega⟩ : Fin 4) (⟨(min (t.val % 4) ((t.val / 4) % 4)) * 1024 + r.val, by have := r.isLt; omega⟩ : Fin 4096) h) :=
  iblk1_1_apply V c t _ _ rfl rfl rfl

/-- The value block at point `t`, at a block index `y`, is the projected values at any array index `i` whose batch is
    `t / 16`, whose row is `1024 * min (key tile) (query tile) + ` the block row, and whose lane is the block lane. -/
theorem iblk1_2_apply (c : Dev nD) (t : Fin cfg1.N) (y : S1x1024x64.Idx) (i : S4x4096x64.Idx)
    (h0 : (i 0).val = t.val / 16) (h1 : (i 1).val = (min (t.val % 4) ((t.val / 4) % 4)) * 1024 + (y 1).val) (h2 : (i 2).val = (y 2).val) :
    (iblk1 V c 2 t : S1x1024x64.Idx → Elt F .bf16) y = (V c main_v2_2 : S4x4096x64.Idx → Elt F .bf16) i := by
  obtain ⟨e0, e1, e2⟩ := index1_2 t
  unfold iblk1
  rw [View.read_apply]
  show V c main_v2_2 (((cfg1.win 2).blk t).view.emb y) = V c main_v2_2 i
  refine congrArg _ ?_
  funext a
  apply Fin.ext
  match a with
  | ⟨0, _⟩ => show win1_2.index t (0 : Fin 3) * 1 + 1 * (y 0).val = (i 0).val; have hy : (y 0).val < 1 := (y 0).isLt; omega
  | ⟨1, _⟩ => show win1_2.index t (1 : Fin 3) * 1024 + 1 * (y 1).val = (i 1).val; omega
  | ⟨2, _⟩ => show win1_2.index t (2 : Fin 3) * 64 + 1 * (y 2).val = (i 2).val; omega

/-- The same at explicit coordinates. -/
theorem iblk1_2_ix (c : Dev nD) (t : Fin cfg1.N) (r : Fin 1024) (h : Fin 64) :
    (iblk1 V c 2 t : S1x1024x64.Idx → Elt F .bf16) (ix3 (0 : Fin 1) r h)
      = (V c main_v2_2 : S4x4096x64.Idx → Elt F .bf16) (ix3 (⟨t.val / 16, by have := lt64 t; omega⟩ : Fin 4) (⟨(min (t.val % 4) ((t.val / 4) % 4)) * 1024 + r.val, by have := r.isLt; omega⟩ : Fin 4096) h) :=
  iblk1_2_apply V c t _ _ rfl rfl rfl

/-! ## From the written-back blocks to the output array -/

/-- An index of the result array is in point `t`'s output block iff each coordinate is in the block's range on its axis. -/
theorem mem_blk1_3 (t : Fin cfg1.N) (i : S4x4096x64.Idx) :
    i ∈ ((cfg1.win 3).blk t).view.set ↔ ∀ a : Fin 3, win1_3.index t a * S1x1024x64.size a ≤ (i a).val ∧ (i a).val < win1_3.index t a * S1x1024x64.size a + S1x1024x64.size a := by
  show i ∈ ((View.whole main_v3).slice (win1_3.rect t)).set ↔ _
  rw [View.set_slice_whole, Rect.mem_set_unit]
  exact Iff.rfl

/-- Every index (b, p, d) of the result array is in the block written back at the last key tile of query tile `p / 1024`
    of batch `b`: the point `16 b + 4 (p / 1024) + 3`. -/
theorem cover1_3 (i : S4x4096x64.Idx) :
    ∃ t : Fin cfg1.N, (cfg1.win 3).flush t = true ∧ i ∈ ((cfg1.win 3).blk t).view.set := by
  have hi0 : (i 0).val < 4 := (i 0).isLt
  have hi1 : (i 1).val < 4096 := (i 1).isLt
  have hi2 : (i 2).val < 64 := (i 2).isLt
  obtain ⟨t, ht⟩ : ∃ t : Fin cfg1.N, t.val = (i 0).val * 16 + ((i 1).val / 1024) * 4 + 3 :=
    ⟨⟨(i 0).val * 16 + ((i 1).val / 1024) * 4 + 3, Nat.lt_of_lt_of_eq (show _ < 64 by omega) N_1.symm⟩, rfl⟩
  obtain ⟨e0, e1, e2⟩ := index1_3 t
  refine ⟨t, (flush1_3 t).mpr (by omega), ?_⟩
  rw [mem_blk1_3]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 64 ≤ (i 2).val ∧ (i 2).val < win1_3.index t (2 : Fin 3) * 64 + 64; omega

/-- If, at every last key tile, what the body leaves in the output window's buffer is the block of one whole-array
    function `Gf` (row `r` of the buffer being row `1024 * (query tile) + r` of batch `t / 16`), then what that point
    writes back is its block of `Gf`. Stated for any proof data of the region. -/
theorem flushed1_3_of {c : Dev nD} (dat : Dat τ (Elt F) Unit ℕ (UR sig nD τ) ℕ cfg1 c) (Gf : S4x4096x64.Idx → Elt F .f32)
    (h : ∀ t : Fin cfg1.N, t.val % 4 = 3 → ∀ (r : Fin 1024) (d : Fin 64),
      (dat.after 3 t : S1x1024x64.Idx → Elt F .f32) (ix3 (0 : Fin 1) r d)
        = Gf (ix3 (⟨t.val / 16, by have := lt64 t; omega⟩ : Fin 4) (⟨((t.val / 4) % 4) * 1024 + r.val, by have := r.isLt; omega⟩ : Fin 4096) d))
    (t : Fin cfg1.N) (hf : (cfg1.win 3).flush t = true) :
    dat.flushed 3 t = ((cfg1.win 3).blk t).view.read (Elt F) Gf := by
  have h3 : t.val % 4 = 3 := (flush1_3 t).mp hf
  obtain ⟨e0, e1, e2⟩ := index1_3 t
  funext y
  show (dat.after 3 t : S1x1024x64.Idx → Elt F .f32) y = Gf (((cfg1.win 3).blk t).view.emb y)
  have hy0 : (y 0).val < 1 := (y 0).isLt
  have hy1 : (y 1).val < 1024 := (y 1).isLt
  have hy2 : (y 2).val < 64 := (y 2).isLt
  have ey : (y : S1x1024x64.Idx) = ix3 (0 : Fin 1) (⟨(y 1).val, hy1⟩ : Fin 1024) (⟨(y 2).val, hy2⟩ : Fin 64) := by
    funext a; apply Fin.ext
    match a with
    | ⟨0, _⟩ => show (y 0).val = 0; omega
    | ⟨1, _⟩ => rfl
    | ⟨2, _⟩ => rfl
  refine (congrArg (dat.after 3 t : S1x1024x64.Idx → Elt F .f32) ey).trans ?_
  refine (h t h3 ⟨(y 1).val, hy1⟩ ⟨(y 2).val, hy2⟩).trans ?_
  refine congrArg Gf ?_
  funext a; apply Fin.ext
  match a with
  | ⟨0, _⟩ => show t.val / 16 = win1_3.index t (0 : Fin 3) * 1 + 1 * (y 0).val; omega
  | ⟨1, _⟩ => show ((t.val / 4) % 4) * 1024 + (y 1).val = win1_3.index t (1 : Fin 3) * 1024 + 1 * (y 1).val; omega
  | ⟨2, _⟩ => show (y 2).val = win1_3.index t (2 : Fin 3) * 64 + 1 * (y 2).val; omega

/-- Then the result array ends holding `Gf`: the written-back blocks tile it. -/
theorem final1_3_of_after {c : Dev nD} (dat : Dat τ (Elt F) Unit ℕ (UR sig nD τ) ℕ cfg1 c) (Gf : S4x4096x64.Idx → Elt F .f32)
    (h : ∀ t : Fin cfg1.N, t.val % 4 = 3 → ∀ (r : Fin 1024) (d : Fin 64),
      (dat.after 3 t : S1x1024x64.Idx → Elt F .f32) (ix3 (0 : Fin 1) r d)
        = Gf (ix3 (⟨t.val / 16, by have := lt64 t; omega⟩ : Fin 4) (⟨((t.val / 4) % 4) * 1024 + r.val, by have := r.isLt; omega⟩ : Fin 4096) d)) :
    dat.arrAt 3 cfg1.N = Gf :=
  dat.arrAt_eq_of_cover 3 Gf (flushed1_3_of dat Gf h) cover1_3

/-- The three input windows' arrays (projected queries, keys, values) are never written: after the region each is the
    array the proof data starts from. -/
theorem kept1_of_A {c : Dev nD} (dat : Dat τ (Elt F) Unit ℕ (UR sig nD τ) ℕ cfg1 c) (w : Fin cfg1.W) (hw : w.val < 3) :
    dat.arrAt w cfg1.N = dat.A w :=
  match w, hw with
  | ⟨0, _⟩, _ => dat.arrAt_in 0 rfl cfg1.N
  | ⟨1, _⟩, _ => dat.arrAt_in 1 rfl cfg1.N
  | ⟨2, _⟩, _ => dat.arrAt_in 2 rfl cfg1.N

end Cert.KernelIdeal.H

end
-- ==== Proof.Spec.lean ====
/-
  Causal single-head attention over the extended reals, as one function of the four argument arrays.

  For a batch b, a position t and a head coordinate h, the projection of the input row by a weight matrix is
      proj x w b t h = ∑ e, x (b, t, e) * w (h, e).
  The score of a query position q against a key position k is the inner product of the two projected rows divided by
  the square root of the embedding width 1024, and minus infinity for a key after the query (the causal mask):
      score b q k = (∑ h, proj x wq b q h * proj x wk b k h) / sqrt 1024      if k ≤ q,      -∞ otherwise.
  The result at (b, q, d) is the softmax over k of the scores, taken against the row's largest score, weighting the
  projected values:
      G (b, q, d) = ∑ k, (exp (score k - M) / (0 + ∑ j, exp (score j - M))) * proj x wv b k d,   M = max (-∞) (sup_k score k).
  (The spelling "max ⊥ (sup …)" and "0 + ∑ …" is the one a fold started at minus infinity, respectively at zero, reads as.)
-/
import Idealize.ShloMosaic.PureOps.Ideal
import Idealize.ShloMosaic.Lib.ValueIdx

noncomputable section

namespace Attn

open Idealize.ShloMosaic Idealize.ShloMosaic.ValueIdx

/-- The input array's index set, [4, 4096, 1024]. -/
abbrev SX : Shape := ⟨3, ![4, 4096, 1024]⟩
/-- A weight matrix's index set, [64, 1024]. -/
abbrev SW : Shape := ⟨2, ![64, 1024]⟩
/-- The index set of a projected array and of the result, [4, 4096, 64]. -/
abbrev SO : Shape := ⟨3, ![4, 4096, 64]⟩

/-- The divisor of the scores: the square root of 1024 as the host computes it from the 32-bit pattern of 1024.0. -/
def rootE : EReal := Ideal.sqrt (Ideal.ofBits .f32 0x44800000#32)

/-- The factor folded into the query weights: the 32-bit pattern of 0.03125. -/
def scaleE : EReal := Ideal.ofBits .f32 0x3D000000#32

/-- A row of the input against a row of a weight matrix. -/
def proj (x : SX.Idx → EReal) (w : SW.Idx → EReal) (b : Fin 4) (t : Fin 4096) (h : Fin 64) : EReal :=
  ∑ e : Fin 1024, x (ix3 b t e) * w (ix2 h e)

/-- The inner product of a projected query row and a projected key row. -/
def dotQK (x : SX.Idx → EReal) (wq wk : SW.Idx → EReal) (b : Fin 4) (q k : Fin 4096) : EReal :=
  ∑ h : Fin 64, proj x wq b q h * proj x wk b k h

/-- The masked, scaled score. -/
def score (x : SX.Idx → EReal) (wq wk : SW.Idx → EReal) (b : Fin 4) (q k : Fin 4096) : EReal :=
  if k.val ≤ q.val then Ideal.div (dotQK x wq wk b q k) rootE else ⊥

/-- The softmax-weighted mean of the projected values, at explicit coordinates. -/
def attn (x : SX.Idx → EReal) (wq wk wv : SW.Idx → EReal) (b : Fin 4) (q : Fin 4096) (d : Fin 64) : EReal :=
  ∑ k : Fin 4096,
    Ideal.div (Ideal.exp (score x wq wk b q k - max ⊥ (Finset.univ.sup fun j => score x wq wk b q j)))
        (0 + ∑ j : Fin 4096, Ideal.exp (score x wq wk b q j - max ⊥ (Finset.univ.sup fun j' => score x wq wk b q j')))
      * proj x wv b k d

/-- The whole result array. -/
def G (x : SX.Idx → EReal) (wq wk wv : SW.Idx → EReal) : SO.Idx → EReal :=
  fun i => attn x wq wk wv ⟨(i 0).val, (i 0).isLt⟩ ⟨(i 1).val, (i 1).isLt⟩ ⟨(i 2).val, (i 2).isLt⟩

/-- Every entry of an array is a real number. -/
def AllReal {S : Shape} (x : S.Idx → EReal) : Prop := ∀ i, ∃ r : ℝ, x i = (r : EReal)

end Attn

end
-- ==== Proof.Spec2.lean ====
/-
  Causal attention stated over three GIVEN arrays of projected rows — queries Q, keys K, values W, each [4, 4096, 64] —
  rather than over the inputs they were projected from: what the second kernel computes from what the first one wrote.

      scoreQK b q k = ∑ h, Q (b, q, h) * K (b, k, h)   if k ≤ q,    -∞ otherwise,
      attnQKV (b, q, d) = ∑ k, (exp (scoreQK k - M) / (0 + ∑ j, exp (scoreQK j - M))) * W (b, k, d),   M = max (-∞) (sup_k scoreQK k).

  When Q is the projection by the query weights scaled by 1/32, K the projection by the key weights and W the projection
  by the value weights, and the scaled score is the unscaled one divided by the square root of 1024, this is `Attn.attn`.
-/
import proofs.«116450_j75076028334813_2_alg».proof.Proof.Spec

noncomputable section

namespace Attn

open Idealize.ShloMosaic Idealize.ShloMosaic.ValueIdx

/-- The masked inner product of a query row and a key row. -/
def scoreQK (Q K : SO.Idx → EReal) (b : Fin 4) (q k : Fin 4096) : EReal :=
  if k.val ≤ q.val then ∑ h : Fin 64, Q (ix3 b q h) * K (ix3 b k h) else ⊥

/-- The softmax-weighted mean of the value rows. -/
def attnQKV (Q K W : SO.Idx → EReal) (b : Fin 4) (q : Fin 4096) (d : Fin 64) : EReal :=
  ∑ k : Fin 4096,
    Ideal.div (Ideal.exp (scoreQK Q K b q k - max ⊥ (Finset.univ.sup fun j => scoreQK Q K b q j)))
        (0 + ∑ j : Fin 4096, Ideal.exp (scoreQK Q K b q j - max ⊥ (Finset.univ.sup fun j' => scoreQK Q K b q j')))
      * W (ix3 b k d)

/-- The projection by the query weights with the factor folded in, as the first kernel computes it. -/
def projScaled (x : SX.Idx → EReal) (w : SW.Idx → EReal) (b : Fin 4) (t : Fin 4096) (h : Fin 64) : EReal :=
  ∑ e : Fin 1024, x (ix3 b t e) * (w (ix2 h e) * scaleE)

/-- If the given arrays are the projections and the scores agree, the two statements of attention agree. -/
theorem attnQKV_eq_attn (x : SX.Idx → EReal) (wq wk wv : SW.Idx → EReal) (Q K W : SO.Idx → EReal)
    (hW : ∀ b t h, W (ix3 b t h) = proj x wv b t h)
    (hs : ∀ b q k, scoreQK Q K b q k = score x wq wk b q k) (b : Fin 4) (q : Fin 4096) (d : Fin 64) :
    attnQKV Q K W b q d = attn x wq wk wv b q d := by
  unfold attnQKV attn
  simp only [hs, hW]

end Attn

end
-- ==== Proof.LibOnlineSoftmax.lean ====
/-
  Online softmax, over the extended reals.

  A row of attention scores `σ k` (each a real or minus infinity, never plus infinity) and real values `v k`
  are visited a block of keys at a time. A running triple `(m, l, a)` is kept:
      m' = max m (sup over the block of σ),
      l' = exp (m - m') * l + ∑ over the block of exp (σ k - m'),
      a' = exp (m - m') * a + ∑ over the block of exp (σ k - m') * v k,
  started at `(-∞, 0, 0)`. Once some visited score is finite the triple is
      m = the largest visited score,  l = ∑ exp (σ k - m),  a = ∑ exp (σ k - m) * v k
  over the visited keys (`Tracks`), and `a / l` is the softmax-weighted mean of the values: the same number the
  one-pass form `∑ (exp (σ k - M) / ∑ exp (σ j - M)) * v k` gives (`softmax_mean`). A key whose score is minus
  infinity has weight zero, so visiting it or not changes nothing (`Tracks.of_bot`).

  All sums are finite sums of reals; the extended reals enter only through the scores' minus infinity, whose
  exponential is zero.
-/
import Idealize.ShloMosaic.PureOps.Ideal

noncomputable section

namespace OnlineSoftmax

open Idealize.ShloMosaic

/-- The weight of a score against a real reference point: `exp (σ - r)` as a real, zero for `σ = -∞`. -/
def wt (σ : EReal) (r : ℝ) : ℝ := (Ideal.exp (σ - (r : EReal))).toReal

theorem exp_sub_coe {σ : EReal} (hσ : σ ≠ ⊤) (r : ℝ) : Ideal.exp (σ - (r : EReal)) = ((wt σ r : ℝ) : EReal) := by
  unfold wt
  induction σ using EReal.rec with
  | bot => simp [EReal.bot_sub]
  | coe s => rw [← EReal.coe_sub, Ideal.exp_coe, EReal.toReal_coe]
  | top => exact absurd rfl hσ

theorem wt_bot (r : ℝ) : wt ⊥ r = 0 := by simp [wt, EReal.bot_sub]

theorem wt_coe (s r : ℝ) : wt (s : EReal) r = Real.exp (s - r) := by
  unfold wt; rw [← EReal.coe_sub, Ideal.exp_coe, EReal.toReal_coe]

theorem wt_nonneg (σ : EReal) (r : ℝ) : 0 ≤ wt σ r := by
  induction σ using EReal.rec with
  | bot => rw [wt_bot]
  | coe s => rw [wt_coe]; exact (Real.exp_pos _).le
  | top => unfold wt; rw [EReal.top_sub_coe, Ideal.exp_top, EReal.toReal_top]

/-- Moving the reference point rescales every weight by the same factor. -/
theorem wt_rescale {σ : EReal} (hσ : σ ≠ ⊤) (μ r : ℝ) : Real.exp (μ - r) * wt σ μ = wt σ r := by
  induction σ using EReal.rec with
  | bot => simp [wt_bot]
  | coe s => rw [wt_coe, wt_coe, ← Real.exp_add]; congr 1; ring
  | top => exact absurd rfl hσ

variable {ι : Type} [DecidableEq ι]

/-- A finite sum of embedded reals is the embedded sum. -/
theorem coe_sum (S : Finset ι) (f : ι → ℝ) : (∑ k ∈ S, ((f k : ℝ) : EReal)) = ((∑ k ∈ S, f k : ℝ) : EReal) := by
  induction S using Finset.induction_on with
  | empty => simp
  | insert a S ha ih => rw [Finset.sum_insert ha, Finset.sum_insert ha, ih, EReal.coe_add]

/-- The running triple after the keys `S`, once a finite score has been seen: `μ` the largest score. -/
structure Tracks (S : Finset ι) (σ : ι → EReal) (v : ι → ℝ) (m l a : EReal) : Prop where
  ex : ∃ μ : ℝ, S.sup σ = (μ : EReal) ∧ m = (μ : EReal)
    ∧ l = ((∑ k ∈ S, wt (σ k) μ : ℝ) : EReal) ∧ a = ((∑ k ∈ S, wt (σ k) μ * v k : ℝ) : EReal)

/-- The start: nothing visited. -/
structure Fresh (m l a : EReal) : Prop where
  hm : m = ⊥
  hl : l = 0
  ha : a = 0

/-- One block visited from the start: if the block holds a finite score the triple tracks the block. -/
theorem Tracks.first (B : Finset ι) (σ : ι → EReal) (v : ι → ℝ) (hσ : ∀ k, σ k ≠ ⊤) {m l a : EReal} (h0 : Fresh m l a)
    {r : ℝ} (hr : max m (B.sup σ) = (r : EReal)) :
    Tracks B σ v (max m (B.sup σ))
      (Ideal.exp (m - max m (B.sup σ)) * l + ∑ k ∈ B, Ideal.exp (σ k - max m (B.sup σ)))
      (Ideal.exp (m - max m (B.sup σ)) * a + ∑ k ∈ B, Ideal.exp (σ k - max m (B.sup σ)) * (v k : EReal)) := by
  obtain ⟨rfl, rfl, rfl⟩ := h0
  rw [hr]
  have hsup : B.sup σ = (r : EReal) := by rwa [max_eq_right bot_le] at hr
  refine ⟨r, hsup, rfl, ?_, ?_⟩
  · rw [mul_zero, zero_add, ← coe_sum]
    exact Finset.sum_congr rfl fun k _ => exp_sub_coe (hσ k) r
  · rw [mul_zero, zero_add, ← coe_sum]
    exact Finset.sum_congr rfl fun k _ => by rw [exp_sub_coe (hσ k) r, ← EReal.coe_mul]

/-- One more block: the triple tracks the union. -/
theorem Tracks.step {S B : Finset ι} (hd : Disjoint S B) {σ : ι → EReal} {v : ι → ℝ} (hσ : ∀ k, σ k ≠ ⊤) {m l a : EReal}
    (h : Tracks S σ v m l a) :
    Tracks (S ∪ B) σ v (max m (B.sup σ))
      (Ideal.exp (m - max m (B.sup σ)) * l + ∑ k ∈ B, Ideal.exp (σ k - max m (B.sup σ)))
      (Ideal.exp (m - max m (B.sup σ)) * a + ∑ k ∈ B, Ideal.exp (σ k - max m (B.sup σ)) * (v k : EReal)) := by
  obtain ⟨μ, hS, rfl, rfl, rfl⟩ := h.ex
  -- the block's largest score is a real or minus infinity, so the new maximum is a real
  have hB : B.sup σ ≠ ⊤ :=
    ((Finset.sup_lt_iff bot_lt_top).2 fun k _ => lt_top_iff_ne_top.2 (hσ k)).ne
  obtain ⟨r, hr⟩ : ∃ r : ℝ, max (μ : EReal) (B.sup σ) = (r : EReal) := by
    induction hb : B.sup σ using EReal.rec with
    | bot => exact ⟨μ, by simp⟩
    | coe b => exact ⟨max μ b, (EReal.coe_strictMono.monotone.map_max).symm⟩
    | top => exact absurd hb hB
  rw [hr]
  refine ⟨r, ?_, rfl, ?_, ?_⟩
  · rw [Finset.sup_union, hS, hr]
  · rw [← EReal.coe_sub, Ideal.exp_coe, ← EReal.coe_mul, Finset.mul_sum, Finset.sum_union hd, EReal.coe_add, ← coe_sum B]
    congr 1
    · congr 1; exact Finset.sum_congr rfl fun k _ => wt_rescale (hσ k) μ r
    · exact Finset.sum_congr rfl fun k _ => exp_sub_coe (hσ k) r
  · rw [← EReal.coe_sub, Ideal.exp_coe, ← EReal.coe_mul, Finset.mul_sum, Finset.sum_union hd, EReal.coe_add, ← coe_sum B]
    congr 1
    · congr 1; exact Finset.sum_congr rfl fun k _ => by rw [← mul_assoc, wt_rescale (hσ k) μ r]
    · exact Finset.sum_congr rfl fun k _ => by rw [exp_sub_coe (hσ k) r, ← EReal.coe_mul]

/-- Keys whose score is minus infinity may be added to the visited set for free. -/
theorem Tracks.of_bot {S T : Finset ι} (hST : S ⊆ T) {σ : ι → EReal} {v : ι → ℝ} (hbot : ∀ k ∈ T, k ∉ S → σ k = ⊥)
    {m l a : EReal} (h : Tracks S σ v m l a) : Tracks T σ v m l a := by
  obtain ⟨μ, hS, rfl, rfl, rfl⟩ := h.ex
  refine ⟨μ, ?_, rfl, ?_, ?_⟩
  · apply le_antisymm
    · refine Finset.sup_le fun k hk => ?_
      by_cases hkS : k ∈ S
      · exact hS ▸ Finset.le_sup hkS
      · rw [hbot k hk hkS]; exact bot_le
    · rw [← hS]; exact Finset.sup_mono hST
  · congr 1
    exact Finset.sum_subset hST fun k hk hkS => by rw [hbot k hk hkS, wt_bot]
  · congr 1
    exact Finset.sum_subset hST fun k hk hkS => by rw [hbot k hk hkS, wt_bot, zero_mul]

/-- The total weight is positive: the largest score has weight one. -/
theorem Tracks.total_pos {S : Finset ι} {σ : ι → EReal} {μ : ℝ} (hS : S.sup σ = (μ : EReal)) :
    0 < ∑ k ∈ S, wt (σ k) μ := by
  obtain ⟨k, hk, hkμ⟩ : ∃ k ∈ S, σ k = (μ : EReal) := by
    have hne : S.Nonempty := by
      rcases S.eq_empty_or_nonempty with rfl | h
      · simp at hS
      · exact h
    obtain ⟨k, hk, e⟩ := Finset.exists_mem_eq_sup S hne σ
    exact ⟨k, hk, e ▸ hS⟩
  refine lt_of_lt_of_le ?_ (Finset.single_le_sum (fun j _ => wt_nonneg (σ j) μ) hk)
  rw [hkμ, wt_coe, sub_self, Real.exp_zero]; exact one_pos

/-- The quotient of the running sums is the softmax-weighted mean, written in one pass: each weight divided by the
    total first, then the weighted values summed. -/
theorem Tracks.softmax_mean {S : Finset ι} {σ : ι → EReal} {v : ι → ℝ} (hσ : ∀ k, σ k ≠ ⊤) {m l a : EReal}
    (h : Tracks S σ v m l a) :
    Ideal.div a l
      = ∑ k ∈ S, Ideal.div (Ideal.exp (σ k - max ⊥ (S.sup σ))) (0 + ∑ j ∈ S, Ideal.exp (σ j - max ⊥ (S.sup σ))) * (v k : EReal) := by
  obtain ⟨μ, hS, rfl, rfl, rfl⟩ := h.ex
  have hpos := Tracks.total_pos (σ := σ) hS
  set L : ℝ := ∑ k ∈ S, wt (σ k) μ with hL
  have hL0 : L ≠ 0 := hpos.ne'
  have hden : (0 : EReal) + ∑ j ∈ S, Ideal.exp (σ j - max ⊥ (S.sup σ)) = (L : EReal) := by
    rw [zero_add, max_eq_right bot_le, hS, hL, ← coe_sum]
    exact Finset.sum_congr rfl fun k _ => exp_sub_coe (hσ k) μ
  have hterm : ∀ k, Ideal.div (Ideal.exp (σ k - max ⊥ (S.sup σ))) (0 + ∑ j ∈ S, Ideal.exp (σ j - max ⊥ (S.sup σ))) * (v k : EReal)
      = ((wt (σ k) μ * (1 / L) * v k : ℝ) : EReal) := fun k => by
    rw [hden, max_eq_right bot_le, hS, exp_sub_coe (hσ k) μ, Ideal.div_coe hL0, ← EReal.coe_mul, ← EReal.coe_mul]
  rw [Finset.sum_congr rfl (fun k _ => hterm k), coe_sum, Ideal.div_coe hL0, ← EReal.coe_mul]
  congr 1
  rw [Finset.sum_mul]
  exact Finset.sum_congr rfl fun k _ => by ring

end OnlineSoftmax

end
-- ==== Proof.AttnMath.lean ====
/-
  The mathematics of tiled causal attention, over the extended reals.

  The two constants: the 32-bit pattern of 1024.0 is the real 1024, whose square root is 32, and the pattern of
  0.03125 is 1/32. So folding the factor 1/32 into the query weights before the inner product is the same as dividing
  the inner product by the square root of 1024 (`scaled_dot`): over reals, ∑ h (∑ e x w / 32) p = (∑ h (∑ e x w) p) / 32.

  The recurrence: a query row at position q = qi * 1024 + r sees the key tiles 0 … qi, 1024 keys each. A running triple
  (maximum, total weight, weighted sum) is updated once per tile (`step`). Every key up to q has a real score and every
  later key has score minus infinity (weight zero), so the one score function describes both the unmasked tiles and the
  diagonal tile, and the tiles after qi contribute nothing. After tile qi the quotient of the weighted sum by the total
  weight is the softmax-weighted mean over all 4096 keys (`online_tiles`; `online_lanes` with each tile's sums and
  supremum taken over the position inside the tile; `attn_online`, `attn_lanes` for the specification's scores).
-/
import proofs.«116450_j75076028334813_2_alg».proof.Proof.Spec
import proofs.«116450_j75076028334813_2_alg».proof.Proof.LibOnlineSoftmax
import Mathlib

noncomputable section
namespace Attn
open Idealize.ShloMosaic Idealize.ShloMosaic.ValueIdx OnlineSoftmax

/-! ## The two constants -/

theorem ofBits_1024 : Ideal.ofBits .f32 0x44800000#32 = ((1024 : ℝ) : EReal) := by
  simp [Ideal.ofBits, Ideal.ieee, -EReal.coe_mul]; norm_num

theorem rootE_eq : rootE = ((32 : ℝ) : EReal) := by
  unfold rootE
  rw [ofBits_1024, Ideal.sqrt_coe, if_neg (by norm_num)]
  congr 1
  rw [show (1024 : ℝ) = 32 ^ 2 by norm_num]
  exact Real.sqrt_sq (by norm_num)

theorem scaleE_eq : scaleE = ((1 / 32 : ℝ) : EReal) := by
  unfold scaleE
  simp [Ideal.ofBits, Ideal.ieee, -EReal.coe_mul]; norm_num

/-! ## Real entries -/

theorem proj_real {x : SX.Idx → EReal} {w : SW.Idx → EReal} (hx : AllReal x) (hw : AllReal w) (b : Fin 4) (t : Fin 4096)
    (h : Fin 64) : ∃ r : ℝ, proj x w b t h = (r : EReal) := by
  choose X hX using hx
  choose W hW using hw
  refine ⟨∑ e : Fin 1024, X (ix3 b t e) * W (ix2 h e), ?_⟩
  unfold proj
  rw [← coe_sum]
  exact Finset.sum_congr rfl fun e _ => by rw [hX, hW, ← EReal.coe_mul]

theorem dotQK_real {x : SX.Idx → EReal} {wq wk : SW.Idx → EReal} (hx : AllReal x) (hq : AllReal wq) (hk : AllReal wk)
    (b : Fin 4) (q k : Fin 4096) : ∃ r : ℝ, dotQK x wq wk b q k = (r : EReal) := by
  choose P hP using fun h => proj_real hx hq b q h
  choose R hR using fun h => proj_real hx hk b k h
  refine ⟨∑ h : Fin 64, P h * R h, ?_⟩
  unfold dotQK
  rw [← coe_sum]
  exact Finset.sum_congr rfl fun h _ => by rw [hP, hR, ← EReal.coe_mul]

/-- An unmasked score is a real. -/
theorem score_real {x : SX.Idx → EReal} {wq wk : SW.Idx → EReal} (hx : AllReal x) (hq : AllReal wq) (hk : AllReal wk)
    (b : Fin 4) (q k : Fin 4096) (hkq : k.val ≤ q.val) : ∃ r : ℝ, score x wq wk b q k = (r : EReal) := by
  obtain ⟨d, hd⟩ := dotQK_real hx hq hk b q k
  refine ⟨d * (1 / 32), ?_⟩
  unfold score
  rw [if_pos hkq, hd, rootE_eq, Ideal.div_coe (by norm_num), ← EReal.coe_mul]

/-- A masked score is minus infinity. -/
theorem score_masked (x : SX.Idx → EReal) (wq wk : SW.Idx → EReal) (b : Fin 4) (q k : Fin 4096) (hkq : q.val < k.val) :
    score x wq wk b q k = ⊥ := by
  unfold score
  rw [if_neg (by omega)]

theorem score_ne_top {x : SX.Idx → EReal} {wq wk : SW.Idx → EReal} (hx : AllReal x) (hq : AllReal wq) (hk : AllReal wk)
    (b : Fin 4) (q k : Fin 4096) : score x wq wk b q k ≠ ⊤ := by
  by_cases hkq : k.val ≤ q.val
  · obtain ⟨s, hs⟩ := score_real hx hq hk b q k hkq; rw [hs]; exact EReal.coe_ne_top s
  · rw [score_masked x wq wk b q k (by omega)]; exact bot_ne_top

/-- The diagonal key is never masked. -/
theorem score_diag_real {x : SX.Idx → EReal} {wq wk : SW.Idx → EReal} (hx : AllReal x) (hq : AllReal wq) (hk : AllReal wk)
    (b : Fin 4) (q : Fin 4096) : ∃ r : ℝ, score x wq wk b q q = (r : EReal) :=
  score_real hx hq hk b q q le_rfl

/-! ## The scaling law -/

/-- Folding the factor 1/32 into the query weights is dividing the inner product by the square root of 1024. -/
theorem scaled_dot {x : SX.Idx → EReal} {wq wk : SW.Idx → EReal} (hx : AllReal x) (hq : AllReal wq) (hk : AllReal wk)
    (b : Fin 4) (q k : Fin 4096) :
    (∑ h : Fin 64, (∑ e : Fin 1024, x (ix3 b q e) * (wq (ix2 h e) * scaleE)) * proj x wk b k h)
      = Ideal.div (dotQK x wq wk b q k) rootE := by
  choose X hX using hx
  choose Q hQ using hq
  choose R hR using fun h => proj_real (fun i => ⟨X i, hX i⟩) hk b k h
  have hP : ∀ h, proj x wq b q h = ((∑ e : Fin 1024, X (ix3 b q e) * Q (ix2 h e) : ℝ) : EReal) := fun h => by
    unfold proj
    rw [← coe_sum]
    exact Finset.sum_congr rfl fun e _ => by rw [hX, hQ, ← EReal.coe_mul]
  have hS : ∀ h, (∑ e : Fin 1024, x (ix3 b q e) * (wq (ix2 h e) * scaleE))
      = ((∑ e : Fin 1024, X (ix3 b q e) * (Q (ix2 h e) * (1 / 32)) : ℝ) : EReal) := fun h => by
    rw [← coe_sum]
    exact Finset.sum_congr rfl fun e _ => by rw [hX, hQ, scaleE_eq, ← EReal.coe_mul, ← EReal.coe_mul]
  have hD : dotQK x wq wk b q k = ((∑ h : Fin 64, (∑ e : Fin 1024, X (ix3 b q e) * Q (ix2 h e)) * R h : ℝ) : EReal) := by
    unfold dotQK
    rw [← coe_sum]
    exact Finset.sum_congr rfl fun h _ => by rw [hP, hR, ← EReal.coe_mul]
  rw [hD, rootE_eq, Ideal.div_coe (by norm_num), ← EReal.coe_mul, Finset.sum_mul, ← coe_sum]
  refine Finset.sum_congr rfl fun h _ => ?_
  rw [hS, hR, ← EReal.coe_mul]
  congr 1
  have : (∑ e : Fin 1024, X (ix3 b q e) * (Q (ix2 h e) * (1 / 32))) = (∑ e : Fin 1024, X (ix3 b q e) * Q (ix2 h e)) * (1 / 32) := by
    rw [Finset.sum_mul]
    exact Finset.sum_congr rfl fun e _ => by ring
  rw [this]; ring

/-! ## The block-by-block recurrence -/

/-- One block of keys visited: the running maximum, the rescaled running total weight plus the block's weights, and the
    rescaled running weighted sum plus the block's weighted values. -/
def step {ι : Type} (σ : ι → EReal) (v : ι → ℝ) (B : Finset ι) (T : EReal × EReal × EReal) : EReal × EReal × EReal :=
  (max T.1 (B.sup σ),
   Ideal.exp (T.1 - max T.1 (B.sup σ)) * T.2.1 + ∑ k ∈ B, Ideal.exp (σ k - max T.1 (B.sup σ)),
   Ideal.exp (T.1 - max T.1 (B.sup σ)) * T.2.2 + ∑ k ∈ B, Ideal.exp (σ k - max T.1 (B.sup σ)) * (v k : EReal))

theorem step_def {ι : Type} (σ : ι → EReal) (v : ι → ℝ) (B : Finset ι) (m l a : EReal) :
    step σ v B (m, l, a) =
      (max m (B.sup σ),
       Ideal.exp (m - max m (B.sup σ)) * l + ∑ k ∈ B, Ideal.exp (σ k - max m (B.sup σ)),
       Ideal.exp (m - max m (B.sup σ)) * a + ∑ k ∈ B, Ideal.exp (σ k - max m (B.sup σ)) * (v k : EReal)) := rfl

/-- A block may be visited through any injective enumeration of it. -/
theorem step_reindex {ι κ : Type} [DecidableEq ι] (σ : ι → EReal) (v : ι → ℝ) (S : Finset κ) (e : κ → ι)
    (he : Set.InjOn e S) (T : EReal × EReal × EReal) :
    step σ v (S.image e) T = step (fun c => σ (e c)) (fun c => v (e c)) S T := by
  unfold step
  rw [Finset.sup_image, Finset.sum_image he, Finset.sum_image he]
  rfl

/-- The keys of tile `j`: positions `j * 1024 … j * 1024 + 1023`. -/
def tile (j : ℕ) : Finset (Fin 4096) := Finset.univ.filter fun k => k.val / 1024 = j

/-- The keys of the tiles `0 … j`. -/
def upto (j : ℕ) : Finset (Fin 4096) := Finset.univ.filter fun k => k.val / 1024 ≤ j

theorem mem_tile {j : ℕ} {k : Fin 4096} : k ∈ tile j ↔ k.val / 1024 = j := by simp [tile]
theorem mem_upto {j : ℕ} {k : Fin 4096} : k ∈ upto j ↔ k.val / 1024 ≤ j := by simp [upto]

theorem upto_zero : upto 0 = tile 0 := by
  ext k; rw [mem_upto, mem_tile]; omega

theorem upto_succ (j : ℕ) : upto (j + 1) = upto j ∪ tile (j + 1) := by
  ext k; rw [Finset.mem_union, mem_upto, mem_upto, mem_tile]; omega

theorem disjoint_upto_tile (j : ℕ) : Disjoint (upto j) (tile (j + 1)) := by
  rw [Finset.disjoint_left]; intro k h1 h2; rw [mem_upto] at h1; rw [mem_tile] at h2; omega

/-- A supremum that is not plus infinity and dominates a real is a real. -/
theorem sup_real {ι : Type} (B : Finset ι) (σ : ι → EReal) (hσ : ∀ k, σ k ≠ ⊤) {k : ι} (hk : k ∈ B) {s : ℝ}
    (hs : σ k = (s : EReal)) : ∃ r : ℝ, B.sup σ = (r : EReal) := by
  have hB : B.sup σ ≠ ⊤ := ((Finset.sup_lt_iff bot_lt_top).2 fun k _ => lt_top_iff_ne_top.2 (hσ k)).ne
  have hle : (s : EReal) ≤ B.sup σ := hs ▸ Finset.le_sup hk
  induction hb : B.sup σ using EReal.rec with
  | bot => rw [hb] at hle; exact absurd hle (by simp)
  | coe r => exact ⟨r, rfl⟩
  | top => exact absurd hb hB

/-- The recurrence over the key tiles `0 … qi` of a causally masked score row computes the softmax-weighted mean over
    all keys. The scores `σ` are reals up to the query position `q = qi * 1024 + r` and minus infinity after it. -/
theorem online_tiles (σ : Fin 4096 → EReal) (v : Fin 4096 → ℝ) (qi : Fin 4) (r : Fin 1024)
    (hmask : ∀ k : Fin 4096, qi.val * 1024 + r.val < k.val → σ k = ⊥)
    (hreal : ∀ k : Fin 4096, k.val ≤ qi.val * 1024 + r.val → ∃ s : ℝ, σ k = (s : EReal))
    (T : ℕ → EReal × EReal × EReal)
    (h0 : T 0 = step σ v (tile 0) (⊥, 0, 0))
    (hstep : ∀ j, j < qi.val → T (j + 1) = step σ v (tile (j + 1)) (T j)) :
    Ideal.div (T qi.val).2.2 (T qi.val).2.1
      = ∑ k : Fin 4096, Ideal.div (Ideal.exp (σ k - max ⊥ (Finset.univ.sup σ)))
          (0 + ∑ j : Fin 4096, Ideal.exp (σ j - max ⊥ (Finset.univ.sup σ))) * (v k : EReal) := by
  have hσ : ∀ k, σ k ≠ ⊤ := fun k => by
    by_cases hk : k.val ≤ qi.val * 1024 + r.val
    · obtain ⟨s, hs⟩ := hreal k hk; rw [hs]; exact EReal.coe_ne_top s
    · rw [hmask k (by omega)]; exact bot_ne_top
  have htr : ∀ j, j ≤ qi.val → Tracks (upto j) σ v (T j).1 (T j).2.1 (T j).2.2 := by
    intro j
    induction j with
    | zero =>
      intro _
      have h00 : (⟨0, by omega⟩ : Fin 4096) ∈ tile 0 := by rw [mem_tile]; show 0 / 1024 = 0; omega
      obtain ⟨s, hs⟩ := hreal ⟨0, by omega⟩ (Nat.zero_le _)
      obtain ⟨ρ, hρ⟩ := sup_real (tile 0) σ hσ h00 hs
      have hr : max (⊥ : EReal) ((tile 0).sup σ) = (ρ : EReal) := by rw [max_eq_right bot_le, hρ]
      rw [h0, upto_zero]
      exact Tracks.first (tile 0) σ v hσ ⟨rfl, rfl, rfl⟩ hr
    | succ j ih =>
      intro hj
      rw [hstep j (by omega), upto_succ]
      exact Tracks.step (disjoint_upto_tile j) hσ (ih (by omega))
  have hall : Tracks Finset.univ σ v (T qi.val).1 (T qi.val).2.1 (T qi.val).2.2 :=
    Tracks.of_bot (Finset.subset_univ _) (fun k _ hk => hmask k (by
      rw [mem_upto] at hk
      have := r.isLt
      omega)) (htr qi.val le_rfl)
  exact Tracks.softmax_mean hσ hall

/-- Position `c` of tile `j` as a key. -/
def key (j : Fin 4) (c : Fin 1024) : Fin 4096 := ⟨j.val * 1024 + c.val, by have := j.isLt; have := c.isLt; omega⟩

@[simp] theorem key_val (j : Fin 4) (c : Fin 1024) : (key j c).val = j.val * 1024 + c.val := rfl

theorem key_injective (j : Fin 4) : Function.Injective (key j) := by
  intro c c' h
  have := congrArg Fin.val h
  simp only [key_val] at this
  exact Fin.ext (by omega)

theorem tile_eq_image (j : Fin 4) : tile j.val = Finset.univ.image (key j) := by
  ext k
  rw [mem_tile, Finset.mem_image]
  constructor
  · intro h
    refine ⟨⟨k.val % 1024, Nat.mod_lt _ (by norm_num)⟩, Finset.mem_univ _, Fin.ext ?_⟩
    show j.val * 1024 + k.val % 1024 = k.val
    omega
  · rintro ⟨c, -, rfl⟩
    have := c.isLt
    show (j.val * 1024 + c.val) / 1024 = j.val
    omega

/-- A tile visited lane by lane: the sums and the supremum over the position `c` inside the tile. -/
theorem step_tile (σ : Fin 4096 → EReal) (v : Fin 4096 → ℝ) (j : Fin 4) (T : EReal × EReal × EReal) :
    step σ v (tile j.val) T = step (fun c : Fin 1024 => σ (key j c)) (fun c : Fin 1024 => v (key j c)) Finset.univ T := by
  rw [tile_eq_image]
  exact step_reindex σ v Finset.univ (key j) (key_injective j).injOn T

/-- `online_tiles` with every tile visited lane by lane. -/
theorem online_lanes (σ : Fin 4096 → EReal) (v : Fin 4096 → ℝ) (qi : Fin 4) (r : Fin 1024)
    (hmask : ∀ k : Fin 4096, qi.val * 1024 + r.val < k.val → σ k = ⊥)
    (hreal : ∀ k : Fin 4096, k.val ≤ qi.val * 1024 + r.val → ∃ s : ℝ, σ k = (s : EReal))
    (T : ℕ → EReal × EReal × EReal)
    (h0 : T 0 = step (fun c : Fin 1024 => σ (key 0 c)) (fun c : Fin 1024 => v (key 0 c)) Finset.univ (⊥, 0, 0))
    (hstep : ∀ j : Fin 4, j.val < qi.val → ∀ j' : Fin 4, j'.val = j.val + 1 →
      T (j.val + 1) = step (fun c : Fin 1024 => σ (key j' c)) (fun c : Fin 1024 => v (key j' c)) Finset.univ (T j.val)) :
    Ideal.div (T qi.val).2.2 (T qi.val).2.1
      = ∑ k : Fin 4096, Ideal.div (Ideal.exp (σ k - max ⊥ (Finset.univ.sup σ)))
          (0 + ∑ j : Fin 4096, Ideal.exp (σ j - max ⊥ (Finset.univ.sup σ))) * (v k : EReal) := by
  refine online_tiles σ v qi r hmask hreal T ?_ ?_
  · rw [h0]; exact (step_tile σ v 0 _).symm
  · intro j hj
    have hq := qi.isLt
    rw [hstep ⟨j, by omega⟩ hj ⟨j + 1, by omega⟩ rfl]
    exact (step_tile σ v ⟨j + 1, by omega⟩ _).symm

/-! ## The specification's scores -/

/-- The recurrence run on the specification's scores computes the specification's attention. `v` names the projected
    values of the column `d`. -/
theorem attn_online {x : SX.Idx → EReal} {wq wk wv : SW.Idx → EReal} (hx : AllReal x) (hq : AllReal wq) (hk : AllReal wk)
    (b : Fin 4) (qi : Fin 4) (r : Fin 1024) (d : Fin 64)
    (v : Fin 4096 → ℝ) (hv : ∀ k, proj x wv b k d = (v k : EReal))
    (T : ℕ → EReal × EReal × EReal)
    (h0 : T 0 = step (score x wq wk b (key qi r)) v (tile 0) (⊥, 0, 0))
    (hstep : ∀ j, j < qi.val → T (j + 1) = step (score x wq wk b (key qi r)) v (tile (j + 1)) (T j)) :
    Ideal.div (T qi.val).2.2 (T qi.val).2.1 = attn x wq wk wv b (key qi r) d := by
  rw [online_tiles (score x wq wk b (key qi r)) v qi r
    (fun k hlt => score_masked x wq wk b (key qi r) k hlt)
    (fun k hle => score_real hx hq hk b (key qi r) k hle) T h0 hstep]
  unfold attn
  exact Finset.sum_congr rfl fun k _ => by rw [hv k]

/-- `attn_online` with every tile visited lane by lane. -/
theorem attn_lanes {x : SX.Idx → EReal} {wq wk wv : SW.Idx → EReal} (hx : AllReal x) (hq : AllReal wq) (hk : AllReal wk)
    (b : Fin 4) (qi : Fin 4) (r : Fin 1024) (d : Fin 64)
    (v : Fin 4096 → ℝ) (hv : ∀ k, proj x wv b k d = (v k : EReal))
    (T : ℕ → EReal × EReal × EReal)
    (h0 : T 0 = step (fun c : Fin 1024 => score x wq wk b (key qi r) (key 0 c)) (fun c : Fin 1024 => v (key 0 c))
      Finset.univ (⊥, 0, 0))
    (hstep : ∀ j : Fin 4, j.val < qi.val → ∀ j' : Fin 4, j'.val = j.val + 1 →
      T (j.val + 1) = step (fun c : Fin 1024 => score x wq wk b (key qi r) (key j' c)) (fun c : Fin 1024 => v (key j' c))
        Finset.univ (T j.val)) :
    Ideal.div (T qi.val).2.2 (T qi.val).2.1 = attn x wq wk wv b (key qi r) d := by
  rw [online_lanes (score x wq wk b (key qi r)) v qi r
    (fun k hlt => score_masked x wq wk b (key qi r) k hlt)
    (fun k hle => score_real hx hq hk b (key qi r) k hle) T h0 hstep]
  unfold attn
  exact Finset.sum_congr rfl fun k _ => by rw [hv k]

/-- Real names for one column of the projected values. -/
theorem exists_values {x : SX.Idx → EReal} {wv : SW.Idx → EReal} (hx : AllReal x) (hv : AllReal wv) (b : Fin 4) (d : Fin 64) :
    ∃ v : Fin 4096 → ℝ, ∀ k, proj x wv b k d = (v k : EReal) := by
  choose v hv using fun k => proj_real hx hv b k d
  exact ⟨v, hv⟩

end Attn
end
-- ==== Proof.RowRec.lean ====
/-
  One query row through the four key tiles of its group.

  At a grid point of key tile n the kernel either visits the tile (n ≤ qi: the tile lies on or below the diagonal) or
  does nothing (n > qi). So the triple (running maximum, running sum, accumulator) the row holds after the last key tile
  is the triple after tile qi, and that one is the online-softmax recurrence over tiles 0 … qi, whose quotient is the
  softmax-weighted mean over all keys.
-/
import proofs.«116450_j75076028334813_2_alg».proof.Proof.AttnMath

noncomputable section

namespace Attn

open Idealize.ShloMosaic

/-- The scores of tile `j` by position inside the tile. -/
abbrev laneS (σ : Fin 4096 → EReal) (j : Fin 4) : Fin 1024 → EReal := fun c => σ (key j c)
/-- The values of tile `j` by position inside the tile. -/
abbrev laneV (v : Fin 4096 → ℝ) (j : Fin 4) : Fin 1024 → ℝ := fun c => v (key j c)

/-- A row's triple after each of the four key tiles: visited lane by lane while the tile is on or below the diagonal,
    kept afterwards. Its final quotient is the softmax-weighted mean over all keys. -/
theorem row_final (σ : Fin 4096 → EReal) (v : Fin 4096 → ℝ) (qi : Fin 4) (r : Fin 1024)
    (hmask : ∀ k : Fin 4096, qi.val * 1024 + r.val < k.val → σ k = ⊥)
    (hreal : ∀ k : Fin 4096, k.val ≤ qi.val * 1024 + r.val → ∃ s : ℝ, σ k = (s : EReal))
    (st : ℕ → EReal × EReal × EReal)
    (h0 : st 0 = step (laneS σ 0) (laneV v 0) Finset.univ (⊥, 0, 0))
    (hle : ∀ j : Fin 4, j.val < qi.val → ∀ j' : Fin 4, j'.val = j.val + 1 →
      st (j.val + 1) = step (laneS σ j') (laneV v j') Finset.univ (st j.val))
    (hgt : ∀ n : ℕ, n < 3 → qi.val < n + 1 → st (n + 1) = st n) :
    Ideal.div (st 3).2.2 (st 3).2.1
      = ∑ k : Fin 4096, Ideal.div (Ideal.exp (σ k - max ⊥ (Finset.univ.sup σ)))
          (0 + ∑ j : Fin 4096, Ideal.exp (σ j - max ⊥ (Finset.univ.sup σ))) * (v k : EReal) := by
  have hq := qi.isLt
  have hkeep : ∀ n : ℕ, qi.val ≤ n → n ≤ 3 → st n = st qi.val := by
    intro n
    induction n with
    | zero => intro h _; have : qi.val = 0 := by omega
              rw [this]
    | succ n ih =>
      intro h hn
      by_cases hlt : qi.val < n + 1
      · rw [hgt n (by omega) hlt]; exact ih (by omega) (by omega)
      · have : qi.val = n + 1 := by omega
        rw [this]
  rw [hkeep 3 (by omega) le_rfl]
  exact online_lanes σ v qi r hmask hreal st h0 hle

end Attn

end
-- ==== Proof.LibRowSoftmax.lean ====
/-
  One attention row over the extended reals.

  A row of scores `s k` (each a real number or `⊥`, the score of a masked key), shifted by a value `m` that is an upper
  bound of the row and is attained in it, gives the weights `p k = exp (s k - m)`. When some score is a real number, `m` is
  a real number, every weight is a nonnegative real number, the weight of a key that attains `m` is `1`, and so the
  normaliser `l = ∑ k, p k` is a positive real number. Dividing the weighted sum `∑ k, p k * v k` of real values by `l`
  is then the same as summing the values against the normalised weights `p k / l`: both are the real number
  `(∑ k, P k * V k) / L`. (With no real score the normaliser is `0` and the two sides are different junk values: the
  hypothesis is needed.)
-/
import Idealize.ShloMosaic.PureOps.Ideal

noncomputable section

namespace Cert.RowSoftmax

open Idealize.ShloMosaic

/-- A finite sum of embedded real numbers is the embedded sum. -/
theorem coe_finset_sum {ι : Type} (t : Finset ι) (f : ι → ℝ) :
    (∑ k ∈ t, ((f k : ℝ) : EReal)) = ((∑ k ∈ t, f k : ℝ) : EReal) := by
  classical
  refine Finset.induction_on t (by simp) ?_
  intro a t ha ih
  rw [Finset.sum_insert ha, Finset.sum_insert ha, ih, EReal.coe_add]

/-- The weight of a score that is not `⊤`, shifted by a real number: a nonnegative real number, `1` when the score is
    the shift itself. -/
theorem weight_real (x : EReal) (hx : x ≠ ⊤) (M : ℝ) :
    ∃ r : ℝ, 0 ≤ r ∧ Ideal.exp (x - (M : EReal)) = (r : EReal) ∧ (x = (M : EReal) → r = 1) := by
  induction x using EReal.rec with
  | bot =>
    refine ⟨0, le_refl _, ?_, fun h => absurd h (EReal.bot_ne_coe M)⟩
    rw [EReal.bot_sub]; rfl
  | coe r =>
    refine ⟨Real.exp (r - M), (Real.exp_pos _).le, ?_, fun h => ?_⟩
    · rw [← EReal.coe_sub]; rfl
    · have : r = M := EReal.coe_eq_coe_iff.mp h
      rw [this, sub_self, Real.exp_zero]
  | top => exact absurd rfl hx

variable {n : ℕ}

/-- Normalising after the weighted sum, or before it: the same real number, when some score of the row is real. -/
theorem div_after_eq_div_before (s v : Fin n → EReal) (m : EReal)
    (hle : ∀ k, s k ≤ m) (hatt : ∃ k, s k = m) (hs : ∀ k, s k ≠ ⊤) (hreal : ∃ k, s k ≠ ⊥)
    (hv : ∀ k, ∃ r : ℝ, v k = (r : EReal)) :
    Ideal.div (∑ k, Ideal.exp (s k - m) * v k) (∑ k, Ideal.exp (s k - m))
      = ∑ k, Ideal.div (Ideal.exp (s k - m)) (∑ j, Ideal.exp (s j - m)) * v k := by
  obtain ⟨ka, hka⟩ := hatt
  obtain ⟨k0, hk0⟩ := hreal
  have hmtop : m ≠ ⊤ := hka ▸ hs ka
  have hmbot : m ≠ ⊥ := fun h => hk0 (le_bot_iff.mp (h ▸ hle k0))
  lift m to ℝ using ⟨hmtop, hmbot⟩
  choose V hV using hv
  choose P hP0 hPe hP1 using fun k => weight_real (s k) (hs k) m
  have hL : (0 : ℝ) < ∑ k, P k := by
    have h1 : P ka = 1 := hP1 ka hka
    have : P ka ≤ ∑ k, P k := Finset.single_le_sum (fun k _ => hP0 k) (Finset.mem_univ ka)
    linarith
  have hL0 : (∑ k, P k) ≠ 0 := ne_of_gt hL
  simp only [hPe, hV]
  rw [coe_finset_sum]
  simp only [Ideal.div_coe hL0, ← EReal.coe_mul]
  rw [coe_finset_sum, coe_finset_sum, ← EReal.coe_mul, EReal.coe_eq_coe_iff, Finset.sum_mul]
  exact Finset.sum_congr rfl fun k _ => by ring

end Cert.RowSoftmax

end
-- ==== Proof.LibRealEntries.lean ====
/-
  Arrays all of whose entries are real numbers.

  At the exact instance an input array may hold `±∞`; the precondition says the float inputs do not. Every array the
  programs build from such inputs by re-laying entries (casts, slices, broadcasts, transposes, concatenations), by
  entrywise sums, differences and products, and by inner products, again holds only real numbers: an entry of a re-laid
  array IS an entry of its operand, and the real numbers are closed under `+`, `-`, `*` and finite sums.
-/
import Idealize.ShloMosaic.PureOps
import Idealize.ShloMosaic.PureOps.Ideal
import proofs.«116450_j75076028334813_2_alg».proof.Proof.LibRowSoftmax

noncomputable section

namespace Cert.RealEntries

open Idealize.ShloMosaic

/-- Every entry of the array is (the embedding of) a real number. -/
def AllReal {ι : Type} (x : ι → EReal) : Prop := ∀ i, ∃ r : ℝ, x i = (r : EReal)

variable {s t : Shape}

/-- A shape cast re-lays the same entries. -/
theorem shapeCast {x : s.Idx → EReal} (hx : AllReal x) (h : s.ShapeCasts t) :
    AllReal (Idealize.ShloMosaic.shapeCast t x h) := fun _ => hx _

/-- A slice holds entries of its operand. -/
theorem slice {x : s.Idx → EReal} (hx : AllReal x) (off : Fin s.rank → Nat) (h : s.Slices off t) :
    AllReal (extractStridedSlice t off x h) := fun _ => hx _

/-- A broadcast holds entries of its operand. -/
theorem bcast {x : s.Idx → EReal} (hx : AllReal x) (dims : Fin s.rank → Fin t.rank) (h : s.BroadcastsInDim t dims) :
    AllReal (broadcastInDim t dims h x) := fun _ => hx _

/-- A transpose holds the entries of its operand. -/
theorem transpose {x : s.Idx → EReal} (hx : AllReal x) (perm : List (Fin s.rank)) (h : s.Transposes perm t) :
    AllReal (Idealize.ShloMosaic.transpose t perm x h) := fun _ => hx _

/-- A concatenation of two arrays holds entries of one or the other. -/
theorem concat2 {s1 s2 : Shape} (a : Fin t.rank) {u : s1.Idx → EReal} {v : s2.Idx → EReal} (hu : AllReal u) (hv : AllReal v)
    (h : Shape.Concatenates (([⟨s1, u⟩, ⟨s2, v⟩] : List ((s : Shape) × (s.Idx → EReal))).map (·.1)) t a) :
    AllReal (concatenate t a [⟨s1, u⟩, ⟨s2, v⟩] h) := by
  intro j
  have key : ∀ p ∈ ([⟨s1, u⟩, ⟨s2, v⟩] : List ((s : Shape) × (s.Idx → EReal))), ∀ i, ∃ r : ℝ, p.2 i = (r : EReal) := by
    intro p hp
    simp only [List.mem_cons, List.not_mem_nil, or_false] at hp
    rcases hp with rfl | rfl
    · exact hu
    · exact hv
  unfold concatenate
  exact key _ (List.getElem_mem _) _

/-- Entrywise products of real entries are real. -/
theorem mulf {φ : FTy} {x y : FVec Ideal s φ} (hx : AllReal x) (hy : AllReal y) : AllReal (Idealize.ShloMosaic.mulf x y) := fun i => by
  obtain ⟨a, ha⟩ := hx i
  obtain ⟨b, hb⟩ := hy i
  exact ⟨a * b, by show x i * y i = _; rw [ha, hb, EReal.coe_mul]⟩

/-- Entrywise sums of real entries are real. -/
theorem addf {φ : FTy} {x y : FVec Ideal s φ} (hx : AllReal x) (hy : AllReal y) : AllReal (Idealize.ShloMosaic.addf x y) := fun i => by
  obtain ⟨a, ha⟩ := hx i
  obtain ⟨b, hb⟩ := hy i
  exact ⟨a + b, by show x i + y i = _; rw [ha, hb, EReal.coe_add]⟩

/-- Entrywise differences of real entries are real. -/
theorem subf {φ : FTy} {x y : FVec Ideal s φ} (hx : AllReal x) (hy : AllReal y) : AllReal (Idealize.ShloMosaic.subf x y) := fun i => by
  obtain ⟨a, ha⟩ := hx i
  obtain ⟨b, hb⟩ := hy i
  exact ⟨a - b, by show x i - y i = _; rw [ha, hb, EReal.coe_sub]⟩

/-- A finite sum of products of real numbers is a real number. -/
theorem sum_mul_real {n : ℕ} (f g : Fin n → EReal) (hf : ∀ k, ∃ r : ℝ, f k = (r : EReal)) (hg : ∀ k, ∃ r : ℝ, g k = (r : EReal)) :
    ∃ r : ℝ, (∑ k : Fin n, f k * g k) = (r : EReal) := by
  choose A hA using hf
  choose B hB using hg
  refine ⟨∑ k, A k * B k, ?_⟩
  simp only [hA, hB, ← EReal.coe_mul]
  exact RowSoftmax.coe_finset_sum _ _

end Cert.RealEntries

end
-- ==== Proof.KI.Bridge1.lean ====
/-
  Region 1 read as values: from what each grid point does to a query row's triple (running maximum, running sum,
  accumulator) to the whole result array.

  A point t of the 4 x 4 x 4 grid has batch b = t / 16, query tile qi = (t / 4) % 4 and key tile ki = t % 4. For a row r
  of the query tile (query position q = qi * 1024 + r) and a lane d, the triple the scratch operands hold for that row is
  re-started and fed key tile 0 at ki = 0, fed key tile ki while ki ≤ qi, and kept for ki > qi; at ki = 3 the output block
  receives accumulator / sum. The four points of a group therefore run the online-softmax recurrence over the key tiles
  0 … qi of the causally masked score row, and the quotient written at the last point is the softmax-weighted mean of
  the value rows over all keys.
-/
import proofs.«116450_j75076028334813_2_alg».proof.Proof.KI.R1
import proofs.«116450_j75076028334813_2_alg».proof.Proof.KI.Blocks1
import proofs.«116450_j75076028334813_2_alg».proof.Proof.Spec2
import proofs.«116450_j75076028334813_2_alg».proof.Proof.RowRec
import proofs.«116450_j75076028334813_2_alg».proof.Proof.LibRealEntries

set_option maxRecDepth 16384

noncomputable section

namespace Cert.KernelIdeal.H

open Cert.KernelIdeal Cert.KernelIdeal.Gen
open Idealize.ShloMosaic Idealize.ShloMosaic.TcCoe Idealize.ShloMosaic.ValueIdx
open Idealize.SL.Sem

variable (V : (c : Dev nD) → (b : Ref sig .tc) → Buf (Elt Ideal) ((c : Thread nD τ).loc b))

/-- The output block's buffer and the three scratch operands' contents after a point. -/
abbrev Tup : Type := Vec Ideal S1x1024x64 .f32 × Vec Ideal S1x1024x1 .f32 × Vec Ideal S1x1024x1 .f32 × Vec Ideal S1x1024x64 .f32

/-- Row r's triple at lane d: the running maximum and the running sum of the row, the accumulator's entry. -/
def rowSt (p : Tup) (r : Fin 1024) (d : Fin 64) : EReal × EReal × EReal :=
  (p.2.1 (ix3 (0 : Fin 1) r (0 : Fin 1)), p.2.2.1 (ix3 (0 : Fin 1) r (0 : Fin 1)), p.2.2.2 (ix3 (0 : Fin 1) r d))

/-- The three arrays region 1 reads, as the region finds them. -/
abbrev arrQ (c : Dev nD) : Attn.SO.Idx → EReal := V c main_v2_0
abbrev arrK (c : Dev nD) : Attn.SO.Idx → EReal := V c main_v2_1
abbrev arrW (c : Dev nD) : Attn.SO.Idx → EReal := V c main_v2_2

/-- A point's batch, query tile and key tile. -/
def ptB (t : Fin cfg1.N) : Fin 4 := ⟨t.val / 16, by have := t.isLt; have hN : cfg1.N = 64 := N_1; omega⟩
def ptQ (t : Fin cfg1.N) : Fin 4 := ⟨(t.val / 4) % 4, by omega⟩
def ptK (t : Fin cfg1.N) : Fin 4 := ⟨t.val % 4, by omega⟩
/-- Row r of the point's query tile as a query position. -/
def ptRow (t : Fin cfg1.N) (r : Fin 1024) : Fin 4096 := Attn.key (ptQ t) r

/-- The score row and the (real) value column a row of a point works on. -/
def rowS (c : Dev nD) (t : Fin cfg1.N) (r : Fin 1024) : Fin 4096 → EReal :=
  fun k => Attn.scoreQK (arrQ V c) (arrK V c) (ptB t) (ptRow t r) k
def rowV (c : Dev nD) (t : Fin cfg1.N) (d : Fin 64) : Fin 4096 → ℝ :=
  fun k => (arrW V c (ix3 (ptB t) k d)).toReal

/-- What one grid point does to a row's triple, for every point, previous contents, row and lane. -/
structure RowFacts (c : Dev nD) : Prop where
  first : ∀ (t : Fin cfg1.N) (p : Tup) (r : Fin 1024) (d : Fin 64), t.val % 4 = 0 →
    rowSt (step1 V c t p) r d
      = Attn.step (Attn.laneS (rowS V c t r) 0) (Attn.laneV (rowV V c t d) 0) Finset.univ (⊥, 0, 0)
  visit : ∀ (t : Fin cfg1.N) (p : Tup) (r : Fin 1024) (d : Fin 64), t.val % 4 ≠ 0 → t.val % 4 ≤ (t.val / 4) % 4 →
    rowSt (step1 V c t p) r d
      = Attn.step (Attn.laneS (rowS V c t r) (ptK t)) (Attn.laneV (rowV V c t d) (ptK t)) Finset.univ (rowSt p r d)
  keep : ∀ (t : Fin cfg1.N) (p : Tup) (r : Fin 1024) (d : Fin 64), (t.val / 4) % 4 < t.val % 4 →
    rowSt (step1 V c t p) r d = rowSt p r d
  out : ∀ (t : Fin cfg1.N) (p : Tup) (r : Fin 1024) (d : Fin 64), t.val % 4 = 3 →
    (step1 V c t p).1 (ix3 (0 : Fin 1) r d)
      = Ideal.div (rowSt (step1 V c t p) r d).2.2 (rowSt (step1 V c t p) r d).2.1

variable {V}

/-- The contents after a point are the point's step over SOME previous contents (the placeholder before the first point). -/
theorem outsAt1_is_step (c : Dev nD) (t : Fin cfg1.N) :
    ∃ p : Tup, outsAt1 V c t.val t.isLt = step1 V c t p := by
  by_cases hz : t.val = 0
  · obtain ⟨n, hn⟩ := t
    simp only at hz
    subst hz
    exact ⟨junk1, rfl⟩
  · exact ⟨_, outsAt1_pos V c t hz⟩

/-- The contents after a position do not depend on how the position is written. -/
theorem outsAt1_congr (c : Dev nD) {a b : ℕ} (h : a = b) (ha : a < cfg1.N) (hb : b < cfg1.N) :
    outsAt1 V c a ha = outsAt1 V c b hb := by
  subst h; rfl

theorem sum_mul_real {ι : Type} (S : Finset ι) (f g : ι → EReal) (hf : ∀ i, ∃ a : ℝ, f i = (a : EReal))
    (hg : ∀ i, ∃ a : ℝ, g i = (a : EReal)) : ∃ s : ℝ, (∑ i ∈ S, f i * g i) = (s : EReal) := by
  classical
  choose a ha using hf
  choose b hb using hg
  refine ⟨∑ i ∈ S, a i * b i, ?_⟩
  rw [← OnlineSoftmax.coe_sum]
  exact Finset.sum_congr rfl fun i _ => by rw [ha, hb, EReal.coe_mul]

/-- At the last key tile of a group the output block holds the attention of the three arrays, row by row. -/
theorem out_at_last (c : Dev nD) (hF : RowFacts V c)
    (hQ : Attn.AllReal (arrQ V c)) (hK : Attn.AllReal (arrK V c)) (hW : Attn.AllReal (arrW V c))
    (t : Fin cfg1.N) (h3 : t.val % 4 = 3) (r : Fin 1024) (d : Fin 64) :
    (outsAt1 V c t.val t.isLt).1 (ix3 (0 : Fin 1) r d)
      = Attn.attnQKV (arrQ V c) (arrK V c) (arrW V c) (ptB t) (ptRow t r) d := by
  have hN : cfg1.N = 64 := N_1
  have htl := t.isLt
  -- the four points of the group
  let pt : (n : ℕ) → n ≤ 3 → Fin cfg1.N := fun n hn => ⟨t.val - 3 + n, by omega⟩
  have hpt3 : pt 3 le_rfl = t := Fin.ext (by show t.val - 3 + 3 = t.val; omega)
  have hB : ∀ n hn, ptB (pt n hn) = ptB t := fun n hn => Fin.ext (by show (t.val - 3 + n) / 16 = t.val / 16; omega)
  have hQi : ∀ n hn, ptQ (pt n hn) = ptQ t := fun n hn => Fin.ext (by show ((t.val - 3 + n) / 4) % 4 = (t.val / 4) % 4; omega)
  have hKi : ∀ n hn, (pt n hn).val % 4 = n := fun n hn => by show (t.val - 3 + n) % 4 = n; omega
  have hQv : ∀ n hn, ((pt n hn).val / 4) % 4 = (t.val / 4) % 4 := fun n hn => by show ((t.val - 3 + n) / 4) % 4 = (t.val / 4) % 4; omega
  have hS : ∀ n hn, rowS V c (pt n hn) r = rowS V c t r := fun n hn => by
    unfold rowS ptRow; rw [hB n hn, hQi n hn]
  have hV : ∀ n hn, rowV V c (pt n hn) d = rowV V c t d := fun n hn => by
    unfold rowV; rw [hB n hn]
  -- the row's triple after each of them
  let st : ℕ → EReal × EReal × EReal := fun n =>
    if hn : n ≤ 3 then rowSt (outsAt1 V c (pt n hn).val (pt n hn).isLt) r d else (⊥, 0, 0)
  have hst : ∀ n (hn : n ≤ 3), st n = rowSt (outsAt1 V c (pt n hn).val (pt n hn).isLt) r d := fun n hn => dif_pos hn
  have hσ_mask : ∀ k : Fin 4096, (ptQ t).val * 1024 + r.val < k.val → rowS V c t r k = ⊥ := fun k hk => by
    unfold rowS Attn.scoreQK
    rw [if_neg]
    show ¬ k.val ≤ (Attn.key (ptQ t) r).val
    rw [Attn.key_val]; omega
  have hσ_real : ∀ k : Fin 4096, k.val ≤ (ptQ t).val * 1024 + r.val → ∃ s : ℝ, rowS V c t r k = (s : EReal) := fun k hk => by
    unfold rowS Attn.scoreQK
    rw [if_pos (by show k.val ≤ (Attn.key (ptQ t) r).val; rw [Attn.key_val]; exact hk)]
    exact sum_mul_real _ _ _ (fun h => hQ _) (fun h => hK _)
  have hfin := Attn.row_final (rowS V c t r) (rowV V c t d) (ptQ t) r hσ_mask hσ_real st
    (by
      rw [hst 0 (by omega)]
      obtain ⟨p, hp⟩ := outsAt1_is_step (V := V) c (pt 0 (by omega))
      rw [hp, hF.first _ p r d (hKi 0 (by omega)), hS 0 (by omega), hV 0 (by omega)])
    (by
      intro j hj j' hj'
      have hq := (ptQ t).isLt
      have hqv : (ptQ t).val = (t.val / 4) % 4 := rfl
      have hjn : j.val + 1 ≤ 3 := by omega
      have hjm : j.val ≤ 3 := by omega
      rw [hst (j.val + 1) hjn, hst j.val hjm]
      have hz : (pt (j.val + 1) hjn).val ≠ 0 := by show t.val - 3 + (j.val + 1) ≠ 0; omega
      have hk1 : (pt (j.val + 1) hjn).val % 4 = j.val + 1 := hKi _ hjn
      have hq1 : ((pt (j.val + 1) hjn).val / 4) % 4 = (t.val / 4) % 4 := hQv _ hjn
      have hk' : ptK (pt (j.val + 1) hjn) = j' := Fin.ext (by show (pt (j.val + 1) hjn).val % 4 = j'.val; omega)
      have hprev : (pt (j.val + 1) hjn).val - 1 = (pt j.val hjm).val := by
        show t.val - 3 + (j.val + 1) - 1 = t.val - 3 + j.val; omega
      rw [outsAt1_pos V c (pt (j.val + 1) hjn) hz,
        outsAt1_congr c hprev (Nat.lt_of_le_of_lt (Nat.sub_le _ _) (pt (j.val + 1) hjn).isLt) (pt j.val hjm).isLt,
        hF.visit (pt (j.val + 1) hjn) _ r d (by omega) (by omega), hS _ hjn, hV _ hjn, hk'])
    (by
      intro n hn hlt
      have hqv : (ptQ t).val = (t.val / 4) % 4 := rfl
      have hn1 : n + 1 ≤ 3 := by omega
      have hn0 : n ≤ 3 := by omega
      rw [hst (n + 1) hn1, hst n hn0]
      have hz : (pt (n + 1) hn1).val ≠ 0 := by show t.val - 3 + (n + 1) ≠ 0; omega
      have hk1 : (pt (n + 1) hn1).val % 4 = n + 1 := hKi _ hn1
      have hq1 : ((pt (n + 1) hn1).val / 4) % 4 = (t.val / 4) % 4 := hQv _ hn1
      have hprev : (pt (n + 1) hn1).val - 1 = (pt n hn0).val := by
        show t.val - 3 + (n + 1) - 1 = t.val - 3 + n; omega
      rw [outsAt1_pos V c (pt (n + 1) hn1) hz,
        outsAt1_congr c hprev (Nat.lt_of_le_of_lt (Nat.sub_le _ _) (pt (n + 1) hn1).isLt) (pt n hn0).isLt,
        hF.keep (pt (n + 1) hn1) _ r d (by omega)])
  -- the output at the last point is the quotient of the last triple
  obtain ⟨p, hp⟩ := outsAt1_is_step (V := V) c t
  rw [hp, hF.out t p r d h3, ← hp]
  have h3' : st 3 = rowSt (outsAt1 V c t.val t.isLt) r d := by
    rw [hst 3 le_rfl]
    exact congrArg (fun x => rowSt x r d) (outsAt1_congr c (congrArg Fin.val hpt3) _ _)
  rw [← h3', hfin]
  unfold Attn.attnQKV
  refine Finset.sum_congr rfl fun k _ => ?_
  have hw : ((rowV V c t d k : ℝ) : EReal) = arrW V c (ix3 (ptB t) k d) := by
    obtain ⟨w, hw⟩ := hW (ix3 (ptB t) k d)
    unfold rowV; rw [hw, EReal.toReal_coe]
  rw [hw]
  rfl

/-- The whole result array after region 1: the attention of the three arrays the region reads, at every index. The
    blocks written back at the last key tiles cover the array, and each holds its rows' quotients. -/
theorem final1_3 (c : Dev nD) (hF : RowFacts V c)
    (hQ : Attn.AllReal (arrQ V c)) (hK : Attn.AllReal (arrK V c)) (hW : Attn.AllReal (arrW V c)) :
    (dat1 V c).arrAt 3 cfg1.N
      = fun i : S4x4096x64.Idx => Attn.attnQKV (arrQ V c) (arrK V c) (arrW V c)
          ⟨(i 0).val, (i 0).isLt⟩ ⟨(i 1).val, (i 1).isLt⟩ ⟨(i 2).val, (i 2).isLt⟩ :=
  final1_3_of_after (dat1 V c) _ (fun t h3 r d => by
    rw [after1_3]
    exact (out_at_last c hF hQ hK hW t h3 r d).trans rfl)

end Cert.KernelIdeal.H

end
-- ==== Proof.KI.R1Pieces.lean ====
import proofs.«116450_j75076028334813_2_alg».proof.Proof.KI.R1
import Idealize.ShloMosaic.Lib.Pipeline.Value

/-! # Region 1 (the attention kernel): what each control case leaves, as the kernel's own payloads

Each control case of the attention body stores whole blocks only: the running maximum, the running sum
and the accumulator (the three scratch operands carried from point to point), and at the last key
tile the output block. The pieces a case's run finds, read back, are therefore the payload of the
last whole-block store into each buffer. This file states those payloads in closed form over the
blocks of queries `x0`, keys `x1`, values `x2` and the scratch contents `xs0`, `xs1`, `xs2`
the point before left (at the first key tile: the initial `-∞`, `0`, `0` the body itself stores
first). With `q = i 1` the query tile and `k = i 2` the key tile of the point:

* below the diagonal (`k < q`): new maximum `m' = max m (rowmax s)` with `s` the scores,
  new sum `e^(m - m') * l + rowsum e^(s - m')`, new accumulator `e^(m - m') * acc + e^(s - m') · v`;
* on the diagonal (`k = q`): the same over the causally masked scores (which depend on `q`, `k`);
* at the last key tile the output block is `acc / l` of the scratch contents then current. -/

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The zero offsets of a rank-3 whole-block access, however spelt. -/
theorem zero3 : (![0, 0, 0] : Fin 3 → Nat) = fun _ => 0 := funext fun a => by fin_cases a <;> rfl

/-! ## Case A: the first key tile on the diagonal (query tile 0) -/

/-- The running maximum this case leaves. -/
theorem sout1_A_0_eq (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : cond1_0 i) (hc1 : ¬cond1_1 i) (hc2 : cond1_2 i) (hc3 : ¬cond1_3 i)
    (x0 : Vec F S1x1024x64 .bf16) (x1 : Vec F S1x1024x64 .bf16) (x2 : Vec F S1x1024x64 .bf16) :
    sout1_A_0 c i arg3 harg3 arg4 harg4 arg5 harg5 arg6 harg6 arg7 harg7 arg8 harg8 arg9 harg9 hc0 hc1 hc2 hc3 x0 x1 x2 = k1_pay8 (k1_pay18 (BitVec.ofNat 32 (i 1).val) (BitVec.ofNat 32 (i 2).val) x0 x1 (k1_pay1 (F := F))) := by
  unfold sout1_A_0
  rw [View.read_writes_eq_canon _ _ _ (scover1_A_0 c i arg3 harg3 arg4 harg4 arg5 harg5 arg6 harg6 arg7 harg7 arg8 harg8 arg9 harg9 hc0 hc1 hc2 hc3 x0 x1 x2)]
  unfold kernelRun1_A
  dsimp only
  sl_unfold_words
  simp only [View.canon_unit_zero (S := S1x1024x1) zero3, View.canon_cons_unit_zero (S := S1x1024x1) zero3, View.readCov_unit_zero (S := S1x1024x1) _ zero3, View.ld_unit_zero (S := S1x1024x1) zero3,
    View.canon_unit_zero (S := S1x1024x64) zero3, View.canon_cons_unit_zero (S := S1x1024x64) zero3, View.readCov_unit_zero (S := S1x1024x64) _ zero3, View.ld_unit_zero (S := S1x1024x64) zero3,
    View.readAt_eq_ld, harg3.read_unread, harg4.read_unread, harg5.read_unread, harg6.read_unread, harg7.read_unread, harg8.read_unread, harg9.read_unread]

/-- The running sum this case leaves. -/
theorem sout1_A_1_eq (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : cond1_0 i) (hc1 : ¬cond1_1 i) (hc2 : cond1_2 i) (hc3 : ¬cond1_3 i)
    (x0 : Vec F S1x1024x64 .bf16) (x1 : Vec F S1x1024x64 .bf16) (x2 : Vec F S1x1024x64 .bf16) :
    sout1_A_1 c i arg3 harg3 arg4 harg4 arg5 harg5 arg6 harg6 arg7 harg7 arg8 harg8 arg9 harg9 hc0 hc1 hc2 hc3 x0 x1 x2 = k1_pay6 (k1_pay21 (BitVec.ofNat 32 (i 1).val) (BitVec.ofNat 32 (i 2).val) x0 x1 (k1_pay1 (F := F)) (k1_pay1 (F := F)) (k1_pay2 (F := F))) := by
  unfold sout1_A_1
  rw [View.read_writes_eq_canon _ _ _ (scover1_A_1 c i arg3 harg3 arg4 harg4 arg5 harg5 arg6 harg6 arg7 harg7 arg8 harg8 arg9 harg9 hc0 hc1 hc2 hc3 x0 x1 x2)]
  unfold kernelRun1_A
  dsimp only
  sl_unfold_words
  simp only [View.canon_unit_zero (S := S1x1024x1) zero3, View.canon_cons_unit_zero (S := S1x1024x1) zero3, View.readCov_unit_zero (S := S1x1024x1) _ zero3, View.ld_unit_zero (S := S1x1024x1) zero3,
    View.canon_unit_zero (S := S1x1024x64) zero3, View.canon_cons_unit_zero (S := S1x1024x64) zero3, View.readCov_unit_zero (S := S1x1024x64) _ zero3, View.ld_unit_zero (S := S1x1024x64) zero3,
    View.readAt_eq_ld, harg3.read_unread, harg4.read_unread, harg5.read_unread, harg6.read_unread, harg7.read_unread, harg8.read_unread, harg9.read_unread]

/-- The accumulator this case leaves. -/
theorem sout1_A_2_eq (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : cond1_0 i) (hc1 : ¬cond1_1 i) (hc2 : cond1_2 i) (hc3 : ¬cond1_3 i)
    (x0 : Vec F S1x1024x64 .bf16) (x1 : Vec F S1x1024x64 .bf16) (x2 : Vec F S1x1024x64 .bf16) :
    sout1_A_2 c i arg3 harg3 arg4 harg4 arg5 harg5 arg6 harg6 arg7 harg7 arg8 harg8 arg9 harg9 hc0 hc1 hc2 hc3 x0 x1 x2 = k1_pay7 (k1_pay17 x2) (k1_pay19 (BitVec.ofNat 32 (i 1).val) (BitVec.ofNat 32 (i 2).val) x0 x1 (k1_pay1 (F := F)) (k1_pay1 (F := F))) (k1_pay20 (BitVec.ofNat 32 (i 1).val) (BitVec.ofNat 32 (i 2).val) x0 x1 (k1_pay1 (F := F))) (k1_pay3 (F := F)) := by
  unfold sout1_A_2
  rw [View.read_writes_eq_canon _ _ _ (scover1_A_2 c i arg3 harg3 arg4 harg4 arg5 harg5 arg6 harg6 arg7 harg7 arg8 harg8 arg9 harg9 hc0 hc1 hc2 hc3 x0 x1 x2)]
  unfold kernelRun1_A
  dsimp only
  sl_unfold_words
  simp only [View.canon_unit_zero (S := S1x1024x1) zero3, View.canon_cons_unit_zero (S := S1x1024x1) zero3, View.readCov_unit_zero (S := S1x1024x1) _ zero3, View.ld_unit_zero (S := S1x1024x1) zero3,
    View.canon_unit_zero (S := S1x1024x64) zero3, View.canon_cons_unit_zero (S := S1x1024x64) zero3, View.readCov_unit_zero (S := S1x1024x64) _ zero3, View.ld_unit_zero (S := S1x1024x64) zero3,
    View.readAt_eq_ld, harg3.read_unread, harg4.read_unread, harg5.read_unread, harg6.read_unread, harg7.read_unread, harg8.read_unread, harg9.read_unread]

/-! ## Case D: the first key tile, below the diagonal -/

/-- The running maximum this case leaves. -/
theorem sout1_D_0_eq (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : cond1_0 i) (hc1 : cond1_1 i) (hc2 : ¬cond1_2 i) (hc3 : ¬cond1_3 i)
    (x0 : Vec F S1x1024x64 .bf16) (x1 : Vec F S1x1024x64 .bf16) (x2 : Vec F S1x1024x64 .bf16) :
    sout1_D_0 c i arg3 harg3 arg4 harg4 arg5 harg5 arg6 harg6 arg7 harg7 arg8 harg8 arg9 harg9 hc0 hc1 hc2 hc3 x0 x1 x2 = k1_pay5 (k1_pay11 x0 x1 (k1_pay1 (F := F))) := by
  unfold sout1_D_0
  rw [View.read_writes_eq_canon _ _ _ (scover1_D_0 c i arg3 harg3 arg4 harg4 arg5 harg5 arg6 harg6 arg7 harg7 arg8 harg8 arg9 harg9 hc0 hc1 hc2 hc3 x0 x1 x2)]
  unfold kernelRun1_D
  dsimp only
  sl_unfold_words
  simp only [View.canon_unit_zero (S := S1x1024x1) zero3, View.canon_cons_unit_zero (S := S1x1024x1) zero3, View.readCov_unit_zero (S := S1x1024x1) _ zero3, View.ld_unit_zero (S := S1x1024x1) zero3,
    View.canon_unit_zero (S := S1x1024x64) zero3, View.canon_cons_unit_zero (S := S1x1024x64) zero3, View.readCov_unit_zero (S := S1x1024x64) _ zero3, View.ld_unit_zero (S := S1x1024x64) zero3,
    View.readAt_eq_ld, harg3.read_unread, harg4.read_unread, harg5.read_unread, harg6.read_unread, harg7.read_unread, harg8.read_unread, harg9.read_unread]
  rfl

/-- The running sum this case leaves. -/
theorem sout1_D_1_eq (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : cond1_0 i) (hc1 : cond1_1 i) (hc2 : ¬cond1_2 i) (hc3 : ¬cond1_3 i)
    (x0 : Vec F S1x1024x64 .bf16) (x1 : Vec F S1x1024x64 .bf16) (x2 : Vec F S1x1024x64 .bf16) :
    sout1_D_1 c i arg3 harg3 arg4 harg4 arg5 harg5 arg6 harg6 arg7 harg7 arg8 harg8 arg9 harg9 hc0 hc1 hc2 hc3 x0 x1 x2 = k1_pay14 x0 x1 (k1_pay1 (F := F)) (k1_pay1 (F := F)) (k1_pay2 (F := F)) := by
  unfold sout1_D_1
  rw [View.read_writes_eq_canon _ _ _ (scover1_D_1 c i arg3 harg3 arg4 harg4 arg5 harg5 arg6 harg6 arg7 harg7 arg8 harg8 arg9 harg9 hc0 hc1 hc2 hc3 x0 x1 x2)]
  unfold kernelRun1_D
  dsimp only
  sl_unfold_words
  simp only [View.canon_unit_zero (S := S1x1024x1) zero3, View.canon_cons_unit_zero (S := S1x1024x1) zero3, View.readCov_unit_zero (S := S1x1024x1) _ zero3, View.ld_unit_zero (S := S1x1024x1) zero3,
    View.canon_unit_zero (S := S1x1024x64) zero3, View.canon_cons_unit_zero (S := S1x1024x64) zero3, View.readCov_unit_zero (S := S1x1024x64) _ zero3, View.ld_unit_zero (S := S1x1024x64) zero3,
    View.readAt_eq_ld, harg3.read_unread, harg4.read_unread, harg5.read_unread, harg6.read_unread, harg7.read_unread, harg8.read_unread, harg9.read_unread]
  rfl

/-- The accumulator this case leaves. -/
theorem sout1_D_2_eq (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : cond1_0 i) (hc1 : cond1_1 i) (hc2 : ¬cond1_2 i) (hc3 : ¬cond1_3 i)
    (x0 : Vec F S1x1024x64 .bf16) (x1 : Vec F S1x1024x64 .bf16) (x2 : Vec F S1x1024x64 .bf16) :
    sout1_D_2 c i arg3 harg3 arg4 harg4 arg5 harg5 arg6 harg6 arg7 harg7 arg8 harg8 arg9 harg9 hc0 hc1 hc2 hc3 x0 x1 x2 = k1_pay4 (k1_pay15 x0 x1 x2 (k1_pay1 (F := F)) (k1_pay1 (F := F)) (k1_pay3 (F := F))) := by
  unfold sout1_D_2
  rw [View.read_writes_eq_canon _ _ _ (scover1_D_2 c i arg3 harg3 arg4 harg4 arg5 harg5 arg6 harg6 arg7 harg7 arg8 harg8 arg9 harg9 hc0 hc1 hc2 hc3 x0 x1 x2)]
  unfold kernelRun1_D
  dsimp only
  sl_unfold_words
  simp only [View.canon_unit_zero (S := S1x1024x1) zero3, View.canon_cons_unit_zero (S := S1x1024x1) zero3, View.readCov_unit_zero (S := S1x1024x1) _ zero3, View.ld_unit_zero (S := S1x1024x1) zero3,
    View.canon_unit_zero (S := S1x1024x64) zero3, View.canon_cons_unit_zero (S := S1x1024x64) zero3, View.readCov_unit_zero (S := S1x1024x64) _ zero3, View.ld_unit_zero (S := S1x1024x64) zero3,
    View.readAt_eq_ld, harg3.read_unread, harg4.read_unread, harg5.read_unread, harg6.read_unread, harg7.read_unread, harg8.read_unread, harg9.read_unread]
  rfl

/-! ## Case E: the diagonal key tile, neither first nor last -/

/-- The running maximum this case leaves. -/
theorem sout1_E_0_eq (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : ¬cond1_1 i) (hc2 : cond1_2 i) (hc3 : ¬cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) :
    sout1_E_0 c i arg3 harg3 arg4 harg4 arg5 harg5 arg6 harg6 arg7 harg7 arg8 harg8 arg9 harg9 hc0 hc1 hc2 hc3 x0 x1 x2 xs0 xs1 xs2 = k1_pay8 (k1_pay18 (BitVec.ofNat 32 (i 1).val) (BitVec.ofNat 32 (i 2).val) x0 x1 xs0) := by
  unfold sout1_E_0
  rw [View.read_writes_eq_canon _ _ _ (scover1_E_0 c i arg3 harg3 arg4 harg4 arg5 harg5 arg6 harg6 arg7 harg7 arg8 harg8 arg9 harg9 hc0 hc1 hc2 hc3 x0 x1 x2 xs0 xs1 xs2)]
  unfold kernelRun1_E
  dsimp only
  sl_unfold_words
  simp only [View.canon_unit_zero (S := S1x1024x1) zero3, View.canon_cons_unit_zero (S := S1x1024x1) zero3, View.readCov_unit_zero (S := S1x1024x1) _ zero3, View.ld_unit_zero (S := S1x1024x1) zero3,
    View.canon_unit_zero (S := S1x1024x64) zero3, View.canon_cons_unit_zero (S := S1x1024x64) zero3, View.readCov_unit_zero (S := S1x1024x64) _ zero3, View.ld_unit_zero (S := S1x1024x64) zero3,
    View.readAt_eq_ld, harg3.read_unread, harg4.read_unread, harg5.read_unread, harg6.read_unread, harg7.read_unread, harg8.read_unread, harg9.read_unread]

/-- The running sum this case leaves. -/
theorem sout1_E_1_eq (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : ¬cond1_1 i) (hc2 : cond1_2 i) (hc3 : ¬cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) :
    sout1_E_1 c i arg3 harg3 arg4 harg4 arg5 harg5 arg6 harg6 arg7 harg7 arg8 harg8 arg9 harg9 hc0 hc1 hc2 hc3 x0 x1 x2 xs0 xs1 xs2 = k1_pay6 (k1_pay21 (BitVec.ofNat 32 (i 1).val) (BitVec.ofNat 32 (i 2).val) x0 x1 xs0 xs0 xs1) := by
  unfold sout1_E_1
  rw [View.read_writes_eq_canon _ _ _ (scover1_E_1 c i arg3 harg3 arg4 harg4 arg5 harg5 arg6 harg6 arg7 harg7 arg8 harg8 arg9 harg9 hc0 hc1 hc2 hc3 x0 x1 x2 xs0 xs1 xs2)]
  unfold kernelRun1_E
  dsimp only
  sl_unfold_words
  simp only [View.canon_unit_zero (S := S1x1024x1) zero3, View.canon_cons_unit_zero (S := S1x1024x1) zero3, View.readCov_unit_zero (S := S1x1024x1) _ zero3, View.ld_unit_zero (S := S1x1024x1) zero3,
    View.canon_unit_zero (S := S1x1024x64) zero3, View.canon_cons_unit_zero (S := S1x1024x64) zero3, View.readCov_unit_zero (S := S1x1024x64) _ zero3, View.ld_unit_zero (S := S1x1024x64) zero3,
    View.readAt_eq_ld, harg3.read_unread, harg4.read_unread, harg5.read_unread, harg6.read_unread, harg7.read_unread, harg8.read_unread, harg9.read_unread]

/-- The accumulator this case leaves. -/
theorem sout1_E_2_eq (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : ¬cond1_1 i) (hc2 : cond1_2 i) (hc3 : ¬cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) :
    sout1_E_2 c i arg3 harg3 arg4 harg4 arg5 harg5 arg6 harg6 arg7 harg7 arg8 harg8 arg9 harg9 hc0 hc1 hc2 hc3 x0 x1 x2 xs0 xs1 xs2 = k1_pay7 (k1_pay17 x2) (k1_pay19 (BitVec.ofNat 32 (i 1).val) (BitVec.ofNat 32 (i 2).val) x0 x1 xs0 xs0) (k1_pay20 (BitVec.ofNat 32 (i 1).val) (BitVec.ofNat 32 (i 2).val) x0 x1 xs0) xs2 := by
  unfold sout1_E_2
  rw [View.read_writes_eq_canon _ _ _ (scover1_E_2 c i arg3 harg3 arg4 harg4 arg5 harg5 arg6 harg6 arg7 harg7 arg8 harg8 arg9 harg9 hc0 hc1 hc2 hc3 x0 x1 x2 xs0 xs1 xs2)]
  unfold kernelRun1_E
  dsimp only
  sl_unfold_words
  simp only [View.canon_unit_zero (S := S1x1024x1) zero3, View.canon_cons_unit_zero (S := S1x1024x1) zero3, View.readCov_unit_zero (S := S1x1024x1) _ zero3, View.ld_unit_zero (S := S1x1024x1) zero3,
    View.canon_unit_zero (S := S1x1024x64) zero3, View.canon_cons_unit_zero (S := S1x1024x64) zero3, View.readCov_unit_zero (S := S1x1024x64) _ zero3, View.ld_unit_zero (S := S1x1024x64) zero3,
    View.readAt_eq_ld, harg3.read_unread, harg4.read_unread, harg5.read_unread, harg6.read_unread, harg7.read_unread, harg8.read_unread, harg9.read_unread]

/-! ## Case F: a key tile below the diagonal, not the first -/

/-- The running maximum this case leaves. -/
theorem sout1_F_0_eq (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : cond1_1 i) (hc2 : ¬cond1_2 i) (hc3 : ¬cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) :
    sout1_F_0 c i arg3 harg3 arg4 harg4 arg5 harg5 arg6 harg6 arg7 harg7 arg8 harg8 arg9 harg9 hc0 hc1 hc2 hc3 x0 x1 x2 xs0 xs1 xs2 = k1_pay5 (k1_pay11 x0 x1 xs0) := by
  unfold sout1_F_0
  rw [View.read_writes_eq_canon _ _ _ (scover1_F_0 c i arg3 harg3 arg4 harg4 arg5 harg5 arg6 harg6 arg7 harg7 arg8 harg8 arg9 harg9 hc0 hc1 hc2 hc3 x0 x1 x2 xs0 xs1 xs2)]
  unfold kernelRun1_F
  dsimp only
  sl_unfold_words
  simp only [View.canon_unit_zero (S := S1x1024x1) zero3, View.canon_cons_unit_zero (S := S1x1024x1) zero3, View.readCov_unit_zero (S := S1x1024x1) _ zero3, View.ld_unit_zero (S := S1x1024x1) zero3,
    View.canon_unit_zero (S := S1x1024x64) zero3, View.canon_cons_unit_zero (S := S1x1024x64) zero3, View.readCov_unit_zero (S := S1x1024x64) _ zero3, View.ld_unit_zero (S := S1x1024x64) zero3,
    View.readAt_eq_ld, harg3.read_unread, harg4.read_unread, harg5.read_unread, harg6.read_unread, harg7.read_unread, harg8.read_unread, harg9.read_unread]
  rfl

/-- The running sum this case leaves. -/
theorem sout1_F_1_eq (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : cond1_1 i) (hc2 : ¬cond1_2 i) (hc3 : ¬cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) :
    sout1_F_1 c i arg3 harg3 arg4 harg4 arg5 harg5 arg6 harg6 arg7 harg7 arg8 harg8 arg9 harg9 hc0 hc1 hc2 hc3 x0 x1 x2 xs0 xs1 xs2 = k1_pay14 x0 x1 xs0 xs0 xs1 := by
  unfold sout1_F_1
  rw [View.read_writes_eq_canon _ _ _ (scover1_F_1 c i arg3 harg3 arg4 harg4 arg5 harg5 arg6 harg6 arg7 harg7 arg8 harg8 arg9 harg9 hc0 hc1 hc2 hc3 x0 x1 x2 xs0 xs1 xs2)]
  unfold kernelRun1_F
  dsimp only
  sl_unfold_words
  simp only [View.canon_unit_zero (S := S1x1024x1) zero3, View.canon_cons_unit_zero (S := S1x1024x1) zero3, View.readCov_unit_zero (S := S1x1024x1) _ zero3, View.ld_unit_zero (S := S1x1024x1) zero3,
    View.canon_unit_zero (S := S1x1024x64) zero3, View.canon_cons_unit_zero (S := S1x1024x64) zero3, View.readCov_unit_zero (S := S1x1024x64) _ zero3, View.ld_unit_zero (S := S1x1024x64) zero3,
    View.readAt_eq_ld, harg3.read_unread, harg4.read_unread, harg5.read_unread, harg6.read_unread, harg7.read_unread, harg8.read_unread, harg9.read_unread]
  rfl

/-- The accumulator this case leaves. -/
theorem sout1_F_2_eq (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : cond1_1 i) (hc2 : ¬cond1_2 i) (hc3 : ¬cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) :
    sout1_F_2 c i arg3 harg3 arg4 harg4 arg5 harg5 arg6 harg6 arg7 harg7 arg8 harg8 arg9 harg9 hc0 hc1 hc2 hc3 x0 x1 x2 xs0 xs1 xs2 = k1_pay4 (k1_pay15 x0 x1 x2 xs0 xs0 xs2) := by
  unfold sout1_F_2
  rw [View.read_writes_eq_canon _ _ _ (scover1_F_2 c i arg3 harg3 arg4 harg4 arg5 harg5 arg6 harg6 arg7 harg7 arg8 harg8 arg9 harg9 hc0 hc1 hc2 hc3 x0 x1 x2 xs0 xs1 xs2)]
  unfold kernelRun1_F
  dsimp only
  sl_unfold_words
  simp only [View.canon_unit_zero (S := S1x1024x1) zero3, View.canon_cons_unit_zero (S := S1x1024x1) zero3, View.readCov_unit_zero (S := S1x1024x1) _ zero3, View.ld_unit_zero (S := S1x1024x1) zero3,
    View.canon_unit_zero (S := S1x1024x64) zero3, View.canon_cons_unit_zero (S := S1x1024x64) zero3, View.readCov_unit_zero (S := S1x1024x64) _ zero3, View.ld_unit_zero (S := S1x1024x64) zero3,
    View.readAt_eq_ld, harg3.read_unread, harg4.read_unread, harg5.read_unread, harg6.read_unread, harg7.read_unread, harg8.read_unread, harg9.read_unread]
  rfl

/-! ## Case G: the last key tile on the diagonal (query tile 3) -/

/-- The running maximum this case leaves. -/
theorem sout1_G_0_eq (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : ¬cond1_1 i) (hc2 : cond1_2 i) (hc3 : cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) :
    sout1_G_0 c i arg3 harg3 arg4 harg4 arg5 harg5 arg6 harg6 arg7 harg7 arg8 harg8 arg9 harg9 hc0 hc1 hc2 hc3 x0 x1 x2 xs0 xs1 xs2 = k1_pay8 (k1_pay18 (BitVec.ofNat 32 (i 1).val) (BitVec.ofNat 32 (i 2).val) x0 x1 xs0) := by
  unfold sout1_G_0
  rw [View.read_writes_eq_canon _ _ _ (scover1_G_0 c i arg3 harg3 arg4 harg4 arg5 harg5 arg6 harg6 arg7 harg7 arg8 harg8 arg9 harg9 hc0 hc1 hc2 hc3 x0 x1 x2 xs0 xs1 xs2)]
  unfold kernelRun1_G
  dsimp only
  sl_unfold_words
  simp only [View.canon_unit_zero (S := S1x1024x1) zero3, View.canon_cons_unit_zero (S := S1x1024x1) zero3, View.readCov_unit_zero (S := S1x1024x1) _ zero3, View.ld_unit_zero (S := S1x1024x1) zero3,
    View.canon_unit_zero (S := S1x1024x64) zero3, View.canon_cons_unit_zero (S := S1x1024x64) zero3, View.readCov_unit_zero (S := S1x1024x64) _ zero3, View.ld_unit_zero (S := S1x1024x64) zero3,
    View.readAt_eq_ld, harg3.read_unread, harg4.read_unread, harg5.read_unread, harg6.read_unread, harg7.read_unread, harg8.read_unread, harg9.read_unread]

/-- The running sum this case leaves. -/
theorem sout1_G_1_eq (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : ¬cond1_1 i) (hc2 : cond1_2 i) (hc3 : cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) :
    sout1_G_1 c i arg3 harg3 arg4 harg4 arg5 harg5 arg6 harg6 arg7 harg7 arg8 harg8 arg9 harg9 hc0 hc1 hc2 hc3 x0 x1 x2 xs0 xs1 xs2 = k1_pay6 (k1_pay21 (BitVec.ofNat 32 (i 1).val) (BitVec.ofNat 32 (i 2).val) x0 x1 xs0 xs0 xs1) := by
  unfold sout1_G_1
  rw [View.read_writes_eq_canon _ _ _ (scover1_G_1 c i arg3 harg3 arg4 harg4 arg5 harg5 arg6 harg6 arg7 harg7 arg8 harg8 arg9 harg9 hc0 hc1 hc2 hc3 x0 x1 x2 xs0 xs1 xs2)]
  unfold kernelRun1_G
  dsimp only
  sl_unfold_words
  simp only [View.canon_unit_zero (S := S1x1024x1) zero3, View.canon_cons_unit_zero (S := S1x1024x1) zero3, View.readCov_unit_zero (S := S1x1024x1) _ zero3, View.ld_unit_zero (S := S1x1024x1) zero3,
    View.canon_unit_zero (S := S1x1024x64) zero3, View.canon_cons_unit_zero (S := S1x1024x64) zero3, View.readCov_unit_zero (S := S1x1024x64) _ zero3, View.ld_unit_zero (S := S1x1024x64) zero3,
    View.readAt_eq_ld, harg3.read_unread, harg4.read_unread, harg5.read_unread, harg6.read_unread, harg7.read_unread, harg8.read_unread, harg9.read_unread]

/-- The accumulator this case leaves. -/
theorem sout1_G_2_eq (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : ¬cond1_1 i) (hc2 : cond1_2 i) (hc3 : cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) :
    sout1_G_2 c i arg3 harg3 arg4 harg4 arg5 harg5 arg6 harg6 arg7 harg7 arg8 harg8 arg9 harg9 hc0 hc1 hc2 hc3 x0 x1 x2 xs0 xs1 xs2 = k1_pay7 (k1_pay17 x2) (k1_pay19 (BitVec.ofNat 32 (i 1).val) (BitVec.ofNat 32 (i 2).val) x0 x1 xs0 xs0) (k1_pay20 (BitVec.ofNat 32 (i 1).val) (BitVec.ofNat 32 (i 2).val) x0 x1 xs0) xs2 := by
  unfold sout1_G_2
  rw [View.read_writes_eq_canon _ _ _ (scover1_G_2 c i arg3 harg3 arg4 harg4 arg5 harg5 arg6 harg6 arg7 harg7 arg8 harg8 arg9 harg9 hc0 hc1 hc2 hc3 x0 x1 x2 xs0 xs1 xs2)]
  unfold kernelRun1_G
  dsimp only
  sl_unfold_words
  simp only [View.canon_unit_zero (S := S1x1024x1) zero3, View.canon_cons_unit_zero (S := S1x1024x1) zero3, View.readCov_unit_zero (S := S1x1024x1) _ zero3, View.ld_unit_zero (S := S1x1024x1) zero3,
    View.canon_unit_zero (S := S1x1024x64) zero3, View.canon_cons_unit_zero (S := S1x1024x64) zero3, View.readCov_unit_zero (S := S1x1024x64) _ zero3, View.ld_unit_zero (S := S1x1024x64) zero3,
    View.readAt_eq_ld, harg3.read_unread, harg4.read_unread, harg5.read_unread, harg6.read_unread, harg7.read_unread, harg8.read_unread, harg9.read_unread]

/-- The output block this case leaves: the accumulator over the sum, both as just updated. -/
theorem out1_G_3_eq (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : ¬cond1_1 i) (hc2 : cond1_2 i) (hc3 : cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) :
    out1_G_3 c i arg3 harg3 arg4 harg4 arg5 harg5 arg6 harg6 arg7 harg7 arg8 harg8 arg9 harg9 hc0 hc1 hc2 hc3 x0 x1 x2 xs0 xs1 xs2 = k1_pay9 (k1_pay7 (k1_pay17 x2) (k1_pay19 (BitVec.ofNat 32 (i 1).val) (BitVec.ofNat 32 (i 2).val) x0 x1 xs0 xs0) (k1_pay20 (BitVec.ofNat 32 (i 1).val) (BitVec.ofNat 32 (i 2).val) x0 x1 xs0) xs2) (k1_pay6 (k1_pay21 (BitVec.ofNat 32 (i 1).val) (BitVec.ofNat 32 (i 2).val) x0 x1 xs0 xs0 xs1)) := by
  unfold out1_G_3
  rw [View.read_writes_eq_canon _ _ _ (cover1_G_3 c i arg3 harg3 arg4 harg4 arg5 harg5 arg6 harg6 arg7 harg7 arg8 harg8 arg9 harg9 hc0 hc1 hc2 hc3 x0 x1 x2 xs0 xs1 xs2)]
  unfold kernelRun1_G
  dsimp only
  sl_unfold_words
  simp only [View.canon_unit_zero (S := S1x1024x1) zero3, View.canon_cons_unit_zero (S := S1x1024x1) zero3, View.readCov_unit_zero (S := S1x1024x1) _ zero3, View.ld_unit_zero (S := S1x1024x1) zero3,
    View.canon_unit_zero (S := S1x1024x64) zero3, View.canon_cons_unit_zero (S := S1x1024x64) zero3, View.readCov_unit_zero (S := S1x1024x64) _ zero3, View.ld_unit_zero (S := S1x1024x64) zero3,
    View.readAt_eq_ld, harg3.read_unread, harg4.read_unread, harg5.read_unread, harg6.read_unread, harg7.read_unread, harg8.read_unread, harg9.read_unread]

/-! ## Case C: the last key tile, above the diagonal -/

/-- The output block this case leaves: the accumulator over the sum, as the point before left them. -/
theorem out1_C_3_eq (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : ¬cond1_1 i) (hc2 : ¬cond1_2 i) (hc3 : cond1_3 i)
    (x0 : Vec F S1x1024x64 .bf16) (x1 : Vec F S1x1024x64 .bf16) (x2 : Vec F S1x1024x64 .bf16) (xs0 : Vec F S1x1024x1 .f32) (xs1 : Vec F S1x1024x1 .f32) (xs2 : Vec F S1x1024x64 .f32) :
    out1_C_3 c i arg3 harg3 arg4 harg4 arg5 harg5 arg6 harg6 arg7 harg7 arg8 harg8 arg9 harg9 hc0 hc1 hc2 hc3 x0 x1 x2 xs0 xs1 xs2 = k1_pay9 xs2 xs1 := by
  unfold out1_C_3
  rw [View.read_writes_eq_canon _ _ _ (cover1_C_3 c i arg3 harg3 arg4 harg4 arg5 harg5 arg6 harg6 arg7 harg7 arg8 harg8 arg9 harg9 hc0 hc1 hc2 hc3 x0 x1 x2 xs0 xs1 xs2)]
  unfold kernelRun1_C
  dsimp only
  sl_unfold_words
  simp only [View.canon_unit_zero (S := S1x1024x1) zero3, View.canon_cons_unit_zero (S := S1x1024x1) zero3, View.readCov_unit_zero (S := S1x1024x1) _ zero3, View.ld_unit_zero (S := S1x1024x1) zero3,
    View.canon_unit_zero (S := S1x1024x64) zero3, View.canon_cons_unit_zero (S := S1x1024x64) zero3, View.readCov_unit_zero (S := S1x1024x64) _ zero3, View.ld_unit_zero (S := S1x1024x64) zero3,
    View.readAt_eq_ld, harg3.read_unread, harg4.read_unread, harg5.read_unread, harg6.read_unread, harg7.read_unread, harg8.read_unread, harg9.read_unread]

end Cert.KernelIdeal.H

end
-- ==== Proof.LibRank3Layout.lean ====
/-
  Rank-3 layout operations and lane reductions read at an index, over literal-size index constructors.

  A flat array of `a * b` rows viewed as `a` groups of `b` rows; the keep-dimension cast that appends a unit axis; the
  broadcast of that unit axis along the lanes; the broadcast of a leading unit axis over the groups; and, at the
  exact extended reals, the lane sum and the lane maximum of a rank-3 array and the row sum of a rank-2 array, each
  as a sum or a fold over `Fin` of the operand at the index with the reduced coordinate inserted.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibRank3

open Idealize.ShloMosaic Idealize.ShloMosaic.ValueIdx

variable {α : Type}

/-- `[n, d]` viewed `[a, b, d]` (so `n = a * b`): entry `(p, q, r)` is row `p * b + q`, column `r`. -/
theorem shapeCast_rows_apply {n a b d : ℕ} (x : (⟨2, ![n, d]⟩ : Shape).Idx → α)
    (h : (⟨2, ![n, d]⟩ : Shape).ShapeCasts ⟨3, ![a, b, d]⟩) (p : Fin a) (q : Fin b) (r : Fin d)
    (hpq : p.val * b + q.val < n) :
    shapeCast ⟨3, ![a, b, d]⟩ x h (ix3 p q r) = x (ix2 ⟨p.val * b + q.val, hpq⟩ r) := by
  refine shapeCast_apply x h _ _ ?_
  rw [Shape.rowMajor_val_two, Shape.rowMajor_val_three]
  rfl

/-- `[a, b]` viewed `[a, b, 1]`: entry `(p, q, 0)` is entry `(p, q)`. -/
theorem shapeCast_keepdim_apply {a b : ℕ} (x : (⟨2, ![a, b]⟩ : Shape).Idx → α)
    (h : (⟨2, ![a, b]⟩ : Shape).ShapeCasts ⟨3, ![a, b, 1]⟩) (p : Fin a) (q : Fin b) (z : Fin 1) :
    shapeCast ⟨3, ![a, b, 1]⟩ x h (ix3 p q z) = x (ix2 p q) := by
  refine shapeCast_apply x h _ _ ?_
  rw [Shape.rowMajor_val_two, Shape.rowMajor_val_three]
  show p.val * b + q.val = (p.val * b + q.val) * 1 + z.val
  have := z.isLt
  omega

/-- `[a, b, 1]` broadcast along the lanes to `[a, b, c]`: entry `(p, q, r)` is entry `(p, q, 0)`. -/
theorem broadcastTo_lane_apply {a b c : ℕ} (x : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ x h (ix3 p q r) = x (ix3 p q ⟨0, Nat.one_pos⟩) := by
  refine broadcastTo_apply x h _ _ fun d => ?_
  match d with
  | ⟨0, _⟩ =>
    show p.val = if a = 1 then 0 else p.val
    split_ifs with h1
    · have := p.isLt; omega
    · rfl
  | ⟨1, _⟩ =>
    show q.val = if b = 1 then 0 else q.val
    split_ifs with h1
    · have := q.isLt; omega
    · rfl
  | ⟨2, _⟩ =>
    show (0 : ℕ) = if (1 : ℕ) = 1 then 0 else r.val
    rw [if_pos rfl]

/-- `[1, b, c]` broadcast over the groups to `[a, b, c]`: entry `(p, q, r)` is entry `(0, q, r)`. -/
theorem broadcastTo_group_apply {a b c : ℕ} (x : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ x h (ix3 p q r) = x (ix3 ⟨0, Nat.one_pos⟩ q r) := by
  refine broadcastTo_apply x h _ _ fun d => ?_
  match d with
  | ⟨0, _⟩ =>
    show (0 : ℕ) = if (1 : ℕ) = 1 then 0 else p.val
    rw [if_pos rfl]
  | ⟨1, _⟩ =>
    show q.val = if b = 1 then 0 else q.val
    split_ifs with h1
    · have := q.isLt; omega
    · rfl
  | ⟨2, _⟩ =>
    show r.val = if c = 1 then 0 else r.val
    split_ifs with h1
    · have := r.isLt; omega
    · rfl

/-- The lane sum of a rank-3 array at the exact extended reals: at `(p, q)` the sum over `k` of entry `(p, q, k)`. -/
theorem sum_lane_apply {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.add.neutral .f32 hφ) (p : Fin a) (q : Fin b) :
    multiReduction .add [2] ⟨2, ![a, b]⟩ src acc h hφ hacc (ix2 p q) = ∑ k : Fin c, src (ix3 p q k) := by
  refine (Ideal.multiReduction_add_single src acc h hφ hacc (ix2 p q)).trans ?_
  refine Finset.sum_congr rfl fun k _ => congrArg src (funext fun d => Fin.ext ?_)
  match d with
  | ⟨0, _⟩ => rfl
  | ⟨1, _⟩ => rfl
  | ⟨2, _⟩ => rfl

/-- The lane maximum of a rank-3 array at the exact extended reals: at `(p, q)` the fold of `max`, from the value of the
    starting pattern, over `k` of entry `(p, q, k)`. -/
theorem max_lane_apply {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.maximumf.neutral .f32 hφ) (p : Fin a) (q : Fin b) :
    multiReduction .maximumf [2] ⟨2, ![a, b]⟩ src acc h hφ hacc (ix2 p q)
      = (Finset.univ : Finset (Fin c)).fold max (Ideal.ofBits .f32 acc) (fun k => src (ix3 p q k)) := by
  refine (Ideal.multiReduction_maximumf_single src acc h hφ hacc (ix2 p q)).trans ?_
  refine congrArg (Finset.fold max (Ideal.ofBits .f32 acc) · Finset.univ) (funext fun k => congrArg src (funext fun d => Fin.ext ?_))
  match d with
  | ⟨0, _⟩ => rfl
  | ⟨1, _⟩ => rfl
  | ⟨2, _⟩ => rfl

/-- The row sum of a rank-2 array at the exact extended reals: at `p` the sum over `k` of entry `(p, k)`. -/
theorem sum_row_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun d => Fin.ext ?_)
  match d with
  | ⟨0, _⟩ => rfl
  | ⟨1, _⟩ => rfl

end Cert.LibRank3

end
-- ==== Proof.LibDotBatchedNT.lean ====
/-
  A batched matrix product against a transposed right factor, read at an index at the exact extended reals: a
  general lemma.

  The einsum `'bmk,bnk->bmn'`: with dimension numbers that take axis 0 of both factors as the batch axis and contract
  axis 2 of a `[B, M, K]` left factor with axis 2 of a `[B, N, K]` right factor (the result `[B, M, N]`), entry
  `(b, p, q)` of the host's product is the sum over `e` of `lhs (b, p, e) * rhs (b, q, e)`: within batch member
  `b`, row `p` of the left factor against row `q` of the right one.  Generic in the four extents.
-/
import Idealize.ShloMosaic.PureOps.Ideal
import Idealize.ShloMosaic.PureOps.Ideal.Laws
import Idealize.ShloMosaic.Lib.ValueIdx

noncomputable section

namespace Cert.LibDotBatchedNT

open Idealize.ShloMosaic Idealize.ShloMosaic.ValueIdx

variable {B M N K : ℕ}

/-- The dimension numbers "within each batch member, rows against rows": batch axis 0 of each factor, contract
    axis 2 with axis 2, keep axis 1 of each factor. -/
abbrev dims (wf : DotDims.WF (⟨3, ![B, M, K]⟩ : Shape) (⟨3, ![B, N, K]⟩ : Shape) (⟨3, ![B, M, N]⟩ : Shape) [2] [2] [1] [1] [0] [0]) :
    DotDims (⟨3, ![B, M, K]⟩ : Shape) (⟨3, ![B, N, K]⟩ : Shape) (⟨3, ![B, M, N]⟩ : Shape) where
  lhsContracting := [2]
  rhsContracting := [2]
  lhsNonContracting := [1]
  rhsNonContracting := [1]
  lhsBatch := [0]
  rhsBatch := [0]
  wf := wf

variable (wf : DotDims.WF (⟨3, ![B, M, K]⟩ : Shape) (⟨3, ![B, N, K]⟩ : Shape) (⟨3, ![B, M, N]⟩ : Shape) [2] [2] [1] [1] [0] [0])

/-- The left index keeps the result's batch coordinate on its batch axis. -/
theorem lhsIdx_batch (j : (⟨3, ![B, M, N]⟩ : Shape).Idx) (k : (dims wf).contr.Idx) :
    ((dims wf).lhsIdx j k 0).val = (j 0).val := by
  unfold DotDims.lhsIdx
  rw [dif_pos (show (0 : Fin (⟨3, ![B, M, K]⟩ : Shape).rank) ∈ (dims wf).lhsBatch from List.mem_singleton.mpr rfl)]
  rfl

/-- The left index keeps the result's row coordinate on its row axis. -/
theorem lhsIdx_row (j : (⟨3, ![B, M, N]⟩ : Shape).Idx) (k : (dims wf).contr.Idx) :
    ((dims wf).lhsIdx j k 1).val = (j 1).val := by
  unfold DotDims.lhsIdx
  rw [dif_neg (show ¬(1 : Fin (⟨3, ![B, M, K]⟩ : Shape).rank) ∈ (dims wf).lhsBatch from
      fun h => Nat.one_ne_zero (congrArg Fin.val (List.mem_singleton.mp h))),
    dif_pos (show (1 : Fin (⟨3, ![B, M, K]⟩ : Shape).rank) ∈ (dims wf).lhsNonContracting from List.mem_singleton.mpr rfl)]
  rfl

/-- The right index keeps the result's batch coordinate on its batch axis. -/
theorem rhsIdx_batch (j : (⟨3, ![B, M, N]⟩ : Shape).Idx) (k : (dims wf).contr.Idx) :
    ((dims wf).rhsIdx j k 0).val = (j 0).val := by
  unfold DotDims.rhsIdx
  rw [dif_pos (show (0 : Fin (⟨3, ![B, N, K]⟩ : Shape).rank) ∈ (dims wf).rhsBatch from List.mem_singleton.mpr rfl)]
  rfl

/-- The right index puts the result's column coordinate on its row axis. -/
theorem rhsIdx_row (j : (⟨3, ![B, M, N]⟩ : Shape).Idx) (k : (dims wf).contr.Idx) :
    ((dims wf).rhsIdx j k 1).val = (j 2).val := by
  unfold DotDims.rhsIdx
  rw [dif_neg (show ¬(1 : Fin (⟨3, ![B, N, K]⟩ : Shape).rank) ∈ (dims wf).rhsBatch from
      fun h => Nat.one_ne_zero (congrArg Fin.val (List.mem_singleton.mp h))),
    dif_pos (show (1 : Fin (⟨3, ![B, N, K]⟩ : Shape).rank) ∈ (dims wf).rhsNonContracting from List.mem_singleton.mpr rfl)]
  rfl

/-- The left index at result `(b, p, q)` and contraction position `e` is `(b, p, e)`. -/
theorem lhsIdx_eq (b : Fin B) (p : Fin M) (q : Fin N) (e : Fin K) :
    (dims wf).lhsIdx (ix3 b p q) ((contrEquiv1 (dims wf) K rfl rfl).symm e) = ix3 b p e := by
  have he := contrEquiv1_symm_val (dims wf) K rfl rfl e
  funext a
  apply Fin.ext
  match a with
  | ⟨0, _⟩ => exact lhsIdx_batch wf _ _
  | ⟨1, _⟩ => exact lhsIdx_row wf _ _
  | ⟨2, _⟩ => exact ((dims wf).lhsIdx_val_of_single rfl _ _).trans he

/-- The right index at result `(b, p, q)` and contraction position `e` is `(b, q, e)`. -/
theorem rhsIdx_eq (b : Fin B) (p : Fin M) (q : Fin N) (e : Fin K) :
    (dims wf).rhsIdx (ix3 b p q) ((contrEquiv1 (dims wf) K rfl rfl).symm e) = ix3 b q e := by
  have he := contrEquiv1_symm_val (dims wf) K rfl rfl e
  funext a
  apply Fin.ext
  match a with
  | ⟨0, _⟩ => exact rhsIdx_batch wf _ _
  | ⟨1, _⟩ => exact rhsIdx_row wf _ _
  | ⟨2, _⟩ => exact ((dims wf).rhsIdx_val_of_single rfl _ _).trans he

/-- Entry `(b, p, q)` of the host's batched product: within batch member `b`, row `p` of `lhs` against row `q`
    of `rhs`. -/
theorem dotGeneral_apply {φ₁ φ₂ : FTy} (prec : Option ContractPrecision)
    (lhs : FVec Ideal (⟨3, ![B, M, K]⟩ : Shape) φ₁) (rhs : FVec Ideal (⟨3, ![B, N, K]⟩ : Shape) φ₂)
    (b : Fin B) (p : Fin M) (q : Fin N) :
    Host.dotGeneral (F := Ideal) (dims wf) prec lhs rhs (ix3 b p q)
      = ∑ e : Fin K, lhs (ix3 b p e) * rhs (ix3 b q e) := by
  unfold Host.dotGeneral
  rw [Ideal.dotGeneral_apply, ← Equiv.sum_comp (contrEquiv1 (dims wf) K rfl rfl).symm]
  refine Finset.sum_congr rfl fun e _ => ?_
  rw [lhsIdx_eq wf b p q e, rhsIdx_eq wf b p q e]

end Cert.LibDotBatchedNT

end
-- ==== Proof.LibBatchedProducts.lean ====
/-
  Batched matrix products read at an index at the exact extended reals: general lemmas.

  Within each batch member `b` (axis 0 of both factors and of the result):
  * "rows against rows" — a `[B, M, K]` left factor against a `[B, N, K]` right factor, contracting the last axis of
    both: entry `(b, p, q)` is `∑ e, lhs (b, p, e) * rhs (b, q, e)`;
  * "rows against columns" — a `[B, M, K]` left factor against a `[B, K, N]` right factor, contracting the last axis
    of the left with the middle axis of the right: entry `(b, p, q)` is `∑ e, lhs (b, p, e) * rhs (b, e, q)`.
  Each is stated for the host's product and for a kernel's matrix unit accumulating into a zero array.  Generic in
  the four extents.
-/
import Idealize.ShloMosaic.PureOps.Ideal
import Idealize.ShloMosaic.PureOps.Ideal.Laws
import Idealize.ShloMosaic.Lib.ValueIdx
import proofs.«116450_j75076028334813_2_alg».proof.Proof.LibDotBatchedNT

noncomputable section

namespace Cert.LibBatchedProducts

open Idealize.ShloMosaic Idealize.ShloMosaic.ValueIdx

variable {B M N K : ℕ}

/-! ## Rows against rows -/

section NT

variable (wf : DotDims.WF (⟨3, ![B, M, K]⟩ : Shape) (⟨3, ![B, N, K]⟩ : Shape) (⟨3, ![B, M, N]⟩ : Shape) [2] [2] [1] [1] [0] [0])

/-- Entry `(b, p, q)` of a matrix unit's batched product into a zero accumulator: within batch member `b`, row `p`
    of `lhs` against row `q` of `rhs`. -/
theorem matmulNT_apply {φ₁ φ₂ : FTy} (prec : Option ContractPrecision)
    (lhs : FVec Ideal (⟨3, ![B, M, K]⟩ : Shape) φ₁) (rhs : FVec Ideal (⟨3, ![B, N, K]⟩ : Shape) φ₂)
    (b : Fin B) (p : Fin M) (q : Fin N) :
    FloatOps.matmul (F := Ideal) (Cert.LibDotBatchedNT.dims wf) prec lhs rhs
        (constant (⟨3, ![B, M, N]⟩ : Shape) .f32 0x00000000#32) (ix3 b p q)
      = ∑ e : Fin K, lhs (ix3 b p e) * rhs (ix3 b q e) := by
  rw [Ideal.matmul_constant_zero_apply, ← Equiv.sum_comp (contrEquiv1 (Cert.LibDotBatchedNT.dims wf) K rfl rfl).symm]
  refine Finset.sum_congr rfl fun e _ => ?_
  rw [Cert.LibDotBatchedNT.lhsIdx_eq wf b p q e, Cert.LibDotBatchedNT.rhsIdx_eq wf b p q e]

end NT

/-! ## Rows against columns -/

section NN

/-- The dimension numbers "within each batch member, rows against columns": batch axis 0 of each factor, contract
    axis 2 of the left factor with axis 1 of the right, keep axis 1 of the left and axis 2 of the right. -/
abbrev dimsNN (wf : DotDims.WF (⟨3, ![B, M, K]⟩ : Shape) (⟨3, ![B, K, N]⟩ : Shape) (⟨3, ![B, M, N]⟩ : Shape) [2] [1] [1] [2] [0] [0]) :
    DotDims (⟨3, ![B, M, K]⟩ : Shape) (⟨3, ![B, K, N]⟩ : Shape) (⟨3, ![B, M, N]⟩ : Shape) where
  lhsContracting := [2]
  rhsContracting := [1]
  lhsNonContracting := [1]
  rhsNonContracting := [2]
  lhsBatch := [0]
  rhsBatch := [0]
  wf := wf

variable (wf : DotDims.WF (⟨3, ![B, M, K]⟩ : Shape) (⟨3, ![B, K, N]⟩ : Shape) (⟨3, ![B, M, N]⟩ : Shape) [2] [1] [1] [2] [0] [0])

theorem lhsIdxNN_batch (j : (⟨3, ![B, M, N]⟩ : Shape).Idx) (k : (dimsNN wf).contr.Idx) :
    ((dimsNN wf).lhsIdx j k 0).val = (j 0).val := by
  unfold DotDims.lhsIdx
  rw [dif_pos (show (0 : Fin (⟨3, ![B, M, K]⟩ : Shape).rank) ∈ (dimsNN wf).lhsBatch from List.mem_singleton.mpr rfl)]
  rfl

theorem lhsIdxNN_row (j : (⟨3, ![B, M, N]⟩ : Shape).Idx) (k : (dimsNN wf).contr.Idx) :
    ((dimsNN wf).lhsIdx j k 1).val = (j 1).val := by
  unfold DotDims.lhsIdx
  rw [dif_neg (show ¬(1 : Fin (⟨3, ![B, M, K]⟩ : Shape).rank) ∈ (dimsNN wf).lhsBatch from
      fun h => Nat.one_ne_zero (congrArg Fin.val (List.mem_singleton.mp h))),
    dif_pos (show (1 : Fin (⟨3, ![B, M, K]⟩ : Shape).rank) ∈ (dimsNN wf).lhsNonContracting from List.mem_singleton.mpr rfl)]
  rfl

theorem rhsIdxNN_batch (j : (⟨3, ![B, M, N]⟩ : Shape).Idx) (k : (dimsNN wf).contr.Idx) :
    ((dimsNN wf).rhsIdx j k 0).val = (j 0).val := by
  unfold DotDims.rhsIdx
  rw [dif_pos (show (0 : Fin (⟨3, ![B, K, N]⟩ : Shape).rank) ∈ (dimsNN wf).rhsBatch from List.mem_singleton.mpr rfl)]
  rfl

theorem rhsIdxNN_col (j : (⟨3, ![B, M, N]⟩ : Shape).Idx) (k : (dimsNN wf).contr.Idx) :
    ((dimsNN wf).rhsIdx j k 2).val = (j 2).val := by
  unfold DotDims.rhsIdx
  rw [dif_neg (show ¬(2 : Fin (⟨3, ![B, K, N]⟩ : Shape).rank) ∈ (dimsNN wf).rhsBatch from
      fun h => (by decide : (2 : ℕ) ≠ 0) (congrArg Fin.val (List.mem_singleton.mp h))),
    dif_pos (show (2 : Fin (⟨3, ![B, K, N]⟩ : Shape).rank) ∈ (dimsNN wf).rhsNonContracting from List.mem_singleton.mpr rfl)]
  rfl

/-- The left index at result `(b, p, q)` and contraction position `e` is `(b, p, e)`. -/
theorem lhsIdxNN_eq (b : Fin B) (p : Fin M) (q : Fin N) (e : Fin K) :
    (dimsNN wf).lhsIdx (ix3 b p q) ((contrEquiv1 (dimsNN wf) K rfl rfl).symm e) = ix3 b p e := by
  have he := contrEquiv1_symm_val (dimsNN wf) K rfl rfl e
  funext a
  apply Fin.ext
  match a with
  | ⟨0, _⟩ => exact lhsIdxNN_batch wf _ _
  | ⟨1, _⟩ => exact lhsIdxNN_row wf _ _
  | ⟨2, _⟩ => exact ((dimsNN wf).lhsIdx_val_of_single rfl _ _).trans he

/-- The right index at result `(b, p, q)` and contraction position `e` is `(b, e, q)`. -/
theorem rhsIdxNN_eq (b : Fin B) (p : Fin M) (q : Fin N) (e : Fin K) :
    (dimsNN wf).rhsIdx (ix3 b p q) ((contrEquiv1 (dimsNN wf) K rfl rfl).symm e) = ix3 b e q := by
  have he := contrEquiv1_symm_val (dimsNN wf) K rfl rfl e
  funext a
  apply Fin.ext
  match a with
  | ⟨0, _⟩ => exact rhsIdxNN_batch wf _ _
  | ⟨1, _⟩ => exact ((dimsNN wf).rhsIdx_val_of_single rfl _ _).trans he
  | ⟨2, _⟩ => exact rhsIdxNN_col wf _ _

/-- Entry `(b, p, q)` of the host's batched product: within batch member `b`, row `p` of `lhs` against column `q`
    of `rhs`. -/
theorem dotGeneralNN_apply {φ₁ φ₂ : FTy} (prec : Option ContractPrecision)
    (lhs : FVec Ideal (⟨3, ![B, M, K]⟩ : Shape) φ₁) (rhs : FVec Ideal (⟨3, ![B, K, N]⟩ : Shape) φ₂)
    (b : Fin B) (p : Fin M) (q : Fin N) :
    Host.dotGeneral (F := Ideal) (dimsNN wf) prec lhs rhs (ix3 b p q)
      = ∑ e : Fin K, lhs (ix3 b p e) * rhs (ix3 b e q) := by
  unfold Host.dotGeneral
  rw [Ideal.dotGeneral_apply, ← Equiv.sum_comp (contrEquiv1 (dimsNN wf) K rfl rfl).symm]
  refine Finset.sum_congr rfl fun e _ => ?_
  rw [lhsIdxNN_eq wf b p q e, rhsIdxNN_eq wf b p q e]

/-- Entry `(b, p, q)` of a matrix unit's batched product into a zero accumulator: the same sum. -/
theorem matmulNN_apply {φ₁ φ₂ : FTy} (prec : Option ContractPrecision)
    (lhs : FVec Ideal (⟨3, ![B, M, K]⟩ : Shape) φ₁) (rhs : FVec Ideal (⟨3, ![B, K, N]⟩ : Shape) φ₂)
    (b : Fin B) (p : Fin M) (q : Fin N) :
    FloatOps.matmul (F := Ideal) (dimsNN wf) prec lhs rhs
        (constant (⟨3, ![B, M, N]⟩ : Shape) .f32 0x00000000#32) (ix3 b p q)
      = ∑ e : Fin K, lhs (ix3 b p e) * rhs (ix3 b e q) := by
  rw [Ideal.matmul_constant_zero_apply, ← Equiv.sum_comp (contrEquiv1 (dimsNN wf) K rfl rfl).symm]
  refine Finset.sum_congr rfl fun e _ => ?_
  rw [lhsIdxNN_eq wf b p q e, rhsIdxNN_eq wf b p q e]

end NN

end Cert.LibBatchedProducts

end
-- ==== Proof.LibFoldMaxSup.lean ====
/-
  A fold of `max` started at the bottom is a supremum; the pattern of minus infinity is the bottom: general lemmas.

  A maximum reduction at the exact extended reals reads as a fold of `max` over a finite set, started at the value of the
  accumulator's pattern.  When that pattern is IEEE's minus infinity the start is the bottom of the extended reals, and a
  fold of `max` from the bottom is the supremum of the values over the set (the supremum of the empty set is the bottom).
-/
import Idealize.ShloMosaic.PureOps.Ideal

noncomputable section

namespace Cert.LibFoldMaxSup

open Idealize.ShloMosaic

/-- The 32-bit pattern of minus infinity denotes the bottom of the extended reals. -/
theorem ofBits_neg_inf : Ideal.ofBits .f32 0xFF800000#32 = ⊥ := by simp [Ideal.ofBits, Ideal.ieee]

/-- A fold of `max` started at the bottom is the supremum. -/
theorem fold_max_bot_eq_sup {ι : Type} [DecidableEq ι] (S : Finset ι) (f : ι → EReal) :
    S.fold max ⊥ f = S.sup f := by
  induction S using Finset.induction_on with
  | empty => simp
  | insert a S ha ih => rw [Finset.fold_insert ha, Finset.sup_insert, ih]

end Cert.LibFoldMaxSup

end
-- ==== Proof.KI.Pay1.lean ====
/-
  The attention kernel's arithmetic read entry by entry at the exact extended reals.

  The kernel keeps, for each of the 1024 query rows of a tile, a running maximum m, a running sum l and a running
  weighted sum acc (64 lanes).  At the first key tile they are set to minus infinity, zero and zero.  At a key tile
  below the diagonal, with scores s r c = ∑ h, q (r, h) * k (c, h), they become
      m' r     = max (m r) (sup over c of s r c),
      l' r     = exp (m r - m' r) * l r + ∑ c, exp (s r c - m' r),
      acc' r d = exp (m r - m' r) * acc r d + ∑ c, exp (s r c - m' r) * v (c, d);
  at the diagonal tile the same with s r c replaced by minus infinity for a key after the query (c > r).  At the last
  key tile the result is acc r d / l r.  Each statement below reads one stored array at explicit coordinates.
-/
import proofs.«116450_j75076028334813_2_alg».proof.Proof.Gen.KernelIdeal.Skeleton
import proofs.«116450_j75076028334813_2_alg».proof.Proof.LibRank3Layout
import proofs.«116450_j75076028334813_2_alg».proof.Proof.LibBatchedProducts
import proofs.«116450_j75076028334813_2_alg».proof.Proof.LibFoldMaxSup
import Idealize.ShloMosaic.Lib.Affine

noncomputable section

namespace Cert.KernelIdeal.PayValue

open Idealize.ShloMosaic Idealize.ShloMosaic.ValueIdx Cert.KernelIdeal Cert.KernelIdeal.Gen

/-! ## The last key tile: the quotient -/

/-- The stored result at row `r`, lane `d`: the weighted sum divided by the row's total weight. -/
theorem pay9_apply (acc : Vec Ideal S1x1024x64 .f32) (l : Vec Ideal S1x1024x1 .f32) (r : Fin 1024) (d : Fin 64) :
    k1_pay9 (F := Ideal) acc l (ix3 (0 : Fin 1) r d)
      = Ideal.div (acc (ix3 (0 : Fin 1) r d)) (l (ix3 (0 : Fin 1) r (0 : Fin 1))) := by
  unfold k1_pay9
  exact congrArg (Ideal.div (acc (ix3 (0 : Fin 1) r d)))
    (Cert.LibRank3.broadcastTo_lane_apply l broadcasts_S1x1024x1_S1x1024x64 (0 : Fin 1) r d)

/-! ## The first key tile: the start values -/

/-- The running maximum starts at minus infinity. -/
theorem pay1_apply (i : S1x1024x1.Idx) : k1_pay1 (F := Ideal) i = ⊥ := by
  unfold k1_pay1
  exact (congrFun (shapeCast_self _ _) i).trans Cert.LibFoldMaxSup.ofBits_neg_inf

/-- The running sum starts at zero. -/
theorem pay2_apply (i : S1x1024x1.Idx) : k1_pay2 (F := Ideal) i = 0 := by
  unfold k1_pay2
  exact (congrFun (shapeCast_self _ _) i).trans Ideal.ofBits_zero_f32

/-- The running weighted sum starts at zero. -/
theorem pay3_apply (i : S1x1024x64.Idx) : k1_pay3 (F := Ideal) i = 0 := by
  unfold k1_pay3
  exact (congrFun (shapeCast_self _ _) i).trans Ideal.ofBits_zero_f32

/-! ## The update of the running triple, over any array of scores -/

/-- The score of query row `r` against key `c` of the tile: the inner product of the two 64-lane rows. -/
def scoreE (q k : Vec Ideal S1x1024x64 .bf16) (r c : Fin 1024) : EReal :=
  ∑ h : Fin 64, q (ix3 (0 : Fin 1) r h) * k (ix3 (0 : Fin 1) c h)

/-- The causal mask inside the diagonal tile: a key after the query scores minus infinity. -/
def maskE (σ : Fin 1024 → Fin 1024 → EReal) (r c : Fin 1024) : EReal :=
  if c.val ≤ r.val then σ r c else ⊥

/-- The new running maximum of row `r`. -/
def newMax (σ : Fin 1024 → Fin 1024 → EReal) (m : Vec Ideal S1x1024x1 .f32) (r : Fin 1024) : EReal :=
  max (m (ix3 (0 : Fin 1) r (0 : Fin 1))) (Finset.univ.sup fun c : Fin 1024 => σ r c)

/-- The new running sum of row `r`. -/
def newSum (σ : Fin 1024 → Fin 1024 → EReal) (m l : Vec Ideal S1x1024x1 .f32) (r : Fin 1024) : EReal :=
  Ideal.exp (m (ix3 (0 : Fin 1) r (0 : Fin 1)) - newMax σ m r) * l (ix3 (0 : Fin 1) r (0 : Fin 1))
    + ∑ c : Fin 1024, Ideal.exp (σ r c - newMax σ m r)

/-- The new running weighted sum of row `r`, lane `d`. -/
def newAcc (σ : Fin 1024 → Fin 1024 → EReal) (m : Vec Ideal S1x1024x1 .f32) (acc : Vec Ideal S1x1024x64 .f32)
    (v : Vec Ideal S1x1024x64 .bf16) (r : Fin 1024) (d : Fin 64) : EReal :=
  Ideal.exp (m (ix3 (0 : Fin 1) r (0 : Fin 1)) - newMax σ m r) * acc (ix3 (0 : Fin 1) r d)
    + ∑ c : Fin 1024, Ideal.exp (σ r c - newMax σ m r) * v (ix3 (0 : Fin 1) c d)

/-- The row maximum of an array of scores against the old maximum: `max` of the old value and the supremum of the row. -/
theorem max_update_apply (S : FVec Ideal S1x1024x1024 .f32) (m : Vec Ideal S1x1024x1 .f32) (r : Fin 1024) :
    maximumf m (shapeCast S1x1024x1
        (multiReduction .maximumf [2] S1x1024 S 0xFF800000#32 reduces_S1x1024x1024_S1x1024 (.inl rfl) rfl)
        shapeCasts_S1x1024_S1x1024x1) (ix3 (0 : Fin 1) r (0 : Fin 1))
      = newMax (fun r c => S (ix3 (0 : Fin 1) r c)) m r := by
  unfold newMax
  refine congrArg (max (m (ix3 (0 : Fin 1) r (0 : Fin 1)))) ?_
  refine (Cert.LibRank3.shapeCast_keepdim_apply _ shapeCasts_S1x1024_S1x1024x1 (0 : Fin 1) r (0 : Fin 1)).trans ?_
  refine (Cert.LibRank3.max_lane_apply S 0xFF800000#32 reduces_S1x1024x1024_S1x1024 (.inl rfl) rfl (0 : Fin 1) r).trans ?_
  rw [Cert.LibFoldMaxSup.ofBits_neg_inf]
  exact Cert.LibFoldMaxSup.fold_max_bot_eq_sup _ _

/-- The scores shifted by a per-row value and exponentiated, at `(r, c)`. -/
theorem expShift_apply (S : FVec Ideal S1x1024x1024 .f32) (m' : FVec Ideal S1x1024x1 .f32) (r c : Fin 1024) :
    exp (subf S (broadcastTo S1x1024x1024 m' broadcasts_S1x1024x1_S1x1024x1024)) (ix3 (0 : Fin 1) r c)
      = Ideal.exp (S (ix3 (0 : Fin 1) r c) - m' (ix3 (0 : Fin 1) r (0 : Fin 1))) :=
  congrArg (fun z => Ideal.exp (S (ix3 (0 : Fin 1) r c) - z))
    (Cert.LibRank3.broadcastTo_lane_apply m' broadcasts_S1x1024x1_S1x1024x1024 (0 : Fin 1) r c)

/-- The rescaled old sum plus the row sum of the weights. -/
theorem sum_update_apply (a l : FVec Ideal S1x1024x1 .f32) (P : FVec Ideal S1x1024x1024 .f32) (r : Fin 1024) :
    addf (mulf a l) (shapeCast S1x1024x1
        (multiReduction .add [2] S1x1024 P 0x00000000#32 reduces_S1x1024x1024_S1x1024 (.inl rfl) rfl)
        shapeCasts_S1x1024_S1x1024x1) (ix3 (0 : Fin 1) r (0 : Fin 1))
      = a (ix3 (0 : Fin 1) r (0 : Fin 1)) * l (ix3 (0 : Fin 1) r (0 : Fin 1)) + ∑ c : Fin 1024, P (ix3 (0 : Fin 1) r c) := by
  refine congrArg (a (ix3 (0 : Fin 1) r (0 : Fin 1)) * l (ix3 (0 : Fin 1) r (0 : Fin 1)) + ·) ?_
  refine (Cert.LibRank3.shapeCast_keepdim_apply _ shapeCasts_S1x1024_S1x1024x1 (0 : Fin 1) r (0 : Fin 1)).trans ?_
  exact Cert.LibRank3.sum_lane_apply P 0x00000000#32 reduces_S1x1024x1024_S1x1024 (.inl rfl) rfl (0 : Fin 1) r

/-- The rescaled old weighted sum plus the weights against the value rows. -/
theorem acc_update_apply (a : FVec Ideal S1x1024x1 .f32) (acc : FVec Ideal S1x1024x64 .f32)
    (P : FVec Ideal S1x1024x1024 .f32) (v : FVec Ideal S1x1024x64 .bf16) (r : Fin 1024) (d : Fin 64) :
    addf (mulf (broadcastTo S1x1024x64 a broadcasts_S1x1024x1_S1x1024x64) acc)
        (matmul dot_S1x1024x1024_S1x1024x64_S1x1024x64_2_1_1_2_0_0 none (truncf .bf16 P bitsLt_bf16_f32) v
          (constant S1x1024x64 .f32 0x00000000#32)) (ix3 (0 : Fin 1) r d)
      = a (ix3 (0 : Fin 1) r (0 : Fin 1)) * acc (ix3 (0 : Fin 1) r d)
        + ∑ c : Fin 1024, P (ix3 (0 : Fin 1) r c) * v (ix3 (0 : Fin 1) c d) := by
  refine congrArg₂ (fun x y => x * acc (ix3 (0 : Fin 1) r d) + y) ?_ ?_
  · exact Cert.LibRank3.broadcastTo_lane_apply a broadcasts_S1x1024x1_S1x1024x64 (0 : Fin 1) r d
  · exact Cert.LibBatchedProducts.matmulNN_apply
      (Facts₀.dot_S1x1024x1024_S1x1024x64_S1x1024x64_2_1_1_2_0_0_wf) none (truncf .bf16 P bitsLt_bf16_f32) v (0 : Fin 1) r d

end Cert.KernelIdeal.PayValue

end
-- ==== Proof.KI.Pay1a.lean ====
/-
  A key tile below the diagonal, read entry by entry at the exact extended reals: the scores are the inner products
  of the query rows with the key rows, and the three stored arrays are the new running maximum, the new running sum and
  the new running weighted sum of the tile's update.
-/
import proofs.«116450_j75076028334813_2_alg».proof.Proof.KI.Pay1

noncomputable section

namespace Cert.KernelIdeal.PayValue

open Idealize.ShloMosaic Idealize.ShloMosaic.ValueIdx Cert.KernelIdeal Cert.KernelIdeal.Gen

variable (q k v : Vec Ideal S1x1024x64 .bf16) (m l : Vec Ideal S1x1024x1 .f32) (acc : Vec Ideal S1x1024x64 .f32)

/-- The tile's product of the query rows with the key rows, at `(r, c)`: the score. -/
theorem pay10_apply (r c : Fin 1024) : k1_pay10 (F := Ideal) q k (ix3 (0 : Fin 1) r c) = scoreE q k r c := by
  unfold k1_pay10 scoreE
  refine (Cert.LibBatchedProducts.matmulNT_apply Facts₀.dot_S1x1024x64_S1x1024x64_S1x1024x1024_2_2_1_1_0_0_wf none
    (shapeCast S1x1024x64 q shapeCasts_S1x1024x64_S1x1024x64) (shapeCast S1x1024x64 k shapeCasts_S1x1024x64_S1x1024x64)
    (0 : Fin 1) r c).trans ?_
  refine Finset.sum_congr rfl fun h _ => ?_
  exact congrArg₂ (· * ·) (congrFun (shapeCast_self q _) _) (congrFun (shapeCast_self k _) _)

theorem pay10_fun : (fun r c : Fin 1024 => k1_pay10 (F := Ideal) q k (ix3 (0 : Fin 1) r c)) = scoreE q k :=
  funext fun r => funext fun c => pay10_apply q k r c

/-- The new running maximum. -/
theorem pay11_apply (r : Fin 1024) :
    k1_pay11 (F := Ideal) q k m (ix3 (0 : Fin 1) r (0 : Fin 1)) = newMax (scoreE q k) m r := by
  unfold k1_pay11
  exact (max_update_apply (k1_pay10 q k) m r).trans (congrArg (fun σ => newMax σ m r) (pay10_fun q k))

/-- The array stored as the running maximum. -/
theorem pay5_pay11_apply (r : Fin 1024) :
    k1_pay5 (k1_pay11 (F := Ideal) q k m) (ix3 (0 : Fin 1) r (0 : Fin 1)) = newMax (scoreE q k) m r := by
  unfold k1_pay5
  exact (congrFun (shapeCast_self _ _) _).trans (pay11_apply q k m r)

/-- The factor that rescales the old sums: the exponential of the old maximum minus the new one. -/
theorem pay12_apply (m2 : Vec Ideal S1x1024x1 .f32) (r : Fin 1024) :
    k1_pay12 (F := Ideal) q k m m2 (ix3 (0 : Fin 1) r (0 : Fin 1))
      = Ideal.exp (m2 (ix3 (0 : Fin 1) r (0 : Fin 1)) - newMax (scoreE q k) m r) := by
  unfold k1_pay12
  exact congrArg (fun z => Ideal.exp (m2 (ix3 (0 : Fin 1) r (0 : Fin 1)) - z)) (pay11_apply q k m r)

/-- The weights: the exponentials of the scores minus the new maximum. -/
theorem pay13_apply (r c : Fin 1024) :
    k1_pay13 (F := Ideal) q k m (ix3 (0 : Fin 1) r c) = Ideal.exp (scoreE q k r c - newMax (scoreE q k) m r) := by
  unfold k1_pay13
  refine (expShift_apply (k1_pay10 q k) (k1_pay11 q k m) r c).trans ?_
  rw [pay10_apply, pay11_apply]

/-- The array stored as the running sum. -/
theorem pay14_apply (r : Fin 1024) :
    k1_pay14 (F := Ideal) q k m m l (ix3 (0 : Fin 1) r (0 : Fin 1)) = newSum (scoreE q k) m l r := by
  unfold k1_pay14 newSum
  refine (congrFun (shapeCast_self _ _) _).trans ?_
  refine (sum_update_apply (k1_pay12 q k m m) l (k1_pay13 q k m) r).trans ?_
  rw [pay12_apply]
  exact congrArg (_ + ·) (Finset.sum_congr rfl fun c _ => pay13_apply q k m r c)

/-- The new running weighted sum. -/
theorem pay15_apply (r : Fin 1024) (d : Fin 64) :
    k1_pay15 (F := Ideal) q k v m m acc (ix3 (0 : Fin 1) r d) = newAcc (scoreE q k) m acc v r d := by
  unfold k1_pay15 newAcc
  refine (acc_update_apply (k1_pay12 q k m m) acc (k1_pay13 q k m)
    (shapeCast S1x1024x64 v shapeCasts_S1x1024x64_S1x1024x64) r d).trans ?_
  rw [pay12_apply]
  refine congrArg (_ + ·) (Finset.sum_congr rfl fun c _ => ?_)
  exact congrArg₂ (· * ·) (pay13_apply q k m r c) (congrFun (shapeCast_self v _) _)

/-- The array stored as the running weighted sum. -/
theorem pay4_pay15_apply (r : Fin 1024) (d : Fin 64) :
    k1_pay4 (k1_pay15 (F := Ideal) q k v m m acc) (ix3 (0 : Fin 1) r d) = newAcc (scoreE q k) m acc v r d := by
  unfold k1_pay4
  exact (congrFun (shapeCast_self _ _) _).trans (pay15_apply q k v m acc r d)

end Cert.KernelIdeal.PayValue

end
-- ==== Proof.LibTilePosition.lean ====
/-
  The position of an entry inside a tile, as 32-bit words: a general lemma.

  A tile of 1024 positions starts at `n * 1024`; the position `x` inside it is the word `n * 1024 + x`.  While the
  tile's last position is below `2 ^ 31` nothing wraps, the word read as a signed integer is that number, and the
  signed comparison of two positions of the SAME tile is the comparison of the positions inside the tile.
-/
import Idealize.ShloMosaic.Lib.Affine

namespace Cert.LibTilePosition

open Idealize.ShloMosaic

/-- The word `n * 1024 + x` read unsigned. -/
theorem toNat_pos (n x : ℕ) (hn : n < 2097152) (hx : x < 1024) :
    (BitVec.ofNat 32 n * 1024#32 + BitVec.ofNat 32 x).toNat = n * 1024 + x := by
  simp only [BitVec.toNat_add, BitVec.toNat_mul, BitVec.toNat_ofNat, Nat.reducePow, Nat.reduceMod]
  omega

/-- The word `n * 1024 + x` read signed. -/
theorem toInt_pos (n x : ℕ) (hn : n < 2097152) (hx : x < 1024) :
    (BitVec.ofNat 32 n * 1024#32 + BitVec.ofNat 32 x).toInt = ((n * 1024 + x : ℕ) : ℤ) := by
  rw [BitVec.toInt_eq_toNat_of_lt (by rw [toNat_pos n x hn hx]; omega), toNat_pos n x hn hx]

/-- Inside one tile, "position `r` is at or after position `c`" as the signed comparison of the two words. -/
theorem sge_pos_iff (n r c : ℕ) (hn : n < 2097152) (hr : r < 1024) (hc : c < 1024) :
    IntOp.cmpi .sge (IntOp.addi (Scalar.muli (BitVec.ofNat 32 n) 1024#32) (BitVec.ofNat 32 r))
        (IntOp.addi (Scalar.muli (BitVec.ofNat 32 n) 1024#32) (BitVec.ofNat 32 c)) = 1#1 ↔ c ≤ r := by
  rw [IntOp.cmpi_sge]
  show (BitVec.ofNat 32 n * 1024#32 + BitVec.ofNat 32 c).toInt ≤ (BitVec.ofNat 32 n * 1024#32 + BitVec.ofNat 32 r).toInt ↔ _
  rw [toInt_pos n c hn hc, toInt_pos n r hn hr]
  omega

end Cert.LibTilePosition
-- ==== Proof.KI.Pay1b.lean ====
/-
  The diagonal key tile, read entry by entry at the exact extended reals: the scores are the inner products of the
  query rows with the key rows where the key is not after the query, and minus infinity where it is; the three stored
  arrays are the new running maximum, the new running sum and the new running weighted sum of the tile's update over
  those masked scores.

  Query row `r` of query tile `n` sits at position `n * 1024 + r`, key `c` of the same tile at `n * 1024 + c`; for
  `n < 4` neither word wraps, so the kernel's signed comparison of the two positions is `c ≤ r`.  The value the kernel
  fills in for a masked score is the named constant that stands for minus infinity.
-/
import proofs.«116450_j75076028334813_2_alg».proof.Proof.KI.Pay1a
import proofs.«116450_j75076028334813_2_alg».proof.Proof.LibTilePosition

noncomputable section

namespace Cert.KernelIdeal.PayValue

open Idealize.ShloMosaic Idealize.ShloMosaic.ValueIdx Cert.KernelIdeal Cert.KernelIdeal.Gen

/-- The fill value of a masked score is minus infinity. -/
theorem neg_big_bot : Named.named (F := Ideal) Cert.KernelIdeal.κ "neg_big" (φ := .f32) 0xFF333332#32 = ⊥ :=
  IdealRules.named_const.ideal_named_scalar _ _ _ _ rfl

/-- Inside the diagonal tile the kernel's comparison of the query position with the key position is `c ≤ r`. -/
theorem causal_cond (n : ℕ) (hn : n < 4) (r c : Fin 1024) :
    cmpi .sge
        (addi (broadcast S1x1024x1024 (Scalar.muli (BitVec.ofNat 32 n) 1024#32))
          (iota .tc S1x1024x1024 32 [1] iota_S1x1024x1024_d1_w32))
        (addi (broadcast S1x1024x1024 (Scalar.muli (BitVec.ofNat 32 n) 1024#32))
          (iota .tc S1x1024x1024 32 [2] iota_S1x1024x1024_d2_w32))
        (ix3 (0 : Fin 1) r c) = 1#1 ↔ c.val ≤ r.val := by
  have e1 : iota .tc S1x1024x1024 32 [1] iota_S1x1024x1024_d1_w32 (ix3 (0 : Fin 1) r c) = BitVec.ofNat 32 r.val :=
    iota_single_apply _ _ _ _ _ _
  have e2 : iota .tc S1x1024x1024 32 [2] iota_S1x1024x1024_d2_w32 (ix3 (0 : Fin 1) r c) = BitVec.ofNat 32 c.val :=
    iota_single_apply _ _ _ _ _ _
  show IntOp.cmpi .sge
      (IntOp.addi (Scalar.muli (BitVec.ofNat 32 n) 1024#32) (iota .tc S1x1024x1024 32 [1] iota_S1x1024x1024_d1_w32 (ix3 (0 : Fin 1) r c)))
      (IntOp.addi (Scalar.muli (BitVec.ofNat 32 n) 1024#32) (iota .tc S1x1024x1024 32 [2] iota_S1x1024x1024_d2_w32 (ix3 (0 : Fin 1) r c)))
      = 1#1 ↔ _
  rw [e1, e2]
  exact Cert.LibTilePosition.sge_pos_iff n r.val c.val (by omega) r.isLt c.isLt

variable (q k v : Vec Ideal S1x1024x64 .bf16) (m l : Vec Ideal S1x1024x1 .f32) (acc : Vec Ideal S1x1024x64 .f32)
variable (a1 a2 : BitVec 32) (n : ℕ) (hn : n < 4) (h1 : a1 = BitVec.ofNat 32 n) (h2 : a2 = a1)

include hn h1 h2

/-- The masked scores at `(r, c)`. -/
theorem pay16_apply (r c : Fin 1024) :
    k1_pay16 (F := Ideal) a1 a2 q k (ix3 (0 : Fin 1) r c) = maskE (scoreE q k) r c := by
  subst h2; subst h1
  unfold k1_pay16 maskE
  by_cases hcr : c.val ≤ r.val
  · refine Eq.trans ?_ (if_pos hcr).symm
    refine (if_pos ((causal_cond n hn r c).mpr hcr)).trans ?_
    exact pay10_apply q k r c
  · refine Eq.trans ?_ (if_neg hcr).symm
    exact (if_neg (mt (causal_cond n hn r c).mp hcr)).trans neg_big_bot

theorem pay16_fun : (fun r c : Fin 1024 => k1_pay16 (F := Ideal) a1 a2 q k (ix3 (0 : Fin 1) r c)) = maskE (scoreE q k) :=
  funext fun r => funext fun c => pay16_apply q k a1 a2 n hn h1 h2 r c

/-- The new running maximum. -/
theorem pay18_apply (r : Fin 1024) :
    k1_pay18 (F := Ideal) a1 a2 q k m (ix3 (0 : Fin 1) r (0 : Fin 1)) = newMax (maskE (scoreE q k)) m r := by
  unfold k1_pay18
  exact (max_update_apply (k1_pay16 a1 a2 q k) m r).trans
    (congrArg (fun σ => newMax σ m r) (pay16_fun q k a1 a2 n hn h1 h2))

/-- The array stored as the running maximum. -/
theorem pay8_pay18_apply (r : Fin 1024) :
    k1_pay8 (k1_pay18 (F := Ideal) a1 a2 q k m) (ix3 (0 : Fin 1) r (0 : Fin 1)) = newMax (maskE (scoreE q k)) m r := by
  unfold k1_pay8
  exact (congrFun (shapeCast_self _ _) _).trans (pay18_apply q k m a1 a2 n hn h1 h2 r)

/-- The factor that rescales the old sums. -/
theorem pay19_apply (m2 : Vec Ideal S1x1024x1 .f32) (r : Fin 1024) :
    k1_pay19 (F := Ideal) a1 a2 q k m m2 (ix3 (0 : Fin 1) r (0 : Fin 1))
      = Ideal.exp (m2 (ix3 (0 : Fin 1) r (0 : Fin 1)) - newMax (maskE (scoreE q k)) m r) := by
  unfold k1_pay19
  exact congrArg (fun z => Ideal.exp (m2 (ix3 (0 : Fin 1) r (0 : Fin 1)) - z)) (pay18_apply q k m a1 a2 n hn h1 h2 r)

/-- The weights. -/
theorem pay20_apply (r c : Fin 1024) :
    k1_pay20 (F := Ideal) a1 a2 q k m (ix3 (0 : Fin 1) r c)
      = Ideal.exp (maskE (scoreE q k) r c - newMax (maskE (scoreE q k)) m r) := by
  unfold k1_pay20
  refine (expShift_apply (k1_pay16 a1 a2 q k) (k1_pay18 a1 a2 q k m) r c).trans ?_
  rw [pay16_apply q k a1 a2 n hn h1 h2, pay18_apply q k m a1 a2 n hn h1 h2]

/-- The new running sum. -/
theorem pay21_apply (r : Fin 1024) :
    k1_pay21 (F := Ideal) a1 a2 q k m m l (ix3 (0 : Fin 1) r (0 : Fin 1)) = newSum (maskE (scoreE q k)) m l r := by
  unfold k1_pay21 newSum
  refine (sum_update_apply (k1_pay19 a1 a2 q k m m) l (k1_pay20 a1 a2 q k m) r).trans ?_
  rw [pay19_apply q k m a1 a2 n hn h1 h2]
  exact congrArg (_ + ·) (Finset.sum_congr rfl fun c _ => pay20_apply q k m a1 a2 n hn h1 h2 r c)

/-- The array stored as the running sum. -/
theorem pay6_pay21_apply (r : Fin 1024) :
    k1_pay6 (k1_pay21 (F := Ideal) a1 a2 q k m m l) (ix3 (0 : Fin 1) r (0 : Fin 1)) = newSum (maskE (scoreE q k)) m l r := by
  unfold k1_pay6
  exact (congrFun (shapeCast_self _ _) _).trans (pay21_apply q k m l a1 a2 n hn h1 h2 r)

/-- The array stored as the running weighted sum. -/
theorem pay7_apply (r : Fin 1024) (d : Fin 64) :
    k1_pay7 (k1_pay17 (F := Ideal) v) (k1_pay19 a1 a2 q k m m) (k1_pay20 a1 a2 q k m) acc (ix3 (0 : Fin 1) r d)
      = newAcc (maskE (scoreE q k)) m acc v r d := by
  unfold k1_pay7 newAcc
  refine (congrFun (shapeCast_self _ _) _).trans ?_
  refine (acc_update_apply (k1_pay19 a1 a2 q k m m) acc (k1_pay20 a1 a2 q k m) (k1_pay17 v) r d).trans ?_
  rw [pay19_apply q k m a1 a2 n hn h1 h2]
  refine congrArg (_ + ·) (Finset.sum_congr rfl fun c _ => ?_)
  refine congrArg₂ (· * ·) (pay20_apply q k m a1 a2 n hn h1 h2 r c) ?_
  unfold k1_pay17
  exact congrFun (shapeCast_self v _) _

end Cert.KernelIdeal.PayValue

end
-- ==== Proof.KI.RowFacts1.lean ====
/-
  What one grid point of the attention kernel does to one query row, read as values.

  A point has a query tile qi and a key tile ki. Row r of the query tile keeps a triple: its running maximum, its running
  sum and (per lane d) its running weighted sum. The point's stores leave
    • at ki = 0 the update of the start triple (minus infinity, zero, zero) by key tile 0,
    • at 0 < ki ≤ qi the update of the previous triple by key tile ki,
    • at ki > qi the previous triple,
  and at ki = 3 the output block receives the weighted sum divided by the sum. The update by a key tile is one step of
  the online-softmax recurrence over the tile's 1024 lanes, for the row's masked score row and the lane's value column:
  below the diagonal (ki < qi) every key of the tile is at or before the query position, so the unmasked scores are the
  score row's; on the diagonal (ki = qi) key c is at or before query r exactly when c ≤ r, which is the mask the kernel
  applies. The blocks the point reads are the rows qi * 1024 + r of the query array and ki * 1024 + c of the key and
  value arrays (the key and value windows are indexed by min ki qi, which is ki while ki ≤ qi).
-/
import proofs.«116450_j75076028334813_2_alg».proof.Proof.KI.Bridge1
import proofs.«116450_j75076028334813_2_alg».proof.Proof.KI.R1Pieces
import proofs.«116450_j75076028334813_2_alg».proof.Proof.KI.Pay1b
import proofs.«116450_j75076028334813_2_alg».proof.Proof.KI.Blocks1

set_option maxRecDepth 16384

noncomputable section

namespace Cert.KernelIdeal.H

open Cert.KernelIdeal Cert.KernelIdeal.Gen Cert.KernelIdeal.PayValue
open Idealize.ShloMosaic Idealize.ShloMosaic.TcCoe Idealize.ShloMosaic.ValueIdx
open Idealize.SL.Sem

variable (V : (c : Dev nD) → (b : Ref sig .tc) → Buf (Elt Ideal) ((c : Thread nD τ).loc b))

/-! ## One tile's update is one step of the recurrence -/

/-- The updated maximum, sum and weighted sum of a row are one step of the recurrence over the row's scores and the
    lane's (real) values. -/
theorem triple_eq_step (σ : Fin 1024 → Fin 1024 → EReal) (m l : Vec Ideal S1x1024x1 .f32) (acc : Vec Ideal S1x1024x64 .f32)
    (v : Vec Ideal S1x1024x64 .bf16) (r : Fin 1024) (d : Fin 64) (s : Fin 1024 → EReal) (w : Fin 1024 → ℝ)
    (hs : ∀ c, σ r c = s c) (hw : ∀ c, v (ix3 (0 : Fin 1) c d) = ((w c : ℝ) : EReal)) :
    (newMax σ m r, newSum σ m l r, newAcc σ m acc v r d)
      = Attn.step s w Finset.univ
          (m (ix3 (0 : Fin 1) r (0 : Fin 1)), l (ix3 (0 : Fin 1) r (0 : Fin 1)), acc (ix3 (0 : Fin 1) r d)) := by
  have hfun : (fun c => σ r c) = s := funext hs
  rw [Attn.step_def]
  unfold newSum newAcc newMax
  rw [hfun]
  refine Prod.ext rfl (Prod.ext ?_ ?_)
  · exact congrArg (_ + ·) (Finset.sum_congr rfl fun c _ => by rw [hs])
  · exact congrArg (_ + ·) (Finset.sum_congr rfl fun c _ => by rw [hs, hw])

/-! ## The grid coordinates of a point -/

/-- The query tile and the key tile of a point, as the body reads them off the grid. -/
theorem coords1 : ∀ t : Fin cfg1.N, ((grid1.coords t) 1).val = (t.val / 4) % 4 ∧ ((grid1.coords t) 2).val = t.val % 4 :=
  (by decide +kernel : ∀ t : Fin grid1.N, ((grid1.coords t) 1).val = (t.val / 4) % 4 ∧ ((grid1.coords t) 2).val = t.val % 4)

/-! ## The point's blocks against the arrays -/

/-- The inner product of row r of the query block and row c' of the key block, at a key tile on or below the diagonal. -/
theorem scoreE_blocks (c : Dev nD) (t : Fin cfg1.N) (hle : t.val % 4 ≤ (t.val / 4) % 4) (r c' : Fin 1024) :
    scoreE (iblk1 V c 0 t) (iblk1 V c 1 t) r c'
      = ∑ h : Fin 64, arrQ V c (ix3 (ptB t) (ptRow t r) h) * arrK V c (ix3 (ptB t) (Attn.key (ptK t) c') h) := by
  unfold scoreE
  refine Finset.sum_congr rfl fun h _ => ?_
  refine (congrArg₂ (fun a b : EReal => a * b) (iblk1_0_ix V c t r h) (iblk1_1_ix V c t c' h)).trans ?_
  refine congrArg₂ (fun a b : EReal => a * b) rfl (congrArg (fun k => arrK V c (ix3 (ptB t) k h)) (Fin.ext ?_))
  show min (t.val % 4) ((t.val / 4) % 4) * 1024 + c'.val = (t.val % 4) * 1024 + c'.val
  rw [Nat.min_eq_left hle]

/-- Below the diagonal no key of the tile is masked. -/
theorem rowS_below (c : Dev nD) (t : Fin cfg1.N) (hlt : t.val % 4 < (t.val / 4) % 4) (r c' : Fin 1024) :
    scoreE (iblk1 V c 0 t) (iblk1 V c 1 t) r c' = rowS V c t r (Attn.key (ptK t) c') := by
  rw [scoreE_blocks V c t hlt.le]
  unfold rowS Attn.scoreQK
  rw [if_pos]
  show (t.val % 4) * 1024 + c'.val ≤ ((t.val / 4) % 4) * 1024 + r.val
  have := c'.isLt
  omega

/-- On the diagonal the keys after the query are masked: position c' against row r. -/
theorem rowS_diag (c : Dev nD) (t : Fin cfg1.N) (hd : t.val % 4 = (t.val / 4) % 4) (r c' : Fin 1024) :
    maskE (scoreE (iblk1 V c 0 t) (iblk1 V c 1 t)) r c' = rowS V c t r (Attn.key (ptK t) c') := by
  unfold maskE
  rw [scoreE_blocks V c t hd.le]
  unfold rowS Attn.scoreQK
  refine if_congr ?_ rfl rfl
  show c'.val ≤ r.val ↔ (t.val % 4) * 1024 + c'.val ≤ ((t.val / 4) % 4) * 1024 + r.val
  omega

/-- The value block's entries are the (real) value column of the point's key tile. -/
theorem value_lane (c : Dev nD) (hW : Attn.AllReal (arrW V c)) (t : Fin cfg1.N) (hle : t.val % 4 ≤ (t.val / 4) % 4)
    (d : Fin 64) (c' : Fin 1024) :
    (iblk1 V c 2 t : S1x1024x64.Idx → EReal) (ix3 (0 : Fin 1) c' d) = ((rowV V c t d (Attn.key (ptK t) c') : ℝ) : EReal) := by
  refine (iblk1_2_ix V c t c' d).trans ?_
  unfold rowV
  obtain ⟨w, hw⟩ := hW (ix3 (ptB t) (Attn.key (ptK t) c') d)
  rw [hw, EReal.toReal_coe, ← hw]
  refine congrArg (fun k => arrW V c (ix3 (ptB t) k d)) (Fin.ext ?_)
  show min (t.val % 4) ((t.val / 4) % 4) * 1024 + c'.val = (t.val % 4) * 1024 + c'.val
  rw [Nat.min_eq_left hle]

/-- A tile's update of a row, over scores that are the row's scores on the point's key tile, is the recurrence's step
    over that tile's lanes. -/
theorem update_is_step (c : Dev nD) (hW : Attn.AllReal (arrW V c)) (t : Fin cfg1.N) (hle : t.val % 4 ≤ (t.val / 4) % 4)
    (σ : Fin 1024 → Fin 1024 → EReal) (r : Fin 1024) (hσ : ∀ c', σ r c' = rowS V c t r (Attn.key (ptK t) c'))
    (m l : Vec Ideal S1x1024x1 .f32) (acc : Vec Ideal S1x1024x64 .f32) (d : Fin 64) :
    (newMax σ m r, newSum σ m l r, newAcc σ m acc (iblk1 V c 2 t) r d)
      = Attn.step (Attn.laneS (rowS V c t r) (ptK t)) (Attn.laneV (rowV V c t d) (ptK t)) Finset.univ
          (m (ix3 (0 : Fin 1) r (0 : Fin 1)), l (ix3 (0 : Fin 1) r (0 : Fin 1)), acc (ix3 (0 : Fin 1) r d)) :=
  triple_eq_step σ m l acc (iblk1 V c 2 t) r d _ _ hσ (fun c' => value_lane V c hW t hle d c')

/-- The start values of a row: minus infinity, zero, zero. -/
theorem init_row (r : Fin 1024) (d : Fin 64) :
    ((k1_pay1 (F := Ideal)) (ix3 (0 : Fin 1) r (0 : Fin 1)), (k1_pay2 (F := Ideal)) (ix3 (0 : Fin 1) r (0 : Fin 1)),
      (k1_pay3 (F := Ideal)) (ix3 (0 : Fin 1) r d)) = ((⊥ : EReal), (0 : EReal), (0 : EReal)) := by
  rw [pay1_apply, pay2_apply, pay3_apply]

/-! ## The four facts -/

/-- The two tile words the diagonal tile's mask compares are equal there, and the query tile's is below 4. -/
theorem diag_words (t : Fin cfg1.N) (hd : t.val % 4 = (t.val / 4) % 4) :
  ((grid1.coords t) 1).val < 4
    ∧ BitVec.ofNat 32 ((grid1.coords t) 2).val = BitVec.ofNat 32 ((grid1.coords t) 1).val := by
  obtain ⟨e1, e2⟩ := coords1 t
  exact ⟨by rw [e1]; omega, by rw [e1, e2, hd]⟩

theorem row_first (c : Dev nD) (hW : Attn.AllReal (arrW V c)) (t : Fin cfg1.N) (p : Tup) (r : Fin 1024) (d : Fin 64) (h0 : t.val % 4 = 0) :
    rowSt (step1 V c t p) r d
      = Attn.step (Attn.laneS (rowS V c t r) 0) (Attn.laneV (rowV V c t d) 0) Finset.univ (⊥, 0, 0) := by
  have hk0 : (0 : Fin 4) = ptK t := Fin.ext (by show 0 = t.val % 4; omega)
  rw [hk0, ← init_row r d]
  by_cases h1 : t.val % 4 < (t.val / 4) % 4
  · -- unmasked first tile
    rw [step1_D V c t p h0 h1]
    dsimp only [rowSt]
    rw [sout1_D_0_eq, sout1_D_1_eq, sout1_D_2_eq, pay5_pay11_apply, pay14_apply, pay4_pay15_apply]
    exact update_is_step V c hW t h1.le _ r (fun c' => rowS_below V c t h1 r c') _ _ _ d
  · -- masked first tile (query tile 0)
    have hd : t.val % 4 = (t.val / 4) % 4 := by omega
    obtain ⟨hn, h2⟩ := diag_words t hd
    rw [step1_A V c t p h0 h1]
    dsimp only [rowSt]
    rw [sout1_A_0_eq, sout1_A_1_eq, sout1_A_2_eq,
      pay8_pay18_apply _ _ _ _ _ _ hn rfl h2, pay6_pay21_apply _ _ _ _ _ _ _ hn rfl h2,
      pay7_apply _ _ _ _ _ _ _ _ hn rfl h2]
    exact update_is_step V c hW t hd.le _ r (fun c' => rowS_diag V c t hd r c') _ _ _ d

theorem row_visit (c : Dev nD) (hW : Attn.AllReal (arrW V c)) (t : Fin cfg1.N) (p : Tup) (r : Fin 1024) (d : Fin 64)
    (h0 : t.val % 4 ≠ 0) (hle : t.val % 4 ≤ (t.val / 4) % 4) :
    rowSt (step1 V c t p) r d
      = Attn.step (Attn.laneS (rowS V c t r) (ptK t)) (Attn.laneV (rowV V c t d) (ptK t)) Finset.univ (rowSt p r d) := by
  by_cases h3 : t.val % 4 = 3
  · have hd : t.val % 4 = (t.val / 4) % 4 := by omega
    obtain ⟨hn, h2⟩ := diag_words t hd
    rw [step1_G V c t p h0 h3 hd]
    dsimp only [rowSt]
    rw [sout1_G_0_eq, sout1_G_1_eq, sout1_G_2_eq,
      pay8_pay18_apply _ _ _ _ _ _ hn rfl h2, pay6_pay21_apply _ _ _ _ _ _ _ hn rfl h2,
      pay7_apply _ _ _ _ _ _ _ _ hn rfl h2]
    exact update_is_step V c hW t hd.le _ r (fun c' => rowS_diag V c t hd r c') _ _ _ d
  · by_cases h1 : t.val % 4 < (t.val / 4) % 4
    · rw [step1_F V c t p h0 h3 h1]
      dsimp only [rowSt]
      rw [sout1_F_0_eq, sout1_F_1_eq, sout1_F_2_eq, pay5_pay11_apply, pay14_apply, pay4_pay15_apply]
      exact update_is_step V c hW t h1.le _ r (fun c' => rowS_below V c t h1 r c') _ _ _ d
    · have hd : t.val % 4 = (t.val / 4) % 4 := by omega
      obtain ⟨hn, h2⟩ := diag_words t hd
      rw [step1_E V c t p h0 h3 h1 hd]
      dsimp only [rowSt]
      rw [sout1_E_0_eq, sout1_E_1_eq, sout1_E_2_eq,
        pay8_pay18_apply _ _ _ _ _ _ hn rfl h2, pay6_pay21_apply _ _ _ _ _ _ _ hn rfl h2,
        pay7_apply _ _ _ _ _ _ _ _ hn rfl h2]
      exact update_is_step V c hW t hd.le _ r (fun c' => rowS_diag V c t hd r c') _ _ _ d

theorem row_keep (c : Dev nD) (t : Fin cfg1.N) (p : Tup) (r : Fin 1024) (d : Fin 64) (hlt : (t.val / 4) % 4 < t.val % 4) :
    rowSt (step1 V c t p) r d = rowSt p r d := by
  have h0 : ¬t.val % 4 = 0 := by omega
  have h2 : ¬t.val % 4 = (t.val / 4) % 4 := by omega
  by_cases h3 : t.val % 4 = 3
  · rw [step1_C V c t p h0 h3 h2]; dsimp only [rowSt]
  · rw [step1_B V c t p h0 h3 (by omega) h2]; dsimp only [rowSt]

theorem row_out (c : Dev nD) (t : Fin cfg1.N) (p : Tup) (r : Fin 1024) (d : Fin 64) (h3 : t.val % 4 = 3) :
    (step1 V c t p).1 (ix3 (0 : Fin 1) r d)
      = Ideal.div (rowSt (step1 V c t p) r d).2.2 (rowSt (step1 V c t p) r d).2.1 := by
  have h0 : ¬t.val % 4 = 0 := by omega
  by_cases h2 : t.val % 4 = (t.val / 4) % 4
  · rw [step1_G V c t p h0 h3 h2]
    dsimp only [rowSt]
    rw [out1_G_3_eq, pay9_apply, sout1_G_2_eq, sout1_G_1_eq]
  · rw [step1_C V c t p h0 h3 h2]
    dsimp only [rowSt]
    rw [out1_C_3_eq, pay9_apply]

theorem rowFacts (c : Dev nD) (hW : Attn.AllReal (arrW V c)) : RowFacts V c where
  first := fun t p r d h0 => row_first V c hW t p r d h0
  visit := fun t p r d h0 hle => row_visit V c hW t p r d h0 hle
  keep := fun t p r d hlt => row_keep V c t p r d hlt
  out := fun t p r d h3 => row_out V c t p r d h3

end Cert.KernelIdeal.H

end
-- ==== Proof.LibMatmulNT.lean ====
/-
  A matrix product against a transposed right factor, read at an index at the exact extended reals: a general lemma.

  With dimension numbers that contract axis 1 of an `[M, K]` left factor with axis 1 of an `[N, K]` right factor (no
  batch axes; the result `[M, N]`), and a zero accumulator, entry `(p, q)` of the product is the sum over `e` of
  `lhs (p, e) * rhs (q, e)`: row `p` of the left factor against row `q` of the right one.
-/
import Idealize.ShloMosaic.PureOps.Ideal
import Idealize.ShloMosaic.PureOps.Ideal.Laws
import Idealize.ShloMosaic.Lib.ValueIdx

noncomputable section

namespace Cert.LibMatmulNT

open Idealize.ShloMosaic Idealize.ShloMosaic.ValueIdx

variable {M N K : ℕ}

/-- The dimension numbers "rows against rows": contract axis 1 with axis 1, keep axis 0 of each factor, no batch. -/
abbrev dims (wf : DotDims.WF (⟨2, ![M, K]⟩ : Shape) (⟨2, ![N, K]⟩ : Shape) (⟨2, ![M, N]⟩ : Shape) [1] [1] [0] [0] [] []) :
    DotDims (⟨2, ![M, K]⟩ : Shape) (⟨2, ![N, K]⟩ : Shape) (⟨2, ![M, N]⟩ : Shape) where
  lhsContracting := [1]
  rhsContracting := [1]
  lhsNonContracting := [0]
  rhsNonContracting := [0]
  lhsBatch := []
  rhsBatch := []
  wf := wf

variable (wf : DotDims.WF (⟨2, ![M, K]⟩ : Shape) (⟨2, ![N, K]⟩ : Shape) (⟨2, ![M, N]⟩ : Shape) [1] [1] [0] [0] [] [])

/-- The left index keeps the result's row coordinate on its own row axis. -/
theorem lhsIdx_row (j : (⟨2, ![M, N]⟩ : Shape).Idx) (k : (dims wf).contr.Idx) :
    ((dims wf).lhsIdx j k 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The right index puts the result's column coordinate on its own row axis. -/
theorem rhsIdx_row (j : (⟨2, ![M, N]⟩ : Shape).Idx) (k : (dims wf).contr.Idx) :
    ((dims wf).rhsIdx j k 0).val = (j 1).val := by
  unfold DotDims.rhsIdx
  rw [dif_neg (show ¬(0 : Fin (⟨2, ![N, K]⟩ : Shape).rank) ∈ (dims wf).rhsBatch from List.not_mem_nil),
    dif_pos (show (0 : Fin (⟨2, ![N, K]⟩ : Shape).rank) ∈ (dims wf).rhsNonContracting from List.mem_singleton.mpr rfl)]
  rfl

/-- The left index at result `(p, q)` and contraction position `e` is `(p, e)`. -/
theorem lhsIdx_eq (p : Fin M) (q : Fin N) (e : Fin K) :
    (dims wf).lhsIdx (ix2 p q) ((contrEquiv1 (dims wf) K rfl rfl).symm e) = ix2 p e := by
  have he := contrEquiv1_symm_val (dims wf) K rfl rfl e
  funext a
  apply Fin.ext
  match a with
  | ⟨0, _⟩ => exact lhsIdx_row wf _ _
  | ⟨1, _⟩ => exact ((dims wf).lhsIdx_val_of_single rfl _ _).trans he

/-- The right index at result `(p, q)` and contraction position `e` is `(q, e)`. -/
theorem rhsIdx_eq (p : Fin M) (q : Fin N) (e : Fin K) :
    (dims wf).rhsIdx (ix2 p q) ((contrEquiv1 (dims wf) K rfl rfl).symm e) = ix2 q e := by
  have he := contrEquiv1_symm_val (dims wf) K rfl rfl e
  funext a
  apply Fin.ext
  match a with
  | ⟨0, _⟩ => exact rhsIdx_row wf _ _
  | ⟨1, _⟩ => exact ((dims wf).rhsIdx_val_of_single rfl _ _).trans he

/-- Entry `(p, q)` of the product into a zero accumulator: row `p` of `lhs` against row `q` of `rhs`. -/
theorem matmul_zero_apply {φ₁ φ₂ : FTy} (prec : Option ContractPrecision)
    (lhs : FVec Ideal (⟨2, ![M, K]⟩ : Shape) φ₁) (rhs : FVec Ideal (⟨2, ![N, K]⟩ : Shape) φ₂) (p : Fin M) (q : Fin N) :
    FloatOps.matmul (dims wf) prec lhs rhs (constant (F := Ideal) (⟨2, ![M, N]⟩ : Shape) .f32 0x00000000#32) (ix2 p q)
      = ∑ e : Fin K, lhs (ix2 p e) * rhs (ix2 q e) := by
  rw [Ideal.matmul_constant_zero_apply, ← Equiv.sum_comp (contrEquiv1 (dims wf) K rfl rfl).symm]
  refine Finset.sum_congr rfl fun e _ => ?_
  rw [lhsIdx_eq wf p q e, rhsIdx_eq wf p q e]

end Cert.LibMatmulNT

end
-- ==== Proof.KI.Pay0.lean ====
import proofs.«116450_j75076028334813_2_alg».proof.Proof.Gen.KernelIdeal.Skeleton
import proofs.«116450_j75076028334813_2_alg».proof.Proof.LibMatmulNT
import Idealize.ShloMosaic.Lib.ValueLayout
import Idealize.ShloMosaic.PureOps.Ideal.Laws

/-! # The projection kernel's three stored values, read at an index over the extended reals

At a grid point the projection kernel holds one block of the activations, `[1, 1024, 1024]`, and a
weight matrix `[64, 1024]`. It drops the block's unit axis, narrows both operands (the identity on
extended reals), multiplies rows against rows into a zero accumulator, narrows again and puts the
unit axis back. So entry `(0, r, h)` of the stored value is the inner product of row `r` of the
block with row `h` of the weights. -/

noncomputable section

namespace Cert.KernelIdeal.Val0

open Idealize.ShloMosaic Idealize.ShloMosaic.ValueIdx Idealize.SL.Sem
open Cert.KernelIdeal Cert.KernelIdeal.Gen

/-- The shared left operand: the block without its unit axis. -/
theorem pay1_apply (x : Vec Ideal S1x1024x1024 .f32) (r e : Fin 1024) :
    k0_pay1 (F := Ideal) x (ix2 r e) = x (ix3 (0 : Fin 1) r e) := by
  unfold k0_pay1
  exact shapeCast_1ab_ab_apply x shapeCasts_S1x1024x1024_S1024x1024 r e

/-- Rows against rows into a zero accumulator, with the unit axis put back. -/
theorem prod_apply (x : Vec Ideal S1x1024x1024 .f32) (w : FVec Ideal S64x1024 .bf16) (r : Fin 1024) (h : Fin 64) :
    shapeCast S1x1024x64
        (truncf .bf16
          (matmul dot_S1024x1024_S64x1024_S1024x64_1_1_0_0_n_n none (k0_pay1 (F := Ideal) x) w
            (constant (F := Ideal) S1024x64 .f32 0x00000000#32)) bitsLt_bf16_f32)
        shapeCasts_S1024x64_S1x1024x64 (ix3 (0 : Fin 1) r h)
      = ∑ e : Fin 1024, x (ix3 (0 : Fin 1) r e) * w (ix2 h e) := by
  refine (shapeCast_ab_1ab_apply _ shapeCasts_S1024x64_S1x1024x64 (0 : Fin 1) r h).trans ?_
  refine (Cert.LibMatmulNT.matmul_zero_apply dot_S1024x1024_S64x1024_S1024x64_1_1_0_0_n_n_wf none
    (k0_pay1 (F := Ideal) x) w r h).trans ?_
  exact Finset.sum_congr rfl fun e _ => by rw [pay1_apply]

/-- The first product: the block against the first weight matrix. -/
theorem pay2_apply (x : Vec Ideal S1x1024x1024 .f32) (w : Vec Ideal S64x1024 .f32) (r : Fin 1024) (h : Fin 64) :
    k0_pay2 (F := Ideal) x w (ix3 (0 : Fin 1) r h) = ∑ e : Fin 1024, x (ix3 (0 : Fin 1) r e) * w (ix2 h e) := by
  unfold k0_pay2
  refine (prod_apply x _ r h).trans ?_
  refine Finset.sum_congr rfl fun e _ => ?_
  rw [truncf_apply, shapeCast_self]

/-- The second product: the block against the second weight matrix. -/
theorem pay3_apply (x : Vec Ideal S1x1024x1024 .f32) (w : Vec Ideal S64x1024 .f32) (r : Fin 1024) (h : Fin 64) :
    k0_pay3 (F := Ideal) x w (ix3 (0 : Fin 1) r h) = ∑ e : Fin 1024, x (ix3 (0 : Fin 1) r e) * w (ix2 h e) := by
  unfold k0_pay3
  refine (prod_apply x _ r h).trans ?_
  refine Finset.sum_congr rfl fun e _ => ?_
  rw [truncf_apply]

/-- The third product: the block against the third weight matrix. -/
theorem pay4_apply (x : Vec Ideal S1x1024x1024 .f32) (w : Vec Ideal S64x1024 .f32) (r : Fin 1024) (h : Fin 64) :
    k0_pay4 (F := Ideal) x w (ix3 (0 : Fin 1) r h) = ∑ e : Fin 1024, x (ix3 (0 : Fin 1) r e) * w (ix2 h e) := by
  unfold k0_pay4
  refine (prod_apply x _ r h).trans ?_
  refine Finset.sum_congr rfl fun e _ => ?_
  rw [truncf_apply]

end Cert.KernelIdeal.Val0

end
-- ==== Proof.KI.Val0.lean ====
import proofs.«116450_j75076028334813_2_alg».proof.Proof.KI.R0
import proofs.«116450_j75076028334813_2_alg».proof.Proof.KI.Pay0
import proofs.«116450_j75076028334813_2_alg».proof.Proof.Spec
import Idealize.ShloMosaic.Lib.Pipeline.Value

/-! # What the projection kernel leaves in its three output arrays, over the extended reals

The grid is 4 x 4: point `t` works on batch `t / 4` and on rows `1024 * (t % 4) … + 1023` of it. The
activations' block at that point is exactly those rows; a weight matrix's block is the whole matrix
at every point; an output's block is the same rows of the output array. The stored value at
`(0, r, h)` is the inner product of the block's row `r` with the weights' row `h`, so the block a
point writes back is the restriction of ONE function of the whole arrays, `Attn.proj`, to the
point's rows. The sixteen blocks tile the array, so each output array ends holding that function;
the four input arrays are never written. -/

set_option maxRecDepth 16384

noncomputable section

namespace Cert.KernelIdeal.Val0

open Cert.KernelIdeal Cert.KernelIdeal.Gen Cert.KernelIdeal.H
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The projection of the whole activations by a whole weight matrix, as an array over `[4, 4096, 64]`. -/
def projArr (x : S4x4096x1024.Idx → EReal) (w : S64x1024.Idx → EReal) : S4x4096x64.Idx → EReal :=
  fun i => Attn.proj x w ⟨(i 0).val, (i 0).isLt⟩ ⟨(i 1).val, (i 1).isLt⟩ ⟨(i 2).val, (i 2).isLt⟩

/-- The array at an index, by its coordinates. -/
theorem projArr_apply (x : S4x4096x1024.Idx → EReal) (w : S64x1024.Idx → EReal) (i : S4x4096x64.Idx) :
    projArr x w i = Attn.proj x w ⟨(i 0).val, (i 0).isLt⟩ ⟨(i 1).val, (i 1).isLt⟩ ⟨(i 2).val, (i 2).isLt⟩ := rfl

/-- The array at an index written by coordinates. -/
theorem projArr_ix3 (x : S4x4096x1024.Idx → EReal) (w : S64x1024.Idx → EReal) (b : Fin 4) (t : Fin 4096) (h : Fin 64) :
    projArr x w (ix3 b t h) = Attn.proj x w b t h := rfl

/-- The printed index maps over the grid: point `t` is batch `t / 4`, row tile `t % 4`, for the
    activations and the three outputs; the weights' block index never moves. -/
theorem idx_facts : ∀ t : Fin cfg0.N,
    (win0_0.index t (0 : Fin 3) = t.val / 4 ∧ win0_0.index t (1 : Fin 3) = t.val % 4 ∧ win0_0.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 3) = t.val / 4 ∧ win0_4.index t (1 : Fin 3) = t.val % 4 ∧ win0_4.index t (2 : Fin 3) = 0)
    ∧ (win0_5.index t (0 : Fin 3) = t.val / 4 ∧ win0_5.index t (1 : Fin 3) = t.val % 4 ∧ win0_5.index t (2 : Fin 3) = 0)
    ∧ (win0_6.index t (0 : Fin 3) = t.val / 4 ∧ win0_6.index t (1 : Fin 3) = t.val % 4 ∧ win0_6.index t (2 : Fin 3) = 0) :=
  (by decide +kernel : ∀ t : Fin grid0.N, _)

/-! ## The input blocks as rows of the arrays -/

/-- The activations' block at point `t`, at `j`, is the array at batch `t / 4`, row `1024 (t % 4) + j 1`. -/
theorem xblk_apply (c : Dev nD) (t : Fin cfg0.N) (j : S1x1024x1024.Idx) (k : S4x4096x1024.Idx)
    (h0 : (k 0).val = t.val / 4) (h1 : (k 1).val = t.val % 4 * 1024 + (j 1).val) (h2 : (k 2).val = (j 2).val) :
    (iblk0 V c 0 t : Vec Ideal S1x1024x1024 .f32) j = (V c main_arg0 : S4x4096x1024.Idx → EReal) k := by
  obtain ⟨⟨e0, e1, e2⟩, -⟩ := idx_facts t
  unfold iblk0
  rw [View.read_apply]
  show V c main_arg0 _ = V c main_arg0 _
  refine congrArg _ ?_
  funext a
  apply Fin.ext
  have hj0 : (j 0).val < 1 := (j 0).isLt
  match a with
  | ⟨0, _⟩ => show win0_0.index t (0 : Fin 3) * 1 + 1 * (j 0).val = (k 0).val; omega
  | ⟨1, _⟩ => show win0_0.index t (1 : Fin 3) * 1024 + 1 * (j 1).val = (k 1).val; omega
  | ⟨2, _⟩ => show win0_0.index t (2 : Fin 3) * 1024 + 1 * (j 2).val = (k 2).val; omega

/-- A weight matrix's block is the whole matrix at every point. -/
theorem wblk1_eq (c : Dev nD) (t : Fin cfg0.N) :
    (iblk0 V c 1 t : Vec Ideal S64x1024 .f32) = (V c main_v1 : S64x1024.Idx → EReal) := by
  obtain ⟨-, ⟨e0, e1⟩, -⟩ := idx_facts t
  funext j
  unfold iblk0
  rw [View.read_apply]
  show V c main_v1 _ = V c main_v1 _
  refine congrArg _ ?_
  funext a
  apply Fin.ext
  match a with
  | ⟨0, _⟩ => show win0_1.index t (0 : Fin 2) * 64 + 1 * (j 0).val = (j 0).val; omega
  | ⟨1, _⟩ => show win0_1.index t (1 : Fin 2) * 1024 + 1 * (j 1).val = (j 1).val; omega

theorem wblk2_eq (c : Dev nD) (t : Fin cfg0.N) :
    (iblk0 V c 2 t : Vec Ideal S64x1024 .f32) = (V c main_arg2 : S64x1024.Idx → EReal) := by
  obtain ⟨-, -, ⟨e0, e1⟩, -⟩ := idx_facts t
  funext j
  unfold iblk0
  rw [View.read_apply]
  show V c main_arg2 _ = V c main_arg2 _
  refine congrArg _ ?_
  funext a
  apply Fin.ext
  match a with
  | ⟨0, _⟩ => show win0_2.index t (0 : Fin 2) * 64 + 1 * (j 0).val = (j 0).val; omega
  | ⟨1, _⟩ => show win0_2.index t (1 : Fin 2) * 1024 + 1 * (j 1).val = (j 1).val; omega

theorem wblk3_eq (c : Dev nD) (t : Fin cfg0.N) :
    (iblk0 V c 3 t : Vec Ideal S64x1024 .f32) = (V c main_arg3 : S64x1024.Idx → EReal) := by
  obtain ⟨-, -, -, ⟨e0, e1⟩, -⟩ := idx_facts t
  funext j
  unfold iblk0
  rw [View.read_apply]
  show V c main_arg3 _ = V c main_arg3 _
  refine congrArg _ ?_
  funext a
  apply Fin.ext
  match a with
  | ⟨0, _⟩ => show win0_3.index t (0 : Fin 2) * 64 + 1 * (j 0).val = (j 0).val; omega
  | ⟨1, _⟩ => show win0_3.index t (1 : Fin 2) * 1024 + 1 * (j 1).val = (j 1).val; omega

/-! ## A stored value at a block coordinate, against the whole arrays -/

/-- If the block `x0` is rows `base …` of batch `b` of `X`, the first product at `y` is the projection at
    the array index `i` that `y` sits at. -/
theorem pay2_block (x0 : Vec Ideal S1x1024x1024 .f32) (x1 : Vec Ideal S64x1024 .f32)
    (X : S4x4096x1024.Idx → EReal) (y : S1x1024x64.Idx) (i : S4x4096x64.Idx) (hi2 : (i 2).val = (y 2).val)
    (hx : ∀ e : Fin 1024, x0 (ix3 (0 : Fin 1) (⟨(y 1).val, (y 1).isLt⟩ : Fin 1024) e)
        = X (ix3 (⟨(i 0).val, (i 0).isLt⟩ : Fin 4) (⟨(i 1).val, (i 1).isLt⟩ : Fin 4096) e)) :
    k0_pay2 (F := Ideal) x0 x1 y = projArr X x1 i := by
  obtain ⟨u, r, h, rfl⟩ : ∃ (u : Fin 1) (r : Fin 1024) (h : Fin 64), y = ix3 u r h := ⟨y 0, y 1, y 2, eq_ix3 y⟩
  obtain rfl : u = 0 := Subsingleton.elim _ _
  rw [pay2_apply]
  unfold projArr Attn.proj
  refine Finset.sum_congr rfl fun e _ => ?_
  have hh : (⟨(i 2).val, (i 2).isLt⟩ : Fin 64) = h := Fin.ext hi2
  rw [hh]
  exact congrArg (· * x1 (ix2 h e)) (hx e)

/-- The same for the second product. -/
theorem pay3_block (x0 : Vec Ideal S1x1024x1024 .f32) (x1 : Vec Ideal S64x1024 .f32)
    (X : S4x4096x1024.Idx → EReal) (y : S1x1024x64.Idx) (i : S4x4096x64.Idx) (hi2 : (i 2).val = (y 2).val)
    (hx : ∀ e : Fin 1024, x0 (ix3 (0 : Fin 1) (⟨(y 1).val, (y 1).isLt⟩ : Fin 1024) e)
        = X (ix3 (⟨(i 0).val, (i 0).isLt⟩ : Fin 4) (⟨(i 1).val, (i 1).isLt⟩ : Fin 4096) e)) :
    k0_pay3 (F := Ideal) x0 x1 y = projArr X x1 i := by
  obtain ⟨u, r, h, rfl⟩ : ∃ (u : Fin 1) (r : Fin 1024) (h : Fin 64), y = ix3 u r h := ⟨y 0, y 1, y 2, eq_ix3 y⟩
  obtain rfl : u = 0 := Subsingleton.elim _ _
  rw [pay3_apply]
  unfold projArr Attn.proj
  refine Finset.sum_congr rfl fun e _ => ?_
  have hh : (⟨(i 2).val, (i 2).isLt⟩ : Fin 64) = h := Fin.ext hi2
  rw [hh]
  exact congrArg (· * x1 (ix2 h e)) (hx e)

/-- The same for the third product. -/
theorem pay4_block (x0 : Vec Ideal S1x1024x1024 .f32) (x1 : Vec Ideal S64x1024 .f32)
    (X : S4x4096x1024.Idx → EReal) (y : S1x1024x64.Idx) (i : S4x4096x64.Idx) (hi2 : (i 2).val = (y 2).val)
    (hx : ∀ e : Fin 1024, x0 (ix3 (0 : Fin 1) (⟨(y 1).val, (y 1).isLt⟩ : Fin 1024) e)
        = X (ix3 (⟨(i 0).val, (i 0).isLt⟩ : Fin 4) (⟨(i 1).val, (i 1).isLt⟩ : Fin 4096) e)) :
    k0_pay4 (F := Ideal) x0 x1 y = projArr X x1 i := by
  obtain ⟨u, r, h, rfl⟩ : ∃ (u : Fin 1) (r : Fin 1024) (h : Fin 64), y = ix3 u r h := ⟨y 0, y 1, y 2, eq_ix3 y⟩
  obtain rfl : u = 0 := Subsingleton.elim _ _
  rw [pay4_apply]
  unfold projArr Attn.proj
  refine Finset.sum_congr rfl fun e _ => ?_
  have hh : (⟨(i 2).val, (i 2).isLt⟩ : Fin 64) = h := Fin.ext hi2
  rw [hh]
  exact congrArg (· * x1 (ix2 h e)) (hx e)

/-! ## The first output array -/

/-- What point `t` writes back to the first output array is block `t` of the projection by the first weights. -/
theorem flushed4_eq (c : Dev nD) (t : Fin cfg0.N) :
    (dat0 V c).flushed 4 t
      = ((cfg0.win 4).blk t).view.read (Elt Ideal) (projArr (V c main_arg0) (V c main_v1)) := by
  show (cfg0.win 4).cut (grid0.coords t) ((dat0 V c).after 4 t) = _
  rw [after0_4]
  unfold out0_4
  rw [View.canon_unit_zero hz3]
  simp only [View.ld_unit_zero (S := S1x1024x1024) hz3, View.ld_unit_zero (S := S64x1024) hz2]
  rw [wblk1_eq]
  obtain ⟨-, -, -, -, ⟨e0, e1, e2⟩, -⟩ := idx_facts t
  funext y
  show k0_pay2 (F := Ideal) (iblk0 V c 0 t) (V c main_v1) y
    = projArr (V c main_arg0) (V c main_v1) (((cfg0.win 4).blk t).view.emb y)
  have hy0 : (y 0).val < 1 := (y 0).isLt
  refine pay2_block (iblk0 V c 0 t) (V c main_v1) (V c main_arg0) y _ ?_ fun e => ?_
  · show win0_4.index t (2 : Fin 3) * 64 + 1 * (y 2).val = (y 2).val; omega
  · refine xblk_apply V c t _ _ ?_ ?_ rfl
    · show win0_4.index t (0 : Fin 3) * 1 + 1 * (y 0).val = t.val / 4; omega
    · show win0_4.index t (1 : Fin 3) * 1024 + 1 * (y 1).val = t.val % 4 * 1024 + (y 1).val; omega

/-- An index of the array is in point `t`'s block iff each coordinate is in the block's range on its axis. -/
theorem mem_blk4 (t : Fin cfg0.N) (i : S4x4096x64.Idx) :
    i ∈ ((cfg0.win 4).blk t).view.set ↔ ∀ a : Fin 3, win0_4.index t a * S1x1024x64.size a ≤ (i a).val
      ∧ (i a).val < win0_4.index t a * S1x1024x64.size a + S1x1024x64.size a := by
  show i ∈ ((View.whole main_v2_0).slice (win0_4.rect t)).set ↔ _
  rw [View.set_slice_whole, Rect.mem_set_unit]
  exact Iff.rfl

/-- Every index of the array is in the block of the point of its batch and row tile. -/
theorem cover4 (i : S4x4096x64.Idx) :
    ∃ t : Fin cfg0.N, (cfg0.win 4).flush t = true ∧ i ∈ ((cfg0.win 4).blk t).view.set := by
  have hi0 : (i 0).val < 4 := (i 0).isLt
  have hi1 : (i 1).val < 4096 := (i 1).isLt
  have hi2 : (i 2).val < 64 := (i 2).isLt
  obtain ⟨t, ht⟩ : ∃ t : Fin cfg0.N, t.val = (i 0).val * 4 + (i 1).val / 1024 :=
    ⟨⟨(i 0).val * 4 + (i 1).val / 1024, by show _ < grid0.N; rw [N_0]; omega⟩, rfl⟩
  obtain ⟨-, -, -, -, ⟨e0, e1, e2⟩, -⟩ := idx_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 64 ≤ (i 2).val ∧ (i 2).val < win0_4.index t (2 : Fin 3) * 64 + 64; omega

/-- After region 0 the first output array is the projection of the activations by the first weights' array. -/
theorem final0_4 (c : Dev nD) :
    (dat0 V c).arrAt 4 cfg0.N = projArr (V c main_arg0) (V c main_v1) :=
  (dat0 V c).arrAt_eq_of_cover 4 (projArr (V c main_arg0) (V c main_v1)) (fun t _ => flushed4_eq V c t) cover4

/-! ## The second output array -/

/-- What point `t` writes back to the second output array is block `t` of the projection by the second weights. -/
theorem flushed5_eq (c : Dev nD) (t : Fin cfg0.N) :
    (dat0 V c).flushed 5 t
      = ((cfg0.win 5).blk t).view.read (Elt Ideal) (projArr (V c main_arg0) (V c main_arg2)) := by
  show (cfg0.win 5).cut (grid0.coords t) ((dat0 V c).after 5 t) = _
  rw [after0_5]
  unfold out0_5
  rw [View.canon_unit_zero hz3]
  simp only [View.ld_unit_zero (S := S1x1024x1024) hz3, View.ld_unit_zero (S := S64x1024) hz2]
  rw [wblk2_eq]
  obtain ⟨-, -, -, -, -, ⟨e0, e1, e2⟩, -⟩ := idx_facts t
  funext y
  show k0_pay3 (F := Ideal) (iblk0 V c 0 t) (V c main_arg2) y
    = projArr (V c main_arg0) (V c main_arg2) (((cfg0.win 5).blk t).view.emb y)
  have hy0 : (y 0).val < 1 := (y 0).isLt
  refine pay3_block (iblk0 V c 0 t) (V c main_arg2) (V c main_arg0) y _ ?_ fun e => ?_
  · show win0_5.index t (2 : Fin 3) * 64 + 1 * (y 2).val = (y 2).val; omega
  · refine xblk_apply V c t _ _ ?_ ?_ rfl
    · show win0_5.index t (0 : Fin 3) * 1 + 1 * (y 0).val = t.val / 4; omega
    · show win0_5.index t (1 : Fin 3) * 1024 + 1 * (y 1).val = t.val % 4 * 1024 + (y 1).val; omega

/-- An index of the array is in point `t`'s block iff each coordinate is in the block's range on its axis. -/
theorem mem_blk5 (t : Fin cfg0.N) (i : S4x4096x64.Idx) :
    i ∈ ((cfg0.win 5).blk t).view.set ↔ ∀ a : Fin 3, win0_5.index t a * S1x1024x64.size a ≤ (i a).val
      ∧ (i a).val < win0_5.index t a * S1x1024x64.size a + S1x1024x64.size a := by
  show i ∈ ((View.whole main_v2_1).slice (win0_5.rect t)).set ↔ _
  rw [View.set_slice_whole, Rect.mem_set_unit]
  exact Iff.rfl

/-- Every index of the array is in the block of the point of its batch and row tile. -/
theorem cover5 (i : S4x4096x64.Idx) :
    ∃ t : Fin cfg0.N, (cfg0.win 5).flush t = true ∧ i ∈ ((cfg0.win 5).blk t).view.set := by
  have hi0 : (i 0).val < 4 := (i 0).isLt
  have hi1 : (i 1).val < 4096 := (i 1).isLt
  have hi2 : (i 2).val < 64 := (i 2).isLt
  obtain ⟨t, ht⟩ : ∃ t : Fin cfg0.N, t.val = (i 0).val * 4 + (i 1).val / 1024 :=
    ⟨⟨(i 0).val * 4 + (i 1).val / 1024, by show _ < grid0.N; rw [N_0]; omega⟩, rfl⟩
  obtain ⟨-, -, -, -, -, ⟨e0, e1, e2⟩, -⟩ := idx_facts t
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 64 ≤ (i 2).val ∧ (i 2).val < win0_5.index t (2 : Fin 3) * 64 + 64; omega

/-- After region 0 the second output array is the projection of the activations by the second weights' array. -/
theorem final0_5 (c : Dev nD) :
    (dat0 V c).arrAt 5 cfg0.N = projArr (V c main_arg0) (V c main_arg2) :=
  (dat0 V c).arrAt_eq_of_cover 5 (projArr (V c main_arg0) (V c main_arg2)) (fun t _ => flushed5_eq V c t) cover5

/-! ## The third output array -/

/-- What point `t` writes back to the third output array is block `t` of the projection by the third weights. -/
theorem flushed6_eq (c : Dev nD) (t : Fin cfg0.N) :
    (dat0 V c).flushed 6 t
      = ((cfg0.win 6).blk t).view.read (Elt Ideal) (projArr (V c main_arg0) (V c main_arg3)) := by
  show (cfg0.win 6).cut (grid0.coords t) ((dat0 V c).after 6 t) = _
  rw [after0_6]
  unfold out0_6
  rw [View.canon_unit_zero hz3]
  simp only [View.ld_unit_zero (S := S1x1024x1024) hz3, View.ld_unit_zero (S := S64x1024) hz2]
  rw [wblk3_eq]
  obtain ⟨-, -, -, -, -, -, ⟨e0, e1, e2⟩⟩ := idx_facts t
  funext y
  show k0_pay4 (F := Ideal) (iblk0 V c 0 t) (V c main_arg3) y
    = projArr (V c main_arg0) (V c main_arg3) (((cfg0.win 6).blk t).view.emb y)
  have hy0 : (y 0).val < 1 := (y 0).isLt
  refine pay4_block (iblk0 V c 0 t) (V c main_arg3) (V c main_arg0) y _ ?_ fun e => ?_
  · show win0_6.index t (2 : Fin 3) * 64 + 1 * (y 2).val = (y 2).val; omega
  · refine xblk_apply V c t _ _ ?_ ?_ rfl
    · show win0_6.index t (0 : Fin 3) * 1 + 1 * (y 0).val = t.val / 4; omega
    · show win0_6.index t (1 : Fin 3) * 1024 + 1 * (y 1).val = t.val % 4 * 1024 + (y 1).val; omega

/-- An index of the array is in point `t`'s block iff each coordinate is in the block's range on its axis. -/
theorem mem_blk6 (t : Fin cfg0.N) (i : S4x4096x64.Idx) :
    i ∈ ((cfg0.win 6).blk t).view.set ↔ ∀ a : Fin 3, win0_6.index t a * S1x1024x64.size a ≤ (i a).val
      ∧ (i a).val < win0_6.index t a * S1x1024x64.size a + S1x1024x64.size a := by
  show i ∈ ((View.whole main_v2_2).slice (win0_6.rect t)).set ↔ _
  rw [View.set_slice_whole, Rect.mem_set_unit]
  exact Iff.rfl

/-- Every index of the array is in the block of the point of its batch and row tile. -/
theorem cover6 (i : S4x4096x64.Idx) :
    ∃ t : Fin cfg0.N, (cfg0.win 6).flush t = true ∧ i ∈ ((cfg0.win 6).blk t).view.set := by
  have hi0 : (i 0).val < 4 := (i 0).isLt
  have hi1 : (i 1).val < 4096 := (i 1).isLt
  have hi2 : (i 2).val < 64 := (i 2).isLt
  obtain ⟨t, ht⟩ : ∃ t : Fin cfg0.N, t.val = (i 0).val * 4 + (i 1).val / 1024 :=
    ⟨⟨(i 0).val * 4 + (i 1).val / 1024, by show _ < grid0.N; rw [N_0]; omega⟩, rfl⟩
  obtain ⟨-, -, -, -, -, -, ⟨e0, e1, e2⟩⟩ := idx_facts t
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 1024 ≤ (i 1).val ∧ (i 1).val < win0_6.index t (1 : Fin 3) * 1024 + 1024; omega
  | ⟨2, _⟩ => show win0_6.index t (2 : Fin 3) * 64 ≤ (i 2).val ∧ (i 2).val < win0_6.index t (2 : Fin 3) * 64 + 64; omega

/-- After region 0 the third output array is the projection of the activations by the third weights' array. -/
theorem final0_6 (c : Dev nD) :
    (dat0 V c).arrAt 6 cfg0.N = projArr (V c main_arg0) (V c main_arg3) :=
  (dat0 V c).arrAt_eq_of_cover 6 (projArr (V c main_arg0) (V c main_arg3)) (fun t _ => flushed6_eq V c t) cover6

/-! ## The inputs are not written -/

/-- An input window's array after the region is its contents at entry. -/
theorem kept0 (c : Dev nD) (w : Fin cfg0.W) (hw : w.val < 4) :
    (dat0 V c).arrAt w cfg0.N = V c (Pipeline.arrRef spec0 w) := by
  have hin : (cfg0.win w).isOut = false := by
    match w, hw with
    | ⟨0, _⟩, _ => rfl
    | ⟨1, _⟩, _ => rfl
    | ⟨2, _⟩, _ => rfl
    | ⟨3, _⟩, _ => rfl
    | ⟨n + 4, _⟩, h => exact absurd h (Nat.not_lt.2 (Nat.le_add_left _ _))
  exact ((dat0 V c).arrAt_in w hin _).trans (A_eq0 V c w)

end Cert.KernelIdeal.Val0

end
-- ==== Proof.LibBiasRow.lean ====
/-
  A bias vector laid along the rows, and a scalar spread over an array, read at an index: general lemmas.

  A vector `[b]` shape-cast to the row `[1, b]` keeps its entries in order, so the row at `(0, q)` is the vector at
  `q`; that row broadcast to `[a, b]` (a vector broadcast: trailing axes aligned, the unit axis repeated) reads, at
  `(p, q)`, the vector at `q` again. A rank-0 array broadcast to any shape reads its one entry everywhere.
-/
import Idealize.ShloMosaic.Lib.Pipeline.Value
import Idealize.ShloMosaic.Lib.ValueIdx

namespace BiasRead

open Idealize.ShloMosaic Idealize.ShloMosaic.ValueIdx

/-- A vector `[b]` shape-cast to the row `[1, b]` reads, at `(u, q)`, the vector at `q`. -/
theorem vector_as_row_apply {α : Type} {b : ℕ} (x : (⟨1, ![b]⟩ : Shape).Idx → α)
    (h : (⟨1, ![b]⟩ : Shape).ShapeCasts ⟨2, ![1, b]⟩) (u : Fin 1) (q : Fin b) :
    shapeCast ⟨2, ![1, b]⟩ x h (ix2 u q) = x (ix1 q) := by
  refine shapeCast_apply x h (ix2 u q) (ix1 q) ?_
  rw [Shape.rowMajor_val_one, Shape.rowMajor_val_two]
  show q.val = u.val * b + q.val
  have hu : u.val = 0 := by have := u.isLt; omega
  rw [hu, Nat.zero_mul, Nat.zero_add]

/-- A row `[1, b]` broadcast down to `[a, b]` (trailing axes aligned) reads, at `(p, q)`, the row at `(0, q)`. -/
theorem row_down_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- A bias vector `[b]` made a row and broadcast down to `[a, b]` reads, at `(p, q)`, the vector at `q`. -/
theorem bias_rows_apply {α : Type} {a b : ℕ} (x : (⟨1, ![b]⟩ : Shape).Idx → α)
    (h₁ : (⟨1, ![b]⟩ : Shape).ShapeCasts ⟨2, ![1, b]⟩) (h₂ : (⟨2, ![1, b]⟩ : Shape).Broadcasts ⟨2, ![a, b]⟩)
    (p : Fin a) (q : Fin b) :
    broadcastTo ⟨2, ![a, b]⟩ (shapeCast ⟨2, ![1, b]⟩ x h₁) h₂ (ix2 p q) = x (ix1 q) :=
  (row_down_apply _ h₂ p q).trans (vector_as_row_apply x h₁ 0 q)

/-- A rank-0 array broadcast to any shape reads its one entry at every index. -/
theorem scalar_apply {α : Type} {t : Shape} (x : (⟨0, ![]⟩ : Shape).Idx → α)
    (h : (⟨0, ![]⟩ : Shape).BroadcastsInDim t ![]) (j : t.Idx) (k : (⟨0, ![]⟩ : Shape).Idx) :
    broadcastInDim t ![] h x j = x k :=
  broadcastInDim_apply ![] h x j k fun ax => ax.elim0

end BiasRead
-- ==== Proof.KI.Host0.lean ====
import proofs.«116450_j75076028334813_2_alg».proof.Proof.Gen.KernelIdeal.Launch
import proofs.«116450_j75076028334813_2_alg».proof.Proof.LibBiasRow
import proofs.«116450_j75076028334813_2_alg».proof.Proof.Spec
import Idealize.ShloMosaic.Lib.ValueIdx

/-! # The host operations before the projection kernel, over the extended reals

Three operations: a rank-0 constant (the 32-bit pattern of 0.03125), its broadcast to `[64, 1024]`,
and the product of the second argument (the query weights) with that broadcast. So the buffer the
projection kernel reads as its first weight matrix holds, at `(h, e)`, the query weight at `(h, e)`
times the constant; no argument buffer is written. -/

noncomputable section

namespace Cert.KernelIdeal.Val0

open Cert.KernelIdeal Cert.KernelIdeal.Gen
open Idealize.ShloMosaic Idealize.ShloMosaic.TcCoe Idealize.ShloMosaic.ValueIdx Idealize.SL.Sem
open Idealize.ShloMosaic.StableHlo

/-- The product buffer after the host stretch, as a term of the second argument. -/
theorem host_v1 (W : Valuation τ sig (Elt Ideal)) :
    (StableHlo.after (hostOps0 (F := Ideal)) W (main_v1 : DevRef τ sig) : S64x1024.Idx → EReal)
      = mulf (W (main_arg1 : DevRef τ sig) : S64x1024.Idx → EReal)
          (broadcastInDim S64x1024 ![] bcast_S_S64x1024 (constant (F := Ideal) S_ .f32 0x3D000000#32)) := by
  after_results

/-- The second argument's buffer (the query weights) as an array of extended reals. -/
abbrev argQ (W : Valuation τ sig (Elt Ideal)) : S64x1024.Idx → EReal := W (main_arg1 : DevRef τ sig)

/-- At an index: the query weight times the constant. -/
theorem host_v1_apply (W : Valuation τ sig (Elt Ideal)) (h : Fin 64) (e : Fin 1024) :
    (StableHlo.after (hostOps0 (F := Ideal)) W (main_v1 : DevRef τ sig) : S64x1024.Idx → EReal) (ix2 h e)
      = argQ W (ix2 h e) * Attn.scaleE := by
  rw [host_v1 W, mulf_apply]
  refine congrArg (argQ W (ix2 h e) * ·) ?_
  exact BiasRead.scalar_apply (constant (F := Ideal) S_ .f32 0x3D000000#32) bcast_S_S64x1024 (ix2 h e) (fun a => a.elim0)

/-- The host stretch writes no argument buffer. -/
theorem host_arg0 (W : Valuation τ sig (Elt Ideal)) :
    StableHlo.after (hostOps0 (F := Ideal)) W (main_arg0 : DevRef τ sig) = W (main_arg0 : DevRef τ sig) := by
  after_results
theorem host_arg1 (W : Valuation τ sig (Elt Ideal)) :
    StableHlo.after (hostOps0 (F := Ideal)) W (main_arg1 : DevRef τ sig) = W (main_arg1 : DevRef τ sig) := by
  after_results
theorem host_arg2 (W : Valuation τ sig (Elt Ideal)) :
    StableHlo.after (hostOps0 (F := Ideal)) W (main_arg2 : DevRef τ sig) = W (main_arg2 : DevRef τ sig) := by
  after_results
theorem host_arg3 (W : Valuation τ sig (Elt Ideal)) :
    StableHlo.after (hostOps0 (F := Ideal)) W (main_arg3 : DevRef τ sig) = W (main_arg3 : DevRef τ sig) := by
  after_results

end Cert.KernelIdeal.Val0

end
-- ==== Proof.KI.Chain0.lean ====
/-
  The first half of the kernel's value chain, over the extended reals.

  The host stretch before the first kernel multiplies the query weights by the factor 1/32 and writes no argument; the
  first kernel leaves in its three output arrays the projections of the input by the scaled query weights, the key
  weights and the value weights. So the three arrays the second kernel reads are the specification's projections (the
  first with the factor folded in), every entry of them is a real number when the arguments' entries are, the masked
  inner product of a query row and a key row is the specification's masked score, and the third array is the
  projected values.
-/
import proofs.«116450_j75076028334813_2_alg».proof.Proof.KI.RunW
import proofs.«116450_j75076028334813_2_alg».proof.Proof.KI.Val0
import proofs.«116450_j75076028334813_2_alg».proof.Proof.KI.Host0
import proofs.«116450_j75076028334813_2_alg».proof.Proof.AttnMath
import proofs.«116450_j75076028334813_2_alg».proof.Proof.Spec2

set_option maxRecDepth 16384

noncomputable section

namespace Cert.KernelIdeal.H

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## The entry contents of the first kernel: the arguments as launched, the query weights scaled -/

theorem V1_arg0 (c : Dev nD) : V1 m ρ c main_arg0 = m ((c : Thread nD τ).loc main_arg0) :=
  Val0.host_arg0 (W0 m ρ c)
theorem V1_arg2 (c : Dev nD) : V1 m ρ c main_arg2 = m ((c : Thread nD τ).loc main_arg2) :=
  Val0.host_arg2 (W0 m ρ c)
theorem V1_arg3 (c : Dev nD) : V1 m ρ c main_arg3 = m ((c : Thread nD τ).loc main_arg3) :=
  Val0.host_arg3 (W0 m ρ c)
/-- The query weights as launched on core c, as an array of extended reals. -/
abbrev launchWq (c : Dev nD) : S64x1024.Idx → EReal := m ((c : Thread nD τ).loc main_arg1)
theorem V1_v1 (c : Dev nD) (h : Fin 64) (e : Fin 1024) :
    (V1 m ρ c main_v1 : S64x1024.Idx → EReal) (ix2 h e) = launchWq m c (ix2 h e) * Attn.scaleE :=
  Val0.host_v1_apply (W0 m ρ c) h e

/-! ## The three arrays the second kernel reads -/

/-- The first output array: the projection by the query weights with the factor folded in. -/
theorem V2_q (c : Dev nD) :
    (V2 m ρ c main_v2_0 : Attn.SO.Idx → EReal)
      = fun i => Attn.projScaled (m ((c : Thread nD τ).loc main_arg0)) (m ((c : Thread nD τ).loc main_arg1))
          ⟨(i 0).val, (i 0).isLt⟩ ⟨(i 1).val, (i 1).isLt⟩ ⟨(i 2).val, (i 2).isLt⟩ := by
  refine (W2_arr m ρ c 4).trans ((Val0.final0_4 (V1 m ρ) c).trans ?_)
  funext i
  rw [Val0.projArr_apply]
  unfold Attn.proj Attn.projScaled
  refine Finset.sum_congr rfl fun e _ => ?_
  rw [V1_arg0, V1_v1]

/-- The second output array: the projection by the key weights. -/
theorem V2_k (c : Dev nD) :
    (V2 m ρ c main_v2_1 : Attn.SO.Idx → EReal)
      = fun i => Attn.proj (m ((c : Thread nD τ).loc main_arg0)) (m ((c : Thread nD τ).loc main_arg2))
          ⟨(i 0).val, (i 0).isLt⟩ ⟨(i 1).val, (i 1).isLt⟩ ⟨(i 2).val, (i 2).isLt⟩ := by
  refine (W2_arr m ρ c 5).trans ((Val0.final0_5 (V1 m ρ) c).trans ?_)
  rw [V1_arg0, V1_arg2]
  rfl

/-- The third output array: the projection by the value weights. -/
theorem V2_w (c : Dev nD) :
    (V2 m ρ c main_v2_2 : Attn.SO.Idx → EReal)
      = fun i => Attn.proj (m ((c : Thread nD τ).loc main_arg0)) (m ((c : Thread nD τ).loc main_arg3))
          ⟨(i 0).val, (i 0).isLt⟩ ⟨(i 1).val, (i 1).isLt⟩ ⟨(i 2).val, (i 2).isLt⟩ := by
  refine (W2_arr m ρ c 6).trans ((Val0.final0_6 (V1 m ρ) c).trans ?_)
  rw [V1_arg0, V1_arg3]
  rfl

/-- The three arrays at explicit coordinates. -/
theorem V2_q_apply (c : Dev nD) (b : Fin 4) (t : Fin 4096) (h : Fin 64) :
    (V2 m ρ c main_v2_0 : Attn.SO.Idx → EReal) (ix3 b t h)
      = Attn.projScaled (m ((c : Thread nD τ).loc main_arg0)) (m ((c : Thread nD τ).loc main_arg1)) b t h :=
  congrFun (V2_q m ρ c) (ix3 b t h)
theorem V2_k_apply (c : Dev nD) (b : Fin 4) (t : Fin 4096) (h : Fin 64) :
    (V2 m ρ c main_v2_1 : Attn.SO.Idx → EReal) (ix3 b t h)
      = Attn.proj (m ((c : Thread nD τ).loc main_arg0)) (m ((c : Thread nD τ).loc main_arg2)) b t h :=
  congrFun (V2_k m ρ c) (ix3 b t h)
/-- The third array at explicit coordinates: the projected values. -/
theorem V2_val (c : Dev nD) (b : Fin 4) (t : Fin 4096) (h : Fin 64) :
    (V2 m ρ c main_v2_2 : Attn.SO.Idx → EReal) (ix3 b t h)
      = Attn.proj (m ((c : Thread nD τ).loc main_arg0)) (m ((c : Thread nD τ).loc main_arg3)) b t h :=
  congrFun (V2_w m ρ c) (ix3 b t h)

/-! ## Real entries -/

/-- Real weights times the factor 1/32 are real. -/
theorem allReal_scaled {w : Attn.SW.Idx → EReal} (hw : Attn.AllReal w) :
    Attn.AllReal (S := Attn.SW) (fun i => w i * Attn.scaleE) := fun i => by
  obtain ⟨r, hr⟩ := hw i
  refine ⟨r * (1 / 32), ?_⟩
  show w i * Attn.scaleE = _
  rw [hr, Attn.scaleE_eq, ← EReal.coe_mul]

/-- The projection with the factor folded in is the projection by the scaled weights. -/
theorem projScaled_eq_proj (x : Attn.SX.Idx → EReal) (w : Attn.SW.Idx → EReal) (b : Fin 4) (t : Fin 4096) (h : Fin 64) :
    Attn.projScaled x w b t h = Attn.proj x (fun i => w i * Attn.scaleE) b t h := rfl

theorem V2_q_real (c : Dev nD) (hx : Attn.AllReal (S := Attn.SX) (m ((c : Thread nD τ).loc main_arg0)))
    (hq : Attn.AllReal (S := Attn.SW) (m ((c : Thread nD τ).loc main_arg1))) :
    Attn.AllReal (S := Attn.SO) (V2 m ρ c main_v2_0) := fun i => by
  rw [V2_q]
  exact Attn.proj_real hx (allReal_scaled hq) _ _ _

theorem V2_k_real (c : Dev nD) (hx : Attn.AllReal (S := Attn.SX) (m ((c : Thread nD τ).loc main_arg0)))
    (hk : Attn.AllReal (S := Attn.SW) (m ((c : Thread nD τ).loc main_arg2))) :
    Attn.AllReal (S := Attn.SO) (V2 m ρ c main_v2_1) := fun i => by
  rw [V2_k]
  exact Attn.proj_real hx hk _ _ _

theorem V2_w_real (c : Dev nD) (hx : Attn.AllReal (S := Attn.SX) (m ((c : Thread nD τ).loc main_arg0)))
    (hv : Attn.AllReal (S := Attn.SW) (m ((c : Thread nD τ).loc main_arg3))) :
    Attn.AllReal (S := Attn.SO) (V2 m ρ c main_v2_2) := fun i => by
  rw [V2_w]
  exact Attn.proj_real hx hv _ _ _

/-! ## The masked score of the second kernel's arrays is the specification's -/

theorem V2_score (c : Dev nD) (hx : Attn.AllReal (S := Attn.SX) (m ((c : Thread nD τ).loc main_arg0)))
    (hq : Attn.AllReal (S := Attn.SW) (m ((c : Thread nD τ).loc main_arg1)))
    (hk : Attn.AllReal (S := Attn.SW) (m ((c : Thread nD τ).loc main_arg2))) (b : Fin 4) (q k : Fin 4096) :
    Attn.scoreQK (V2 m ρ c main_v2_0) (V2 m ρ c main_v2_1) b q k
      = Attn.score (m ((c : Thread nD τ).loc main_arg0)) (m ((c : Thread nD τ).loc main_arg1))
          (m ((c : Thread nD τ).loc main_arg2)) b q k := by
  unfold Attn.scoreQK Attn.score
  by_cases hkq : k.val ≤ q.val
  · rw [if_pos hkq, if_pos hkq]
    refine Eq.trans ?_ (Attn.scaled_dot hx hq hk b q k)
    refine Finset.sum_congr rfl fun h _ => ?_
    rw [V2_q_apply, V2_k_apply]
    rfl
  · rw [if_neg hkq, if_neg hkq]

end Cert.KernelIdeal.H

end
-- ==== Proof.KI.Value.lean ====
/-
  The idealized kernel's result array, after the whole run, is `Attn.G` of the argument arrays.

  The run ends with every unscoped buffer at the last boundary's contents; the result is region 1's output array there.
  Region 1 finds the three arrays region 0 wrote — the projections of the input by the (scaled) query weights, the key
  weights and the value weights — and leaves the attention of those three arrays; with all inputs real, the score of the
  scaled queries against the keys is the reference's score divided by sqrt 1024, so that attention is `Attn.G`.
-/
import proofs.«116450_j75076028334813_2_alg».proof.Proof.KI.Run
import proofs.«116450_j75076028334813_2_alg».proof.Proof.KI.Bridge1
import proofs.«116450_j75076028334813_2_alg».proof.Proof.KI.RowFacts1
import proofs.«116450_j75076028334813_2_alg».proof.Proof.KI.Chain0
import proofs.«116450_j75076028334813_2_alg».proof.Proof.AttnMath

set_option maxRecDepth 16384

noncomputable section

namespace Cert.KernelIdeal.H

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (ρ : Dev nD → PrngReg)

/-- After the run, the result buffer holds the causal attention of the four argument arrays. -/
theorem W3_main_v3 (c : Dev nD)
    (hx : Attn.AllReal (S := Attn.SX) (m ((c : Thread nD τ).loc main_arg0)))
    (hq : Attn.AllReal (S := Attn.SW) (m ((c : Thread nD τ).loc main_arg1)))
    (hk : Attn.AllReal (S := Attn.SW) (m ((c : Thread nD τ).loc main_arg2)))
    (hv : Attn.AllReal (S := Attn.SW) (m ((c : Thread nD τ).loc main_arg3))) :
    W3 m ρ c (Proc.devRef .tc main_v3)
      = Attn.G (m ((c : Thread nD τ).loc main_arg0)) (m ((c : Thread nD τ).loc main_arg1))
          (m ((c : Thread nD τ).loc main_arg2)) (m ((c : Thread nD τ).loc main_arg3)) := by
  have hQ : Attn.AllReal (arrQ (V2 m ρ) c) := V2_q_real m ρ c hx hq
  have hK : Attn.AllReal (arrK (V2 m ρ) c) := V2_k_real m ρ c hx hk
  have hW : Attn.AllReal (arrW (V2 m ρ) c) := V2_w_real m ρ c hx hv
  have hF : RowFacts (V2 m ρ) c := rowFacts (V2 m ρ) c hW
  refine (W3_arr m ρ c 3).trans ((final1_3 c hF hQ hK hW).trans ?_)
  funext i
  exact Attn.attnQKV_eq_attn _ _ _ _ _ _ _ (fun b t h => V2_val m ρ c b t h)
    (fun b q k => V2_score m ρ c hx hq hk b q k) _ _ _

end Cert.KernelIdeal.H

end
-- ==== Proof.RefIsG.lean ====
/-
  The reference's result is the causal softmax attention of the specification.

  The reference computes, from the input array and the three weight matrices, the three projections, the inner
  products of query rows and key rows divided by the square root of the embedding width, masks every key after the
  query to minus infinity (a lower-triangular 0/1 table selects between the quotient and minus infinity), takes each
  row's maximum from minus infinity, exponentiates the shifted scores, sums them from zero, divides, and contracts the
  weights with the projected values. Each stage is read at an index with explicit coordinates and identified with
  the corresponding function of the specification; the result at (b, q, d) is then the specification's sum.
-/
import proofs.«116450_j75076028334813_2_alg».proof.Proof.Spec
import proofs.«116450_j75076028334813_2_alg».proof.Proof.Gen.ReferenceIdeal.Read
import Idealize.ShloMosaic.Lib.Affine

noncomputable section

namespace Cert.ReferenceIdeal.RefValue

open Cert.ReferenceIdeal Cert.ReferenceIdeal.Gen Cert.ReferenceIdeal.Read Idealize.ShloMosaic Idealize.ShloMosaic.ValueIdx

/-- The input array's type. -/
abbrev AX := (⟨S4x4096x1024, .f32⟩ : BufTy).Contents (Elt Ideal)
/-- A weight matrix's type. -/
abbrev AW := (⟨S64x1024, .f32⟩ : BufTy).Contents (Elt Ideal)

/-! ## The index maps of the contractions and broadcasts, at explicit coordinates -/

theorem lidx_v0_eq (b : Fin 4) (t : Fin 4096) (h : Fin 64) (e : Fin 1024) :
    lidx_main_v0 (ix3 b t h) e = ix3 b t e := by
  funext a; match a with | ⟨0, _⟩ => rfl | ⟨1, _⟩ => rfl | ⟨2, _⟩ => rfl

theorem ridx_v0_eq (b : Fin 4) (t : Fin 4096) (h : Fin 64) (e : Fin 1024) :
    ridx_main_v0 (ix3 b t h) e = ix2 h e := by
  funext a; match a with | ⟨0, _⟩ => rfl | ⟨1, _⟩ => rfl

theorem lidx_v3_eq (b : Fin 4) (q k : Fin 4096) (h : Fin 64) :
    lidx_main_v3 (ix3 b q k) h = ix3 b q h := by
  funext a; match a with | ⟨0, _⟩ => rfl | ⟨1, _⟩ => rfl | ⟨2, _⟩ => rfl

theorem ridx_v3_eq (b : Fin 4) (q k : Fin 4096) (h : Fin 64) :
    ridx_main_v3 (ix3 b q k) h = ix3 b k h := by
  funext a; match a with | ⟨0, _⟩ => rfl | ⟨1, _⟩ => rfl | ⟨2, _⟩ => rfl

theorem idx_mask_eq (b : Fin 4) (q k : Fin 4096) :
    idx_main_call1_v1 (ix3 b q k) = ix2 q k := by
  funext a; match a with | ⟨0, _⟩ => rfl | ⟨1, _⟩ => rfl

theorem idx_v13_eq (b : Fin 4) (q : Fin 4096) (u : Fin 1) :
    idx_main_v13 (ix3 b q u) = ix2 b q := by
  funext a; match a with | ⟨0, _⟩ => rfl | ⟨1, _⟩ => rfl

theorem idx_v14_eq (b : Fin 4) (q k : Fin 4096) :
    idx_main_v14 (ix3 b q k) = ix3 b q (0 : Fin 1) := by
  funext a; match a with | ⟨0, _⟩ => rfl | ⟨1, _⟩ => rfl | ⟨2, _⟩ => rfl

theorem idx_v17_eq (b : Fin 4) (q k : Fin 4096) :
    idx_main_v17 (ix2 b q) k = ix3 b q k := by
  funext a; match a with | ⟨0, _⟩ => rfl | ⟨1, _⟩ => rfl | ⟨2, _⟩ => rfl

theorem idx_v18_eq (b : Fin 4) (q : Fin 4096) (u : Fin 1) :
    idx_main_v18 (ix3 b q u) = ix2 b q := by
  funext a; match a with | ⟨0, _⟩ => rfl | ⟨1, _⟩ => rfl

theorem idx_v19_eq (b : Fin 4) (q k : Fin 4096) :
    idx_main_v19 (ix3 b q k) = ix3 b q (0 : Fin 1) := by
  funext a; match a with | ⟨0, _⟩ => rfl | ⟨1, _⟩ => rfl | ⟨2, _⟩ => rfl

theorem lidx_v21_eq (b : Fin 4) (q : Fin 4096) (d : Fin 64) (k : Fin 4096) :
    lidx_main_v21 (ix3 b q d) k = ix3 b q k := by
  funext a; match a with | ⟨0, _⟩ => rfl | ⟨1, _⟩ => rfl | ⟨2, _⟩ => rfl

theorem ridx_v21_eq (b : Fin 4) (q : Fin 4096) (d : Fin 64) (k : Fin 4096) :
    ridx_main_v21 (ix3 b q d) k = ix3 b k d := by
  funext a; match a with | ⟨0, _⟩ => rfl | ⟨1, _⟩ => rfl | ⟨2, _⟩ => rfl

/-! ## The projections, the inner products and the divisor -/

/-- A projection at (b, t, h) is the row of the input against the row of the weight matrix. -/
theorem proj_at (x0 : AX) (w : AW) (b : Fin 4) (t : Fin 4096) (h : Fin 64) :
    val_main_v0 (F := Ideal) x0 w (ix3 b t h) = Attn.proj x0 w b t h := by
  rw [val_main_v0_apply]
  unfold Attn.proj
  refine Finset.sum_congr rfl fun e _ => ?_
  rw [lidx_v0_eq, ridx_v0_eq]

/-- The three projections are one function of the input and a weight matrix. -/
theorem v1_eq_v0 (x0 : AX) (w : AW) : val_main_v1 (F := Ideal) x0 w = val_main_v0 (F := Ideal) x0 w := rfl
theorem v2_eq_v0 (x0 : AX) (w : AW) : val_main_v2 (F := Ideal) x0 w = val_main_v0 (F := Ideal) x0 w := rfl

/-- The inner product of the projected query row q and key row k. -/
theorem dotQK_at (x0 : AX) (x1 x2 : AW) (b : Fin 4) (q k : Fin 4096) :
    val_main_v3 (F := Ideal) x0 x1 x2 (ix3 b q k) = Attn.dotQK x0 x1 x2 b q k := by
  rw [val_main_v3_apply]
  unfold Attn.dotQK
  refine Finset.sum_congr rfl fun h _ => ?_
  rw [lidx_v3_eq, ridx_v3_eq, v1_eq_v0, proj_at, proj_at]

/-- The divisor is the square root of the pattern of 1024 at every index. -/
theorem root_at (i : S4x4096x4096.Idx) : val_main_v5 (F := Ideal) i = Attn.rootE := by
  rw [val_main_v5_apply]
  rfl

/-- The scaled inner product. -/
theorem scaled_at (x0 : AX) (x1 x2 : AW) (b : Fin 4) (q k : Fin 4096) :
    val_main_v6 (F := Ideal) x0 x1 x2 (ix3 b q k) = Ideal.div (Attn.dotQK x0 x1 x2 b q k) Attn.rootE := by
  rw [val_main_v6_apply, dotQK_at, root_at]
  rfl

/-! ## The causal mask and the masked score -/

/-- A natural number below 4096 as a 32-bit word, read signed, is itself. -/
theorem toInt_ofNat_small (n : Nat) (h : n < 4096) : (BitVec.ofNat 32 n).toInt = (n : Int) := by
  rw [BitVec.toInt_ofNat']
  exact Int.bmod_eq_of_le (by omega) (by omega)

/-- The lower-triangular table at (q, k): the bit 1 when key k is not after query q, else the bit 0. -/
theorem mask_at (q k : Fin 4096) :
    val_main_v8 (F := Ideal) (ix2 q k) = if k.val ≤ q.val then 1#1 else 0#1 := by
  rw [val_main_v8_apply, val_main_call0_v4_apply, val_main_call0_v2_apply, val_main_call0_v0_apply,
    val_main_call0_v1_apply, val_main_call0_c_apply, val_main_call0_v3_apply, val_main_v7_apply, val_main_c_apply,
    val_main_call0_v5_apply, val_main_call0_c_0_apply]
  show Scalar.select (IntOp.cmpi .sge (IntOp.addi (BitVec.ofNat 32 q.val) 0#32) (BitVec.ofNat 32 k.val)) 1#1 0#1 = _
  have h0 : IntOp.addi (BitVec.ofNat 32 q.val) 0#32 = BitVec.ofNat 32 q.val := BitVec.add_zero _
  rw [h0]
  by_cases h : k.val ≤ q.val
  · rw [if_pos h, IntOp.cmpi_sge.2 (by
      rw [toInt_ofNat_small _ q.isLt, toInt_ofNat_small _ k.isLt]; exact_mod_cast h)]
    rfl
  · rw [if_neg h]
    have hc : ¬ IntOp.cmpi .sge (BitVec.ofNat 32 q.val) (BitVec.ofNat 32 k.val) = 1#1 := fun hc => h (by
      have := IntOp.cmpi_sge.1 hc
      rw [toInt_ofNat_small _ q.isLt, toInt_ofNat_small _ k.isLt] at this
      exact_mod_cast this)
    rw [eq_zero_of_ne_one hc]
    rfl

/-- The 32-bit pattern 0xFF800000 denotes minus infinity. -/
theorem ofBits_neg_inf_f32 : Ideal.ofBits .f32 0xFF800000#32 = ⊥ := by simp [Ideal.ofBits, Ideal.ieee]

/-- The masked score at (b, q, k). -/
theorem score_at (x0 : AX) (x1 x2 : AW) (b : Fin 4) (q k : Fin 4096) :
    val_main_v9 (F := Ideal) x0 x1 x2 (ix3 b q k) = Attn.score x0 x1 x2 b q k := by
  rw [val_main_v9_apply, val_main_call1_v1_apply, idx_mask_eq, mask_at, scaled_at, val_main_call1_v2_apply,
    val_main_call1_v0_apply, val_main_cst_0_apply]
  unfold Attn.score
  by_cases h : k.val ≤ q.val
  · rw [if_pos h, if_pos h, select_one]
  · rw [if_neg h, if_neg h, select_zero]
    exact ofBits_neg_inf_f32

/-! ## The row maximum -/

/-- The fold of max from minus infinity over a finite index set is the supremum. -/
theorem fold_max_bot {n : ℕ} (f : Fin n → EReal) :
    (Finset.univ : Finset (Fin n)).fold max ⊥ f = Finset.univ.sup f := rfl

/-- A reduced index (b, q) with key k put back on the last axis is (b, q, k). -/
theorem lift_row (h : S4x4096x4096.Reduces [2] S4x4096) (b : Fin 4) (q : Fin 4096)
    (k : Fin (S4x4096x4096.size 2)) : h.lift (ix2 b q) k = ix3 b q (⟨k.val, k.isLt⟩ : Fin 4096) := by
  funext c; apply Fin.ext
  fin_cases c <;> rfl

/-- A maximum reduction over the last axis, at row (b, q): the fold of max from the initial value over the row. -/
theorem rowmax_read (s : FVec Ideal S4x4096x4096 .f32) (init : FVec Ideal S_ .f32)
    (h' : S4x4096x4096.ReducesTo [2] S4x4096) (hu : 0 < S_.numel) (b : Fin 4) (q : Fin 4096) :
    Host.reduce FloatOps.maximumf s init h' hu (ix2 b q)
      = (Finset.univ : Finset (Fin 4096)).fold max (init (Shape.Idx.first hu)) (fun k => s (ix3 b q k)) := by
  have h : S4x4096x4096.Reduces [2] S4x4096 := by decide
  rw [Host.reduce_eq_fold_single FloatOps.maximumf s init h' h hu]
  have hf : (s ∘ h.lift (ix2 b q)) = fun k : Fin 4096 => s (ix3 b q k) :=
    funext fun k => congrArg s (lift_row h b q k)
  exact congrArg (fun f => Finset.fold max (init (Shape.Idx.first hu)) f (Finset.univ : Finset (Fin 4096))) hf

/-- The row maximum of the masked scores, taken from minus infinity. -/
theorem rowmax_at (x0 : AX) (x1 x2 : AW) (b : Fin 4) (q : Fin 4096) :
    val_main_v10 (F := Ideal) x0 x1 x2 (ix2 b q) = Finset.univ.sup fun k : Fin 4096 => Attn.score x0 x1 x2 b q k := by
  unfold val_main_v10
  rw [rowmax_read]
  have hi : val_main_cst_1 (F := Ideal) (Shape.Idx.first h_S_) = ⊥ := ofBits_neg_inf_f32
  rw [hi, fold_max_bot]
  exact congrArg (Finset.sup Finset.univ) (funext fun k => score_at x0 x1 x2 b q k)

/-- The shift of row (b, q): the maximum of minus infinity and the row maximum. -/
theorem shift_at (x0 : AX) (x1 x2 : AW) (b : Fin 4) (q : Fin 4096) :
    val_main_v12 (F := Ideal) x0 x1 x2 (ix2 b q)
      = max ⊥ (Finset.univ.sup fun k : Fin 4096 => Attn.score x0 x1 x2 b q k) := by
  rw [val_main_v12_apply, val_main_v11_apply, val_main_cst_2_apply, rowmax_at]
  show max (Ideal.ofBits .f32 0xFF800000#32) _ = _
  rw [ofBits_neg_inf_f32]

/-- The shift spread over the keys. -/
theorem shift_bcast_at (x0 : AX) (x1 x2 : AW) (b : Fin 4) (q k : Fin 4096) :
    val_main_v14 (F := Ideal) x0 x1 x2 (ix3 b q k)
      = max ⊥ (Finset.univ.sup fun j : Fin 4096 => Attn.score x0 x1 x2 b q j) := by
  rw [val_main_v14_apply, idx_v14_eq, val_main_v13_apply, idx_v13_eq, shift_at]

/-! ## The weights, the normaliser and the result -/

/-- The weight of key k in row (b, q): the exponential of the shifted score. -/
theorem weight_at (x0 : AX) (x1 x2 : AW) (b : Fin 4) (q k : Fin 4096) :
    val_main_v16 (F := Ideal) x0 x1 x2 (ix3 b q k)
      = Ideal.exp (Attn.score x0 x1 x2 b q k
          - max ⊥ (Finset.univ.sup fun j : Fin 4096 => Attn.score x0 x1 x2 b q j)) := by
  rw [val_main_v16_apply, val_main_v15_apply, score_at, shift_bcast_at]
  rfl

/-- The normaliser of row (b, q): the weights summed from zero. -/
theorem norm_at (x0 : AX) (x1 x2 : AW) (b : Fin 4) (q : Fin 4096) :
    val_main_v17 (F := Ideal) x0 x1 x2 (ix2 b q)
      = 0 + ∑ j : Fin 4096, Ideal.exp (Attn.score x0 x1 x2 b q j
          - max ⊥ (Finset.univ.sup fun j' : Fin 4096 => Attn.score x0 x1 x2 b q j')) := by
  rw [val_main_v17_apply]
  have h0 : val_main_cst_3 (F := Ideal) (Shape.Idx.first h_S_) = 0 := Ideal.ofBits_zero_f32
  rw [h0]
  refine congrArg (fun s : EReal => 0 + s) (Finset.sum_congr rfl fun j _ => ?_)
  rw [idx_v17_eq, weight_at]

/-- The normaliser spread over the keys. -/
theorem norm_bcast_at (x0 : AX) (x1 x2 : AW) (b : Fin 4) (q k : Fin 4096) :
    val_main_v19 (F := Ideal) x0 x1 x2 (ix3 b q k)
      = 0 + ∑ j : Fin 4096, Ideal.exp (Attn.score x0 x1 x2 b q j
          - max ⊥ (Finset.univ.sup fun j' : Fin 4096 => Attn.score x0 x1 x2 b q j')) := by
  rw [val_main_v19_apply, idx_v19_eq, val_main_v18_apply, idx_v18_eq, norm_at]

/-- The normalised weight of key k in row (b, q). -/
theorem softmax_at (x0 : AX) (x1 x2 : AW) (b : Fin 4) (q k : Fin 4096) :
    val_main_v20 (F := Ideal) x0 x1 x2 (ix3 b q k)
      = Ideal.div
          (Ideal.exp (Attn.score x0 x1 x2 b q k
            - max ⊥ (Finset.univ.sup fun j : Fin 4096 => Attn.score x0 x1 x2 b q j)))
          (0 + ∑ j : Fin 4096, Ideal.exp (Attn.score x0 x1 x2 b q j
            - max ⊥ (Finset.univ.sup fun j' : Fin 4096 => Attn.score x0 x1 x2 b q j'))) := by
  rw [val_main_v20_apply, weight_at, norm_bcast_at]
  rfl

/-- The result at (b, q, d): the normalised weights against the projected values. -/
theorem result_at (x0 : AX) (x1 x2 x3 : AW) (b : Fin 4) (q : Fin 4096) (d : Fin 64) :
    val_main_v21 (F := Ideal) x0 x1 x2 x3 (ix3 b q d) = Attn.attn x0 x1 x2 x3 b q d := by
  rw [val_main_v21_apply]
  unfold Attn.attn
  refine Finset.sum_congr rfl fun k _ => ?_
  rw [lidx_v21_eq, ridx_v21_eq, softmax_at, v2_eq_v0, proj_at]

/-- The reference's result array is the specification's. -/
theorem ref_is_G (x0 : (⟨Cert.ReferenceIdeal.S4x4096x1024, .f32⟩ : BufTy).Contents (Elt Ideal))
    (x1 x2 x3 : (⟨Cert.ReferenceIdeal.S64x1024, .f32⟩ : BufTy).Contents (Elt Ideal)) :
    Cert.ReferenceIdeal.Read.val_main_v21 (F := Ideal) x0 x1 x2 x3 = Attn.G x0 x1 x2 x3 := by
  funext i
  obtain ⟨b, q, d, rfl⟩ : ∃ (b : Fin 4) (q : Fin 4096) (d : Fin 64), i = ix3 b q d :=
    ⟨i 0, i 1, i 2, eq_ix3 i⟩
  rw [result_at]
  rfl

end Cert.ReferenceIdeal.RefValue

end
-- ==== Proof.Finite.lean ====
/-
  From the precondition to "every entry is a real".

  The precondition is the conjunction, over the four argument arrays, of "every entry's absolute value is below plus
  infinity" (an all-reduce by 'and' of the entrywise comparison |x| < +inf). Over the extended reals |x| = max x (-x)
  is below plus infinity exactly when x is neither infinity, that is, when x is a real number.
-/
import proofs.«116450_j75076028334813_2_alg».proof.Proof.Spec
import proofs.«116450_j75076028334813_2_alg».proof.Proof.Gen.Pre_finite_inputs
import Idealize.ShloMosaic.Lib.ReduceAll
import Idealize.ShloMosaic.Lib.ValueIdx
import Idealize.ShloMosaic.PureOps.Ideal

noncomputable section

namespace Cert.Proof.Fin

open Idealize.ShloMosaic Idealize.ShloMosaic.ValueIdx Cert.Pre_finite_inputs

/-- The rank-0 index set has one element. -/
instance subsingleton_S_ : Subsingleton S_.Idx := ⟨fun a b => funext fun d => d.elim0⟩

/-- The 32-bit pattern 0x7F800000 denotes plus infinity. -/
theorem ofBits_inf_f32 : Ideal.ofBits .f32 0x7F800000#32 = ⊤ := by simp [Ideal.ofBits, Ideal.ieee]

/-- An extended real whose absolute value max x (-x) compares below plus infinity is a real number. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have h' : max x (-x) < ⊤ := by
    have h1 : Ideal.cmp .olt (max x (-x)) (Ideal.ofBits .f32 0x7F800000#32) = 1#1 := h
    rw [ofBits_inf_f32] at h1
    have h2 : BitVec.ofBool (decide (max x (-x) < ⊤)) = 1#1 := h1
    by_contra hn
    rw [decide_eq_false hn] at h2
    exact absurd h2 (by decide)
  induction x using EReal.rec with
  | bot => simp at h'
  | coe r => exact ⟨r, rfl⟩
  | top => simp at h'

/-- An array all of whose entries pass the comparison |x| < +inf has only real entries. -/
theorem allReal_of_cmp {S : Shape} (a : FVec Ideal S .f32) (c : FVec Ideal S .f32)
    (hc : ∀ i, c i = FloatOps.ofBits (F := Ideal) .f32 0x7F800000#32)
    (h : ∀ i, cmpf .olt (Host.absf a) c i = 1#1) : Attn.AllReal (S := S) a := by
  intro i
  have hi := h i
  rw [cmpf_apply, hc i] at hi
  exact real_of_abs_lt_inf (a i) hi

theorem allReal_of_pre [hP : Cert.Pre_finite_inputs.Facts]
    (a0 : (⟨S4x4096x1024, .f32⟩ : BufTy).Contents (Elt Ideal))
    (a1 a2 a3 : (⟨S64x1024, .f32⟩ : BufTy).Contents (Elt Ideal))
    (h : Cert.Pre_finite_inputs.fn (F := Ideal) a0 a1 a2 a3 = (fun _ => 1#1)) :
    Attn.AllReal a0 ∧ Attn.AllReal a1 ∧ Attn.AllReal a2 ∧ Attn.AllReal a3 := by
  have h0 := congrFun h ValueIdx.ix0
  dsimp only [Cert.Pre_finite_inputs.fn, Cert.Pre_finite_inputs.fn_part1] at h0
  have bc1 : ∀ i, broadcastInDim S4x4096x1024 ![] hP.bcast_S_S4x4096x1024 (constant (F := Ideal) S_ .f32 0x7F800000#32) i
      = FloatOps.ofBits (F := Ideal) .f32 0x7F800000#32 := fun _ => rfl
  have bc2 : ∀ i, broadcastInDim S64x1024 ![] hP.bcast_S_S64x1024 (constant (F := Ideal) S_ .f32 0x7F800000#32) i
      = FloatOps.ofBits (F := Ideal) .f32 0x7F800000#32 := fun _ => rfl
  obtain ⟨h012, h3⟩ := IntOp.andi_eq_one.1 h0
  obtain ⟨h01, h2⟩ := IntOp.andi_eq_one.1 h012
  obtain ⟨h0', h1⟩ := IntOp.andi_eq_one.1 h01
  exact ⟨allReal_of_cmp a0 _ bc1 (Host.reduce_andi_all _ _ _ _ _ h0'),
    allReal_of_cmp a1 _ bc2 (Host.reduce_andi_all _ _ _ _ _ h1),
    allReal_of_cmp a2 _ bc2 (Host.reduce_andi_all _ _ _ _ _ h2),
    allReal_of_cmp a3 _ bc2 (Host.reduce_andi_all _ _ _ _ _ h3)⟩

end Cert.Proof.Fin

end
-- ==== Proof.lean ====
/-
  A two-kernel causal attention (a projection kernel writing queries, keys and values; a tiled attention kernel with an
  online softmax over key tiles) against the one-pass reference  softmax (mask (q kᵀ / sqrt 1024)) v.

  At the ideal instance both programs compute, at every (batch, position, lane), the softmax-weighted mean of the
  projected value rows over the keys up to the query position (`Attn.G`, Proof/Spec.lean):
  * the reference reads as that function operation by operation (Proof/RefIsG.lean);
  * the first kernel's three arrays are the projections, the query one with the factor 1/32 folded into its weights
    (Proof/KI/Val0.lean), and dividing the unscaled inner product by sqrt 1024 = 32 is multiplying by 1/32 on reals
    (Proof/AttnMath.lean, `scaled_dot`) — this is where the inputs' finiteness is used;
  * the second kernel keeps, per query row, a running maximum, a running sum and an accumulator over the key tiles on or
    below the diagonal; its finite fill value for masked scores reads as minus infinity at the ideal instance, so a masked
    key has weight zero; the quotient it writes at the last key tile is the one-pass softmax mean (Proof/KI/Bridge1.lean over
    Proof/RowRec.lean and the online-softmax lemmas).
  The three frames: both kernel programs run through the two regions with the proof data of Proof/KI (resp. Proof/K) —
  the same text at the two float instances —, and the reference's frame is its run with the result dropped.
-/
import proofs.«116450_j75076028334813_2_alg».proof.Defs
import proofs.«116450_j75076028334813_2_alg».proof.Proof.Gen.Kernel
import proofs.«116450_j75076028334813_2_alg».proof.Proof.Gen.KernelIdeal
import proofs.«116450_j75076028334813_2_alg».proof.Proof.Gen.ReferenceIdeal
import proofs.«116450_j75076028334813_2_alg».proof.Proof.Gen.Pre_finite_inputs
import proofs.«116450_j75076028334813_2_alg».proof.Proof.Gen.ReferenceIdeal.Run
import proofs.«116450_j75076028334813_2_alg».proof.Proof.Gen.ReferenceIdeal.Read
import proofs.«116450_j75076028334813_2_alg».proof.Proof.K.Run
import proofs.«116450_j75076028334813_2_alg».proof.Proof.KI.Run
import proofs.«116450_j75076028334813_2_alg».proof.Proof.KI.Value
import proofs.«116450_j75076028334813_2_alg».proof.Proof.RefIsG
import proofs.«116450_j75076028334813_2_alg».proof.Proof.Finite

noncomputable section

namespace Cert.Proof

open Idealize.ShloMosaic Idealize.ShloMosaic.TcCoe Idealize.SL.Sem

section Claims

variable [hK : Cert.Kernel.Facts] [hKI : Cert.KernelIdeal.Facts] [hR : Cert.ReferenceIdeal.Facts] [hP : Cert.Pre_finite_inputs.Facts]

/-- The word-level program runs through both regions and leaves its arguments as launched. -/
theorem frame_k : Cert.frame_Kernel := fun m ρ _ => Cert.Kernel.H.frame (F := Bits) m ρ

/-- So does the idealized one. -/
theorem frame_ki : Cert.frame_KernelIdeal := fun m ρ _ => Cert.KernelIdeal.H.frame (F := Ideal) m ρ

/-- The reference's frame is its run with the result dropped. -/
theorem frame_r : Cert.frame_ReferenceIdeal := fun m ρ _ =>
  (θ_run Cert.ReferenceIdeal.defs _ _).mono (fun _ h c => (h c).2) (Cert.ReferenceIdeal.Value.run (F := Ideal) m ρ)

/-- The one rewrite of the idealization: the finite fill value of the masked scores is named, and the name denotes
    minus infinity. -/
theorem preserves : Cert.preserves_Kernel_KernelIdeal :=
  IdealRules.named_const.statement Cert.KernelIdeal.κ "neg_big" .f32 0xFF333332#32 ⊥ rfl

/-- Both idealized programs end with the result array at `Attn.G` of the argument arrays. -/
theorem algebraic : Cert.algebraic_KernelIdeal_ReferenceIdeal := by
  intro m ρ m' ρ' hpre hagree
  refine ⟨fun c => Attn.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ?_) (Cert.KernelIdeal.H.run_all (F := Ideal) m ρ)
    obtain ⟨h0, h1, h2, h3⟩ := Cert.Proof.Fin.allReal_of_pre _ _ _ _ (hpre c)
    refine ⟨(h c _ (Cert.KernelIdeal.H.mem_uc Cert.KernelIdeal.main_v3 (by decide))).trans
        (Cert.KernelIdeal.H.W3_main_v3 m ρ c h0 h1 h2 h3), ?_, ?_, ?_, ?_⟩
    · exact (h c _ (Cert.KernelIdeal.H.mem_uc Cert.KernelIdeal.main_arg0 (by decide))).trans (Cert.KernelIdeal.H.W3_main_arg0 m ρ c)
    · exact (h c _ (Cert.KernelIdeal.H.mem_uc Cert.KernelIdeal.main_arg1 (by decide))).trans (Cert.KernelIdeal.H.W3_main_arg1 m ρ c)
    · exact (h c _ (Cert.KernelIdeal.H.mem_uc Cert.KernelIdeal.main_arg2 (by decide))).trans (Cert.KernelIdeal.H.W3_main_arg2 m ρ c)
    · exact (h c _ (Cert.KernelIdeal.H.mem_uc Cert.KernelIdeal.main_arg3 (by decide))).trans (Cert.KernelIdeal.H.W3_main_arg3 m ρ c)
  · refine (θ_run Cert.ReferenceIdeal.defs _ _).mono (fun r h c => ⟨?_, (h c).2⟩)
      (Cert.ReferenceIdeal.Value.run (F := Ideal) m' ρ')
    rw [(h c).1, Cert.ReferenceIdeal.Read.val_main_v21_eq, Cert.ReferenceIdeal.RefValue.ref_is_G,
      (hagree c).1, (hagree c).2.1, (hagree c).2.2.1, (hagree c).2.2.2]

end Claims

theorem claim : Cert.Claim :=
  ⟨Cert.Kernel.Gen.facts, Cert.KernelIdeal.Gen.facts, Cert.ReferenceIdeal.Gen.facts, Cert.Pre_finite_inputs.Gen.facts,
    frame_k, frame_ki, frame_r, preserves, algebraic⟩

end Cert.Proof

end
